-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S8192 : Shape := ⟨1, ![8192]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel

variable [Facts]

def fn {F : FTy → Type} [FloatOps F] (main_arg0 : FVec F S8192x256 .f32) (main_arg1 : IVec S8192 32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  main_v3
-- ==== Kernel.lean ====
abbrev S8192x256 : Shape := ⟨2, ![8192, 256]⟩
abbrev S8192 : Shape := ⟨1, ![8192]⟩
abbrev S8192x1 : Shape := ⟨2, ![8192, 1]⟩
abbrev S1x8192 : Shape := ⟨2, ![1, 8192]⟩
abbrev S512x256 : Shape := ⟨2, ![512, 256]⟩
abbrev S512x1 : Shape := ⟨2, ![512, 1]⟩
abbrev S1x512 : Shape := ⟨2, ![1, 512]⟩
abbrev S512x512 : Shape := ⟨2, ![512, 512]⟩
abbrev S512 : Shape := ⟨1, ![512]⟩
abbrev S_ : Shape := ⟨0, ![]⟩

abbrev nBuf : Space → Nat
  | .hbm => 12
  | .vmem => 16
  | .smem => 0
  | _ => 0

abbrev bufTy : (tb : Table) → Fin (tcTables nBuf tb) → BufTy
  | .hbm, ⟨0, _⟩ => ⟨S8192x256, .f32⟩
  | .hbm, ⟨1, _⟩ => ⟨S8192, .i32⟩
  | .hbm, ⟨2, _⟩ => ⟨S8192x256, .bf16⟩
  | .hbm, ⟨3, _⟩ => ⟨S8192x1, .i32⟩
  | .hbm, ⟨4, _⟩ => ⟨S1x8192, .i32⟩
  | .hbm, ⟨5, _⟩ => ⟨S8192x1, .f32⟩
  | .hbm, ⟨6, _⟩ => ⟨S8192x1, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .local _ .vmem, ⟨0, _⟩ => ⟨S512x256, .bf16⟩
  | .local _ .vmem, ⟨1, _⟩ => ⟨S512x256, .bf16⟩
  | .local _ .vmem, ⟨2, _⟩ => ⟨S512x256, .bf16⟩
  | .local _ .vmem, ⟨3, _⟩ => ⟨S512x256, .bf16⟩
  | .local _ .vmem, ⟨4, _⟩ => ⟨S512x1, .i32⟩
  | .local _ .vmem, ⟨5, _⟩ => ⟨S512x1, .i32⟩
  | .local _ .vmem, ⟨6, _⟩ => ⟨S1x512, .i32⟩
  | .local _ .vmem, ⟨7, _⟩ => ⟨S1x512, .i32⟩
  | .local _ .vmem, ⟨8, _⟩ => ⟨S512x1, .f32⟩
  | .local _ .vmem, ⟨9, _⟩ => ⟨S512x1, .f32⟩
  | .local _ .vmem, ⟨10, _⟩ => ⟨S512x1, .f32⟩
  | .local _ .vmem, ⟨11, _⟩ => ⟨S512x1, .f32⟩
  | .local _ .vmem, ⟨12, _⟩ => ⟨S512x1, .f32⟩
  | .local _ .vmem, ⟨13, _⟩ => ⟨S512x1, .f32⟩
  | .local _ .vmem, ⟨14, _⟩ => ⟨S512x1, .f32⟩
  | .local _ .vmem, ⟨15, _⟩ => ⟨S512x1, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3_0 : Ref sig .tc := ⟨.hbm, 5, rfl⟩
abbrev main_v3_1 : Ref sig .tc := ⟨.hbm, 6, rfl⟩
abbrev main_cst : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![16, 16], ![false, false]⟩

def k0_cond2 (i : grid0.Coords) : BitVec 1 :=
  let arg1 : BitVec 32 := BitVec.ofNat 32 (i 1).val
  let c15_i32 : BitVec 32 := 15#32
  let v68 : BitVec 1 := Scalar.cmpi .eq arg1 c15_i32
  let v69 : BitVec 32 := Scalar.extui v68
  let c0_i32_33 : BitVec 32 := 0#32
  let v70 : BitVec 1 := Scalar.cmpi .ne v69 c0_i32_33
  v70

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  bitsLt_bf16_f32 : FTy.bits .bf16 < FTy.bits .f32
  shapeCasts_S8192_S8192x1 : S8192.ShapeCasts S8192x1
  shapeCasts_S8192_S1x8192 : S8192.ShapeCasts S1x8192
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S512x256_S512x256_0_0 : ∀ a, (![0, 0] : Fin 2 → Nat) a + S512x256.size a ≤ S512x256.size a
  h_S512x256 : 0 < S512x256.numel
  shapeCasts_S512x256_S512x256 : S512x256.ShapeCasts S512x256
  iota_S512x512_d0_w32 : S512x512.Iotas .tc 32 [0]
  iota_S512x512_d1_w32 : S512x512.Iotas .tc 32 [1]
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S512x1_S512x512 : S512x1.Broadcasts S512x512
  broadcasts_S1x512_S512x512 : S1x512.Broadcasts S512x512
  reduces_S512x512_S512 : S512x512.Reduces [1] S512
  shapeCasts_S512_S512x1 : S512.ShapeCasts S512x1
  natLt_1_32 : 1 < 32
  reducesTo_S8192x1_S_d0_1 : S8192x1.ReducesTo [0, 1] S_
  h_S_ : 0 < S_.numel
  dot_S512x256_S512x256_S512x512_1_1_0_0_n_n_wf : DotDims.WF S512x256 S512x256 S512x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x256.size a ≤ S8192x256.size a
  hwx0_0 : ∀ i : grid0.Coords, EltTy.bits .bf16 = 32 ∨ (Rect.block (s := S8192x256) S512x256.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S8192x256.size a
  hwx0_1 : ∀ i : grid0.Coords, EltTy.bits .bf16 = 32 ∨ (Rect.block (s := S8192x256) S512x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S8192x1.size a
  hwx0_2 : ∀ i : grid0.Coords, EltTy.bits .i32 = 32 ∨ (Rect.block (s := S8192x1) S512x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x8192.size a
  hwx0_3 : ∀ i : grid0.Coords, EltTy.bits .i32 = 32 ∨ (Rect.block (s := S1x8192) S1x512.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1.size a ≤ S8192x1.size a
  hwx0_4 : ∀ i : grid0.Coords, EltTy.bits .f32 = 32 ∨ (Rect.block (s := S8192x1) S512x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x1.size a ≤ S8192x1.size a
  hwx0_5 : ∀ i : grid0.Coords, EltTy.bits .f32 = 32 ∨ (Rect.block (s := S8192x1) S512x1.size (cc0_transform_5 i) (hinb0_5 i)).WholeWords (EltTy.packing .f32)

variable [Facts₀]

def dot_S512x256_S512x256_S512x512_1_1_0_0_n_n : DotDims S512x256 S512x256 S512x512 where
  lhsContracting := [1]
  rhsContracting := [1]
  lhsNonContracting := [0]
  rhsNonContracting := [0]
  lhsBatch := []
  rhsBatch := []
  wf := dot_S512x256_S512x256_S512x512_1_1_0_0_n_n_wf

abbrev win0_0 : Pipeline.Window sig grid0 :=
  Pipeline.Window.ofSpec (Memref.whole main_v0) S512x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S512x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3_0) S512x1.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v3_1) S512x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun i => !(k0_cond2 i == 1#1) | 5 => fun i => !(k0_cond2 i == 1#1) | ⟨_ + 6, h⟩ => absurd h (Nat.not_lt.2 (Nat.le_add_left _ _))

class Facts : Prop extends Facts₀ where

variable [Facts]
-- ==== ReferenceIdeal.lean ====
abbrev S8192x256 : Shape := ⟨2, ![8192, 256]⟩
abbrev S8192 : Shape := ⟨1, ![8192]⟩
abbrev S256x8192 : Shape := ⟨2, ![256, 8192]⟩
abbrev S8192x8192 : Shape := ⟨2, ![8192, 8192]⟩
abbrev S_ : Shape := ⟨0, ![]⟩
abbrev S1x8192 : Shape := ⟨2, ![1, 8192]⟩
abbrev S8192x1 : Shape := ⟨2, ![8192, 1]⟩

abbrev nBuf : Space → Nat
  | .hbm => 48
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192, .i32⟩
  | .hbm, ⟨2, _⟩ => ⟨S256x8192, .f32⟩
  | .hbm, ⟨3, _⟩ => ⟨S8192x8192, .f32⟩
  | .hbm, ⟨4, _⟩ => ⟨S_, .f32⟩
  | .hbm, ⟨5, _⟩ => ⟨S8192x8192, .f32⟩
  | .hbm, ⟨6, _⟩ => ⟨S8192x8192, .f32⟩
  | .hbm, ⟨7, _⟩ => ⟨S8192x8192, .i32⟩
  | .hbm, ⟨8, _⟩ => ⟨S8192x8192, .i32⟩
  | .hbm, ⟨9, _⟩ => ⟨S_, .i32⟩
  | .hbm, ⟨10, _⟩ => ⟨S8192x8192, .i32⟩
  | .hbm, ⟨11, _⟩ => ⟨S8192x8192, .i32⟩
  | .hbm, ⟨12, _⟩ => ⟨S8192x8192, .i1⟩
  | .hbm, ⟨13, _⟩ => ⟨S1x8192, .i32⟩
  | .hbm, ⟨14, _⟩ => ⟨S8192x1, .i32⟩
  | .hbm, ⟨15, _⟩ => ⟨S8192x8192, .i32⟩
  | .hbm, ⟨16, _⟩ => ⟨S8192x8192, .i32⟩
  | .hbm, ⟨17, _⟩ => ⟨S8192x8192, .i1⟩
  | .hbm, ⟨18, _⟩ => ⟨S8192x8192, .i1⟩
  | .hbm, ⟨19, _⟩ => ⟨S8192x8192, .i1⟩
  | .hbm, ⟨20, _⟩ => ⟨S_, .f32⟩
  | .hbm, ⟨21, _⟩ => ⟨S8192, .f32⟩
  | .hbm, ⟨22, _⟩ => ⟨S8192x1, .f32⟩
  | .hbm, ⟨23, _⟩ => ⟨S8192x8192, .f32⟩
  | .hbm, ⟨24, _⟩ => ⟨S8192x8192, .f32⟩
  | .hbm, ⟨25, _⟩ => ⟨S8192x8192, .f32⟩
  | .hbm, ⟨26, _⟩ => ⟨S_, .f32⟩
  | .hbm, ⟨27, _⟩ => ⟨S_, .f32⟩
  | .hbm, ⟨28, _⟩ => ⟨S8192x8192, .f32⟩
  | .hbm, ⟨29, _⟩ => ⟨S8192x8192, .f32⟩
  | .hbm, ⟨30, _⟩ => ⟨S_, .f32⟩
  | .hbm, ⟨31, _⟩ => ⟨S8192, .f32⟩
  | .hbm, ⟨32, _⟩ => ⟨S8192, .f32⟩
  | .hbm, ⟨33, _⟩ => ⟨S8192x1, .f32⟩
  | .hbm, ⟨34, _⟩ => ⟨S8192x8192, .f32⟩
  | .hbm, ⟨35, _⟩ => ⟨S8192x8192, .f32⟩
  | .hbm, ⟨36, _⟩ => ⟨S8192x8192, .f32⟩
  | .hbm, ⟨37, _⟩ => ⟨S8192x8192, .i32⟩
  | .hbm, ⟨38, _⟩ => ⟨S_, .i32⟩
  | .hbm, ⟨39, _⟩ => ⟨S_, .i32⟩
  | .hbm, ⟨40, _⟩ => ⟨S_, .f32⟩
  | .hbm, ⟨41, _⟩ => ⟨S_, .f32⟩
  | .hbm, ⟨42, _⟩ => ⟨S8192x8192, .f32⟩
  | .hbm, ⟨43, _⟩ => ⟨S8192x8192, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_c : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_cst_0 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_cst_1 : Ref sig .tc := ⟨.hbm, 26, rfl⟩
abbrev main_call0_v0 : Ref sig .tc := ⟨.hbm, 27, rfl⟩
abbrev main_call0_v1 : Ref sig .tc := ⟨.hbm, 28, rfl⟩
abbrev main_v21 : Ref sig .tc := ⟨.hbm, 29, rfl⟩
abbrev main_cst_2 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_c_3 : Ref sig .tc := ⟨.hbm, 38, rfl⟩
abbrev main_v29 : Ref sig .tc := ⟨.hbm, 39, rfl⟩
abbrev main_cst_4 : Ref sig .tc := ⟨.hbm, 40, rfl⟩
abbrev main_call1_v0 : Ref sig .tc := ⟨.hbm, 41, rfl⟩
abbrev main_call1_v1 : Ref sig .tc := ⟨.hbm, 42, rfl⟩
abbrev main_v30 : Ref sig .tc := ⟨.hbm, 43, rfl⟩
abbrev main_cst_5 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩

abbrev nD : Nat := 1
abbrev τ : Topo := Topo.v7x

variable {F : FTy → Type} [FloatOps F]

class Facts₀ : Prop where
  transposes_S8192x256_S256x8192_1_0 : S8192x256.Transposes [1, 0] S256x8192
  bcast_S_S8192x8192 : S_.BroadcastsInDim S8192x8192 (![] : Fin 0 → Fin S8192x8192.rank)
  bcast_S8192_S1x8192_1 : S8192.BroadcastsInDim S1x8192 (![1] : Fin 1 → Fin S1x8192.rank)
  bcast_S8192_S8192x1_0 : S8192.BroadcastsInDim S8192x1 (![0] : Fin 1 → Fin S8192x1.rank)
  bcast_S1x8192_S8192x8192_0_1 : S1x8192.BroadcastsInDim S8192x8192 (![0, 1] : Fin 2 → Fin S8192x8192.rank)
  bcast_S8192x1_S8192x8192_0_1 : S8192x1.BroadcastsInDim S8192x8192 (![0, 1] : Fin 2 → Fin S8192x8192.rank)
  reducesTo_S8192x8192_S8192_d1 : S8192x8192.ReducesTo [1] S8192
  h_S_ : 0 < S_.numel
  natLt_1_32 : 1 < 32
  reducesTo_S8192x8192_S_d0_1 : S8192x8192.ReducesTo [0, 1] S_
  dot_S8192x256_S256x8192_S8192x8192_1_0_0_1_n_n_wf : DotDims.WF S8192x256 S256x8192 S8192x8192 [1] [0] [0] [1] [] []

variable [Facts₀]

def dot_S8192x256_S256x8192_S8192x8192_1_0_0_1_n_n : DotDims S8192x256 S256x8192 S8192x8192 where
  lhsContracting := [1]
  rhsContracting := [0]
  lhsNonContracting := [0]
  rhsNonContracting := [1]
  lhsBatch := []
  rhsBatch := []
  wf := dot_S8192x256_S256x8192_S8192x8192_1_0_0_1_n_n_wf

class Facts : Prop extends Facts₀ where

variable [Facts]
-- ==== Proof.KRuns.lean ====
import proofs.«167906_j2405181686310_1_alg».proof.Proof.Gen.Kernel.Launch
import proofs.«167906_j2405181686310_1_alg».proof.Proof.Gen.Kernel.Skeleton
import proofs.«167906_j2405181686310_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The arrays as the region finds them -/

/-- Core `c`'s buffer contents when the region is entered, as a valuation: the initial memory after the three host
    operations before the region (the conversion of the embeddings to bf16, the two reshapes of the labels). -/
abbrev V0 (c : Dev nD) : Valuation τ sig (Elt F) := StableHlo.after hostOps0 (fun b => m (c, b))
/-- The same read at a TensorCore reference. -/
abbrev V (c : Dev nD) (b : Ref sig .tc) : Buf (Elt F) ((c : Thread nD τ).loc b) := V0 m c (Proc.devRef .tc b)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for any proof
    data whose array is the region-entry contents and whose body leaves the block in place: unfetched, the block
    index has not moved, so the block the buffer still holds is this point's. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not, for any proof
    data whose array is the region-entry contents and whose body leaves the block in place: unfetched, the block
    index has not moved, so the block the buffer still holds is this point's. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not, for any proof
    data whose array is the region-entry contents and whose body leaves the block in place: unfetched, the block
    index has not moved, so the block the buffer still holds is this point's. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not, for any proof
    data whose array is the region-entry contents and whose body leaves the block in place: unfetched, the block
    index has not moved, so the block the buffer still holds is this point's. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's two branch conditions -/

/-- The condition of the reset branch, from the grid coordinates: the column-tile coordinate is 0. -/
abbrev cond0_0 (i : grid0.Coords) : Prop := (Scalar.cmpi .ne (Scalar.extui (Scalar.cmpi .eq (BitVec.ofNat 32 (i 1).val) 0#32)) 0#32) = 1#1
/-- It holds at the points ≡ 0 (mod 16): decided over the grid. -/
theorem hcond0_0 : ∀ t : Fin cfg0.N, cond0_0 (grid0.coords t) ↔ t.val % 16 = 0 :=
  (by decide +kernel : ∀ t : Fin grid0.N, cond0_0 (grid0.coords t) ↔ t.val % 16 = 0)

/-- The condition of the final branch: the column-tile coordinate is the last one. -/
abbrev cond0_1 (i : grid0.Coords) : Prop := k0_cond2 i = 1#1
/-- It holds at the points ≡ 15 (mod 16): decided over the grid. -/
theorem hcond0_1 : ∀ t : Fin cfg0.N, cond0_1 (grid0.coords t) ↔ t.val % 16 = 15 :=
  (by decide +kernel : ∀ t : Fin grid0.N, cond0_1 (grid0.coords t) ↔ t.val % 16 = 15)

/-! ## Where the windows are idle -/

/-- The four input windows are never idle. -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
/-- In the first case (reset taken, final block not) nothing is stored into output window 4: the window is idle there -/
theorem idleAt0_4_A : ∀ t : Fin cfg0.N, cond0_0 (grid0.coords t) → ¬cond0_1 (grid0.coords t) → cfg0.idle 4 (grid0.coords t) = true := by decide +kernel
/-- and its block is not written back. -/
theorem noFlush0_4_A : ∀ t : Fin cfg0.N, cond0_0 (grid0.coords t) → ¬cond0_1 (grid0.coords t) → (cfg0.win 4).flush t = false := by decide +kernel
/-- In the middle case (neither taken) output window 4 is idle -/
theorem idleAt0_4_B : ∀ t : Fin cfg0.N, ¬cond0_0 (grid0.coords t) → ¬cond0_1 (grid0.coords t) → cfg0.idle 4 (grid0.coords t) = true := by decide +kernel
/-- and not written back. -/
theorem noFlush0_4_B : ∀ t : Fin cfg0.N, ¬cond0_0 (grid0.coords t) → ¬cond0_1 (grid0.coords t) → (cfg0.win 4).flush t = false := by decide +kernel
/-- In the last case (final block taken) output window 4 is stored into: live. -/
theorem liveAt0_4_C : ∀ t : Fin cfg0.N, ¬cond0_0 (grid0.coords t) → cond0_1 (grid0.coords t) → cfg0.idle 4 (grid0.coords t) = false := by decide +kernel

/-- In the first case (reset taken, final block not) nothing is stored into output window 5: the window is idle there -/
theorem idleAt0_5_A : ∀ t : Fin cfg0.N, cond0_0 (grid0.coords t) → ¬cond0_1 (grid0.coords t) → cfg0.idle 5 (grid0.coords t) = true := by decide +kernel
/-- and its block is not written back. -/
theorem noFlush0_5_A : ∀ t : Fin cfg0.N, cond0_0 (grid0.coords t) → ¬cond0_1 (grid0.coords t) → (cfg0.win 5).flush t = false := by decide +kernel
/-- In the middle case (neither taken) output window 5 is idle -/
theorem idleAt0_5_B : ∀ t : Fin cfg0.N, ¬cond0_0 (grid0.coords t) → ¬cond0_1 (grid0.coords t) → cfg0.idle 5 (grid0.coords t) = true := by decide +kernel
/-- and not written back. -/
theorem noFlush0_5_B : ∀ t : Fin cfg0.N, ¬cond0_0 (grid0.coords t) → ¬cond0_1 (grid0.coords t) → (cfg0.win 5).flush t = false := by decide +kernel
/-- In the last case (final block taken) output window 5 is stored into: live. -/
theorem liveAt0_5_C : ∀ t : Fin cfg0.N, ¬cond0_0 (grid0.coords t) → cond0_1 (grid0.coords t) → cfg0.idle 5 (grid0.coords t) = false := by decide +kernel

/-! ## The staging and scratch memrefs -/

/-- One staging buffer of each output window, through which its contents are stated (the choice does not matter). -/
abbrev VO0_4 : View sig .tc .vmem S512x1 .f32 := (Memref.whole cc0_stg4_0 : Memref sig .tc .vmem S512x1 .f32).view
abbrev VO0_5 : View sig .tc .vmem S512x1 .f32 := (Memref.whole cc0_stg5_0 : Memref sig .tc .vmem S512x1 .f32).view
/-- Each window's current staging memref at point `t`, spelled as the pipeline passes it, and its wholeness. -/
abbrev ms0_0 (t : Fin cfg0.N) : Memref sig .tc .vmem S512x256 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x256 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x1 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x512 .i32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x1 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x1 .f32 := win0_5.stage (cfg0.slots t 5)
abbrev hs0_5 (t : Fin cfg0.N) : (ms0_5 t).IsWhole := hstage0_5 ((cfg0.slots t 5).cast nbuf0_5)
/-- The four scratch operands (running maximum, running denominator, sum of positive similarities, count of
    positives): whole scoped buffers of the kernel's own, passed beside the windows. -/
abbrev scM0_0 : Memref sig .tc .vmem S512x1 .f32 := Memref.whole cc0_scratch0
abbrev scM0_1 : Memref sig .tc .vmem S512x1 .f32 := Memref.whole cc0_scratch1
abbrev scM0_2 : Memref sig .tc .vmem S512x1 .f32 := Memref.whole cc0_scratch2
abbrev scM0_3 : Memref sig .tc .vmem S512x1 .f32 := Memref.whole cc0_scratch3
/-- The same as views: what each holds is stated through them. -/
abbrev VS0_0 : View sig .tc .vmem S512x1 .f32 := scM0_0.view
abbrev VS0_1 : View sig .tc .vmem S512x1 .f32 := scM0_1.view
abbrev VS0_2 : View sig .tc .vmem S512x1 .f32 := scM0_2.view
abbrev VS0_3 : View sig .tc .vmem S512x1 .f32 := scM0_3.view

/-- The scoped buffers that are no staging buffer are the four scratch operands, each owned whole at some contents:
    what the body obligation hands the run before the first point and takes back after the last. -/
theorem scopedRest0_owns (c : Dev nD) :
    (Pipeline.scopedRest spec0 c : sProp 𝕄)
      = iprop((∃ d, owns (c : Thread nD τ) scM0_0 fullShare d) ∗ (∃ d, owns (c : Thread nD τ) scM0_1 fullShare d)
          ∗ (∃ d, owns (c : Thread nD τ) scM0_2 fullShare d) ∗ (∃ d, owns (c : Thread nD τ) scM0_3 fullShare d)) := by
  rw [scopedRest0_eq]; simp only [scM0_0, scM0_1, scM0_2, scM0_3, owns_whole]; try rfl

end Cert.Kernel.Body

end
-- ==== Proof.KRunA.lean ====
import proofs.«167906_j2405181686310_1_alg».proof.Proof.KRuns

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 1000000 in
/-- The pieces each of the four scratch buffers ends with (last store first) in the FIRST case — the reset branch
    taken, the final branch not (points ≡ 0 mod 16) —, with the proof that on whole memrefs, the inputs at their
    contents, the two outputs at contents handed back untouched, the four scratch at anything (the reset overwrites
    them before anything is read), the body runs to the continuation holding the inputs as they were and each
    scratch with its two pieces written (the reset store, then the update store). -/
noncomputable def kernelRun0_A (c : Dev nD) (i : grid0.Coords)
    (arg2 : Memref sig .tc .vmem S512x256 .bf16) (harg2 : arg2.IsWhole) (arg3 : Memref sig .tc .vmem S512x256 .bf16) (harg3 : arg3.IsWhole)
    (arg4 : Memref sig .tc .vmem S512x1 .i32) (harg4 : arg4.IsWhole) (arg5 : Memref sig .tc .vmem S1x512 .i32) (harg5 : arg5.IsWhole)
    (arg6 : Memref sig .tc .vmem S512x1 .f32) (harg6 : arg6.IsWhole) (arg7 : Memref sig .tc .vmem S512x1 .f32) (harg7 : arg7.IsWhole)
    (arg8 : Memref sig .tc .vmem S512x1 .f32) (harg8 : arg8.IsWhole) (arg9 : Memref sig .tc .vmem S512x1 .f32) (harg9 : arg9.IsWhole)
    (arg10 : Memref sig .tc .vmem S512x1 .f32) (harg10 : arg10.IsWhole) (arg11 : Memref sig .tc .vmem S512x1 .f32) (harg11 : arg11.IsWhole)
    (hc0 : cond0_0 i) (hc1 : ¬cond0_1 i)
    (x0 : Vec F S512x256 .bf16) (x1 : Vec F S512x256 .bf16) (x2 : Vec F S512x1 .i32) (x3 : Vec F S1x512 .i32) :
    Σ' (LS0 : List (View.Piece (Elt F) S512x1 .f32)) (LS1 : List (View.Piece (Elt F) S512x1 .f32)) (LS2 : List (View.Piece (Elt F) S512x1 .f32)),
     { LS3 : List (View.Piece (Elt F) S512x1 .f32) //
      ∀ (xi4 xi5 : Vec F S512x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare xi4 ∗ owns (c : Thread nD τ) arg7 fullShare xi5
            ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3
                ∗ owns (c : Thread nD τ) arg6 fullShare xi4 ∗ owns (c : Thread nD τ) arg7 fullShare xi5
                ∗ (∃ f, arg8.view.loc (c : Thread nD τ) ↦[arg8.view.set]{fullShare} arg8.view.writes (Elt F) f LS0)
                ∗ (∃ f, arg9.view.loc (c : Thread nD τ) ↦[arg9.view.set]{fullShare} arg9.view.writes (Elt F) f LS1)
                ∗ (∃ f, arg10.view.loc (c : Thread nD τ) ↦[arg10.view.set]{fullShare} arg10.view.writes (Elt F) f LS2)
                ∗ (∃ f, arg11.view.loc (c : Thread nD τ) ↦[arg11.view.set]{fullShare} arg11.view.writes (Elt F) f LS3)) -∗ K ⟨⟩))
          ⊢ wp frame (wpE (defs₀ (F := F)) Variants.none c none) E (cc0__contrastive_kernel i arg2 harg2 arg3 harg3 arg4 harg4 arg5 harg5 arg6 harg6 arg7 harg7 arg8 harg8 arg9 harg9 arg10 harg10 arg11 harg11) K } := by
  refine ⟨?_, ?_, ?_, ?_, fun xi4 xi5 E K => ?run⟩
  case run =>
    simp only [cc0__contrastive_kernel_eq_skeleton]; unfold cc0__contrastive_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%ds1, %fs1, -, HS1⟩, ⟨%ds2, %fs2, -, HS2⟩, ⟨%ds3, %fs3, -, HS3⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS0]; · iexists _; iexact HS0
    isplitl [HS1]; · iexists _; iexact HS1
    isplitl [HS2]; · iexists _; iexact HS2
    iexists _; iexact HS3

end Cert.Kernel.Body

end
-- ==== Proof.KRunB.lean ====
import proofs.«167906_j2405181686310_1_alg».proof.Proof.KRunA

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 1000000 in
/-- The pieces each of the four scratch buffers ends with in the MIDDLE case — neither branch taken (points
    ≢ 0, 15 mod 16) —, with the proof that on whole memrefs, the inputs at their contents, the two outputs at
    contents handed back untouched, the four scratch at what the point before left (`xs·`), the body runs to the
    continuation holding the inputs as they were and each scratch with its one piece written (the update store). -/
noncomputable def kernelRun0_B (c : Dev nD) (i : grid0.Coords)
    (arg2 : Memref sig .tc .vmem S512x256 .bf16) (harg2 : arg2.IsWhole) (arg3 : Memref sig .tc .vmem S512x256 .bf16) (harg3 : arg3.IsWhole)
    (arg4 : Memref sig .tc .vmem S512x1 .i32) (harg4 : arg4.IsWhole) (arg5 : Memref sig .tc .vmem S1x512 .i32) (harg5 : arg5.IsWhole)
    (arg6 : Memref sig .tc .vmem S512x1 .f32) (harg6 : arg6.IsWhole) (arg7 : Memref sig .tc .vmem S512x1 .f32) (harg7 : arg7.IsWhole)
    (arg8 : Memref sig .tc .vmem S512x1 .f32) (harg8 : arg8.IsWhole) (arg9 : Memref sig .tc .vmem S512x1 .f32) (harg9 : arg9.IsWhole)
    (arg10 : Memref sig .tc .vmem S512x1 .f32) (harg10 : arg10.IsWhole) (arg11 : Memref sig .tc .vmem S512x1 .f32) (harg11 : arg11.IsWhole)
    (hc0 : ¬cond0_0 i) (hc1 : ¬cond0_1 i)
    (x0 : Vec F S512x256 .bf16) (x1 : Vec F S512x256 .bf16) (x2 : Vec F S512x1 .i32) (x3 : Vec F S1x512 .i32)
    (xs0 xs1 xs2 xs3 : Vec F S512x1 .f32) :
    Σ' (LS0 : List (View.Piece (Elt F) S512x1 .f32)) (LS1 : List (View.Piece (Elt F) S512x1 .f32)) (LS2 : List (View.Piece (Elt F) S512x1 .f32)),
     { LS3 : List (View.Piece (Elt F) S512x1 .f32) //
      ∀ (xi4 xi5 : Vec F S512x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare xi4 ∗ owns (c : Thread nD τ) arg7 fullShare xi5
            ∗ owns (c : Thread nD τ) arg8 fullShare xs0 ∗ owns (c : Thread nD τ) arg9 fullShare xs1 ∗ owns (c : Thread nD τ) arg10 fullShare xs2 ∗ owns (c : Thread nD τ) arg11 fullShare xs3
            ∗ (iprop(owns (c : Thread nD τ) arg2 fullShare x0 ∗ owns (c : Thread nD τ) arg3 fullShare x1 ∗ owns (c : Thread nD τ) arg4 fullShare x2 ∗ owns (c : Thread nD τ) arg5 fullShare x3
                ∗ owns (c : Thread nD τ) arg6 fullShare xi4 ∗ owns (c : Thread nD τ) arg7 fullShare xi5
                ∗ (∃ f, arg8.view.loc (c : Thread nD τ) ↦[arg8.view.set]{fullShare} arg8.view.writes (Elt F) f LS0)
                ∗ (∃ f, arg9.view.loc (c : Thread nD τ) ↦[arg9.view.set]{fullShare} arg9.view.writes (Elt F) f LS1)
                ∗ (∃ f, arg10.view.loc (c : Thread nD τ) ↦[arg10.view.set]{fullShare} arg10.view.writes (Elt F) f LS2)
                ∗ (∃ f, arg11.view.loc (c : Thread nD τ) ↦[arg11.view.set]{fullShare} arg11.view.writes (Elt F) f LS3)) -∗ K ⟨⟩))
          ⊢ wp frame (wpE (defs₀ (F := F)) Variants.none c none) E (cc0__contrastive_kernel i arg2 harg2 arg3 harg3 arg4 harg4 arg5 harg5 arg6 harg6 arg7 harg7 arg8 harg8 arg9 harg9 arg10 harg10 arg11 harg11) K } := by
  refine ⟨?_, ?_, ?_, ?_, fun xi4 xi5 E K => ?run⟩
  case run =>
    simp only [cc0__contrastive_kernel_eq_skeleton]; unfold cc0__contrastive_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, ⟨%fs2, %hfs2, HS2⟩, ⟨%fs3, %hfs3, HS3⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hf5
    obtain rfl := harg8.eq_unread hfs0; obtain rfl := harg9.eq_unread hfs1; obtain rfl := harg10.eq_unread hfs2; obtain rfl := harg11.eq_unread hfs3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS0]; · iexists _; iexact HS0
    isplitl [HS1]; · iexists _; iexact HS1
    isplitl [HS2]; · iexists _; iexact HS2
    iexists _; iexact HS3

end Cert.Kernel.Body

end
-- ==== Proof.KRunC.lean ====
import proofs.«167906_j2405181686310_1_alg».proof.Proof.KRunB

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 1000000 in
/-- The pieces the two outputs and the four scratch buffers end with in the LAST case — the reset branch not taken,
    the final branch taken (points ≡ 15 mod 16) —, with the proof that on whole memrefs, the inputs at their contents,
    the two outputs at anything, the four scratch at what the point before left (`xs·`), the body runs to the
    continuation holding the inputs as they were, each scratch with its one piece written (the update store) and
    each output with its piece written (the final block's store). -/
noncomputable def kernelRun0_C (c : Dev nD) (i : grid0.Coords)
    (arg2 : Memref sig .tc .vmem S512x256 .bf16) (harg2 : arg2.IsWhole) (arg3 : Memref sig .tc .vmem S512x256 .bf16) (harg3 : arg3.IsWhole)
    (arg4 : Memref sig .tc .vmem S512x1 .i32) (harg4 : arg4.IsWhole) (arg5 : Memref sig .tc .vmem S1x512 .i32) (harg5 : arg5.IsWhole)
    (arg6 : Memref sig .tc .vmem S512x1 .f32) (harg6 : arg6.IsWhole) (arg7 : Memref sig .tc .vmem S512x1 .f32) (harg7 : arg7.IsWhole)
    (arg8 : Memref sig .tc .vmem S512x1 .f32) (harg8 : arg8.IsWhole) (arg9 : Memref sig .tc .vmem S512x1 .f32) (harg9 : arg9.IsWhole)
    (arg10 : Memref sig .tc .vmem S512x1 .f32) (harg10 : arg10.IsWhole) (arg11 : Memref sig .tc .vmem S512x1 .f32) (harg11 : arg11.IsWhole)
    (hc0 : ¬cond0_0 i) (hc1 : cond0_1 i)
    (x0 : Vec F S512x256 .bf16) (x1 : Vec F S512x256 .bf16) (x2 : Vec F S512x1 .i32) (x3 : Vec F S1x512 .i32)
    (xs0 xs1 xs2 xs3 : Vec F S512x1 .f32) :
    Σ' (L4 : List (View.Piece (Elt F) S512x1 .f32)) (L5 : List (View.Piece (Elt F) S512x1 .f32)) (LS0 : List (View.Piece (Elt F) S512x1 .f32)) (LS1 : List (View.Piece (Elt F) S512x1 .f32)) (LS2 : List (View.Piece (Elt F) S512x1 .f32)),
     { LS3 : List (View.Piece (Elt F) S512x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ (∃ d, owns (c : Thread nD τ) arg6 fullShare d) ∗ (∃ d, owns (c : Thread nD τ) arg7 fullShare d)
            ∗ owns (c : Thread nD τ) arg8 fullShare xs0 ∗ owns (c : Thread nD τ) arg9 fullShare xs1 ∗ owns (c : Thread nD τ) arg10 fullShare xs2 ∗ owns (c : Thread nD τ) arg11 fullShare xs3
            ∗ (iprop(owns (c : Thread nD τ) arg2 fullShare x0 ∗ owns (c : Thread nD τ) arg3 fullShare x1 ∗ owns (c : Thread nD τ) arg4 fullShare x2 ∗ owns (c : Thread nD τ) arg5 fullShare x3
                ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f L5)
                ∗ (∃ f, arg8.view.loc (c : Thread nD τ) ↦[arg8.view.set]{fullShare} arg8.view.writes (Elt F) f LS0)
                ∗ (∃ f, arg9.view.loc (c : Thread nD τ) ↦[arg9.view.set]{fullShare} arg9.view.writes (Elt F) f LS1)
                ∗ (∃ f, arg10.view.loc (c : Thread nD τ) ↦[arg10.view.set]{fullShare} arg10.view.writes (Elt F) f LS2)
                ∗ (∃ f, arg11.view.loc (c : Thread nD τ) ↦[arg11.view.set]{fullShare} arg11.view.writes (Elt F) f LS3)) -∗ K ⟨⟩))
          ⊢ wp frame (wpE (defs₀ (F := F)) Variants.none c none) E (cc0__contrastive_kernel i arg2 harg2 arg3 harg3 arg4 harg4 arg5 harg5 arg6 harg6 arg7 harg7 arg8 harg8 arg9 harg9 arg10 harg10 arg11 harg11) K } := by
  refine ⟨?_, ?_, ?_, ?_, ?_, ?_, fun E K => ?run⟩
  case run =>
    simp only [cc0__contrastive_kernel_eq_skeleton]; unfold cc0__contrastive_kernel_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%fs0, %hfs0, HS0⟩, ⟨%fs1, %hfs1, HS1⟩, ⟨%fs2, %hfs2, HS2⟩, ⟨%fs3, %hfs3, HS3⟩, Hk⟩
    obtain rfl := harg2.eq_unread hf0; obtain rfl := harg3.eq_unread hf1; obtain rfl := harg4.eq_unread hf2; obtain rfl := harg5.eq_unread hf3
    obtain rfl := harg8.eq_unread hfs0; obtain rfl := harg9.eq_unread hfs1; obtain rfl := harg10.eq_unread hfs2; obtain rfl := harg11.eq_unread hfs3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]; · iexists _; iexact H5
    isplitl [HS0]; · iexists _; iexact HS0
    isplitl [HS1]; · iexists _; iexact HS1
    isplitl [HS2]; · iexists _; iexact HS2
    iexists _; iexact HS3

end Cert.Kernel.Body

end
-- ==== Proof.KFrame.lean ====
import proofs.«167906_j2405181686310_1_alg».proof.Proof.KRunC

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- Case A's pieces for scratch 0 (the running maximum) cover it: each is a whole-buffer store. -/
theorem scover0_A_0 (c : Dev nD) (i : grid0.Coords)
    (arg2 : Memref sig .tc .vmem S512x256 .bf16) (harg2 : arg2.IsWhole) (arg3 : Memref sig .tc .vmem S512x256 .bf16) (harg3 : arg3.IsWhole)
    (arg4 : Memref sig .tc .vmem S512x1 .i32) (harg4 : arg4.IsWhole) (arg5 : Memref sig .tc .vmem S1x512 .i32) (harg5 : arg5.IsWhole)
    (arg6 : Memref sig .tc .vmem S512x1 .f32) (harg6 : arg6.IsWhole) (arg7 : Memref sig .tc .vmem S512x1 .f32) (harg7 : arg7.IsWhole)
    (arg8 : Memref sig .tc .vmem S512x1 .f32) (harg8 : arg8.IsWhole) (arg9 : Memref sig .tc .vmem S512x1 .f32) (harg9 : arg9.IsWhole)
    (arg10 : Memref sig .tc .vmem S512x1 .f32) (harg10 : arg10.IsWhole) (arg11 : Memref sig .tc .vmem S512x1 .f32) (harg11 : arg11.IsWhole)
    (hc0 : cond0_0 i) (hc1 : ¬cond0_1 i)
    (x0 : Vec F S512x256 .bf16) (x1 : Vec F S512x256 .bf16) (x2 : Vec F S512x1 .i32) (x3 : Vec F S1x512 .i32) (y : S512x1.Idx) :
    ∃ pc ∈ (kernelRun0_A c i arg2 harg2 arg3 harg3 arg4 harg4 arg5 harg5 arg6 harg6 arg7 harg7 arg8 harg8 arg9 harg9 arg10 harg10 arg11 harg11 hc0 hc1 x0 x1 x2 x3).1, y ∈ pc.1.set :=
  View.cover_of_tiledL (kernelRun0_A c i arg2 harg2 arg3 harg3 arg4 harg4 arg5 harg5 arg6 harg6 arg7 harg7 arg8 harg8 arg9 harg9 arg10 harg10 arg11 harg11 hc0 hc1 x0 x1 x2 x3).1 S512x1.size (by sl_kernel_rfl) y

/-- What case A leaves in scratch 0: its pieces read back over junk. -/
def sout0_A_0 (c : Dev nD) (i : grid0.Coords)
    (arg2 : Memref sig .tc .vmem S512x256 .bf16) (harg2 : arg2.IsWhole) (arg3 : Memref sig .tc .vmem S512x256 .bf16) (harg3 : arg3.IsWhole)
    (arg4 : Memref sig .tc .vmem S512x1 .i32) (harg4 : arg4.IsWhole) (arg5 : Memref sig .tc .vmem S1x512 .i32) (harg5 : arg5.IsWhole)
    (arg6 : Memref sig .tc .vmem S512x1 .f32) (harg6 : arg6.IsWhole) (arg7 : Memref sig .tc .vmem S512x1 .f32) (harg7 : arg7.IsWhole)
    (arg8 : Memref sig .tc .vmem S512x1 .f32) (harg8 : arg8.IsWhole) (arg9 : Memref sig .tc .vmem S512x1 .f32) (harg9 : arg9.IsWhole)
    (arg10 : Memref sig .tc .vmem S512x1 .f32) (harg10 : arg10.IsWhole) (arg11 : Memref sig .tc .vmem S512x1 .f32) (harg11 : arg11.IsWhole)
    (hc0 : cond0_0 i) (hc1 : ¬cond0_1 i)
    (x0 : Vec F S512x256 .bf16) (x1 : Vec F S512x256 .bf16) (x2 : Vec F S512x1 .i32) (x3 : Vec F S1x512 .i32) : Vec F S512x1 .f32 :=
  VS0_0.read (Elt F) (VS0_0.writes (Elt F) VS0_0.junk (kernelRun0_A c i arg2 harg2 arg3 harg3 arg4 harg4 arg5 harg5 arg6 harg6 arg7 harg7 arg8 harg8 arg9 harg9 arg10 harg10 arg11 harg11 hc0 hc1 x0 x1 x2 x3).1)

/-- Case A's pieces for scratch 1 (the running denominator) cover it: each is a whole-buffer store. -/
theorem scover0_A_1 (c : Dev nD) (i : grid0.Coords)
    (arg2 : Memref sig .tc .vmem S512x256 .bf16) (harg2 : arg2.IsWhole) (arg3 : Memref sig .tc .vmem S512x256 .bf16) (harg3 : arg3.IsWhole)
    (arg4 : Memref sig .tc .vmem S512x1 .i32) (harg4 : arg4.IsWhole) (arg5 : Memref sig .tc .vmem S1x512 .i32) (harg5 : arg5.IsWhole)
    (arg6 : Memref sig .tc .vmem S512x1 .f32) (harg6 : arg6.IsWhole) (arg7 : Memref sig .tc .vmem S512x1 .f32) (harg7 : arg7.IsWhole)
    (arg8 : Memref sig .tc .vmem S512x1 .f32) (harg8 : arg8.IsWhole) (arg9 : Memref sig .tc .vmem S512x1 .f32) (harg9 : arg9.IsWhole)
    (arg10 : Memref sig .tc .vmem S512x1 .f32) (harg10 : arg10.IsWhole) (arg11 : Memref sig .tc .vmem S512x1 .f32) (harg11 : arg11.IsWhole)
    (hc0 : cond0_0 i) (hc1 : ¬cond0_1 i)
    (x0 : Vec F S512x256 .bf16) (x1 : Vec F S512x256 .bf16) (x2 : Vec F S512x1 .i32) (x3 : Vec F S1x512 .i32) (y : S512x1.Idx) :
    ∃ pc ∈ (kernelRun0_A c i arg2 harg2 arg3 harg3 arg4 harg4 arg5 harg5 arg6 harg6 arg7 harg7 arg8 harg8 arg9 harg9 arg10 harg10 arg11 harg11 hc0 hc1 x0 x1 x2 x3).2.1, y ∈ pc.1.set :=
  View.cover_of_tiledL (kernelRun0_A c i arg2 harg2 arg3 harg3 arg4 harg4 arg5 harg5 arg6 harg6 arg7 harg7 arg8 harg8 arg9 harg9 arg10 harg10 arg11 harg11 hc0 hc1 x0 x1 x2 x3).2.1 S512x1.size (by sl_kernel_rfl) y

/-- What case A leaves in scratch 1: its pieces read back over junk. -/
def sout0_A_1 (c : Dev nD) (i : grid0.Coords)
    (arg2 : Memref sig .tc .vmem S512x256 .bf16) (harg2 : arg2.IsWhole) (arg3 : Memref sig .tc .vmem S512x256 .bf16) (harg3 : arg3.IsWhole)
    (arg4 : Memref sig .tc .vmem S512x1 .i32) (harg4 : arg4.IsWhole) (arg5 : Memref sig .tc .vmem S1x512 .i32) (harg5 : arg5.IsWhole)
    (arg6 : Memref sig .tc .vmem S512x1 .f32) (harg6 : arg6.IsWhole) (arg7 : Memref sig .tc .vmem S512x1 .f32) (harg7 : arg7.IsWhole)
    (arg8 : Memref sig .tc .vmem S512x1 .f32) (harg8 : arg8.IsWhole) (arg9 : Memref sig .tc .vmem S512x1 .f32) (harg9 : arg9.IsWhole)
    (arg10 : Memref sig .tc .vmem S512x1 .f32) (harg10 : arg10.IsWhole) (arg11 : Memref sig .tc .vmem S512x1 .f32) (harg11 : arg11.IsWhole)
    (hc0 : cond0_0 i) (hc1 : ¬cond0_1 i)
    (x0 : Vec F S512x256 .bf16) (x1 : Vec F S512x256 .bf16) (x2 : Vec F S512x1 .i32) (x3 : Vec F S1x512 .i32) : Vec F S512x1 .f32 :=
  VS0_1.read (Elt F) (VS0_1.writes (Elt F) VS0_1.junk (kernelRun0_A c i arg2 harg2 arg3 harg3 arg4 harg4 arg5 harg5 arg6 harg6 arg7 harg7 arg8 harg8 arg9 harg9 arg10 harg10 arg11 harg11 hc0 hc1 x0 x1 x2 x3).2.1)

/-- Case A's pieces for scratch 2 (the sum of positive similarities) cover it: each is a whole-buffer store. -/
theorem scover0_A_2 (c : Dev nD) (i : grid0.Coords)
    (arg2 : Memref sig .tc .vmem S512x256 .bf16) (harg2 : arg2.IsWhole) (arg3 : Memref sig .tc .vmem S512x256 .bf16) (harg3 : arg3.IsWhole)
    (arg4 : Memref sig .tc .vmem S512x1 .i32) (harg4 : arg4.IsWhole) (arg5 : Memref sig .tc .vmem S1x512 .i32) (harg5 : arg5.IsWhole)
    (arg6 : Memref sig .tc .vmem S512x1 .f32) (harg6 : arg6.IsWhole) (arg7 : Memref sig .tc .vmem S512x1 .f32) (harg7 : arg7.IsWhole)
    (arg8 : Memref sig .tc .vmem S512x1 .f32) (harg8 : arg8.IsWhole) (arg9 : Memref sig .tc .vmem S512x1 .f32) (harg9 : arg9.IsWhole)
    (arg10 : Memref sig .tc .vmem S512x1 .f32) (harg10 : arg10.IsWhole) (arg11 : Memref sig .tc .vmem S512x1 .f32) (harg11 : arg11.IsWhole)
    (hc0 : cond0_0 i) (hc1 : ¬cond0_1 i)
    (x0 : Vec F S512x256 .bf16) (x1 : Vec F S512x256 .bf16) (x2 : Vec F S512x1 .i32) (x3 : Vec F S1x512 .i32) (y : S512x1.Idx) :
    ∃ pc ∈ (kernelRun0_A c i arg2 harg2 arg3 harg3 arg4 harg4 arg5 harg5 arg6 harg6 arg7 harg7 arg8 harg8 arg9 harg9 arg10 harg10 arg11 harg11 hc0 hc1 x0 x1 x2 x3).2.2.1, y ∈ pc.1.set :=
  View.cover_of_tiledL (kernelRun0_A c i arg2 harg2 arg3 harg3 arg4 harg4 arg5 harg5 arg6 harg6 arg7 harg7 arg8 harg8 arg9 harg9 arg10 harg10 arg11 harg11 hc0 hc1 x0 x1 x2 x3).2.2.1 S512x1.size (by sl_kernel_rfl) y

/-- What case A leaves in scratch 2: its pieces read back over junk. -/
def sout0_A_2 (c : Dev nD) (i : grid0.Coords)
    (arg2 : Memref sig .tc .vmem S512x256 .bf16) (harg2 : arg2.IsWhole) (arg3 : Memref sig .tc .vmem S512x256 .bf16) (harg3 : arg3.IsWhole)
    (arg4 : Memref sig .tc .vmem S512x1 .i32) (harg4 : arg4.IsWhole) (arg5 : Memref sig .tc .vmem S1x512 .i32) (harg5 : arg5.IsWhole)
    (arg6 : Memref sig .tc .vmem S512x1 .f32) (harg6 : arg6.IsWhole) (arg7 : Memref sig .tc .vmem S512x1 .f32) (harg7 : arg7.IsWhole)
    (arg8 : Memref sig .tc .vmem S512x1 .f32) (harg8 : arg8.IsWhole) (arg9 : Memref sig .tc .vmem S512x1 .f32) (harg9 : arg9.IsWhole)
    (arg10 : Memref sig .tc .vmem S512x1 .f32) (harg10 : arg10.IsWhole) (arg11 : Memref sig .tc .vmem S512x1 .f32) (harg11 : arg11.IsWhole)
    (hc0 : cond0_0 i) (hc1 : ¬cond0_1 i)
    (x0 : Vec F S512x256 .bf16) (x1 : Vec F S512x256 .bf16) (x2 : Vec F S512x1 .i32) (x3 : Vec F S1x512 .i32) : Vec F S512x1 .f32 :=
  VS0_2.read (Elt F) (VS0_2.writes (Elt F) VS0_2.junk (kernelRun0_A c i arg2 harg2 arg3 harg3 arg4 harg4 arg5 harg5 arg6 harg6 arg7 harg7 arg8 harg8 arg9 harg9 arg10 harg10 arg11 harg11 hc0 hc1 x0 x1 x2 x3).2.2.1)

/-- Case A's pieces for scratch 3 (the count of positives) cover it: each is a whole-buffer store. -/
theorem scover0_A_3 (c : Dev nD) (i : grid0.Coords)
    (arg2 : Memref sig .tc .vmem S512x256 .bf16) (harg2 : arg2.IsWhole) (arg3 : Memref sig .tc .vmem S512x256 .bf16) (harg3 : arg3.IsWhole)
    (arg4 : Memref sig .tc .vmem S512x1 .i32) (harg4 : arg4.IsWhole) (arg5 : Memref sig .tc .vmem S1x512 .i32) (harg5 : arg5.IsWhole)
    (arg6 : Memref sig .tc .vmem S512x1 .f32) (harg6 : arg6.IsWhole) (arg7 : Memref sig .tc .vmem S512x1 .f32) (harg7 : arg7.IsWhole)
    (arg8 : Memref sig .tc .vmem S512x1 .f32) (harg8 : arg8.IsWhole) (arg9 : Memref sig .tc .vmem S512x1 .f32) (harg9 : arg9.IsWhole)
    (arg10 : Memref sig .tc .vmem S512x1 .f32) (harg10 : arg10.IsWhole) (arg11 : Memref sig .tc .vmem S512x1 .f32) (harg11 : arg11.IsWhole)
    (hc0 : cond0_0 i) (hc1 : ¬cond0_1 i)
    (x0 : Vec F S512x256 .bf16) (x1 : Vec F S512x256 .bf16) (x2 : Vec F S512x1 .i32) (x3 : Vec F S1x512 .i32) (y : S512x1.Idx) :
    ∃ pc ∈ (kernelRun0_A c i arg2 harg2 arg3 harg3 arg4 harg4 arg5 harg5 arg6 harg6 arg7 harg7 arg8 harg8 arg9 harg9 arg10 harg10 arg11 harg11 hc0 hc1 x0 x1 x2 x3).2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 hc0 hc1 x0 x1 x2 x3).2.2.2.1 S512x1.size (by sl_kernel_rfl) y

/-- What case A leaves in scratch 3: its pieces read back over junk. -/
def sout0_A_3 (c : Dev nD) (i : grid0.Coords)
    (arg2 : Memref sig .tc .vmem S512x256 .bf16) (harg2 : arg2.IsWhole) (arg3 : Memref sig .tc .vmem S512x256 .bf16) (harg3 : arg3.IsWhole)
    (arg4 : Memref sig .tc .vmem S512x1 .i32) (harg4 : arg4.IsWhole) (arg5 : Memref sig .tc .vmem S1x512 .i32) (harg5 : arg5.IsWhole)
    (arg6 : Memref sig .tc .vmem S512x1 .f32) (harg6 : arg6.IsWhole) (arg7 : Memref sig .tc .vmem S512x1 .f32) (harg7 : arg7.IsWhole)
    (arg8 : Memref sig .tc .vmem S512x1 .f32) (harg8 : arg8.IsWhole) (arg9 : Memref sig .tc .vmem S512x1 .f32) (harg9 : arg9.IsWhole)
    (arg10 : Memref sig .tc .vmem S512x1 .f32) (harg10 : arg10.IsWhole) (arg11 : Memref sig .tc .vmem S512x1 .f32) (harg11 : arg11.IsWhole)
    (hc0 : cond0_0 i) (hc1 : ¬cond0_1 i)
    (x0 : Vec F S512x256 .bf16) (x1 : Vec F S512x256 .bf16) (x2 : Vec F S512x1 .i32) (x3 : Vec F S1x512 .i32) : Vec F S512x1 .f32 :=
  VS0_3.read (Elt F) (VS0_3.writes (Elt F) VS0_3.junk (kernelRun0_A c i arg2 harg2 arg3 harg3 arg4 harg4 arg5 harg5 arg6 harg6 arg7 harg7 arg8 harg8 arg9 harg9 arg10 harg10 arg11 harg11 hc0 hc1 x0 x1 x2 x3).2.2.2.1)

/-- Case B's pieces for scratch 0 (the running maximum) cover it: each is a whole-buffer store. -/
theorem scover0_B_0 (c : Dev nD) (i : grid0.Coords)
    (arg2 : Memref sig .tc .vmem S512x256 .bf16) (harg2 : arg2.IsWhole) (arg3 : Memref sig .tc .vmem S512x256 .bf16) (harg3 : arg3.IsWhole)
    (arg4 : Memref sig .tc .vmem S512x1 .i32) (harg4 : arg4.IsWhole) (arg5 : Memref sig .tc .vmem S1x512 .i32) (harg5 : arg5.IsWhole)
    (arg6 : Memref sig .tc .vmem S512x1 .f32) (harg6 : arg6.IsWhole) (arg7 : Memref sig .tc .vmem S512x1 .f32) (harg7 : arg7.IsWhole)
    (arg8 : Memref sig .tc .vmem S512x1 .f32) (harg8 : arg8.IsWhole) (arg9 : Memref sig .tc .vmem S512x1 .f32) (harg9 : arg9.IsWhole)
    (arg10 : Memref sig .tc .vmem S512x1 .f32) (harg10 : arg10.IsWhole) (arg11 : Memref sig .tc .vmem S512x1 .f32) (harg11 : arg11.IsWhole)
    (hc0 : ¬cond0_0 i) (hc1 : ¬cond0_1 i)
    (x0 : Vec F S512x256 .bf16) (x1 : Vec F S512x256 .bf16) (x2 : Vec F S512x1 .i32) (x3 : Vec F S1x512 .i32) (xs0 xs1 xs2 xs3 : Vec F S512x1 .f32) (y : S512x1.Idx) :
    ∃ pc ∈ (kernelRun0_B c i arg2 harg2 arg3 harg3 arg4 harg4 arg5 harg5 arg6 harg6 arg7 harg7 arg8 harg8 arg9 harg9 arg10 harg10 arg11 harg11 hc0 hc1 x0 x1 x2 x3 xs0 xs1 xs2 xs3).1, y ∈ pc.1.set :=
  View.cover_of_tiledL (kernelRun0_B c i arg2 harg2 arg3 harg3 arg4 harg4 arg5 harg5 arg6 harg6 arg7 harg7 arg8 harg8 arg9 harg9 arg10 harg10 arg11 harg11 hc0 hc1 x0 x1 x2 x3 xs0 xs1 xs2 xs3).1 S512x1.size (by sl_kernel_rfl) y

/-- What case B leaves in scratch 0: its pieces read back over junk. -/
def sout0_B_0 (c : Dev nD) (i : grid0.Coords)
    (arg2 : Memref sig .tc .vmem S512x256 .bf16) (harg2 : arg2.IsWhole) (arg3 : Memref sig .tc .vmem S512x256 .bf16) (harg3 : arg3.IsWhole)
    (arg4 : Memref sig .tc .vmem S512x1 .i32) (harg4 : arg4.IsWhole) (arg5 : Memref sig .tc .vmem S1x512 .i32) (harg5 : arg5.IsWhole)
    (arg6 : Memref sig .tc .vmem S512x1 .f32) (harg6 : arg6.IsWhole) (arg7 : Memref sig .tc .vmem S512x1 .f32) (harg7 : arg7.IsWhole)
    (arg8 : Memref sig .tc .vmem S512x1 .f32) (harg8 : arg8.IsWhole) (arg9 : Memref sig .tc .vmem S512x1 .f32) (harg9 : arg9.IsWhole)
    (arg10 : Memref sig .tc .vmem S512x1 .f32) (harg10 : arg10.IsWhole) (arg11 : Memref sig .tc .vmem S512x1 .f32) (harg11 : arg11.IsWhole)
    (hc0 : ¬cond0_0 i) (hc1 : ¬cond0_1 i)
    (x0 : Vec F S512x256 .bf16) (x1 : Vec F S512x256 .bf16) (x2 : Vec F S512x1 .i32) (x3 : Vec F S1x512 .i32) (xs0 xs1 xs2 xs3 : Vec F S512x1 .f32) : Vec F S512x1 .f32 :=
  VS0_0.read (Elt F) (VS0_0.writes (Elt F) VS0_0.junk (kernelRun0_B c i arg2 harg2 arg3 harg3 arg4 harg4 arg5 harg5 arg6 harg6 arg7 harg7 arg8 harg8 arg9 harg9 arg10 harg10 arg11 harg11 hc0 hc1 x0 x1 x2 x3 xs0 xs1 xs2 xs3).1)

/-- Case B's pieces for scratch 1 (the running denominator) cover it: each is a whole-buffer store. -/
theorem scover0_B_1 (c : Dev nD) (i : grid0.Coords)
    (arg2 : Memref sig .tc .vmem S512x256 .bf16) (harg2 : arg2.IsWhole) (arg3 : Memref sig .tc .vmem S512x256 .bf16) (harg3 : arg3.IsWhole)
    (arg4 : Memref sig .tc .vmem S512x1 .i32) (harg4 : arg4.IsWhole) (arg5 : Memref sig .tc .vmem S1x512 .i32) (harg5 : arg5.IsWhole)
    (arg6 : Memref sig .tc .vmem S512x1 .f32) (harg6 : arg6.IsWhole) (arg7 : Memref sig .tc .vmem S512x1 .f32) (harg7 : arg7.IsWhole)
    (arg8 : Memref sig .tc .vmem S512x1 .f32) (harg8 : arg8.IsWhole) (arg9 : Memref sig .tc .vmem S512x1 .f32) (harg9 : arg9.IsWhole)
    (arg10 : Memref sig .tc .vmem S512x1 .f32) (harg10 : arg10.IsWhole) (arg11 : Memref sig .tc .vmem S512x1 .f32) (harg11 : arg11.IsWhole)
    (hc0 : ¬cond0_0 i) (hc1 : ¬cond0_1 i)
    (x0 : Vec F S512x256 .bf16) (x1 : Vec F S512x256 .bf16) (x2 : Vec F S512x1 .i32) (x3 : Vec F S1x512 .i32) (xs0 xs1 xs2 xs3 : Vec F S512x1 .f32) (y : S512x1.Idx) :
    ∃ pc ∈ (kernelRun0_B c i arg2 harg2 arg3 harg3 arg4 harg4 arg5 harg5 arg6 harg6 arg7 harg7 arg8 harg8 arg9 harg9 arg10 harg10 arg11 harg11 hc0 hc1 x0 x1 x2 x3 xs0 xs1 xs2 xs3).2.1, y ∈ pc.1.set :=
  View.cover_of_tiledL (kernelRun0_B c i arg2 harg2 arg3 harg3 arg4 harg4 arg5 harg5 arg6 harg6 arg7 harg7 arg8 harg8 arg9 harg9 arg10 harg10 arg11 harg11 hc0 hc1 x0 x1 x2 x3 xs0 xs1 xs2 xs3).2.1 S512x1.size (by sl_kernel_rfl) y

/-- What case B leaves in scratch 1: its pieces read back over junk. -/
def sout0_B_1 (c : Dev nD) (i : grid0.Coords)
    (arg2 : Memref sig .tc .vmem S512x256 .bf16) (harg2 : arg2.IsWhole) (arg3 : Memref sig .tc .vmem S512x256 .bf16) (harg3 : arg3.IsWhole)
    (arg4 : Memref sig .tc .vmem S512x1 .i32) (harg4 : arg4.IsWhole) (arg5 : Memref sig .tc .vmem S1x512 .i32) (harg5 : arg5.IsWhole)
    (arg6 : Memref sig .tc .vmem S512x1 .f32) (harg6 : arg6.IsWhole) (arg7 : Memref sig .tc .vmem S512x1 .f32) (harg7 : arg7.IsWhole)
    (arg8 : Memref sig .tc .vmem S512x1 .f32) (harg8 : arg8.IsWhole) (arg9 : Memref sig .tc .vmem S512x1 .f32) (harg9 : arg9.IsWhole)
    (arg10 : Memref sig .tc .vmem S512x1 .f32) (harg10 : arg10.IsWhole) (arg11 : Memref sig .tc .vmem S512x1 .f32) (harg11 : arg11.IsWhole)
    (hc0 : ¬cond0_0 i) (hc1 : ¬cond0_1 i)
    (x0 : Vec F S512x256 .bf16) (x1 : Vec F S512x256 .bf16) (x2 : Vec F S512x1 .i32) (x3 : Vec F S1x512 .i32) (xs0 xs1 xs2 xs3 : Vec F S512x1 .f32) : Vec F S512x1 .f32 :=
  VS0_1.read (Elt F) (VS0_1.writes (Elt F) VS0_1.junk (kernelRun0_B c i arg2 harg2 arg3 harg3 arg4 harg4 arg5 harg5 arg6 harg6 arg7 harg7 arg8 harg8 arg9 harg9 arg10 harg10 arg11 harg11 hc0 hc1 x0 x1 x2 x3 xs0 xs1 xs2 xs3).2.1)

/-- Case B's pieces for scratch 2 (the sum of positive similarities) cover it: each is a whole-buffer store. -/
theorem scover0_B_2 (c : Dev nD) (i : grid0.Coords)
    (arg2 : Memref sig .tc .vmem S512x256 .bf16) (harg2 : arg2.IsWhole) (arg3 : Memref sig .tc .vmem S512x256 .bf16) (harg3 : arg3.IsWhole)
    (arg4 : Memref sig .tc .vmem S512x1 .i32) (harg4 : arg4.IsWhole) (arg5 : Memref sig .tc .vmem S1x512 .i32) (harg5 : arg5.IsWhole)
    (arg6 : Memref sig .tc .vmem S512x1 .f32) (harg6 : arg6.IsWhole) (arg7 : Memref sig .tc .vmem S512x1 .f32) (harg7 : arg7.IsWhole)
    (arg8 : Memref sig .tc .vmem S512x1 .f32) (harg8 : arg8.IsWhole) (arg9 : Memref sig .tc .vmem S512x1 .f32) (harg9 : arg9.IsWhole)
    (arg10 : Memref sig .tc .vmem S512x1 .f32) (harg10 : arg10.IsWhole) (arg11 : Memref sig .tc .vmem S512x1 .f32) (harg11 : arg11.IsWhole)
    (hc0 : ¬cond0_0 i) (hc1 : ¬cond0_1 i)
    (x0 : Vec F S512x256 .bf16) (x1 : Vec F S512x256 .bf16) (x2 : Vec F S512x1 .i32) (x3 : Vec F S1x512 .i32) (xs0 xs1 xs2 xs3 : Vec F S512x1 .f32) (y : S512x1.Idx) :
    ∃ pc ∈ (kernelRun0_B c i arg2 harg2 arg3 harg3 arg4 harg4 arg5 harg5 arg6 harg6 arg7 harg7 arg8 harg8 arg9 harg9 arg10 harg10 arg11 harg11 hc0 hc1 x0 x1 x2 x3 xs0 xs1 xs2 xs3).2.2.1, y ∈ pc.1.set :=
  View.cover_of_tiledL (kernelRun0_B c i arg2 harg2 arg3 harg3 arg4 harg4 arg5 harg5 arg6 harg6 arg7 harg7 arg8 harg8 arg9 harg9 arg10 harg10 arg11 harg11 hc0 hc1 x0 x1 x2 x3 xs0 xs1 xs2 xs3).2.2.1 S512x1.size (by sl_kernel_rfl) y

/-- What case B leaves in scratch 2: its pieces read back over junk. -/
def sout0_B_2 (c : Dev nD) (i : grid0.Coords)
    (arg2 : Memref sig .tc .vmem S512x256 .bf16) (harg2 : arg2.IsWhole) (arg3 : Memref sig .tc .vmem S512x256 .bf16) (harg3 : arg3.IsWhole)
    (arg4 : Memref sig .tc .vmem S512x1 .i32) (harg4 : arg4.IsWhole) (arg5 : Memref sig .tc .vmem S1x512 .i32) (harg5 : arg5.IsWhole)
    (arg6 : Memref sig .tc .vmem S512x1 .f32) (harg6 : arg6.IsWhole) (arg7 : Memref sig .tc .vmem S512x1 .f32) (harg7 : arg7.IsWhole)
    (arg8 : Memref sig .tc .vmem S512x1 .f32) (harg8 : arg8.IsWhole) (arg9 : Memref sig .tc .vmem S512x1 .f32) (harg9 : arg9.IsWhole)
    (arg10 : Memref sig .tc .vmem S512x1 .f32) (harg10 : arg10.IsWhole) (arg11 : Memref sig .tc .vmem S512x1 .f32) (harg11 : arg11.IsWhole)
    (hc0 : ¬cond0_0 i) (hc1 : ¬cond0_1 i)
    (x0 : Vec F S512x256 .bf16) (x1 : Vec F S512x256 .bf16) (x2 : Vec F S512x1 .i32) (x3 : Vec F S1x512 .i32) (xs0 xs1 xs2 xs3 : Vec F S512x1 .f32) : Vec F S512x1 .f32 :=
  VS0_2.read (Elt F) (VS0_2.writes (Elt F) VS0_2.junk (kernelRun0_B c i arg2 harg2 arg3 harg3 arg4 harg4 arg5 harg5 arg6 harg6 arg7 harg7 arg8 harg8 arg9 harg9 arg10 harg10 arg11 harg11 hc0 hc1 x0 x1 x2 x3 xs0 xs1 xs2 xs3).2.2.1)

/-- Case B's pieces for scratch 3 (the count of positives) cover it: each is a whole-buffer store. -/
theorem scover0_B_3 (c : Dev nD) (i : grid0.Coords)
    (arg2 : Memref sig .tc .vmem S512x256 .bf16) (harg2 : arg2.IsWhole) (arg3 : Memref sig .tc .vmem S512x256 .bf16) (harg3 : arg3.IsWhole)
    (arg4 : Memref sig .tc .vmem S512x1 .i32) (harg4 : arg4.IsWhole) (arg5 : Memref sig .tc .vmem S1x512 .i32) (harg5 : arg5.IsWhole)
    (arg6 : Memref sig .tc .vmem S512x1 .f32) (harg6 : arg6.IsWhole) (arg7 : Memref sig .tc .vmem S512x1 .f32) (harg7 : arg7.IsWhole)
    (arg8 : Memref sig .tc .vmem S512x1 .f32) (harg8 : arg8.IsWhole) (arg9 : Memref sig .tc .vmem S512x1 .f32) (harg9 : arg9.IsWhole)
    (arg10 : Memref sig .tc .vmem S512x1 .f32) (harg10 : arg10.IsWhole) (arg11 : Memref sig .tc .vmem S512x1 .f32) (harg11 : arg11.IsWhole)
    (hc0 : ¬cond0_0 i) (hc1 : ¬cond0_1 i)
    (x0 : Vec F S512x256 .bf16) (x1 : Vec F S512x256 .bf16) (x2 : Vec F S512x1 .i32) (x3 : Vec F S1x512 .i32) (xs0 xs1 xs2 xs3 : Vec F S512x1 .f32) (y : S512x1.Idx) :
    ∃ pc ∈ (kernelRun0_B c i arg2 harg2 arg3 harg3 arg4 harg4 arg5 harg5 arg6 harg6 arg7 harg7 arg8 harg8 arg9 harg9 arg10 harg10 arg11 harg11 hc0 hc1 x0 x1 x2 x3 xs0 xs1 xs2 xs3).2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 hc0 hc1 x0 x1 x2 x3 xs0 xs1 xs2 xs3).2.2.2.1 S512x1.size (by sl_kernel_rfl) y

/-- What case B leaves in scratch 3: its pieces read back over junk. -/
def sout0_B_3 (c : Dev nD) (i : grid0.Coords)
    (arg2 : Memref sig .tc .vmem S512x256 .bf16) (harg2 : arg2.IsWhole) (arg3 : Memref sig .tc .vmem S512x256 .bf16) (harg3 : arg3.IsWhole)
    (arg4 : Memref sig .tc .vmem S512x1 .i32) (harg4 : arg4.IsWhole) (arg5 : Memref sig .tc .vmem S1x512 .i32) (harg5 : arg5.IsWhole)
    (arg6 : Memref sig .tc .vmem S512x1 .f32) (harg6 : arg6.IsWhole) (arg7 : Memref sig .tc .vmem S512x1 .f32) (harg7 : arg7.IsWhole)
    (arg8 : Memref sig .tc .vmem S512x1 .f32) (harg8 : arg8.IsWhole) (arg9 : Memref sig .tc .vmem S512x1 .f32) (harg9 : arg9.IsWhole)
    (arg10 : Memref sig .tc .vmem S512x1 .f32) (harg10 : arg10.IsWhole) (arg11 : Memref sig .tc .vmem S512x1 .f32) (harg11 : arg11.IsWhole)
    (hc0 : ¬cond0_0 i) (hc1 : ¬cond0_1 i)
    (x0 : Vec F S512x256 .bf16) (x1 : Vec F S512x256 .bf16) (x2 : Vec F S512x1 .i32) (x3 : Vec F S1x512 .i32) (xs0 xs1 xs2 xs3 : Vec F S512x1 .f32) : Vec F S512x1 .f32 :=
  VS0_3.read (Elt F) (VS0_3.writes (Elt F) VS0_3.junk (kernelRun0_B c i arg2 harg2 arg3 harg3 arg4 harg4 arg5 harg5 arg6 harg6 arg7 harg7 arg8 harg8 arg9 harg9 arg10 harg10 arg11 harg11 hc0 hc1 x0 x1 x2 x3 xs0 xs1 xs2 xs3).2.2.2.1)

/-- Case C's pieces for scratch 0 (the running maximum) cover it: each is a whole-buffer store. -/
theorem scover0_C_0 (c : Dev nD) (i : grid0.Coords)
    (arg2 : Memref sig .tc .vmem S512x256 .bf16) (harg2 : arg2.IsWhole) (arg3 : Memref sig .tc .vmem S512x256 .bf16) (harg3 : arg3.IsWhole)
    (arg4 : Memref sig .tc .vmem S512x1 .i32) (harg4 : arg4.IsWhole) (arg5 : Memref sig .tc .vmem S1x512 .i32) (harg5 : arg5.IsWhole)
    (arg6 : Memref sig .tc .vmem S512x1 .f32) (harg6 : arg6.IsWhole) (arg7 : Memref sig .tc .vmem S512x1 .f32) (harg7 : arg7.IsWhole)
    (arg8 : Memref sig .tc .vmem S512x1 .f32) (harg8 : arg8.IsWhole) (arg9 : Memref sig .tc .vmem S512x1 .f32) (harg9 : arg9.IsWhole)
    (arg10 : Memref sig .tc .vmem S512x1 .f32) (harg10 : arg10.IsWhole) (arg11 : Memref sig .tc .vmem S512x1 .f32) (harg11 : arg11.IsWhole)
    (hc0 : ¬cond0_0 i) (hc1 : cond0_1 i)
    (x0 : Vec F S512x256 .bf16) (x1 : Vec F S512x256 .bf16) (x2 : Vec F S512x1 .i32) (x3 : Vec F S1x512 .i32) (xs0 xs1 xs2 xs3 : Vec F S512x1 .f32) (y : S512x1.Idx) :
    ∃ pc ∈ (kernelRun0_C c i arg2 harg2 arg3 harg3 arg4 harg4 arg5 harg5 arg6 harg6 arg7 harg7 arg8 harg8 arg9 harg9 arg10 harg10 arg11 harg11 hc0 hc1 x0 x1 x2 x3 xs0 xs1 xs2 xs3).2.2.1, y ∈ pc.1.set :=
  View.cover_of_tiledL (kernelRun0_C c i arg2 harg2 arg3 harg3 arg4 harg4 arg5 harg5 arg6 harg6 arg7 harg7 arg8 harg8 arg9 harg9 arg10 harg10 arg11 harg11 hc0 hc1 x0 x1 x2 x3 xs0 xs1 xs2 xs3).2.2.1 S512x1.size (by sl_kernel_rfl) y

/-- What case C leaves in scratch 0: its pieces read back over junk. -/
def sout0_C_0 (c : Dev nD) (i : grid0.Coords)
    (arg2 : Memref sig .tc .vmem S512x256 .bf16) (harg2 : arg2.IsWhole) (arg3 : Memref sig .tc .vmem S512x256 .bf16) (harg3 : arg3.IsWhole)
    (arg4 : Memref sig .tc .vmem S512x1 .i32) (harg4 : arg4.IsWhole) (arg5 : Memref sig .tc .vmem S1x512 .i32) (harg5 : arg5.IsWhole)
    (arg6 : Memref sig .tc .vmem S512x1 .f32) (harg6 : arg6.IsWhole) (arg7 : Memref sig .tc .vmem S512x1 .f32) (harg7 : arg7.IsWhole)
    (arg8 : Memref sig .tc .vmem S512x1 .f32) (harg8 : arg8.IsWhole) (arg9 : Memref sig .tc .vmem S512x1 .f32) (harg9 : arg9.IsWhole)
    (arg10 : Memref sig .tc .vmem S512x1 .f32) (harg10 : arg10.IsWhole) (arg11 : Memref sig .tc .vmem S512x1 .f32) (harg11 : arg11.IsWhole)
    (hc0 : ¬cond0_0 i) (hc1 : cond0_1 i)
    (x0 : Vec F S512x256 .bf16) (x1 : Vec F S512x256 .bf16) (x2 : Vec F S512x1 .i32) (x3 : Vec F S1x512 .i32) (xs0 xs1 xs2 xs3 : Vec F S512x1 .f32) : Vec F S512x1 .f32 :=
  VS0_0.read (Elt F) (VS0_0.writes (Elt F) VS0_0.junk (kernelRun0_C c i arg2 harg2 arg3 harg3 arg4 harg4 arg5 harg5 arg6 harg6 arg7 harg7 arg8 harg8 arg9 harg9 arg10 harg10 arg11 harg11 hc0 hc1 x0 x1 x2 x3 xs0 xs1 xs2 xs3).2.2.1)

/-- Case C's pieces for scratch 1 (the running denominator) cover it: each is a whole-buffer store. -/
theorem scover0_C_1 (c : Dev nD) (i : grid0.Coords)
    (arg2 : Memref sig .tc .vmem S512x256 .bf16) (harg2 : arg2.IsWhole) (arg3 : Memref sig .tc .vmem S512x256 .bf16) (harg3 : arg3.IsWhole)
    (arg4 : Memref sig .tc .vmem S512x1 .i32) (harg4 : arg4.IsWhole) (arg5 : Memref sig .tc .vmem S1x512 .i32) (harg5 : arg5.IsWhole)
    (arg6 : Memref sig .tc .vmem S512x1 .f32) (harg6 : arg6.IsWhole) (arg7 : Memref sig .tc .vmem S512x1 .f32) (harg7 : arg7.IsWhole)
    (arg8 : Memref sig .tc .vmem S512x1 .f32) (harg8 : arg8.IsWhole) (arg9 : Memref sig .tc .vmem S512x1 .f32) (harg9 : arg9.IsWhole)
    (arg10 : Memref sig .tc .vmem S512x1 .f32) (harg10 : arg10.IsWhole) (arg11 : Memref sig .tc .vmem S512x1 .f32) (harg11 : arg11.IsWhole)
    (hc0 : ¬cond0_0 i) (hc1 : cond0_1 i)
    (x0 : Vec F S512x256 .bf16) (x1 : Vec F S512x256 .bf16) (x2 : Vec F S512x1 .i32) (x3 : Vec F S1x512 .i32) (xs0 xs1 xs2 xs3 : Vec F S512x1 .f32) (y : S512x1.Idx) :
    ∃ pc ∈ (kernelRun0_C c i arg2 harg2 arg3 harg3 arg4 harg4 arg5 harg5 arg6 harg6 arg7 harg7 arg8 harg8 arg9 harg9 arg10 harg10 arg11 harg11 hc0 hc1 x0 x1 x2 x3 xs0 xs1 xs2 xs3).2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 hc0 hc1 x0 x1 x2 x3 xs0 xs1 xs2 xs3).2.2.2.1 S512x1.size (by sl_kernel_rfl) y

/-- What case C leaves in scratch 1: its pieces read back over junk. -/
def sout0_C_1 (c : Dev nD) (i : grid0.Coords)
    (arg2 : Memref sig .tc .vmem S512x256 .bf16) (harg2 : arg2.IsWhole) (arg3 : Memref sig .tc .vmem S512x256 .bf16) (harg3 : arg3.IsWhole)
    (arg4 : Memref sig .tc .vmem S512x1 .i32) (harg4 : arg4.IsWhole) (arg5 : Memref sig .tc .vmem S1x512 .i32) (harg5 : arg5.IsWhole)
    (arg6 : Memref sig .tc .vmem S512x1 .f32) (harg6 : arg6.IsWhole) (arg7 : Memref sig .tc .vmem S512x1 .f32) (harg7 : arg7.IsWhole)
    (arg8 : Memref sig .tc .vmem S512x1 .f32) (harg8 : arg8.IsWhole) (arg9 : Memref sig .tc .vmem S512x1 .f32) (harg9 : arg9.IsWhole)
    (arg10 : Memref sig .tc .vmem S512x1 .f32) (harg10 : arg10.IsWhole) (arg11 : Memref sig .tc .vmem S512x1 .f32) (harg11 : arg11.IsWhole)
    (hc0 : ¬cond0_0 i) (hc1 : cond0_1 i)
    (x0 : Vec F S512x256 .bf16) (x1 : Vec F S512x256 .bf16) (x2 : Vec F S512x1 .i32) (x3 : Vec F S1x512 .i32) (xs0 xs1 xs2 xs3 : Vec F S512x1 .f32) : Vec F S512x1 .f32 :=
  VS0_1.read (Elt F) (VS0_1.writes (Elt F) VS0_1.junk (kernelRun0_C c i arg2 harg2 arg3 harg3 arg4 harg4 arg5 harg5 arg6 harg6 arg7 harg7 arg8 harg8 arg9 harg9 arg10 harg10 arg11 harg11 hc0 hc1 x0 x1 x2 x3 xs0 xs1 xs2 xs3).2.2.2.1)

/-- Case C's pieces for scratch 2 (the sum of positive similarities) cover it: each is a whole-buffer store. -/
theorem scover0_C_2 (c : Dev nD) (i : grid0.Coords)
    (arg2 : Memref sig .tc .vmem S512x256 .bf16) (harg2 : arg2.IsWhole) (arg3 : Memref sig .tc .vmem S512x256 .bf16) (harg3 : arg3.IsWhole)
    (arg4 : Memref sig .tc .vmem S512x1 .i32) (harg4 : arg4.IsWhole) (arg5 : Memref sig .tc .vmem S1x512 .i32) (harg5 : arg5.IsWhole)
    (arg6 : Memref sig .tc .vmem S512x1 .f32) (harg6 : arg6.IsWhole) (arg7 : Memref sig .tc .vmem S512x1 .f32) (harg7 : arg7.IsWhole)
    (arg8 : Memref sig .tc .vmem S512x1 .f32) (harg8 : arg8.IsWhole) (arg9 : Memref sig .tc .vmem S512x1 .f32) (harg9 : arg9.IsWhole)
    (arg10 : Memref sig .tc .vmem S512x1 .f32) (harg10 : arg10.IsWhole) (arg11 : Memref sig .tc .vmem S512x1 .f32) (harg11 : arg11.IsWhole)
    (hc0 : ¬cond0_0 i) (hc1 : cond0_1 i)
    (x0 : Vec F S512x256 .bf16) (x1 : Vec F S512x256 .bf16) (x2 : Vec F S512x1 .i32) (x3 : Vec F S1x512 .i32) (xs0 xs1 xs2 xs3 : Vec F S512x1 .f32) (y : S512x1.Idx) :
    ∃ pc ∈ (kernelRun0_C c i arg2 harg2 arg3 harg3 arg4 harg4 arg5 harg5 arg6 harg6 arg7 harg7 arg8 harg8 arg9 harg9 arg10 harg10 arg11 harg11 hc0 hc1 x0 x1 x2 x3 xs0 xs1 xs2 xs3).2.2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 hc0 hc1 x0 x1 x2 x3 xs0 xs1 xs2 xs3).2.2.2.2.1 S512x1.size (by sl_kernel_rfl) y

/-- What case C leaves in scratch 2: its pieces read back over junk. -/
def sout0_C_2 (c : Dev nD) (i : grid0.Coords)
    (arg2 : Memref sig .tc .vmem S512x256 .bf16) (harg2 : arg2.IsWhole) (arg3 : Memref sig .tc .vmem S512x256 .bf16) (harg3 : arg3.IsWhole)
    (arg4 : Memref sig .tc .vmem S512x1 .i32) (harg4 : arg4.IsWhole) (arg5 : Memref sig .tc .vmem S1x512 .i32) (harg5 : arg5.IsWhole)
    (arg6 : Memref sig .tc .vmem S512x1 .f32) (harg6 : arg6.IsWhole) (arg7 : Memref sig .tc .vmem S512x1 .f32) (harg7 : arg7.IsWhole)
    (arg8 : Memref sig .tc .vmem S512x1 .f32) (harg8 : arg8.IsWhole) (arg9 : Memref sig .tc .vmem S512x1 .f32) (harg9 : arg9.IsWhole)
    (arg10 : Memref sig .tc .vmem S512x1 .f32) (harg10 : arg10.IsWhole) (arg11 : Memref sig .tc .vmem S512x1 .f32) (harg11 : arg11.IsWhole)
    (hc0 : ¬cond0_0 i) (hc1 : cond0_1 i)
    (x0 : Vec F S512x256 .bf16) (x1 : Vec F S512x256 .bf16) (x2 : Vec F S512x1 .i32) (x3 : Vec F S1x512 .i32) (xs0 xs1 xs2 xs3 : Vec F S512x1 .f32) : Vec F S512x1 .f32 :=
  VS0_2.read (Elt F) (VS0_2.writes (Elt F) VS0_2.junk (kernelRun0_C c i arg2 harg2 arg3 harg3 arg4 harg4 arg5 harg5 arg6 harg6 arg7 harg7 arg8 harg8 arg9 harg9 arg10 harg10 arg11 harg11 hc0 hc1 x0 x1 x2 x3 xs0 xs1 xs2 xs3).2.2.2.2.1)

/-- Case C's pieces for scratch 3 (the count of positives) cover it: each is a whole-buffer store. -/
theorem scover0_C_3 (c : Dev nD) (i : grid0.Coords)
    (arg2 : Memref sig .tc .vmem S512x256 .bf16) (harg2 : arg2.IsWhole) (arg3 : Memref sig .tc .vmem S512x256 .bf16) (harg3 : arg3.IsWhole)
    (arg4 : Memref sig .tc .vmem S512x1 .i32) (harg4 : arg4.IsWhole) (arg5 : Memref sig .tc .vmem S1x512 .i32) (harg5 : arg5.IsWhole)
    (arg6 : Memref sig .tc .vmem S512x1 .f32) (harg6 : arg6.IsWhole) (arg7 : Memref sig .tc .vmem S512x1 .f32) (harg7 : arg7.IsWhole)
    (arg8 : Memref sig .tc .vmem S512x1 .f32) (harg8 : arg8.IsWhole) (arg9 : Memref sig .tc .vmem S512x1 .f32) (harg9 : arg9.IsWhole)
    (arg10 : Memref sig .tc .vmem S512x1 .f32) (harg10 : arg10.IsWhole) (arg11 : Memref sig .tc .vmem S512x1 .f32) (harg11 : arg11.IsWhole)
    (hc0 : ¬cond0_0 i) (hc1 : cond0_1 i)
    (x0 : Vec F S512x256 .bf16) (x1 : Vec F S512x256 .bf16) (x2 : Vec F S512x1 .i32) (x3 : Vec F S1x512 .i32) (xs0 xs1 xs2 xs3 : Vec F S512x1 .f32) (y : S512x1.Idx) :
    ∃ pc ∈ (kernelRun0_C c i arg2 harg2 arg3 harg3 arg4 harg4 arg5 harg5 arg6 harg6 arg7 harg7 arg8 harg8 arg9 harg9 arg10 harg10 arg11 harg11 hc0 hc1 x0 x1 x2 x3 xs0 xs1 xs2 xs3).2.2.2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 hc0 hc1 x0 x1 x2 x3 xs0 xs1 xs2 xs3).2.2.2.2.2.1 S512x1.size (by sl_kernel_rfl) y

/-- What case C leaves in scratch 3: its pieces read back over junk. -/
def sout0_C_3 (c : Dev nD) (i : grid0.Coords)
    (arg2 : Memref sig .tc .vmem S512x256 .bf16) (harg2 : arg2.IsWhole) (arg3 : Memref sig .tc .vmem S512x256 .bf16) (harg3 : arg3.IsWhole)
    (arg4 : Memref sig .tc .vmem S512x1 .i32) (harg4 : arg4.IsWhole) (arg5 : Memref sig .tc .vmem S1x512 .i32) (harg5 : arg5.IsWhole)
    (arg6 : Memref sig .tc .vmem S512x1 .f32) (harg6 : arg6.IsWhole) (arg7 : Memref sig .tc .vmem S512x1 .f32) (harg7 : arg7.IsWhole)
    (arg8 : Memref sig .tc .vmem S512x1 .f32) (harg8 : arg8.IsWhole) (arg9 : Memref sig .tc .vmem S512x1 .f32) (harg9 : arg9.IsWhole)
    (arg10 : Memref sig .tc .vmem S512x1 .f32) (harg10 : arg10.IsWhole) (arg11 : Memref sig .tc .vmem S512x1 .f32) (harg11 : arg11.IsWhole)
    (hc0 : ¬cond0_0 i) (hc1 : cond0_1 i)
    (x0 : Vec F S512x256 .bf16) (x1 : Vec F S512x256 .bf16) (x2 : Vec F S512x1 .i32) (x3 : Vec F S1x512 .i32) (xs0 xs1 xs2 xs3 : Vec F S512x1 .f32) : Vec F S512x1 .f32 :=
  VS0_3.read (Elt F) (VS0_3.writes (Elt F) VS0_3.junk (kernelRun0_C c i arg2 harg2 arg3 harg3 arg4 harg4 arg5 harg5 arg6 harg6 arg7 harg7 arg8 harg8 arg9 harg9 arg10 harg10 arg11 harg11 hc0 hc1 x0 x1 x2 x3 xs0 xs1 xs2 xs3).2.2.2.2.2.1)

/-- Case C's piece for output window 4 covers its block: one whole-block store. -/
theorem cover0_C_4 (c : Dev nD) (i : grid0.Coords)
    (arg2 : Memref sig .tc .vmem S512x256 .bf16) (harg2 : arg2.IsWhole) (arg3 : Memref sig .tc .vmem S512x256 .bf16) (harg3 : arg3.IsWhole)
    (arg4 : Memref sig .tc .vmem S512x1 .i32) (harg4 : arg4.IsWhole) (arg5 : Memref sig .tc .vmem S1x512 .i32) (harg5 : arg5.IsWhole)
    (arg6 : Memref sig .tc .vmem S512x1 .f32) (harg6 : arg6.IsWhole) (arg7 : Memref sig .tc .vmem S512x1 .f32) (harg7 : arg7.IsWhole)
    (arg8 : Memref sig .tc .vmem S512x1 .f32) (harg8 : arg8.IsWhole) (arg9 : Memref sig .tc .vmem S512x1 .f32) (harg9 : arg9.IsWhole)
    (arg10 : Memref sig .tc .vmem S512x1 .f32) (harg10 : arg10.IsWhole) (arg11 : Memref sig .tc .vmem S512x1 .f32) (harg11 : arg11.IsWhole)
    (hc0 : ¬cond0_0 i) (hc1 : cond0_1 i)
    (x0 : Vec F S512x256 .bf16) (x1 : Vec F S512x256 .bf16) (x2 : Vec F S512x1 .i32) (x3 : Vec F S1x512 .i32) (xs0 xs1 xs2 xs3 : Vec F S512x1 .f32) (y : S512x1.Idx) :
    ∃ pc ∈ (kernelRun0_C c i arg2 harg2 arg3 harg3 arg4 harg4 arg5 harg5 arg6 harg6 arg7 harg7 arg8 harg8 arg9 harg9 arg10 harg10 arg11 harg11 hc0 hc1 x0 x1 x2 x3 xs0 xs1 xs2 xs3).1, y ∈ pc.1.set :=
  View.cover_of_tiledL (kernelRun0_C c i arg2 harg2 arg3 harg3 arg4 harg4 arg5 harg5 arg6 harg6 arg7 harg7 arg8 harg8 arg9 harg9 arg10 harg10 arg11 harg11 hc0 hc1 x0 x1 x2 x3 xs0 xs1 xs2 xs3).1 S512x1.size (by sl_kernel_rfl) y

/-- What case C leaves in output window 4's staging buffer: its piece read back over junk. -/
def out0_C_4 (c : Dev nD) (i : grid0.Coords)
    (arg2 : Memref sig .tc .vmem S512x256 .bf16) (harg2 : arg2.IsWhole) (arg3 : Memref sig .tc .vmem S512x256 .bf16) (harg3 : arg3.IsWhole)
    (arg4 : Memref sig .tc .vmem S512x1 .i32) (harg4 : arg4.IsWhole) (arg5 : Memref sig .tc .vmem S1x512 .i32) (harg5 : arg5.IsWhole)
    (arg6 : Memref sig .tc .vmem S512x1 .f32) (harg6 : arg6.IsWhole) (arg7 : Memref sig .tc .vmem S512x1 .f32) (harg7 : arg7.IsWhole)
    (arg8 : Memref sig .tc .vmem S512x1 .f32) (harg8 : arg8.IsWhole) (arg9 : Memref sig .tc .vmem S512x1 .f32) (harg9 : arg9.IsWhole)
    (arg10 : Memref sig .tc .vmem S512x1 .f32) (harg10 : arg10.IsWhole) (arg11 : Memref sig .tc .vmem S512x1 .f32) (harg11 : arg11.IsWhole)
    (hc0 : ¬cond0_0 i) (hc1 : cond0_1 i)
    (x0 : Vec F S512x256 .bf16) (x1 : Vec F S512x256 .bf16) (x2 : Vec F S512x1 .i32) (x3 : Vec F S1x512 .i32) (xs0 xs1 xs2 xs3 : Vec F S512x1 .f32) : Vec F S512x1 .f32 :=
  VO0_4.read (Elt F) (VO0_4.writes (Elt F) VO0_4.junk (kernelRun0_C c i arg2 harg2 arg3 harg3 arg4 harg4 arg5 harg5 arg6 harg6 arg7 harg7 arg8 harg8 arg9 harg9 arg10 harg10 arg11 harg11 hc0 hc1 x0 x1 x2 x3 xs0 xs1 xs2 xs3).1)

/-- Case C's piece for output window 5 covers its block: one whole-block store. -/
theorem cover0_C_5 (c : Dev nD) (i : grid0.Coords)
    (arg2 : Memref sig .tc .vmem S512x256 .bf16) (harg2 : arg2.IsWhole) (arg3 : Memref sig .tc .vmem S512x256 .bf16) (harg3 : arg3.IsWhole)
    (arg4 : Memref sig .tc .vmem S512x1 .i32) (harg4 : arg4.IsWhole) (arg5 : Memref sig .tc .vmem S1x512 .i32) (harg5 : arg5.IsWhole)
    (arg6 : Memref sig .tc .vmem S512x1 .f32) (harg6 : arg6.IsWhole) (arg7 : Memref sig .tc .vmem S512x1 .f32) (harg7 : arg7.IsWhole)
    (arg8 : Memref sig .tc .vmem S512x1 .f32) (harg8 : arg8.IsWhole) (arg9 : Memref sig .tc .vmem S512x1 .f32) (harg9 : arg9.IsWhole)
    (arg10 : Memref sig .tc .vmem S512x1 .f32) (harg10 : arg10.IsWhole) (arg11 : Memref sig .tc .vmem S512x1 .f32) (harg11 : arg11.IsWhole)
    (hc0 : ¬cond0_0 i) (hc1 : cond0_1 i)
    (x0 : Vec F S512x256 .bf16) (x1 : Vec F S512x256 .bf16) (x2 : Vec F S512x1 .i32) (x3 : Vec F S1x512 .i32) (xs0 xs1 xs2 xs3 : Vec F S512x1 .f32) (y : S512x1.Idx) :
    ∃ pc ∈ (kernelRun0_C c i arg2 harg2 arg3 harg3 arg4 harg4 arg5 harg5 arg6 harg6 arg7 harg7 arg8 harg8 arg9 harg9 arg10 harg10 arg11 harg11 hc0 hc1 x0 x1 x2 x3 xs0 xs1 xs2 xs3).2.1, y ∈ pc.1.set :=
  View.cover_of_tiledL (kernelRun0_C c i arg2 harg2 arg3 harg3 arg4 harg4 arg5 harg5 arg6 harg6 arg7 harg7 arg8 harg8 arg9 harg9 arg10 harg10 arg11 harg11 hc0 hc1 x0 x1 x2 x3 xs0 xs1 xs2 xs3).2.1 S512x1.size (by sl_kernel_rfl) y

/-- What case C leaves in output window 5's staging buffer: its piece read back over junk. -/
def out0_C_5 (c : Dev nD) (i : grid0.Coords)
    (arg2 : Memref sig .tc .vmem S512x256 .bf16) (harg2 : arg2.IsWhole) (arg3 : Memref sig .tc .vmem S512x256 .bf16) (harg3 : arg3.IsWhole)
    (arg4 : Memref sig .tc .vmem S512x1 .i32) (harg4 : arg4.IsWhole) (arg5 : Memref sig .tc .vmem S1x512 .i32) (harg5 : arg5.IsWhole)
    (arg6 : Memref sig .tc .vmem S512x1 .f32) (harg6 : arg6.IsWhole) (arg7 : Memref sig .tc .vmem S512x1 .f32) (harg7 : arg7.IsWhole)
    (arg8 : Memref sig .tc .vmem S512x1 .f32) (harg8 : arg8.IsWhole) (arg9 : Memref sig .tc .vmem S512x1 .f32) (harg9 : arg9.IsWhole)
    (arg10 : Memref sig .tc .vmem S512x1 .f32) (harg10 : arg10.IsWhole) (arg11 : Memref sig .tc .vmem S512x1 .f32) (harg11 : arg11.IsWhole)
    (hc0 : ¬cond0_0 i) (hc1 : cond0_1 i)
    (x0 : Vec F S512x256 .bf16) (x1 : Vec F S512x256 .bf16) (x2 : Vec F S512x1 .i32) (x3 : Vec F S1x512 .i32) (xs0 xs1 xs2 xs3 : Vec F S512x1 .f32) : Vec F S512x1 .f32 :=
  VO0_5.read (Elt F) (VO0_5.writes (Elt F) VO0_5.junk (kernelRun0_C c i arg2 harg2 arg3 harg3 arg4 harg4 arg5 harg5 arg6 harg6 arg7 harg7 arg8 harg8 arg9 harg9 arg10 harg10 arg11 harg11 hc0 hc1 x0 x1 x2 x3 xs0 xs1 xs2 xs3).2.1)

/-! ## What the outputs and the scratch hold after each point -/

/-- The two outputs' staging contents and the four scratch contents after the body at one point. -/
structure Outs (F : FTy → Type) [FloatOps F] where
  /-- output window 4 (the per-row loss terms) -/
  o4 : Vec F S512x1 .f32
  /-- output window 5 (the per-row counts of positives) -/
  o5 : Vec F S512x1 .f32
  /-- scratch 0: the running row maximum -/
  s0 : Vec F S512x1 .f32
  /-- scratch 1: the running denominator -/
  s1 : Vec F S512x1 .f32
  /-- scratch 2: the sum of positive similarities -/
  s2 : Vec F S512x1 .f32
  /-- scratch 3: the count of positives -/
  s3 : Vec F S512x1 .f32

/-- Where a case stores nothing into an output window (the window idle and not written back there), a placeholder
    nothing consults: junk read back. -/
def out0_A_4 : Vec F S512x1 .f32 := VO0_4.read (Elt F) VO0_4.junk
def out0_A_5 : Vec F S512x1 .f32 := VO0_5.read (Elt F) VO0_5.junk
def out0_B_4 : Vec F S512x1 .f32 := VO0_4.read (Elt F) VO0_4.junk
def out0_B_5 : Vec F S512x1 .f32 := VO0_5.read (Elt F) VO0_5.junk

/-- After a point of the first case (a row block's first column tile): the scratch at the reset followed by the
    update over the point's blocks; nothing of the point before is read. -/
def outsA (c : Dev nD) (t : Fin cfg0.N) (h0 : t.val % 16 = 0) (h1 : ¬t.val % 16 = 15) : Outs F where
  o4 := out0_A_4
  o5 := out0_A_5
  s0 := sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t)
  s1 := sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t)
  s2 := sout0_A_2 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t)
  s3 := sout0_A_3 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t)

/-- After a point of the middle case: the scratch updated over the point's blocks from what the point before left (`p`). -/
def outsB (c : Dev nD) (t : Fin cfg0.N) (h0 : ¬t.val % 16 = 0) (h1 : ¬t.val % 16 = 15) (p : Outs F) : Outs F where
  o4 := out0_B_4
  o5 := out0_B_5
  s0 := sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) p.s0 p.s1 p.s2 p.s3
  s1 := sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) p.s0 p.s1 p.s2 p.s3
  s2 := sout0_B_2 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) p.s0 p.s1 p.s2 p.s3
  s3 := sout0_B_3 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) p.s0 p.s1 p.s2 p.s3

/-- After a point of the last case (a row block's last column tile): the scratch updated from what the point before
    left (`p`), and the two outputs at what the final block stores, computed from the updated scratch. -/
def outsC (c : Dev nD) (t : Fin cfg0.N) (h0 : ¬t.val % 16 = 0) (h1 : t.val % 16 = 15) (p : Outs F) : Outs F where
  o4 := out0_C_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) p.s0 p.s1 p.s2 p.s3
  o5 := out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) p.s0 p.s1 p.s2 p.s3
  s0 := sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) p.s0 p.s1 p.s2 p.s3
  s1 := sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) p.s0 p.s1 p.s2 p.s3
  s2 := sout0_C_2 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) p.s0 p.s1 p.s2 p.s3
  s3 := sout0_C_3 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) p.s0 p.s1 p.s2 p.s3

/-- THE ACCUMULATION: what the outputs' staging buffers and the four scratch buffers hold after the body at
    position `n`, by recursion on `n`: the case is read off `n % 16` (0: first, 15: last, else middle), run at the
    point's memrefs and input blocks, the scratch it reads before storing at what position `n - 1` left. -/
def outsAt0 (c : Dev nD) : (n : ℕ) → n < cfg0.N → Outs F
  | 0, hn => outsA m c ⟨0, hn⟩ (Nat.zero_mod _) (show ¬(0 % 16 = 15) from by decide)
  | n + 1, hn =>
    if h0 : (n + 1) % 16 = 0 then
      if h1 : (n + 1) % 16 = 15 then False.elim (by omega)
      else outsA m c ⟨n + 1, hn⟩ h0 h1
    else
      if h1 : (n + 1) % 16 = 15 then outsC m c ⟨n + 1, hn⟩ h0 h1 (outsAt0 c n (Nat.lt_of_succ_lt hn))
      else outsB m c ⟨n + 1, hn⟩ h0 h1 (outsAt0 c n (Nat.lt_of_succ_lt hn))

/-- `outsAt0` at a point of the first case. -/
theorem outsAt0_A (c : Dev nD) (t : Fin cfg0.N) (h0 : t.val % 16 = 0) (h1 : ¬t.val % 16 = 15) :
    outsAt0 m c t.val t.isLt = outsA m c t h0 h1 := by
  obtain ⟨n, hn⟩ := t
  cases n with
  | zero => exact rfl
  | succ n => exact (dif_pos h0).trans ((dif_neg h1).trans rfl)

/-- `outsAt0` at a point of the middle case, over what the point before left. -/
theorem outsAt0_B (c : Dev nD) (t : Fin cfg0.N) (h0 : ¬t.val % 16 = 0) (h1 : ¬t.val % 16 = 15) :
    outsAt0 m c t.val t.isLt = outsB m c t h0 h1 (outsAt0 m c (t.val - 1) (Nat.lt_of_le_of_lt (Nat.sub_le _ _) t.isLt)) := by
  obtain ⟨n, hn⟩ := t
  cases n with
  | zero => exact absurd (Nat.zero_mod _) h0
  | succ n => exact (dif_neg h0).trans ((dif_neg h1).trans rfl)

/-- `outsAt0` at a point of the last case, over what the point before left. -/
theorem outsAt0_C (c : Dev nD) (t : Fin cfg0.N) (h0 : ¬t.val % 16 = 0) (h1 : t.val % 16 = 15) :
    outsAt0 m c t.val t.isLt = outsC m c t h0 h1 (outsAt0 m c (t.val - 1) (Nat.lt_of_le_of_lt (Nat.sub_le _ _) t.isLt)) := by
  obtain ⟨n, hn⟩ := t
  cases n with
  | zero => exact absurd (Nat.zero_mod _) h0
  | succ n => exact (dif_neg h0).trans ((dif_pos h1).trans rfl)

/-! ## The invariant -/

/-- The region invariant before position `n`: before the first point the four scratch buffers at anything (the
    scoped rest); afterwards each at what the point before left in it. -/
def PhiS (c : Dev nD) : (n : ℕ) → n ≤ cfg0.N → sProp 𝕄
  | 0, _ => Pipeline.scopedRest spec0 c
  | n + 1, hn => iprop(owns (c : Thread nD τ) scM0_0 fullShare (outsAt0 m c n hn).s0 ∗ owns (c : Thread nD τ) scM0_1 fullShare (outsAt0 m c n hn).s1
      ∗ owns (c : Thread nD τ) scM0_2 fullShare (outsAt0 m c n hn).s2 ∗ owns (c : Thread nD τ) scM0_3 fullShare (outsAt0 m c n hn).s3)

theorem PhiS_zero (c : Dev nD) (n : ℕ) (h : n ≤ cfg0.N) (hz : n = 0) : PhiS m c n h = Pipeline.scopedRest spec0 c := by
  subst hz; rfl

/-- After point `n` (before point `n + 1`): the scratch at that point's contents. -/
theorem PhiS_succ (c : Dev nD) (n : ℕ) (hn : n < cfg0.N) :
    PhiS m c (n + 1) hn = iprop(owns (c : Thread nD τ) scM0_0 fullShare (outsAt0 m c n hn).s0 ∗ owns (c : Thread nD τ) scM0_1 fullShare (outsAt0 m c n hn).s1
      ∗ owns (c : Thread nD τ) scM0_2 fullShare (outsAt0 m c n hn).s2 ∗ owns (c : Thread nD τ) scM0_3 fullShare (outsAt0 m c n hn).s3) := rfl

/-- Before a point that is not the first: the scratch at what the point before left. -/
theorem PhiS_pos (c : Dev nD) (n : ℕ) (h : n ≤ cfg0.N) (hz : n ≠ 0) :
    PhiS m c n h = iprop(owns (c : Thread nD τ) scM0_0 fullShare (outsAt0 m c (n - 1) (by omega)).s0 ∗ owns (c : Thread nD τ) scM0_1 fullShare (outsAt0 m c (n - 1) (by omega)).s1
      ∗ owns (c : Thread nD τ) scM0_2 fullShare (outsAt0 m c (n - 1) (by omega)).s2 ∗ owns (c : Thread nD τ) scM0_3 fullShare (outsAt0 m c (n - 1) (by omega)).s3) := by
  cases n with
  | zero => exact absurd rfl hz
  | succ n => rfl

/-! ## The pipeline's proof data -/

/-- The proof data of the one pipeline on core `c`: the arrays as the region finds them; after the body at point
    `t` each input's buffer at its block and the outputs' at the accumulation's components; the invariant `PhiS`;
    nothing owed; the two windows that read the one bf16 array hold half of it each, the others their arrays whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t.val t.isLt).o4
    | ⟨5, _⟩ => (outsAt0 m c t.val t.isLt).o5
  Φ t := PhiS m c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
  owed _ := 0

/-- The proof data's arrays are the region-entry contents. -/
theorem A_eq (c : Dev nD) (w : Fin cfg0.W) : (dats m 0 c).A w = V m c (Pipeline.arrRef spec0 w) := by
  dsimp only [dats]

/-- The invariant at a point's start, restated at `t.val`. -/
theorem PhiS_castSucc (c : Dev nD) (t : Fin cfg0.N) :
    (dats m 0 c).Φ t.castSucc = PhiS m c t.val (Nat.le_of_lt t.isLt) := by
  dsimp only [dats]; simp only [Fin.coe_castSucc]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt0 m c t.val t.isLt).o4 := by dsimp only [dats]
theorem after0_5 (c : Dev nD) (t : Fin cfg0.N) : (dats m 0 c).after 5 t = (outsAt0 m c t.val t.isLt).o5 := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- A live input window's buffer is left at its block. -/
theorem leaves0_0 (c : Dev nD) (t : Fin cfg0.N) :
    (dats m 0 c).leavesExact 0 t = owns (c : Thread nD τ) (ms0_0 t) fullShare (iblk m c 0 t) := by
  rw [show (dats m 0 c).leavesExact 0 t = owns (c : Thread nD τ) (ms0_0 t) fullShare ((dats m 0 c).after 0 t) from by
    unfold Dat.leavesExact; rw [liveAt0_0 t], after0_0]
theorem leaves0_1 (c : Dev nD) (t : Fin cfg0.N) :
    (dats m 0 c).leavesExact 1 t = owns (c : Thread nD τ) (ms0_1 t) fullShare (iblk m c 1 t) := by
  rw [show (dats m 0 c).leavesExact 1 t = owns (c : Thread nD τ) (ms0_1 t) fullShare ((dats m 0 c).after 1 t) from by
    unfold Dat.leavesExact; rw [liveAt0_1 t], after0_1]
theorem leaves0_2 (c : Dev nD) (t : Fin cfg0.N) :
    (dats m 0 c).leavesExact 2 t = owns (c : Thread nD τ) (ms0_2 t) fullShare (iblk m c 2 t) := by
  rw [show (dats m 0 c).leavesExact 2 t = owns (c : Thread nD τ) (ms0_2 t) fullShare ((dats m 0 c).after 2 t) from by
    unfold Dat.leavesExact; rw [liveAt0_2 t], after0_2]
theorem leaves0_3 (c : Dev nD) (t : Fin cfg0.N) :
    (dats m 0 c).leavesExact 3 t = owns (c : Thread nD τ) (ms0_3 t) fullShare (iblk m c 3 t) := by
  rw [show (dats m 0 c).leavesExact 3 t = owns (c : Thread nD τ) (ms0_3 t) fullShare ((dats m 0 c).after 3 t) from by
    unfold Dat.leavesExact; rw [liveAt0_3 t], after0_3]
/-- An output window at a point of the last case is left at the accumulation's component. -/
theorem leaves0_4_C (c : Dev nD) (t : Fin cfg0.N) (hc0 : ¬cond0_0 (grid0.coords t)) (hc1 : cond0_1 (grid0.coords t)) :
    (dats m 0 c).leavesExact 4 t = owns (c : Thread nD τ) (ms0_4 t) fullShare (outsAt0 m c t.val t.isLt).o4 := by
  rw [show (dats m 0 c).leavesExact 4 t = owns (c : Thread nD τ) (ms0_4 t) fullShare ((dats m 0 c).after 4 t) from by
    unfold Dat.leavesExact; rw [liveAt0_4_C t hc0 hc1], after0_4]
theorem leaves0_5_C (c : Dev nD) (t : Fin cfg0.N) (hc0 : ¬cond0_0 (grid0.coords t)) (hc1 : cond0_1 (grid0.coords t)) :
    (dats m 0 c).leavesExact 5 t = owns (c : Thread nD τ) (ms0_5 t) fullShare (outsAt0 m c t.val t.isLt).o5 := by
  rw [show (dats m 0 c).leavesExact 5 t = owns (c : Thread nD τ) (ms0_5 t) fullShare ((dats m 0 c).after 5 t) from by
    unfold Dat.leavesExact; rw [liveAt0_5_C t hc0 hc1], after0_5]

/-! ## The body obligation -/

/-- What the body is called with at point `t`: the invariant, nothing owed, each window's current buffer at what it
    then holds, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

set_option maxHeartbeats 4800000 in
/-- The body at a point of the first case: the inputs' memrefs hold their blocks; the two outputs are idle and handed
    back as found; the four scratch come in at anything (before the first point) or at what the point before left,
    which the reset overwrites; they go back at this point's contents, their pieces covering them. -/
theorem sound_body_A (c : Dev nD) (t : Fin cfg0.N) (h0 : t.val % 16 = 0) (h1 : ¬t.val % 16 = 15) :
    bodyPre m c t ⊢ wp frame (wpE (defs₀ (F := F)) Variants.none c none) Set.univ (bodyAt0 t) (fun _ => bodyPost m c t) := by
  have hc0 : cond0_0 (grid0.coords t) := (hcond0_0 t).mpr h0
  have hc1 : ¬cond0_1 (grid0.coords t) := fun h => h1 ((hcond0_1 t).mp h)
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ]
  rw [leaves0_0, leaves0_1, leaves0_2, leaves0_3]
  rw [Dat.leavesExact_idle (dats m 0 c) 4 t (idleAt0_4_A t hc0 hc1) (noFlush0_4_A t hc0 hc1)]
  rw [Dat.leavesExact_idle (dats m 0 c) 5 t (idleAt0_5_A t hc0 hc1) (noFlush0_5_A t hc0 hc1)]
  rw [outsAt0_A m c t h0 h1]
  unfold outsA sout0_A_0 sout0_A_1 sout0_A_2 sout0_A_3; (try dsimp only)
  by_cases hz : t.val = 0
  · rw [PhiS_castSucc m c t, PhiS_zero m c _ _ hz, scopedRest0_owns]
    iintro ⟨⟨HS0, HS1, HS2, HS3⟩, Ho, ⟨%d0, H0⟩, ⟨%d1, H1⟩, ⟨%d2, H2⟩, ⟨%d3, H3⟩, ⟨%d4, H4⟩, ⟨%d5, H5⟩⟩
    iapply ((kernelRun0_A c (grid0.coords t) _ _ _ _ _ _ _ _ _ _ _ _ _ _ _ _ _ _ _ _ hc0 hc1 (iblk m c 0 t) (iblk m c 1 t) (iblk m c 2 t) (iblk m c 3 t)).2.2.2.2 _ _ Set.univ _)
    isplitl [H0]; · iexact H0
    isplitl [H1]; · iexact H1
    isplitl [H2]; · iexact H2
    isplitl [H3]; · iexact H3
    isplitl [H4]; · iexact H4
    isplitl [H5]; · iexact H5
    isplitl [HS0]; · iexact HS0
    isplitl [HS1]; · iexact HS1
    isplitl [HS2]; · iexact HS2
    isplitl [HS3]; · iexact HS3
    iintro ⟨H0, H1, H2, H3, H4, H5, ⟨%es0, HS0⟩, ⟨%es1, HS1⟩, ⟨%es2, HS2⟩, ⟨%es3, HS3⟩⟩
    isplitl [HS0 HS1 HS2 HS3]
    · isplitl [HS0]
      · unfold owns; iexists _; isplitr
        swap; · iexact HS0
        ipureintro; exact View.read_writes_of_cover _ _ _ _ _ (scover0_A_0 c _ _ _ _ _ _ _ _ _ _ _ _ _ _ _ _ _ _ _ _ _ _ _ _ _ _ _)
      isplitl [HS1]
      · unfold owns; iexists _; isplitr
        swap; · iexact HS1
        ipureintro; exact View.read_writes_of_cover _ _ _ _ _ (scover0_A_1 c _ _ _ _ _ _ _ _ _ _ _ _ _ _ _ _ _ _ _ _ _ _ _ _ _ _ _)
      isplitl [HS2]
      · unfold owns; iexists _; isplitr
        swap; · iexact HS2
        ipureintro; exact View.read_writes_of_cover _ _ _ _ _ (scover0_A_2 c _ _ _ _ _ _ _ _ _ _ _ _ _ _ _ _ _ _ _ _ _ _ _ _ _ _ _)
      unfold owns; iexists _; isplitr
      swap; · iexact HS3
      ipureintro; exact View.read_writes_of_cover _ _ _ _ _ (scover0_A_3 c _ _ _ _ _ _ _ _ _ _ _ _ _ _ _ _ _ _ _ _ _ _ _ _ _ _ _)
    isplitl [Ho]; · iexact Ho
    isplitl [H0]; · iexact H0
    isplitl [H1]; · iexact H1
    isplitl [H2]; · iexact H2
    isplitl [H3]; · iexact H3
    isplitl [H4]; · iexists _; iexact H4
    iexists _; iexact H5
  · rw [PhiS_castSucc m c t, PhiS_pos m c _ _ hz]
    iintro ⟨⟨HS0, HS1, HS2, HS3⟩, Ho, ⟨%d0, H0⟩, ⟨%d1, H1⟩, ⟨%d2, H2⟩, ⟨%d3, H3⟩, ⟨%d4, H4⟩, ⟨%d5, H5⟩⟩
    iapply ((kernelRun0_A c (grid0.coords t) _ _ _ _ _ _ _ _ _ _ _ _ _ _ _ _ _ _ _ _ hc0 hc1 (iblk m c 0 t) (iblk m c 1 t) (iblk m c 2 t) (iblk m c 3 t)).2.2.2.2 _ _ Set.univ _)
    isplitl [H0]; · iexact H0
    isplitl [H1]; · iexact H1
    isplitl [H2]; · iexact H2
    isplitl [H3]; · iexact H3
    isplitl [H4]; · iexact H4
    isplitl [H5]; · iexact H5
    isplitl [HS0]; · iexists _; iexact HS0
    isplitl [HS1]; · iexists _; iexact HS1
    isplitl [HS2]; · iexists _; iexact HS2
    isplitl [HS3]; · iexists _; iexact HS3
    iintro ⟨H0, H1, H2, H3, H4, H5, ⟨%es0, HS0⟩, ⟨%es1, HS1⟩, ⟨%es2, HS2⟩, ⟨%es3, HS3⟩⟩
    isplitl [HS0 HS1 HS2 HS3]
    · isplitl [HS0]
      · unfold owns; iexists _; isplitr
        swap; · iexact HS0
        ipureintro; exact View.read_writes_of_cover _ _ _ _ _ (scover0_A_0 c _ _ _ _ _ _ _ _ _ _ _ _ _ _ _ _ _ _ _ _ _ _ _ _ _ _ _)
      isplitl [HS1]
      · unfold owns; iexists _; isplitr
        swap; · iexact HS1
        ipureintro; exact View.read_writes_of_cover _ _ _ _ _ (scover0_A_1 c _ _ _ _ _ _ _ _ _ _ _ _ _ _ _ _ _ _ _ _ _ _ _ _ _ _ _)
      isplitl [HS2]
      · unfold owns; iexists _; isplitr
        swap; · iexact HS2
        ipureintro; exact View.read_writes_of_cover _ _ _ _ _ (scover0_A_2 c _ _ _ _ _ _ _ _ _ _ _ _ _ _ _ _ _ _ _ _ _ _ _ _ _ _ _)
      unfold owns; iexists _; isplitr
      swap; · iexact HS3
      ipureintro; exact View.read_writes_of_cover _ _ _ _ _ (scover0_A_3 c _ _ _ _ _ _ _ _ _ _ _ _ _ _ _ _ _ _ _ _ _ _ _ _ _ _ _)
    isplitl [Ho]; · iexact Ho
    isplitl [H0]; · iexact H0
    isplitl [H1]; · iexact H1
    isplitl [H2]; · iexact H2
    isplitl [H3]; · iexact H3
    isplitl [H4]; · iexists _; iexact H4
    iexists _; iexact H5

set_option maxHeartbeats 4800000 in
/-- The body at a point of the middle case: as the first, but the four scratch come in at what the point before left
    and are read before they are stored. -/
theorem sound_body_B (c : Dev nD) (t : Fin cfg0.N) (h0 : ¬t.val % 16 = 0) (h1 : ¬t.val % 16 = 15) :
    bodyPre m c t ⊢ wp frame (wpE (defs₀ (F := F)) Variants.none c none) Set.univ (bodyAt0 t) (fun _ => bodyPost m c t) := by
  have hc0 : ¬cond0_0 (grid0.coords t) := fun h => h0 ((hcond0_0 t).mp h)
  have hc1 : ¬cond0_1 (grid0.coords t) := fun h => h1 ((hcond0_1 t).mp h)
  have hz : t.val ≠ 0 := by omega
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ]
  rw [leaves0_0, leaves0_1, leaves0_2, leaves0_3]
  rw [Dat.leavesExact_idle (dats m 0 c) 4 t (idleAt0_4_B t hc0 hc1) (noFlush0_4_B t hc0 hc1)]
  rw [Dat.leavesExact_idle (dats m 0 c) 5 t (idleAt0_5_B t hc0 hc1) (noFlush0_5_B t hc0 hc1)]
  rw [outsAt0_B m c t h0 h1]
  unfold outsB sout0_B_0 sout0_B_1 sout0_B_2 sout0_B_3; (try dsimp only)
  rw [PhiS_castSucc m c t, PhiS_pos m c _ _ hz]
  iintro ⟨⟨HS0, HS1, HS2, HS3⟩, Ho, ⟨%d0, H0⟩, ⟨%d1, H1⟩, ⟨%d2, H2⟩, ⟨%d3, H3⟩, ⟨%d4, H4⟩, ⟨%d5, H5⟩⟩
  iapply ((kernelRun0_B c (grid0.coords t) _ _ _ _ _ _ _ _ _ _ _ _ _ _ _ _ _ _ _ _ hc0 hc1 (iblk m c 0 t) (iblk m c 1 t) (iblk m c 2 t) (iblk m c 3 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3).2.2.2.2 _ _ Set.univ _)
  isplitl [H0]; · iexact H0
  isplitl [H1]; · iexact H1
  isplitl [H2]; · iexact H2
  isplitl [H3]; · iexact H3
  isplitl [H4]; · iexact H4
  isplitl [H5]; · iexact H5
  isplitl [HS0]; · iexact HS0
  isplitl [HS1]; · iexact HS1
  isplitl [HS2]; · iexact HS2
  isplitl [HS3]; · iexact HS3
  iintro ⟨H0, H1, H2, H3, H4, H5, ⟨%es0, HS0⟩, ⟨%es1, HS1⟩, ⟨%es2, HS2⟩, ⟨%es3, HS3⟩⟩
  isplitl [HS0 HS1 HS2 HS3]
  · isplitl [HS0]
    · unfold owns; iexists _; isplitr
      swap; · iexact HS0
      ipureintro; exact View.read_writes_of_cover _ _ _ _ _ (scover0_B_0 c _ _ _ _ _ _ _ _ _ _ _ _ _ _ _ _ _ _ _ _ _ _ _ _ _ _ _ _ _ _ _)
    isplitl [HS1]
    · unfold owns; iexists _; isplitr
      swap; · iexact HS1
      ipureintro; exact View.read_writes_of_cover _ _ _ _ _ (scover0_B_1 c _ _ _ _ _ _ _ _ _ _ _ _ _ _ _ _ _ _ _ _ _ _ _ _ _ _ _ _ _ _ _)
    isplitl [HS2]
    · unfold owns; iexists _; isplitr
      swap; · iexact HS2
      ipureintro; exact View.read_writes_of_cover _ _ _ _ _ (scover0_B_2 c _ _ _ _ _ _ _ _ _ _ _ _ _ _ _ _ _ _ _ _ _ _ _ _ _ _ _ _ _ _ _)
    unfold owns; iexists _; isplitr
    swap; · iexact HS3
    ipureintro; exact View.read_writes_of_cover _ _ _ _ _ (scover0_B_3 c _ _ _ _ _ _ _ _ _ _ _ _ _ _ _ _ _ _ _ _ _ _ _ _ _ _ _ _ _ _ _)
  isplitl [Ho]; · iexact Ho
  isplitl [H0]; · iexact H0
  isplitl [H1]; · iexact H1
  isplitl [H2]; · iexact H2
  isplitl [H3]; · iexact H3
  isplitl [H4]; · iexists _; iexact H4
  iexists _; iexact H5

set_option maxHeartbeats 4800000 in
/-- The body at a point of the last case: the scratch as in the middle case; the two outputs come in at anything and
    go back at what the final block stored, their pieces covering them. -/
theorem sound_body_C (c : Dev nD) (t : Fin cfg0.N) (h0 : ¬t.val % 16 = 0) (h1 : t.val % 16 = 15) :
    bodyPre m c t ⊢ wp frame (wpE (defs₀ (F := F)) Variants.none c none) Set.univ (bodyAt0 t) (fun _ => bodyPost m c t) := by
  have hc0 : ¬cond0_0 (grid0.coords t) := fun h => h0 ((hcond0_0 t).mp h)
  have hc1 : cond0_1 (grid0.coords t) := (hcond0_1 t).mpr h1
  have hz : t.val ≠ 0 := by omega
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ]
  rw [leaves0_0, leaves0_1, leaves0_2, leaves0_3]
  rw [leaves0_4_C m c t hc0 hc1, leaves0_5_C m c t hc0 hc1]
  rw [outsAt0_C m c t h0 h1]
  unfold outsC out0_C_4 out0_C_5 sout0_C_0 sout0_C_1 sout0_C_2 sout0_C_3; (try dsimp only)
  rw [PhiS_castSucc m c t, PhiS_pos m c _ _ hz]
  iintro ⟨⟨HS0, HS1, HS2, HS3⟩, Ho, ⟨%d0, H0⟩, ⟨%d1, H1⟩, ⟨%d2, H2⟩, ⟨%d3, H3⟩, ⟨%d4, H4⟩, ⟨%d5, H5⟩⟩
  iapply ((kernelRun0_C c (grid0.coords t) _ _ _ _ _ _ _ _ _ _ _ _ _ _ _ _ _ _ _ _ hc0 hc1 (iblk m c 0 t) (iblk m c 1 t) (iblk m c 2 t) (iblk m c 3 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3).2.2.2.2.2.2 Set.univ _)
  isplitl [H0]; · iexact H0
  isplitl [H1]; · iexact H1
  isplitl [H2]; · iexact H2
  isplitl [H3]; · iexact H3
  isplitl [H4]; · iexists _; iexact H4
  isplitl [H5]; · iexists _; iexact H5
  isplitl [HS0]; · iexact HS0
  isplitl [HS1]; · iexact HS1
  isplitl [HS2]; · iexact HS2
  isplitl [HS3]; · iexact HS3
  iintro ⟨H0, H1, H2, H3, ⟨%e4, H4⟩, ⟨%e5, H5⟩, ⟨%es0, HS0⟩, ⟨%es1, HS1⟩, ⟨%es2, HS2⟩, ⟨%es3, HS3⟩⟩
  isplitl [HS0 HS1 HS2 HS3]
  · isplitl [HS0]
    · unfold owns; iexists _; isplitr
      swap; · iexact HS0
      ipureintro; exact View.read_writes_of_cover _ _ _ _ _ (scover0_C_0 c _ _ _ _ _ _ _ _ _ _ _ _ _ _ _ _ _ _ _ _ _ _ _ _ _ _ _ _ _ _ _)
    isplitl [HS1]
    · unfold owns; iexists _; isplitr
      swap; · iexact HS1
      ipureintro; exact View.read_writes_of_cover _ _ _ _ _ (scover0_C_1 c _ _ _ _ _ _ _ _ _ _ _ _ _ _ _ _ _ _ _ _ _ _ _ _ _ _ _ _ _ _ _)
    isplitl [HS2]
    · unfold owns; iexists _; isplitr
      swap; · iexact HS2
      ipureintro; exact View.read_writes_of_cover _ _ _ _ _ (scover0_C_2 c _ _ _ _ _ _ _ _ _ _ _ _ _ _ _ _ _ _ _ _ _ _ _ _ _ _ _ _ _ _ _)
    unfold owns; iexists _; isplitr
    swap; · iexact HS3
    ipureintro; exact View.read_writes_of_cover _ _ _ _ _ (scover0_C_3 c _ _ _ _ _ _ _ _ _ _ _ _ _ _ _ _ _ _ _ _ _ _ _ _ _ _ _ _ _ _ _)
  isplitl [Ho]; · iexact Ho
  isplitl [H0]; · iexact H0
  isplitl [H1]; · iexact H1
  isplitl [H2]; · iexact H2
  isplitl [H3]; · iexact H3
  isplitl [H4]
  · unfold owns; iexists _; isplitr
    swap; · iexact H4
    ipureintro; exact View.read_writes_of_cover _ _ _ _ _ (cover0_C_4 c _ _ _ _ _ _ _ _ _ _ _ _ _ _ _ _ _ _ _ _ _ _ _ _ _ _ _ _ _ _ _)
  unfold owns; iexists _; isplitr
  swap; · iexact H5
  ipureintro; exact View.read_writes_of_cover _ _ _ _ _ (cover0_C_5 c _ _ _ _ _ _ _ _ _ _ _ _ _ _ _ _ _ _ _ _ _ _ _ _ _ _ _ _ _ _ _)

/-- The body at any point: the closed forms of the two conditions say which case the point is in. -/
theorem sound_body (c : Dev nD) (t : Fin cfg0.N) :
    bodyPre m c t ⊢ wp frame (wpE (defs₀ (F := F)) Variants.none c none) Set.univ (bodyAt0 t) (fun _ => bodyPost m c t) := by
  by_cases h0 : t.val % 16 = 0
  · by_cases h1 : t.val % 16 = 15
    · exfalso; omega
    · exact sound_body_A m c t h0 h1
  · by_cases h1 : t.val % 16 = 15
    · exact sound_body_C m c t h0 h1
    · exact sound_body_B m c t h0 h1

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region (the scoped rest) is the invariant before the first point. -/
theorem hin0 (c : Dev nD) : Pipeline.scopedRest spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives the scoped rest back: the scratch's named contents are forgotten. -/
theorem Phi_out (c : Dev nD) (t : Fin (cfg0.N + 1)) (ht : t.val ≠ 0) : (dats m 0 c).Φ t ⊢ Pipeline.scopedRest spec0 c := by
  rw [show (dats m 0 c).Φ t = PhiS m c t.val (Nat.le_of_lt_succ t.isLt) from rfl, PhiS_pos m c _ _ ht, scopedRest0_owns]
  iintro ⟨HS0, HS1, HS2, HS3⟩
  isplitl [HS0]; · iexists _; iexact HS0
  isplitl [HS1]; · iexists _; iexact HS1
  isplitl [HS2]; · iexists _; iexact HS2
  iexists _; iexact HS3

/-- The same after the last point. -/
theorem hout0 (c : Dev nD) : (dats m 0 c).Φ (Fin.last cfg0.N) ⊢ Pipeline.scopedRest spec0 c :=
  Phi_out m c _ (by rw [Fin.val_last]; have : cfg0.N = 256 := N_0; omega)

end Cert.Kernel.Body

end
-- ==== Proof.KLaunch.lean ====
/-
  The run of the kernel's @main as three segments: three host operations (the cast of the embeddings and the two
  reshapes of the labels), the kernel region, five host operations (the two sums over the outputs and their quotient).
  Windows 0 and 1 of the region read ONE array, the cast embeddings: a row block and a column block of the same matrix.
  Each window therefore holds half of that array while the region runs; the halves are split off at the region's entry and
  rejoined at its exit, the array being only read in between. Everything is stated for proof data `dats` of which only
  the entry contents, the shares, that nothing is owed, the body obligation and the two ends of the invariant are assumed.
-/
import proofs.«167906_j2405181686310_1_alg».proof.Proof.Gen.Kernel.Launch
import proofs.«167906_j2405181686310_1_alg».proof.Proof.Gen.Kernel.Points
import proofs.«167906_j2405181686310_1_alg».proof.Proof.KRuns
import Idealize.ShloMosaic.Lib.Pipeline.Regions
import Idealize.ShloMosaic.Lib.Pipeline.Frame

noncomputable section

namespace Cert.Kernel.Launch

open Cert.Kernel Cert.Kernel.Gen Cert.Kernel.Body
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers behind the six windows are five: windows 0 and 1 read one array. -/
theorem arrBufs0_eq (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_v0) ↦{fullShare} W main_v0) ∗ (((c : Thread nD τ).loc main_v1) ↦{fullShare} W main_v1)
          ∗ (((c : Thread nD τ).loc main_v2) ↦{fullShare} W main_v2) ∗ (((c : Thread nD τ).loc main_v3_0) ↦{fullShare} W main_v3_0)
          ∗ (((c : Thread nD τ).loc main_v3_1) ↦{fullShare} W main_v3_1)) := by
  unfold Pipeline.arrBufs
  exact bigSep_eq_bigSepL_of_eq [main_v0, main_v1, main_v2, main_v3_0, main_v3_1] (by decide) (by decide) _

section Data

variable (dats : (p : Fin 1) → (c : Dev nD) → Dat τ (Elt F) Unit ℕ (UR sig nD τ) ℕ cfg0 c)

/-- The pipeline's arrays, window by window: windows 0 and 1 each hold half of `main_v0`, the others their array whole. -/
theorem arrays0_eq (c : Dev nD)
    (hq : ∀ w : Fin 6, (dats 0 c).q w = match w with | ⟨0, _⟩ => fullShare.left | ⟨1, _⟩ => fullShare.right | ⟨2, _⟩ => fullShare | ⟨3, _⟩ => fullShare | ⟨4, _⟩ => fullShare | ⟨5, _⟩ => fullShare)
    (Fw : (w : Fin cfg0.W) → Buf (Elt F) ((cfg0.win w).arr.view.loc (c : Thread nD τ))) :
    ((dats 0 c).arrays Fw : sProp 𝕄)
      = iprop((((c : Thread nD τ).loc main_v0) ↦{fullShare.left} Fw 0) ∗ (((c : Thread nD τ).loc main_v0) ↦{fullShare.right} Fw 1)
          ∗ (((c : Thread nD τ).loc main_v1) ↦{fullShare} Fw 2) ∗ (((c : Thread nD τ).loc main_v2) ↦{fullShare} Fw 3)
          ∗ (((c : Thread nD τ).loc main_v3_0) ↦{fullShare} Fw 4) ∗ (((c : Thread nD τ).loc main_v3_1) ↦{fullShare} Fw 5)) := by
  unfold Dat.arrays
  rw [bigSep_W0]
  have h0 : (dats 0 c).share 0 = fullShare.left := by unfold Dat.share; rw [if_neg (by decide)]; exact hq 0
  have h1 : (dats 0 c).share 1 = fullShare.right := by unfold Dat.share; rw [if_neg (by decide)]; exact hq 1
  have h2 : (dats 0 c).share 2 = fullShare := by unfold Dat.share; rw [if_neg (by decide)]; exact hq 2
  have h3 : (dats 0 c).share 3 = fullShare := by unfold Dat.share; rw [if_neg (by decide)]; exact hq 3
  have h4 : (dats 0 c).share 4 = fullShare := by unfold Dat.share; rw [if_pos (by decide)]
  have h5 : (dats 0 c).share 5 = fullShare := by unfold Dat.share; rw [if_pos (by decide)]
  rw [h0, h1, h2, h3, h4, h5, (arr_whole0 0).set_eq_univ, (arr_whole0 2).set_eq_univ, (arr_whole0 3).set_eq_univ,
    (arr_whole0 4).set_eq_univ, (arr_whole0 5).set_eq_univ]

end Data

section Run

variable (dats : (p : Fin 1) → (c : Dev nD) → Dat τ (Elt F) Unit ℕ (UR sig nD τ) ℕ cfg0 c)

abbrev 𝒱₀ : Variants := Variants.none
abbrev Lset : GSem nD τ sig → Finset Unit := fun _ => ∅
abbrev lv : GSem nD τ sig → Unit → ℕ := fun _ _ => 0
abbrev adm : (p : Fin 1) → (pcfgs (F := F) p).Adm := fun p => (cfgs p).toPCfg_adm

/-- What rides beside the buffers between the segments: the core owes nothing. -/
abbrev R (c : Dev nD) : sProp 𝕄 := iprop(∃ W, owes (c : Thread nD τ) (0 : CellTallies nD τ sig Unit) W)

/-- The three host operations before the region, over the unscoped buffers. -/
def seg0 : Pipeline.HostSeg (Name := ℕ) (U := UR sig nD τ) (pcfgs (F := F)) defs₀ 𝒱₀ Lset lv :=
  Pipeline.HostSeg.ofOps _ _ _ _ _ (Pipeline.ucRefs τ sig) hostOps0 (fun op h => Pipeline.sub_ucRefs op ((List.forall_iff_forall_mem.mp hostOps0_sub) op h))
    (by intro _ h; (repeat (cases h with | head => rfl | tail _ h => ?_)); exact nomatch h) (fun c b => m (c, b)) R

/-- What the unscoped buffers hold when the region is left: the two output arrays at what the write-backs made of them,
    every other buffer as the region found it. -/
def Vx (c : Dev nD) : Valuation τ sig (Elt F) :=
  Function.update (Function.update (V0 m c) (Proc.devRef .tc main_v3_0) ((dats 0 c).arrAt 4 cfg0.N))
    (Proc.devRef .tc main_v3_1) ((dats 0 c).arrAt 5 cfg0.N)

/-- The five host operations after the region. -/
def seg1 : Pipeline.HostSeg (Name := ℕ) (U := UR sig nD τ) (pcfgs (F := F)) defs₀ 𝒱₀ Lset lv :=
  Pipeline.HostSeg.ofOps _ _ _ _ _ (Pipeline.ucRefs τ sig) hostOps1 (fun op h => Pipeline.sub_ucRefs op ((List.forall_iff_forall_mem.mp hostOps1_sub) op h))
    (by intro _ h; (repeat (cases h with | head => rfl | tail _ h => ?_)); exact nomatch h) (Vx m dats) R

variable (hA : ∀ c w, (dats 0 c).A w = V m c (Pipeline.arrRef spec0 w))
  (hq : ∀ c (w : Fin 6), (dats 0 c).q w = match w with | ⟨0, _⟩ => fullShare.left | ⟨1, _⟩ => fullShare.right | ⟨2, _⟩ => fullShare | ⟨3, _⟩ => fullShare | ⟨4, _⟩ => fullShare | ⟨5, _⟩ => fullShare)

include hA hq in
/-- ENTRY: the five buffers behind the windows make the pipeline's arrays at their entry contents, `main_v0` split into the
    two halves windows 0 and 1 hold. -/
theorem entry_arrays (c : Dev nD) :
    (Pipeline.arrBufs (Ix := Unit) (Name := ℕ) (U := UR sig nD τ) (Lvl := ℕ) spec0 c (V m c) : sProp 𝕄) ⊢ (dats 0 c).arrays ((dats 0 c).arrAt · 0) := by
  rw [arrBufs0_eq, arrays0_eq dats c (hq c)]
  have e0 : (dats 0 c).arrAt 0 0 = V m c main_v0 := hA c 0
  have e1 : (dats 0 c).arrAt 1 0 = V m c main_v0 := hA c 1
  have e2 : (dats 0 c).arrAt 2 0 = V m c main_v1 := hA c 2
  have e3 : (dats 0 c).arrAt 3 0 = V m c main_v2 := hA c 3
  have e4 : (dats 0 c).arrAt 4 0 = V m c main_v3_0 := hA c 4
  have e5 : (dats 0 c).arrAt 5 0 = V m c main_v3_1 := hA c 5
  rw [e0, e1, e2, e3, e4, e5]
  iintro ⟨H0, H1, H2, H3, H4⟩
  ihave H0' := (pointsTo_share (PosShare.mem_left_op_right fullShare)).1 $$ H0
  icases H0' with ⟨H0l, H0r⟩
  isplitl [H0l]; · iexact H0l
  isplitl [H0r]; · iexact H0r
  isplitl [H1]; · iexact H1
  isplitl [H2]; · iexact H2
  isplitl [H3]; · iexact H3
  iexact H4

variable (howed : ∀ c t, (dats 0 c).owed t = 0) (hrec : ∀ c t, (dats 0 c).recorded t = Set.univ)
  (hbody : ∀ c, BodyObligation (dats 0 c) (defs₀ (F := F)) Variants.none () Set.univ)
  (hin : ∀ c, (Pipeline.scopedRest (Ix := Unit) (Name := ℕ) (U := UR sig nD τ) (Lvl := ℕ) (Val := Elt F) spec0 c : sProp (MT nD τ sig Unit (Elt F) ℕ (UR sig nD τ) ℕ)) ⊢ (dats 0 c).Φ 0)
  (hout : ∀ c, (dats 0 c).Φ (Fin.last cfg0.N) ⊢ (Pipeline.scopedRest (Ix := Unit) (Name := ℕ) (U := UR sig nD τ) (Lvl := ℕ) (Val := Elt F) spec0 c : sProp (MT nD τ sig Unit (Elt F) ℕ (UR sig nD τ) ℕ)))

/-- A buffer that is neither output array holds at the region's exit what it held at its entry. -/
theorem Vx_of_ne (c : Dev nD) (b : Ref sig .tc) (h4 : b ≠ main_v3_0) (h5 : b ≠ main_v3_1) :
    Vx m dats c (Proc.devRef .tc b) = V m c b := by
  unfold Vx
  rw [Function.update_of_ne (StableHlo.devRef_ne_of_ne h5), Function.update_of_ne (StableHlo.devRef_ne_of_ne h4)]

theorem Vx_out4 (c : Dev nD) : Vx m dats c (Proc.devRef .tc main_v3_0) = (dats 0 c).arrAt 4 cfg0.N := by
  unfold Vx
  rw [Function.update_of_ne (StableHlo.devRef_ne_of_ne (by decide)), Function.update_self]

theorem Vx_out5 (c : Dev nD) : Vx m dats c (Proc.devRef .tc main_v3_1) = (dats 0 c).arrAt 5 cfg0.N := by
  unfold Vx
  rw [Function.update_self]

include hA hq in
/-- EXIT: the pipeline's arrays at their final contents and the bypassing buffers are the unscoped buffers at the exit
    valuation — the two halves of `main_v0`, both still at its entry contents, rejoined. -/
theorem exit_bufs (c : Dev nD) :
    iprop(((dats 0 c).arrays ((dats 0 c).arrAt · cfg0.N) : sProp 𝕄) ∗ Pipeline.unscopedRest (Ix := Unit) (Name := ℕ) (U := UR sig nD τ) (Lvl := ℕ) spec0 c (V m c))
      ⊢ StableHlo.held (c : Thread nD τ) (Pipeline.ucRefs τ sig) (Vx m dats c) := by
  rw [← Pipeline.unscopedBufs_held c (Vx m dats c), Pipeline.unscopedBufs_split₀ cfgs 0 (fun w => by revert w; decide) c,
    arrBufs0_eq, arrays0_eq dats c (hq c), unscopedRest0_eq, unscopedRest0_eq]
  have e0 : (dats 0 c).arrAt 0 cfg0.N = V m c main_v0 := ((dats 0 c).arrAt_in 0 rfl _).trans (hA c 0)
  have e1 : (dats 0 c).arrAt 1 cfg0.N = V m c main_v0 := ((dats 0 c).arrAt_in 1 rfl _).trans (hA c 1)
  have e2 : (dats 0 c).arrAt 2 cfg0.N = V m c main_v1 := ((dats 0 c).arrAt_in 2 rfl _).trans (hA c 2)
  have e3 : (dats 0 c).arrAt 3 cfg0.N = V m c main_v2 := ((dats 0 c).arrAt_in 3 rfl _).trans (hA c 3)
  rw [e0, e1, e2, e3, Vx_out4, Vx_out5,
    Vx_of_ne m dats c main_v0 (by decide) (by decide), Vx_of_ne m dats c main_v1 (by decide) (by decide), Vx_of_ne m dats c main_v2 (by decide) (by decide),
    Vx_of_ne m dats c main_arg0 (by decide) (by decide), Vx_of_ne m dats c main_arg1 (by decide) (by decide), Vx_of_ne m dats c main_cst (by decide) (by decide),
    Vx_of_ne m dats c main_v4 (by decide) (by decide), Vx_of_ne m dats c main_cst_0 (by decide) (by decide), Vx_of_ne m dats c main_v5 (by decide) (by decide),
    Vx_of_ne m dats c main_v6 (by decide) (by decide)]
  iintro ⟨⟨H0l, H0r, H1, H2, H3, H4⟩, HZ⟩
  isplitr [HZ]; swap; · iexact HZ
  isplitl [H0l H0r]
  · iapply (pointsTo_share (PosShare.mem_left_op_right fullShare)).2
    isplitl [H0l] <;> iassumption
  isplitl [H1]; · iexact H1
  isplitl [H2]; · iexact H2
  isplitl [H3]; · iexact H3
  iexact H4

set_option backward.isDefEq.respectTransparency.types false in
/-- THE REGION: its layout (two windows on one array), no semaphore of its own, the body obligation; entered from what the
    first host segment left, left with the unscoped buffers at the exit valuation. -/
def reg0 : Pipeline.RegionSeg (pcfgs (F := F)) adm dats () defs₀ 𝒱₀ Lset lv 0 where
  win := winFacts₀0
  block_pos := block_pos0
  stage_whole := stage_whole0
  K := PEmpty
  osem := fun k => k.elim
  ho := Pipeline.OwnSemFacts.none spec0
  hbody c := (hbody c).loose
  hwaits := Pipeline.hwaits_of_owed_zero _ _ _ _ Lset lv 0 howed
  pre c := iprop(StableHlo.held (c : Thread nD τ) (Pipeline.ucRefs τ sig) (V0 m c) ∗ R c)
  post c := iprop(StableHlo.held (c : Thread nD τ) (Pipeline.ucRefs τ sig) (Vx m dats c) ∗ R c)
  X c := iprop(emp)
  Y c := iprop(emp)
  Z c := Pipeline.unscopedRest (Ix := Unit) (Name := ℕ) (U := UR sig nD τ) (Lvl := ℕ) spec0 c (V m c)
  hentry c := by
    rw [← Pipeline.unscopedBufs_held c (V0 m c), Pipeline.unscopedBufs_split₀ cfgs 0 (fun w => by revert w; decide) c]
    iintro ⟨⟨⟨Ha, Hr⟩, HO⟩, -, -⟩
    ihave Ha' := (entry_arrays m dats hA hq c) $$ Ha
    imodintro
    isplitl [Ha']; · iexact Ha'
    isplitr; · unfold Pipeline.prefHeld; rw [show (Finset.univ : Finset (Fin 0)) = ∅ from rfl, BI.bigSep_empty]; iempintro
    isplitl [HO]
    · unfold Pipeline.Dat.owesAt Pipeline.owesWithin
      rw [howed c 0]
      icases HO with ⟨%W, HO⟩; iexists W; isplitr; · ipureintro; exact fun _ _ => Or.inl (by rw [hrec]; trivial)
      iexact HO
    isplitr; · iempintro
    iexact Hr
  hin c := by
    iintro ⟨-, -, Hr⟩
    iapply (hin c); iexact Hr
  hout c := by
    rw [Pipeline.ownSems0_none]
    iintro H
    ihave Hr := (hout c) $$ H
    isplitr; · iempintro
    isplitr; · iempintro
    iexact Hr
  hexit c := by
    iintro ⟨Ha, HO, -, HZ⟩
    imodintro
    isplitr [HO]
    · iapply (exit_bufs m dats hA hq c)
      isplitl [Ha] <;> iassumption
    · unfold Pipeline.Dat.owesAt Pipeline.owesWithin
      rw [howed c (Fin.last cfg0.N)]
      icases HO with ⟨%W, -, HO⟩; iexists W; iexact HO

/-- @main as its three segments. -/
abbrev segs : List (Pipeline.Seg (pcfgs (F := F)) adm dats () defs₀ 𝒱₀ Lset lv) :=
  [.host (seg0 m), .region (reg0 m dats hA hq howed hrec hbody hin hout), .host (seg1 m dats)]

/-- What the unscoped buffers hold at the end: the five host operations after the region, from the exit valuation. -/
abbrev Wfin (c : Dev nD) : Valuation τ sig (Elt F) := StableHlo.after hostOps1 (Vx m dats c)

include hA hq howed hrec hbody hin hout in
set_option backward.isDefEq.respectTransparency.types false in
/-- THE RUN. At the compiled mesh, from any memory with zero counters: every weakly fair execution of @main terminates,
    nothing faulting, and every unscoped buffer ends at `Wfin`. -/
theorem run_main : θ_run defs (onTc (τ := τ) (main (F := F))) ⟨m, fun _ => 0, ρ⟩
    (fun r => ∀ c : Dev nD, ∀ b ∈ Pipeline.ucRefs τ sig, r.2.mem ((c : Dev nD), b) = Wfin m dats c b) :=
  Pipeline.θ_run_regions_kit (pcfgs (F := F)) adm dats () cellOf_inj emb₁ defs₀ 𝒱₀ Lset lv m ρ main (segs m dats hA hq howed hrec hbody hin hout)
    (fun c Q => by rw [main_segs adm dats () 𝒱₀ Lset lv (seg0 m) (seg1 m dats) (reg0 m dats hA hq howed hrec hbody hin hout) rfl rfl c])
    (by simp only [Pipeline.Seg.pipes_host, Pipeline.Seg.pipes_region, Pipeline.Seg.pipes_nil]; decide) (O₀ := 0) (hL := fun _ _ => rfl) (G := fun _ => iprop(emp))
    (u₀ := initOf (Pipeline.cells (Pipeline.pin (pcfgs (F := F)) adm) cellOf_inj) (Pipeline.launchToks (Pipeline.pin (pcfgs (F := F)) adm) cellOf_inj))
    (hu₀ := by
      iintro Hu; imodintro
      isplitl [Hu]
      · iapply (show (ownU _ : sProp 𝕄) ⊢ BI.own (emb₁ (initOf (Pipeline.cells (Pipeline.pin (pcfgs (F := F)) adm) cellOf_inj) (Pipeline.launchToks (Pipeline.pin (pcfgs (F := F)) adm) cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (fun b => m (c, b)) ∗ R c))
    (Tₙ := fun c => StableHlo.held (c : Thread nD τ) (Pipeline.ucRefs τ sig) (Wfin m dats c))
    (hch := ⟨fun _ => .rfl, fun _ => .rfl, fun _ => .rfl, fun _ => .rfl⟩)
    (hinit := by
      refine Pipeline.initEach Lset lv fun c => ?_
      rw [show unscopedBufs c (fun b => m ((c : Thread nD τ).loc b)) = StableHlo.held (c : Thread nD τ) (Pipeline.ucRefs τ sig) (fun b => m (c, b)) from Pipeline.unscopedBufs_held c (fun b => m (c, b))]
      iintro ⟨⟨Hh, -, HO, -, -, -⟩, -⟩
      imodintro
      isplitl [Hh]; · iexact Hh
      iexists ∅; iexact HO)
    (QY := fun c s => ∀ b ∈ Pipeline.ucRefs τ sig, s.mem ((c : Dev nD), b) = Wfin m dats c b)
    (hfin := fun c s' => by
      unfold StableHlo.held
      iintro ⟨Hh, HSI⟩
      ihave Hr := (pointsTo_read_all (Pipeline.ucRefs τ sig) (fun b => ((c : Dev nD), b)) (Wfin m dats c) s') $$ [Hh HSI]
      · isplitl [Hh] <;> iassumption
      icases Hr with ⟨%h, HSI⟩
      imodintro
      isplitr; · ipureintro; exact h
      iexact HSI)
    (hQ := fun _ h => h)

end Run

end Cert.Kernel.Launch

end
-- ==== Proof.KTail.lean ====
/-
  What @main's buffers hold at the end of the kernel's run: the two arguments are written by no operation, and
  the result is the quotient of the sum of the first output array by the sum of the second.
-/
import proofs.«167906_j2405181686310_1_alg».proof.Proof.KLaunch

noncomputable section

namespace Cert.Kernel.Launch

open Cert.Kernel Cert.Kernel.Gen Cert.Kernel.Body
open Idealize.ShloMosaic Idealize.ShloMosaic.TcCoe
open Idealize.SL Idealize.SL.Sem
open Idealize.ShloMosaic.Pipeline (Dat Cfg Window BodyObligation cellOf)

variable {F : FTy → Type} [FloatOps F]

variable (m : (ℓ : Loc nD τ sig) → Buf (Elt F) ℓ) (ρ : Dev nD → PrngReg)
variable (dats : (p : Fin 1) → (c : Dev nD) → Dat τ (Elt F) Unit ℕ (UR sig nD τ) ℕ cfg0 c)

/-- The operations before the region write only the cast embeddings and the two reshaped label arrays. -/
theorem hostOps0_keeps (b : Ref sig .tc) (hb : b ≠ main_v0 ∧ b ≠ main_v1 ∧ b ≠ main_v2) :
    ∀ op ∈ (hostOps0 (F := F)), Proc.devRef .tc b ∉ op.writes := by
  obtain ⟨h0, h1, h2⟩ := hb
  intro op hop
  simp only [List.mem_cons, List.mem_nil_iff, or_false] at hop
  rcases hop with rfl | rfl | rfl <;>
    simp only [StableHlo.unary_writes, StableHlo.reshape_writes, Finset.mem_singleton] <;>
    exact StableHlo.devRef_ne_of_ne ‹_›

/-- The operations after the region write only the two zeros, the two sums and the quotient. -/
theorem hostOps1_keeps (b : Ref sig .tc) (hb : b ≠ main_cst ∧ b ≠ main_v4 ∧ b ≠ main_cst_0 ∧ b ≠ main_v5 ∧ b ≠ main_v6) :
    ∀ op ∈ (hostOps1 (F := F)), Proc.devRef .tc b ∉ op.writes := by
  obtain ⟨h0, h1, h2, h3, h4⟩ := hb
  intro op hop
  simp only [List.mem_cons, List.mem_nil_iff, or_false] at hop
  rcases hop with rfl | rfl | rfl | rfl | rfl <;>
    simp only [StableHlo.nullary_writes, StableHlo.binary_writes, Finset.mem_singleton] <;>
    exact StableHlo.devRef_ne_of_ne ‹_›

/-- A buffer no operation of @main writes and no window writes back ends as launched. -/
theorem Wfin_kept (c : Dev nD) (b : Ref sig .tc)
    (hb : b ≠ main_v0 ∧ b ≠ main_v1 ∧ b ≠ main_v2 ∧ b ≠ main_v3_0 ∧ b ≠ main_v3_1 ∧ b ≠ main_cst ∧ b ≠ main_v4 ∧ b ≠ main_cst_0 ∧ b ≠ main_v5 ∧ b ≠ main_v6) :
    Wfin m dats c (Proc.devRef .tc b) = m ((c : Thread nD τ).loc b) := by
  obtain ⟨h0, h1, h2, h3, h4, h5, h6, h7, h8, h9⟩ := hb
  exact (StableHlo.after_of_forall_not_mem (b := Proc.devRef .tc b) hostOps1 (Vx m dats c) (hostOps1_keeps b ⟨h5, h6, h7, h8, h9⟩)).trans
    ((Vx_of_ne m dats c b h3 h4).trans
      (StableHlo.after_of_forall_not_mem (b := Proc.devRef .tc b) hostOps0 (fun b => m (c, b)) (hostOps0_keeps b ⟨h0, h1, h2⟩)))

/-- The result: the sum of the first output array over the sum of the second. -/
theorem Wfin_v6 (c : Dev nD) :
    Wfin m dats c (Proc.devRef .tc main_v6)
      = Host.divf (Host.reduceAdd ((dats 0 c).arrAt 4 cfg0.N) (constant (F := F) S_ .f32 0x00000000#32) reducesTo_S8192x1_S_d0_1 h_S_)
          (Host.reduceAdd ((dats 0 c).arrAt 5 cfg0.N) (constant (F := F) S_ .f32 0x00000000#32) reducesTo_S8192x1_S_d0_1 h_S_) := by
  show StableHlo.after hostOps1 (Vx m dats c) (Proc.devRef .tc main_v6) = _
  after_results
  rw [Vx_out4, Vx_out5]

end Cert.Kernel.Launch

end
-- ==== Proof.KRun.lean ====
/-
  The kernel's run with its proof data: the frame (the arguments end unchanged) at any float instance, and the
  run that names the result — the quotient of the sums of the two output arrays as the write-backs left them.
-/
import proofs.«167906_j2405181686310_1_alg».proof.Proof.KFrame
import proofs.«167906_j2405181686310_1_alg».proof.Proof.KTail

noncomputable section

namespace Cert.Kernel.Launch

open Cert.Kernel Cert.Kernel.Gen Cert.Kernel.Body
open Idealize.ShloMosaic Idealize.ShloMosaic.TcCoe
open Idealize.SL Idealize.SL.Sem
open Idealize.ShloMosaic.Pipeline (Dat Cfg Window BodyObligation cellOf)

variable {F : FTy → Type} [FloatOps F]

variable (m : (ℓ : Loc nD τ sig) → Buf (Elt F) ℓ) (ρ : Dev nD → PrngReg)

/-- Every unscoped buffer's final contents, with the body's proof data. -/
theorem run_all : θ_run defs (onTc (τ := τ) (main (F := F))) ⟨m, fun _ => 0, ρ⟩
    (fun r => ∀ c : Dev nD, ∀ b ∈ Pipeline.ucRefs τ sig, r.2.mem ((c : Dev nD), b) = Wfin m (dats m) c b) :=
  run_main m ρ (dats m) (A_eq m) (fun _ _ => rfl) (fun _ _ => rfl) (fun _ _ => rfl) (body_obligation m) (hin0 m) (hout0 m)

theorem mem_ucRefs (b : Ref sig .tc) (h : b.isScoped = false) : Proc.devRef .tc b ∈ Pipeline.ucRefs τ sig := by
  unfold Pipeline.ucRefs StableHlo.tcRefs
  simp only [Finset.mem_filter, Finset.mem_map, Finset.mem_univ, true_and]
  exact ⟨⟨b, rfl⟩, by simp [h]⟩

/-- THE FRAME, at any float instance: @main terminates, nothing faulting, and both arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_ucRefs main_arg0 rfl)).trans (Wfin_kept m (dats m) c main_arg0 (by decide)),
     (h c _ (mem_ucRefs main_arg1 rfl)).trans (Wfin_kept m (dats m) c main_arg1 (by decide))⟩) (run_all m ρ)

/-- THE RUN WITH ITS RESULT NAMED: besides the frame, the result buffer ends at the sum of the first output array over the
    sum of the second. -/
theorem run_value : θ_run defs (onTc (τ := τ) (main (F := F))) ⟨m, fun _ => 0, ρ⟩ (fun r => ∀ c : Dev nD,
      r.2.mem ((c.tc : Thread nD τ).loc main_v6)
          = Host.divf (Host.reduceAdd ((dats m 0 c).arrAt 4 cfg0.N) (constant (F := F) S_ .f32 0x00000000#32) reducesTo_S8192x1_S_d0_1 h_S_)
              (Host.reduceAdd ((dats m 0 c).arrAt 5 cfg0.N) (constant (F := F) S_ .f32 0x00000000#32) reducesTo_S8192x1_S_d0_1 h_S_)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_ucRefs main_v6 rfl)).trans (Wfin_v6 m (dats m) c),
     (h c _ (mem_ucRefs main_arg0 rfl)).trans (Wfin_kept m (dats m) c main_arg0 (by decide)),
     (h c _ (mem_ucRefs main_arg1 rfl)).trans (Wfin_kept m (dats m) c main_arg1 (by decide))⟩) (run_all m ρ)

end Cert.Kernel.Launch

end
-- ==== Proof.IRuns.lean ====
import proofs.«167906_j2405181686310_1_alg».proof.Proof.Gen.KernelIdeal.Launch
import proofs.«167906_j2405181686310_1_alg».proof.Proof.Gen.KernelIdeal.Skeleton
import proofs.«167906_j2405181686310_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The arrays as the region finds them -/

/-- Core `c`'s buffer contents when the region is entered, as a valuation: the initial memory after the three host
    operations before the region (the conversion of the embeddings to bf16, the two reshapes of the labels). -/
abbrev V0 (c : Dev nD) : Valuation τ sig (Elt F) := StableHlo.after hostOps0 (fun b => m (c, b))
/-- The same read at a TensorCore reference. -/
abbrev V (c : Dev nD) (b : Ref sig .tc) : Buf (Elt F) ((c : Thread nD τ).loc b) := V0 m c (Proc.devRef .tc b)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for any proof
    data whose array is the region-entry contents and whose body leaves the block in place: unfetched, the block
    index has not moved, so the block the buffer still holds is this point's. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not, for any proof
    data whose array is the region-entry contents and whose body leaves the block in place: unfetched, the block
    index has not moved, so the block the buffer still holds is this point's. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not, for any proof
    data whose array is the region-entry contents and whose body leaves the block in place: unfetched, the block
    index has not moved, so the block the buffer still holds is this point's. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not, for any proof
    data whose array is the region-entry contents and whose body leaves the block in place: unfetched, the block
    index has not moved, so the block the buffer still holds is this point's. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's two branch conditions -/

/-- The condition of the reset branch, from the grid coordinates: the column-tile coordinate is 0. -/
abbrev cond0_0 (i : grid0.Coords) : Prop := (Scalar.cmpi .ne (Scalar.extui (Scalar.cmpi .eq (BitVec.ofNat 32 (i 1).val) 0#32)) 0#32) = 1#1
/-- It holds at the points ≡ 0 (mod 16): decided over the grid. -/
theorem hcond0_0 : ∀ t : Fin cfg0.N, cond0_0 (grid0.coords t) ↔ t.val % 16 = 0 :=
  (by decide +kernel : ∀ t : Fin grid0.N, cond0_0 (grid0.coords t) ↔ t.val % 16 = 0)

/-- The condition of the final branch: the column-tile coordinate is the last one. -/
abbrev cond0_1 (i : grid0.Coords) : Prop := k0_cond2 i = 1#1
/-- It holds at the points ≡ 15 (mod 16): decided over the grid. -/
theorem hcond0_1 : ∀ t : Fin cfg0.N, cond0_1 (grid0.coords t) ↔ t.val % 16 = 15 :=
  (by decide +kernel : ∀ t : Fin grid0.N, cond0_1 (grid0.coords t) ↔ t.val % 16 = 15)

/-! ## Where the windows are idle -/

/-- The four input windows are never idle. -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
/-- In the first case (reset taken, final block not) nothing is stored into output window 4: the window is idle there -/
theorem idleAt0_4_A : ∀ t : Fin cfg0.N, cond0_0 (grid0.coords t) → ¬cond0_1 (grid0.coords t) → cfg0.idle 4 (grid0.coords t) = true := by decide +kernel
/-- and its block is not written back. -/
theorem noFlush0_4_A : ∀ t : Fin cfg0.N, cond0_0 (grid0.coords t) → ¬cond0_1 (grid0.coords t) → (cfg0.win 4).flush t = false := by decide +kernel
/-- In the middle case (neither taken) output window 4 is idle -/
theorem idleAt0_4_B : ∀ t : Fin cfg0.N, ¬cond0_0 (grid0.coords t) → ¬cond0_1 (grid0.coords t) → cfg0.idle 4 (grid0.coords t) = true := by decide +kernel
/-- and not written back. -/
theorem noFlush0_4_B : ∀ t : Fin cfg0.N, ¬cond0_0 (grid0.coords t) → ¬cond0_1 (grid0.coords t) → (cfg0.win 4).flush t = false := by decide +kernel
/-- In the last case (final block taken) output window 4 is stored into: live. -/
theorem liveAt0_4_C : ∀ t : Fin cfg0.N, ¬cond0_0 (grid0.coords t) → cond0_1 (grid0.coords t) → cfg0.idle 4 (grid0.coords t) = false := by decide +kernel

/-- In the first case (reset taken, final block not) nothing is stored into output window 5: the window is idle there -/
theorem idleAt0_5_A : ∀ t : Fin cfg0.N, cond0_0 (grid0.coords t) → ¬cond0_1 (grid0.coords t) → cfg0.idle 5 (grid0.coords t) = true := by decide +kernel
/-- and its block is not written back. -/
theorem noFlush0_5_A : ∀ t : Fin cfg0.N, cond0_0 (grid0.coords t) → ¬cond0_1 (grid0.coords t) → (cfg0.win 5).flush t = false := by decide +kernel
/-- In the middle case (neither taken) output window 5 is idle -/
theorem idleAt0_5_B : ∀ t : Fin cfg0.N, ¬cond0_0 (grid0.coords t) → ¬cond0_1 (grid0.coords t) → cfg0.idle 5 (grid0.coords t) = true := by decide +kernel
/-- and not written back. -/
theorem noFlush0_5_B : ∀ t : Fin cfg0.N, ¬cond0_0 (grid0.coords t) → ¬cond0_1 (grid0.coords t) → (cfg0.win 5).flush t = false := by decide +kernel
/-- In the last case (final block taken) output window 5 is stored into: live. -/
theorem liveAt0_5_C : ∀ t : Fin cfg0.N, ¬cond0_0 (grid0.coords t) → cond0_1 (grid0.coords t) → cfg0.idle 5 (grid0.coords t) = false := by decide +kernel

/-! ## The staging and scratch memrefs -/

/-- One staging buffer of each output window, through which its contents are stated (the choice does not matter). -/
abbrev VO0_4 : View sig .tc .vmem S512x1 .f32 := (Memref.whole cc0_stg4_0 : Memref sig .tc .vmem S512x1 .f32).view
abbrev VO0_5 : View sig .tc .vmem S512x1 .f32 := (Memref.whole cc0_stg5_0 : Memref sig .tc .vmem S512x1 .f32).view
/-- Each window's current staging memref at point `t`, spelled as the pipeline passes it, and its wholeness. -/
abbrev ms0_0 (t : Fin cfg0.N) : Memref sig .tc .vmem S512x256 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x256 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x1 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x512 .i32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x1 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x1 .f32 := win0_5.stage (cfg0.slots t 5)
abbrev hs0_5 (t : Fin cfg0.N) : (ms0_5 t).IsWhole := hstage0_5 ((cfg0.slots t 5).cast nbuf0_5)
/-- The four scratch operands (running maximum, running denominator, sum of positive similarities, count of
    positives): whole scoped buffers of the kernel's own, passed beside the windows. -/
abbrev scM0_0 : Memref sig .tc .vmem S512x1 .f32 := Memref.whole cc0_scratch0
abbrev scM0_1 : Memref sig .tc .vmem S512x1 .f32 := Memref.whole cc0_scratch1
abbrev scM0_2 : Memref sig .tc .vmem S512x1 .f32 := Memref.whole cc0_scratch2
abbrev scM0_3 : Memref sig .tc .vmem S512x1 .f32 := Memref.whole cc0_scratch3
/-- The same as views: what each holds is stated through them. -/
abbrev VS0_0 : View sig .tc .vmem S512x1 .f32 := scM0_0.view
abbrev VS0_1 : View sig .tc .vmem S512x1 .f32 := scM0_1.view
abbrev VS0_2 : View sig .tc .vmem S512x1 .f32 := scM0_2.view
abbrev VS0_3 : View sig .tc .vmem S512x1 .f32 := scM0_3.view

/-- The scoped buffers that are no staging buffer are the four scratch operands, each owned whole at some contents:
    what the body obligation hands the run before the first point and takes back after the last. -/
theorem scopedRest0_owns (c : Dev nD) :
    (Pipeline.scopedRest spec0 c : sProp 𝕄)
      = iprop((∃ d, owns (c : Thread nD τ) scM0_0 fullShare d) ∗ (∃ d, owns (c : Thread nD τ) scM0_1 fullShare d)
          ∗ (∃ d, owns (c : Thread nD τ) scM0_2 fullShare d) ∗ (∃ d, owns (c : Thread nD τ) scM0_3 fullShare d)) := by
  rw [scopedRest0_eq]; simp only [scM0_0, scM0_1, scM0_2, scM0_3, owns_whole]; try rfl

end Cert.KernelIdeal.Body

end
-- ==== Proof.IRunA.lean ====
import proofs.«167906_j2405181686310_1_alg».proof.Proof.IRuns

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 1000000 in
/-- The pieces each of the four scratch buffers ends with (last store first) in the FIRST case — the reset branch
    taken, the final branch not (points ≡ 0 mod 16) —, with the proof that on whole memrefs, the inputs at their
    contents, the two outputs at contents handed back untouched, the four scratch at anything (the reset overwrites
    them before anything is read), the body runs to the continuation holding the inputs as they were and each
    scratch with its two pieces written (the reset store, then the update store). -/
noncomputable def kernelRun0_A (c : Dev nD) (i : grid0.Coords)
    (arg2 : Memref sig .tc .vmem S512x256 .bf16) (harg2 : arg2.IsWhole) (arg3 : Memref sig .tc .vmem S512x256 .bf16) (harg3 : arg3.IsWhole)
    (arg4 : Memref sig .tc .vmem S512x1 .i32) (harg4 : arg4.IsWhole) (arg5 : Memref sig .tc .vmem S1x512 .i32) (harg5 : arg5.IsWhole)
    (arg6 : Memref sig .tc .vmem S512x1 .f32) (harg6 : arg6.IsWhole) (arg7 : Memref sig .tc .vmem S512x1 .f32) (harg7 : arg7.IsWhole)
    (arg8 : Memref sig .tc .vmem S512x1 .f32) (harg8 : arg8.IsWhole) (arg9 : Memref sig .tc .vmem S512x1 .f32) (harg9 : arg9.IsWhole)
    (arg10 : Memref sig .tc .vmem S512x1 .f32) (harg10 : arg10.IsWhole) (arg11 : Memref sig .tc .vmem S512x1 .f32) (harg11 : arg11.IsWhole)
    (hc0 : cond0_0 i) (hc1 : ¬cond0_1 i)
    (x0 : Vec F S512x256 .bf16) (x1 : Vec F S512x256 .bf16) (x2 : Vec F S512x1 .i32) (x3 : Vec F S1x512 .i32) :
    Σ' (LS0 : List (View.Piece (Elt F) S512x1 .f32)) (LS1 : List (View.Piece (Elt F) S512x1 .f32)) (LS2 : List (View.Piece (Elt F) S512x1 .f32)),
     { LS3 : List (View.Piece (Elt F) S512x1 .f32) //
      ∀ (xi4 xi5 : Vec F S512x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare xi4 ∗ owns (c : Thread nD τ) arg7 fullShare xi5
            ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3
                ∗ owns (c : Thread nD τ) arg6 fullShare xi4 ∗ owns (c : Thread nD τ) arg7 fullShare xi5
                ∗ (∃ f, arg8.view.loc (c : Thread nD τ) ↦[arg8.view.set]{fullShare} arg8.view.writes (Elt F) f LS0)
                ∗ (∃ f, arg9.view.loc (c : Thread nD τ) ↦[arg9.view.set]{fullShare} arg9.view.writes (Elt F) f LS1)
                ∗ (∃ f, arg10.view.loc (c : Thread nD τ) ↦[arg10.view.set]{fullShare} arg10.view.writes (Elt F) f LS2)
                ∗ (∃ f, arg11.view.loc (c : Thread nD τ) ↦[arg11.view.set]{fullShare} arg11.view.writes (Elt F) f LS3)) -∗ K ⟨⟩))
          ⊢ wp frame (wpE (defs₀ (F := F)) Variants.none c none) E (cc0__contrastive_kernel i arg2 harg2 arg3 harg3 arg4 harg4 arg5 harg5 arg6 harg6 arg7 harg7 arg8 harg8 arg9 harg9 arg10 harg10 arg11 harg11) K } := by
  refine ⟨?_, ?_, ?_, ?_, fun xi4 xi5 E K => ?run⟩
  case run =>
    simp only [cc0__contrastive_kernel_eq_skeleton]; unfold cc0__contrastive_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%ds1, %fs1, -, HS1⟩, ⟨%ds2, %fs2, -, HS2⟩, ⟨%ds3, %fs3, -, HS3⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS0]; · iexists _; iexact HS0
    isplitl [HS1]; · iexists _; iexact HS1
    isplitl [HS2]; · iexists _; iexact HS2
    iexists _; iexact HS3

end Cert.KernelIdeal.Body

end
-- ==== Proof.IRunB.lean ====
import proofs.«167906_j2405181686310_1_alg».proof.Proof.IRunA

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 1000000 in
/-- The pieces each of the four scratch buffers ends with in the MIDDLE case — neither branch taken (points
    ≢ 0, 15 mod 16) —, with the proof that on whole memrefs, the inputs at their contents, the two outputs at
    contents handed back untouched, the four scratch at what the point before left (`xs·`), the body runs to the
    continuation holding the inputs as they were and each scratch with its one piece written (the update store). -/
noncomputable def kernelRun0_B (c : Dev nD) (i : grid0.Coords)
    (arg2 : Memref sig .tc .vmem S512x256 .bf16) (harg2 : arg2.IsWhole) (arg3 : Memref sig .tc .vmem S512x256 .bf16) (harg3 : arg3.IsWhole)
    (arg4 : Memref sig .tc .vmem S512x1 .i32) (harg4 : arg4.IsWhole) (arg5 : Memref sig .tc .vmem S1x512 .i32) (harg5 : arg5.IsWhole)
    (arg6 : Memref sig .tc .vmem S512x1 .f32) (harg6 : arg6.IsWhole) (arg7 : Memref sig .tc .vmem S512x1 .f32) (harg7 : arg7.IsWhole)
    (arg8 : Memref sig .tc .vmem S512x1 .f32) (harg8 : arg8.IsWhole) (arg9 : Memref sig .tc .vmem S512x1 .f32) (harg9 : arg9.IsWhole)
    (arg10 : Memref sig .tc .vmem S512x1 .f32) (harg10 : arg10.IsWhole) (arg11 : Memref sig .tc .vmem S512x1 .f32) (harg11 : arg11.IsWhole)
    (hc0 : ¬cond0_0 i) (hc1 : ¬cond0_1 i)
    (x0 : Vec F S512x256 .bf16) (x1 : Vec F S512x256 .bf16) (x2 : Vec F S512x1 .i32) (x3 : Vec F S1x512 .i32)
    (xs0 xs1 xs2 xs3 : Vec F S512x1 .f32) :
    Σ' (LS0 : List (View.Piece (Elt F) S512x1 .f32)) (LS1 : List (View.Piece (Elt F) S512x1 .f32)) (LS2 : List (View.Piece (Elt F) S512x1 .f32)),
     { LS3 : List (View.Piece (Elt F) S512x1 .f32) //
      ∀ (xi4 xi5 : Vec F S512x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare xi4 ∗ owns (c : Thread nD τ) arg7 fullShare xi5
            ∗ owns (c : Thread nD τ) arg8 fullShare xs0 ∗ owns (c : Thread nD τ) arg9 fullShare xs1 ∗ owns (c : Thread nD τ) arg10 fullShare xs2 ∗ owns (c : Thread nD τ) arg11 fullShare xs3
            ∗ (iprop(owns (c : Thread nD τ) arg2 fullShare x0 ∗ owns (c : Thread nD τ) arg3 fullShare x1 ∗ owns (c : Thread nD τ) arg4 fullShare x2 ∗ owns (c : Thread nD τ) arg5 fullShare x3
                ∗ owns (c : Thread nD τ) arg6 fullShare xi4 ∗ owns (c : Thread nD τ) arg7 fullShare xi5
                ∗ (∃ f, arg8.view.loc (c : Thread nD τ) ↦[arg8.view.set]{fullShare} arg8.view.writes (Elt F) f LS0)
                ∗ (∃ f, arg9.view.loc (c : Thread nD τ) ↦[arg9.view.set]{fullShare} arg9.view.writes (Elt F) f LS1)
                ∗ (∃ f, arg10.view.loc (c : Thread nD τ) ↦[arg10.view.set]{fullShare} arg10.view.writes (Elt F) f LS2)
                ∗ (∃ f, arg11.view.loc (c : Thread nD τ) ↦[arg11.view.set]{fullShare} arg11.view.writes (Elt F) f LS3)) -∗ K ⟨⟩))
          ⊢ wp frame (wpE (defs₀ (F := F)) Variants.none c none) E (cc0__contrastive_kernel i arg2 harg2 arg3 harg3 arg4 harg4 arg5 harg5 arg6 harg6 arg7 harg7 arg8 harg8 arg9 harg9 arg10 harg10 arg11 harg11) K } := by
  refine ⟨?_, ?_, ?_, ?_, fun xi4 xi5 E K => ?run⟩
  case run =>
    simp only [cc0__contrastive_kernel_eq_skeleton]; unfold cc0__contrastive_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, ⟨%fs2, %hfs2, HS2⟩, ⟨%fs3, %hfs3, HS3⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hf5
    obtain rfl := harg8.eq_unread hfs0; obtain rfl := harg9.eq_unread hfs1; obtain rfl := harg10.eq_unread hfs2; obtain rfl := harg11.eq_unread hfs3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS0]; · iexists _; iexact HS0
    isplitl [HS1]; · iexists _; iexact HS1
    isplitl [HS2]; · iexists _; iexact HS2
    iexists _; iexact HS3

end Cert.KernelIdeal.Body

end
-- ==== Proof.IRunC.lean ====
import proofs.«167906_j2405181686310_1_alg».proof.Proof.IRunB

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 1000000 in
/-- The pieces the two outputs and the four scratch buffers end with in the LAST case — the reset branch not taken,
    the final branch taken (points ≡ 15 mod 16) —, with the proof that on whole memrefs, the inputs at their contents,
    the two outputs at anything, the four scratch at what the point before left (`xs·`), the body runs to the
    continuation holding the inputs as they were, each scratch with its one piece written (the update store) and
    each output with its piece written (the final block's store). -/
noncomputable def kernelRun0_C (c : Dev nD) (i : grid0.Coords)
    (arg2 : Memref sig .tc .vmem S512x256 .bf16) (harg2 : arg2.IsWhole) (arg3 : Memref sig .tc .vmem S512x256 .bf16) (harg3 : arg3.IsWhole)
    (arg4 : Memref sig .tc .vmem S512x1 .i32) (harg4 : arg4.IsWhole) (arg5 : Memref sig .tc .vmem S1x512 .i32) (harg5 : arg5.IsWhole)
    (arg6 : Memref sig .tc .vmem S512x1 .f32) (harg6 : arg6.IsWhole) (arg7 : Memref sig .tc .vmem S512x1 .f32) (harg7 : arg7.IsWhole)
    (arg8 : Memref sig .tc .vmem S512x1 .f32) (harg8 : arg8.IsWhole) (arg9 : Memref sig .tc .vmem S512x1 .f32) (harg9 : arg9.IsWhole)
    (arg10 : Memref sig .tc .vmem S512x1 .f32) (harg10 : arg10.IsWhole) (arg11 : Memref sig .tc .vmem S512x1 .f32) (harg11 : arg11.IsWhole)
    (hc0 : ¬cond0_0 i) (hc1 : cond0_1 i)
    (x0 : Vec F S512x256 .bf16) (x1 : Vec F S512x256 .bf16) (x2 : Vec F S512x1 .i32) (x3 : Vec F S1x512 .i32)
    (xs0 xs1 xs2 xs3 : Vec F S512x1 .f32) :
    Σ' (L4 : List (View.Piece (Elt F) S512x1 .f32)) (L5 : List (View.Piece (Elt F) S512x1 .f32)) (LS0 : List (View.Piece (Elt F) S512x1 .f32)) (LS1 : List (View.Piece (Elt F) S512x1 .f32)) (LS2 : List (View.Piece (Elt F) S512x1 .f32)),
     { LS3 : List (View.Piece (Elt F) S512x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ (∃ d, owns (c : Thread nD τ) arg6 fullShare d) ∗ (∃ d, owns (c : Thread nD τ) arg7 fullShare d)
            ∗ owns (c : Thread nD τ) arg8 fullShare xs0 ∗ owns (c : Thread nD τ) arg9 fullShare xs1 ∗ owns (c : Thread nD τ) arg10 fullShare xs2 ∗ owns (c : Thread nD τ) arg11 fullShare xs3
            ∗ (iprop(owns (c : Thread nD τ) arg2 fullShare x0 ∗ owns (c : Thread nD τ) arg3 fullShare x1 ∗ owns (c : Thread nD τ) arg4 fullShare x2 ∗ owns (c : Thread nD τ) arg5 fullShare x3
                ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f L5)
                ∗ (∃ f, arg8.view.loc (c : Thread nD τ) ↦[arg8.view.set]{fullShare} arg8.view.writes (Elt F) f LS0)
                ∗ (∃ f, arg9.view.loc (c : Thread nD τ) ↦[arg9.view.set]{fullShare} arg9.view.writes (Elt F) f LS1)
                ∗ (∃ f, arg10.view.loc (c : Thread nD τ) ↦[arg10.view.set]{fullShare} arg10.view.writes (Elt F) f LS2)
                ∗ (∃ f, arg11.view.loc (c : Thread nD τ) ↦[arg11.view.set]{fullShare} arg11.view.writes (Elt F) f LS3)) -∗ K ⟨⟩))
          ⊢ wp frame (wpE (defs₀ (F := F)) Variants.none c none) E (cc0__contrastive_kernel i arg2 harg2 arg3 harg3 arg4 harg4 arg5 harg5 arg6 harg6 arg7 harg7 arg8 harg8 arg9 harg9 arg10 harg10 arg11 harg11) K } := by
  refine ⟨?_, ?_, ?_, ?_, ?_, ?_, fun E K => ?run⟩
  case run =>
    simp only [cc0__contrastive_kernel_eq_skeleton]; unfold cc0__contrastive_kernel_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%fs0, %hfs0, HS0⟩, ⟨%fs1, %hfs1, HS1⟩, ⟨%fs2, %hfs2, HS2⟩, ⟨%fs3, %hfs3, HS3⟩, Hk⟩
    obtain rfl := harg2.eq_unread hf0; obtain rfl := harg3.eq_unread hf1; obtain rfl := harg4.eq_unread hf2; obtain rfl := harg5.eq_unread hf3
    obtain rfl := harg8.eq_unread hfs0; obtain rfl := harg9.eq_unread hfs1; obtain rfl := harg10.eq_unread hfs2; obtain rfl := harg11.eq_unread hfs3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]; · iexists _; iexact H5
    isplitl [HS0]; · iexists _; iexact HS0
    isplitl [HS1]; · iexists _; iexact HS1
    isplitl [HS2]; · iexists _; iexact HS2
    iexists _; iexact HS3

end Cert.KernelIdeal.Body

end
-- ==== Proof.IFrame.lean ====
import proofs.«167906_j2405181686310_1_alg».proof.Proof.IRunC

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- Case A's pieces for scratch 0 (the running maximum) cover it: each is a whole-buffer store. -/
theorem scover0_A_0 (c : Dev nD) (i : grid0.Coords)
    (arg2 : Memref sig .tc .vmem S512x256 .bf16) (harg2 : arg2.IsWhole) (arg3 : Memref sig .tc .vmem S512x256 .bf16) (harg3 : arg3.IsWhole)
    (arg4 : Memref sig .tc .vmem S512x1 .i32) (harg4 : arg4.IsWhole) (arg5 : Memref sig .tc .vmem S1x512 .i32) (harg5 : arg5.IsWhole)
    (arg6 : Memref sig .tc .vmem S512x1 .f32) (harg6 : arg6.IsWhole) (arg7 : Memref sig .tc .vmem S512x1 .f32) (harg7 : arg7.IsWhole)
    (arg8 : Memref sig .tc .vmem S512x1 .f32) (harg8 : arg8.IsWhole) (arg9 : Memref sig .tc .vmem S512x1 .f32) (harg9 : arg9.IsWhole)
    (arg10 : Memref sig .tc .vmem S512x1 .f32) (harg10 : arg10.IsWhole) (arg11 : Memref sig .tc .vmem S512x1 .f32) (harg11 : arg11.IsWhole)
    (hc0 : cond0_0 i) (hc1 : ¬cond0_1 i)
    (x0 : Vec F S512x256 .bf16) (x1 : Vec F S512x256 .bf16) (x2 : Vec F S512x1 .i32) (x3 : Vec F S1x512 .i32) (y : S512x1.Idx) :
    ∃ pc ∈ (kernelRun0_A c i arg2 harg2 arg3 harg3 arg4 harg4 arg5 harg5 arg6 harg6 arg7 harg7 arg8 harg8 arg9 harg9 arg10 harg10 arg11 harg11 hc0 hc1 x0 x1 x2 x3).1, y ∈ pc.1.set :=
  View.cover_of_tiledL (kernelRun0_A c i arg2 harg2 arg3 harg3 arg4 harg4 arg5 harg5 arg6 harg6 arg7 harg7 arg8 harg8 arg9 harg9 arg10 harg10 arg11 harg11 hc0 hc1 x0 x1 x2 x3).1 S512x1.size (by sl_kernel_rfl) y

/-- What case A leaves in scratch 0: its pieces read back over junk. -/
def sout0_A_0 (c : Dev nD) (i : grid0.Coords)
    (arg2 : Memref sig .tc .vmem S512x256 .bf16) (harg2 : arg2.IsWhole) (arg3 : Memref sig .tc .vmem S512x256 .bf16) (harg3 : arg3.IsWhole)
    (arg4 : Memref sig .tc .vmem S512x1 .i32) (harg4 : arg4.IsWhole) (arg5 : Memref sig .tc .vmem S1x512 .i32) (harg5 : arg5.IsWhole)
    (arg6 : Memref sig .tc .vmem S512x1 .f32) (harg6 : arg6.IsWhole) (arg7 : Memref sig .tc .vmem S512x1 .f32) (harg7 : arg7.IsWhole)
    (arg8 : Memref sig .tc .vmem S512x1 .f32) (harg8 : arg8.IsWhole) (arg9 : Memref sig .tc .vmem S512x1 .f32) (harg9 : arg9.IsWhole)
    (arg10 : Memref sig .tc .vmem S512x1 .f32) (harg10 : arg10.IsWhole) (arg11 : Memref sig .tc .vmem S512x1 .f32) (harg11 : arg11.IsWhole)
    (hc0 : cond0_0 i) (hc1 : ¬cond0_1 i)
    (x0 : Vec F S512x256 .bf16) (x1 : Vec F S512x256 .bf16) (x2 : Vec F S512x1 .i32) (x3 : Vec F S1x512 .i32) : Vec F S512x1 .f32 :=
  VS0_0.read (Elt F) (VS0_0.writes (Elt F) VS0_0.junk (kernelRun0_A c i arg2 harg2 arg3 harg3 arg4 harg4 arg5 harg5 arg6 harg6 arg7 harg7 arg8 harg8 arg9 harg9 arg10 harg10 arg11 harg11 hc0 hc1 x0 x1 x2 x3).1)

/-- Case A's pieces for scratch 1 (the running denominator) cover it: each is a whole-buffer store. -/
theorem scover0_A_1 (c : Dev nD) (i : grid0.Coords)
    (arg2 : Memref sig .tc .vmem S512x256 .bf16) (harg2 : arg2.IsWhole) (arg3 : Memref sig .tc .vmem S512x256 .bf16) (harg3 : arg3.IsWhole)
    (arg4 : Memref sig .tc .vmem S512x1 .i32) (harg4 : arg4.IsWhole) (arg5 : Memref sig .tc .vmem S1x512 .i32) (harg5 : arg5.IsWhole)
    (arg6 : Memref sig .tc .vmem S512x1 .f32) (harg6 : arg6.IsWhole) (arg7 : Memref sig .tc .vmem S512x1 .f32) (harg7 : arg7.IsWhole)
    (arg8 : Memref sig .tc .vmem S512x1 .f32) (harg8 : arg8.IsWhole) (arg9 : Memref sig .tc .vmem S512x1 .f32) (harg9 : arg9.IsWhole)
    (arg10 : Memref sig .tc .vmem S512x1 .f32) (harg10 : arg10.IsWhole) (arg11 : Memref sig .tc .vmem S512x1 .f32) (harg11 : arg11.IsWhole)
    (hc0 : cond0_0 i) (hc1 : ¬cond0_1 i)
    (x0 : Vec F S512x256 .bf16) (x1 : Vec F S512x256 .bf16) (x2 : Vec F S512x1 .i32) (x3 : Vec F S1x512 .i32) (y : S512x1.Idx) :
    ∃ pc ∈ (kernelRun0_A c i arg2 harg2 arg3 harg3 arg4 harg4 arg5 harg5 arg6 harg6 arg7 harg7 arg8 harg8 arg9 harg9 arg10 harg10 arg11 harg11 hc0 hc1 x0 x1 x2 x3).2.1, y ∈ pc.1.set :=
  View.cover_of_tiledL (kernelRun0_A c i arg2 harg2 arg3 harg3 arg4 harg4 arg5 harg5 arg6 harg6 arg7 harg7 arg8 harg8 arg9 harg9 arg10 harg10 arg11 harg11 hc0 hc1 x0 x1 x2 x3).2.1 S512x1.size (by sl_kernel_rfl) y

/-- What case A leaves in scratch 1: its pieces read back over junk. -/
def sout0_A_1 (c : Dev nD) (i : grid0.Coords)
    (arg2 : Memref sig .tc .vmem S512x256 .bf16) (harg2 : arg2.IsWhole) (arg3 : Memref sig .tc .vmem S512x256 .bf16) (harg3 : arg3.IsWhole)
    (arg4 : Memref sig .tc .vmem S512x1 .i32) (harg4 : arg4.IsWhole) (arg5 : Memref sig .tc .vmem S1x512 .i32) (harg5 : arg5.IsWhole)
    (arg6 : Memref sig .tc .vmem S512x1 .f32) (harg6 : arg6.IsWhole) (arg7 : Memref sig .tc .vmem S512x1 .f32) (harg7 : arg7.IsWhole)
    (arg8 : Memref sig .tc .vmem S512x1 .f32) (harg8 : arg8.IsWhole) (arg9 : Memref sig .tc .vmem S512x1 .f32) (harg9 : arg9.IsWhole)
    (arg10 : Memref sig .tc .vmem S512x1 .f32) (harg10 : arg10.IsWhole) (arg11 : Memref sig .tc .vmem S512x1 .f32) (harg11 : arg11.IsWhole)
    (hc0 : cond0_0 i) (hc1 : ¬cond0_1 i)
    (x0 : Vec F S512x256 .bf16) (x1 : Vec F S512x256 .bf16) (x2 : Vec F S512x1 .i32) (x3 : Vec F S1x512 .i32) : Vec F S512x1 .f32 :=
  VS0_1.read (Elt F) (VS0_1.writes (Elt F) VS0_1.junk (kernelRun0_A c i arg2 harg2 arg3 harg3 arg4 harg4 arg5 harg5 arg6 harg6 arg7 harg7 arg8 harg8 arg9 harg9 arg10 harg10 arg11 harg11 hc0 hc1 x0 x1 x2 x3).2.1)

/-- Case A's pieces for scratch 2 (the sum of positive similarities) cover it: each is a whole-buffer store. -/
theorem scover0_A_2 (c : Dev nD) (i : grid0.Coords)
    (arg2 : Memref sig .tc .vmem S512x256 .bf16) (harg2 : arg2.IsWhole) (arg3 : Memref sig .tc .vmem S512x256 .bf16) (harg3 : arg3.IsWhole)
    (arg4 : Memref sig .tc .vmem S512x1 .i32) (harg4 : arg4.IsWhole) (arg5 : Memref sig .tc .vmem S1x512 .i32) (harg5 : arg5.IsWhole)
    (arg6 : Memref sig .tc .vmem S512x1 .f32) (harg6 : arg6.IsWhole) (arg7 : Memref sig .tc .vmem S512x1 .f32) (harg7 : arg7.IsWhole)
    (arg8 : Memref sig .tc .vmem S512x1 .f32) (harg8 : arg8.IsWhole) (arg9 : Memref sig .tc .vmem S512x1 .f32) (harg9 : arg9.IsWhole)
    (arg10 : Memref sig .tc .vmem S512x1 .f32) (harg10 : arg10.IsWhole) (arg11 : Memref sig .tc .vmem S512x1 .f32) (harg11 : arg11.IsWhole)
    (hc0 : cond0_0 i) (hc1 : ¬cond0_1 i)
    (x0 : Vec F S512x256 .bf16) (x1 : Vec F S512x256 .bf16) (x2 : Vec F S512x1 .i32) (x3 : Vec F S1x512 .i32) (y : S512x1.Idx) :
    ∃ pc ∈ (kernelRun0_A c i arg2 harg2 arg3 harg3 arg4 harg4 arg5 harg5 arg6 harg6 arg7 harg7 arg8 harg8 arg9 harg9 arg10 harg10 arg11 harg11 hc0 hc1 x0 x1 x2 x3).2.2.1, y ∈ pc.1.set :=
  View.cover_of_tiledL (kernelRun0_A c i arg2 harg2 arg3 harg3 arg4 harg4 arg5 harg5 arg6 harg6 arg7 harg7 arg8 harg8 arg9 harg9 arg10 harg10 arg11 harg11 hc0 hc1 x0 x1 x2 x3).2.2.1 S512x1.size (by sl_kernel_rfl) y

/-- What case A leaves in scratch 2: its pieces read back over junk. -/
def sout0_A_2 (c : Dev nD) (i : grid0.Coords)
    (arg2 : Memref sig .tc .vmem S512x256 .bf16) (harg2 : arg2.IsWhole) (arg3 : Memref sig .tc .vmem S512x256 .bf16) (harg3 : arg3.IsWhole)
    (arg4 : Memref sig .tc .vmem S512x1 .i32) (harg4 : arg4.IsWhole) (arg5 : Memref sig .tc .vmem S1x512 .i32) (harg5 : arg5.IsWhole)
    (arg6 : Memref sig .tc .vmem S512x1 .f32) (harg6 : arg6.IsWhole) (arg7 : Memref sig .tc .vmem S512x1 .f32) (harg7 : arg7.IsWhole)
    (arg8 : Memref sig .tc .vmem S512x1 .f32) (harg8 : arg8.IsWhole) (arg9 : Memref sig .tc .vmem S512x1 .f32) (harg9 : arg9.IsWhole)
    (arg10 : Memref sig .tc .vmem S512x1 .f32) (harg10 : arg10.IsWhole) (arg11 : Memref sig .tc .vmem S512x1 .f32) (harg11 : arg11.IsWhole)
    (hc0 : cond0_0 i) (hc1 : ¬cond0_1 i)
    (x0 : Vec F S512x256 .bf16) (x1 : Vec F S512x256 .bf16) (x2 : Vec F S512x1 .i32) (x3 : Vec F S1x512 .i32) : Vec F S512x1 .f32 :=
  VS0_2.read (Elt F) (VS0_2.writes (Elt F) VS0_2.junk (kernelRun0_A c i arg2 harg2 arg3 harg3 arg4 harg4 arg5 harg5 arg6 harg6 arg7 harg7 arg8 harg8 arg9 harg9 arg10 harg10 arg11 harg11 hc0 hc1 x0 x1 x2 x3).2.2.1)

/-- Case A's pieces for scratch 3 (the count of positives) cover it: each is a whole-buffer store. -/
theorem scover0_A_3 (c : Dev nD) (i : grid0.Coords)
    (arg2 : Memref sig .tc .vmem S512x256 .bf16) (harg2 : arg2.IsWhole) (arg3 : Memref sig .tc .vmem S512x256 .bf16) (harg3 : arg3.IsWhole)
    (arg4 : Memref sig .tc .vmem S512x1 .i32) (harg4 : arg4.IsWhole) (arg5 : Memref sig .tc .vmem S1x512 .i32) (harg5 : arg5.IsWhole)
    (arg6 : Memref sig .tc .vmem S512x1 .f32) (harg6 : arg6.IsWhole) (arg7 : Memref sig .tc .vmem S512x1 .f32) (harg7 : arg7.IsWhole)
    (arg8 : Memref sig .tc .vmem S512x1 .f32) (harg8 : arg8.IsWhole) (arg9 : Memref sig .tc .vmem S512x1 .f32) (harg9 : arg9.IsWhole)
    (arg10 : Memref sig .tc .vmem S512x1 .f32) (harg10 : arg10.IsWhole) (arg11 : Memref sig .tc .vmem S512x1 .f32) (harg11 : arg11.IsWhole)
    (hc0 : cond0_0 i) (hc1 : ¬cond0_1 i)
    (x0 : Vec F S512x256 .bf16) (x1 : Vec F S512x256 .bf16) (x2 : Vec F S512x1 .i32) (x3 : Vec F S1x512 .i32) (y : S512x1.Idx) :
    ∃ pc ∈ (kernelRun0_A c i arg2 harg2 arg3 harg3 arg4 harg4 arg5 harg5 arg6 harg6 arg7 harg7 arg8 harg8 arg9 harg9 arg10 harg10 arg11 harg11 hc0 hc1 x0 x1 x2 x3).2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 hc0 hc1 x0 x1 x2 x3).2.2.2.1 S512x1.size (by sl_kernel_rfl) y

/-- What case A leaves in scratch 3: its pieces read back over junk. -/
def sout0_A_3 (c : Dev nD) (i : grid0.Coords)
    (arg2 : Memref sig .tc .vmem S512x256 .bf16) (harg2 : arg2.IsWhole) (arg3 : Memref sig .tc .vmem S512x256 .bf16) (harg3 : arg3.IsWhole)
    (arg4 : Memref sig .tc .vmem S512x1 .i32) (harg4 : arg4.IsWhole) (arg5 : Memref sig .tc .vmem S1x512 .i32) (harg5 : arg5.IsWhole)
    (arg6 : Memref sig .tc .vmem S512x1 .f32) (harg6 : arg6.IsWhole) (arg7 : Memref sig .tc .vmem S512x1 .f32) (harg7 : arg7.IsWhole)
    (arg8 : Memref sig .tc .vmem S512x1 .f32) (harg8 : arg8.IsWhole) (arg9 : Memref sig .tc .vmem S512x1 .f32) (harg9 : arg9.IsWhole)
    (arg10 : Memref sig .tc .vmem S512x1 .f32) (harg10 : arg10.IsWhole) (arg11 : Memref sig .tc .vmem S512x1 .f32) (harg11 : arg11.IsWhole)
    (hc0 : cond0_0 i) (hc1 : ¬cond0_1 i)
    (x0 : Vec F S512x256 .bf16) (x1 : Vec F S512x256 .bf16) (x2 : Vec F S512x1 .i32) (x3 : Vec F S1x512 .i32) : Vec F S512x1 .f32 :=
  VS0_3.read (Elt F) (VS0_3.writes (Elt F) VS0_3.junk (kernelRun0_A c i arg2 harg2 arg3 harg3 arg4 harg4 arg5 harg5 arg6 harg6 arg7 harg7 arg8 harg8 arg9 harg9 arg10 harg10 arg11 harg11 hc0 hc1 x0 x1 x2 x3).2.2.2.1)

/-- Case B's pieces for scratch 0 (the running maximum) cover it: each is a whole-buffer store. -/
theorem scover0_B_0 (c : Dev nD) (i : grid0.Coords)
    (arg2 : Memref sig .tc .vmem S512x256 .bf16) (harg2 : arg2.IsWhole) (arg3 : Memref sig .tc .vmem S512x256 .bf16) (harg3 : arg3.IsWhole)
    (arg4 : Memref sig .tc .vmem S512x1 .i32) (harg4 : arg4.IsWhole) (arg5 : Memref sig .tc .vmem S1x512 .i32) (harg5 : arg5.IsWhole)
    (arg6 : Memref sig .tc .vmem S512x1 .f32) (harg6 : arg6.IsWhole) (arg7 : Memref sig .tc .vmem S512x1 .f32) (harg7 : arg7.IsWhole)
    (arg8 : Memref sig .tc .vmem S512x1 .f32) (harg8 : arg8.IsWhole) (arg9 : Memref sig .tc .vmem S512x1 .f32) (harg9 : arg9.IsWhole)
    (arg10 : Memref sig .tc .vmem S512x1 .f32) (harg10 : arg10.IsWhole) (arg11 : Memref sig .tc .vmem S512x1 .f32) (harg11 : arg11.IsWhole)
    (hc0 : ¬cond0_0 i) (hc1 : ¬cond0_1 i)
    (x0 : Vec F S512x256 .bf16) (x1 : Vec F S512x256 .bf16) (x2 : Vec F S512x1 .i32) (x3 : Vec F S1x512 .i32) (xs0 xs1 xs2 xs3 : Vec F S512x1 .f32) (y : S512x1.Idx) :
    ∃ pc ∈ (kernelRun0_B c i arg2 harg2 arg3 harg3 arg4 harg4 arg5 harg5 arg6 harg6 arg7 harg7 arg8 harg8 arg9 harg9 arg10 harg10 arg11 harg11 hc0 hc1 x0 x1 x2 x3 xs0 xs1 xs2 xs3).1, y ∈ pc.1.set :=
  View.cover_of_tiledL (kernelRun0_B c i arg2 harg2 arg3 harg3 arg4 harg4 arg5 harg5 arg6 harg6 arg7 harg7 arg8 harg8 arg9 harg9 arg10 harg10 arg11 harg11 hc0 hc1 x0 x1 x2 x3 xs0 xs1 xs2 xs3).1 S512x1.size (by sl_kernel_rfl) y

/-- What case B leaves in scratch 0: its pieces read back over junk. -/
def sout0_B_0 (c : Dev nD) (i : grid0.Coords)
    (arg2 : Memref sig .tc .vmem S512x256 .bf16) (harg2 : arg2.IsWhole) (arg3 : Memref sig .tc .vmem S512x256 .bf16) (harg3 : arg3.IsWhole)
    (arg4 : Memref sig .tc .vmem S512x1 .i32) (harg4 : arg4.IsWhole) (arg5 : Memref sig .tc .vmem S1x512 .i32) (harg5 : arg5.IsWhole)
    (arg6 : Memref sig .tc .vmem S512x1 .f32) (harg6 : arg6.IsWhole) (arg7 : Memref sig .tc .vmem S512x1 .f32) (harg7 : arg7.IsWhole)
    (arg8 : Memref sig .tc .vmem S512x1 .f32) (harg8 : arg8.IsWhole) (arg9 : Memref sig .tc .vmem S512x1 .f32) (harg9 : arg9.IsWhole)
    (arg10 : Memref sig .tc .vmem S512x1 .f32) (harg10 : arg10.IsWhole) (arg11 : Memref sig .tc .vmem S512x1 .f32) (harg11 : arg11.IsWhole)
    (hc0 : ¬cond0_0 i) (hc1 : ¬cond0_1 i)
    (x0 : Vec F S512x256 .bf16) (x1 : Vec F S512x256 .bf16) (x2 : Vec F S512x1 .i32) (x3 : Vec F S1x512 .i32) (xs0 xs1 xs2 xs3 : Vec F S512x1 .f32) : Vec F S512x1 .f32 :=
  VS0_0.read (Elt F) (VS0_0.writes (Elt F) VS0_0.junk (kernelRun0_B c i arg2 harg2 arg3 harg3 arg4 harg4 arg5 harg5 arg6 harg6 arg7 harg7 arg8 harg8 arg9 harg9 arg10 harg10 arg11 harg11 hc0 hc1 x0 x1 x2 x3 xs0 xs1 xs2 xs3).1)

/-- Case B's pieces for scratch 1 (the running denominator) cover it: each is a whole-buffer store. -/
theorem scover0_B_1 (c : Dev nD) (i : grid0.Coords)
    (arg2 : Memref sig .tc .vmem S512x256 .bf16) (harg2 : arg2.IsWhole) (arg3 : Memref sig .tc .vmem S512x256 .bf16) (harg3 : arg3.IsWhole)
    (arg4 : Memref sig .tc .vmem S512x1 .i32) (harg4 : arg4.IsWhole) (arg5 : Memref sig .tc .vmem S1x512 .i32) (harg5 : arg5.IsWhole)
    (arg6 : Memref sig .tc .vmem S512x1 .f32) (harg6 : arg6.IsWhole) (arg7 : Memref sig .tc .vmem S512x1 .f32) (harg7 : arg7.IsWhole)
    (arg8 : Memref sig .tc .vmem S512x1 .f32) (harg8 : arg8.IsWhole) (arg9 : Memref sig .tc .vmem S512x1 .f32) (harg9 : arg9.IsWhole)
    (arg10 : Memref sig .tc .vmem S512x1 .f32) (harg10 : arg10.IsWhole) (arg11 : Memref sig .tc .vmem S512x1 .f32) (harg11 : arg11.IsWhole)
    (hc0 : ¬cond0_0 i) (hc1 : ¬cond0_1 i)
    (x0 : Vec F S512x256 .bf16) (x1 : Vec F S512x256 .bf16) (x2 : Vec F S512x1 .i32) (x3 : Vec F S1x512 .i32) (xs0 xs1 xs2 xs3 : Vec F S512x1 .f32) (y : S512x1.Idx) :
    ∃ pc ∈ (kernelRun0_B c i arg2 harg2 arg3 harg3 arg4 harg4 arg5 harg5 arg6 harg6 arg7 harg7 arg8 harg8 arg9 harg9 arg10 harg10 arg11 harg11 hc0 hc1 x0 x1 x2 x3 xs0 xs1 xs2 xs3).2.1, y ∈ pc.1.set :=
  View.cover_of_tiledL (kernelRun0_B c i arg2 harg2 arg3 harg3 arg4 harg4 arg5 harg5 arg6 harg6 arg7 harg7 arg8 harg8 arg9 harg9 arg10 harg10 arg11 harg11 hc0 hc1 x0 x1 x2 x3 xs0 xs1 xs2 xs3).2.1 S512x1.size (by sl_kernel_rfl) y

/-- What case B leaves in scratch 1: its pieces read back over junk. -/
def sout0_B_1 (c : Dev nD) (i : grid0.Coords)
    (arg2 : Memref sig .tc .vmem S512x256 .bf16) (harg2 : arg2.IsWhole) (arg3 : Memref sig .tc .vmem S512x256 .bf16) (harg3 : arg3.IsWhole)
    (arg4 : Memref sig .tc .vmem S512x1 .i32) (harg4 : arg4.IsWhole) (arg5 : Memref sig .tc .vmem S1x512 .i32) (harg5 : arg5.IsWhole)
    (arg6 : Memref sig .tc .vmem S512x1 .f32) (harg6 : arg6.IsWhole) (arg7 : Memref sig .tc .vmem S512x1 .f32) (harg7 : arg7.IsWhole)
    (arg8 : Memref sig .tc .vmem S512x1 .f32) (harg8 : arg8.IsWhole) (arg9 : Memref sig .tc .vmem S512x1 .f32) (harg9 : arg9.IsWhole)
    (arg10 : Memref sig .tc .vmem S512x1 .f32) (harg10 : arg10.IsWhole) (arg11 : Memref sig .tc .vmem S512x1 .f32) (harg11 : arg11.IsWhole)
    (hc0 : ¬cond0_0 i) (hc1 : ¬cond0_1 i)
    (x0 : Vec F S512x256 .bf16) (x1 : Vec F S512x256 .bf16) (x2 : Vec F S512x1 .i32) (x3 : Vec F S1x512 .i32) (xs0 xs1 xs2 xs3 : Vec F S512x1 .f32) : Vec F S512x1 .f32 :=
  VS0_1.read (Elt F) (VS0_1.writes (Elt F) VS0_1.junk (kernelRun0_B c i arg2 harg2 arg3 harg3 arg4 harg4 arg5 harg5 arg6 harg6 arg7 harg7 arg8 harg8 arg9 harg9 arg10 harg10 arg11 harg11 hc0 hc1 x0 x1 x2 x3 xs0 xs1 xs2 xs3).2.1)

/-- Case B's pieces for scratch 2 (the sum of positive similarities) cover it: each is a whole-buffer store. -/
theorem scover0_B_2 (c : Dev nD) (i : grid0.Coords)
    (arg2 : Memref sig .tc .vmem S512x256 .bf16) (harg2 : arg2.IsWhole) (arg3 : Memref sig .tc .vmem S512x256 .bf16) (harg3 : arg3.IsWhole)
    (arg4 : Memref sig .tc .vmem S512x1 .i32) (harg4 : arg4.IsWhole) (arg5 : Memref sig .tc .vmem S1x512 .i32) (harg5 : arg5.IsWhole)
    (arg6 : Memref sig .tc .vmem S512x1 .f32) (harg6 : arg6.IsWhole) (arg7 : Memref sig .tc .vmem S512x1 .f32) (harg7 : arg7.IsWhole)
    (arg8 : Memref sig .tc .vmem S512x1 .f32) (harg8 : arg8.IsWhole) (arg9 : Memref sig .tc .vmem S512x1 .f32) (harg9 : arg9.IsWhole)
    (arg10 : Memref sig .tc .vmem S512x1 .f32) (harg10 : arg10.IsWhole) (arg11 : Memref sig .tc .vmem S512x1 .f32) (harg11 : arg11.IsWhole)
    (hc0 : ¬cond0_0 i) (hc1 : ¬cond0_1 i)
    (x0 : Vec F S512x256 .bf16) (x1 : Vec F S512x256 .bf16) (x2 : Vec F S512x1 .i32) (x3 : Vec F S1x512 .i32) (xs0 xs1 xs2 xs3 : Vec F S512x1 .f32) (y : S512x1.Idx) :
    ∃ pc ∈ (kernelRun0_B c i arg2 harg2 arg3 harg3 arg4 harg4 arg5 harg5 arg6 harg6 arg7 harg7 arg8 harg8 arg9 harg9 arg10 harg10 arg11 harg11 hc0 hc1 x0 x1 x2 x3 xs0 xs1 xs2 xs3).2.2.1, y ∈ pc.1.set :=
  View.cover_of_tiledL (kernelRun0_B c i arg2 harg2 arg3 harg3 arg4 harg4 arg5 harg5 arg6 harg6 arg7 harg7 arg8 harg8 arg9 harg9 arg10 harg10 arg11 harg11 hc0 hc1 x0 x1 x2 x3 xs0 xs1 xs2 xs3).2.2.1 S512x1.size (by sl_kernel_rfl) y

/-- What case B leaves in scratch 2: its pieces read back over junk. -/
def sout0_B_2 (c : Dev nD) (i : grid0.Coords)
    (arg2 : Memref sig .tc .vmem S512x256 .bf16) (harg2 : arg2.IsWhole) (arg3 : Memref sig .tc .vmem S512x256 .bf16) (harg3 : arg3.IsWhole)
    (arg4 : Memref sig .tc .vmem S512x1 .i32) (harg4 : arg4.IsWhole) (arg5 : Memref sig .tc .vmem S1x512 .i32) (harg5 : arg5.IsWhole)
    (arg6 : Memref sig .tc .vmem S512x1 .f32) (harg6 : arg6.IsWhole) (arg7 : Memref sig .tc .vmem S512x1 .f32) (harg7 : arg7.IsWhole)
    (arg8 : Memref sig .tc .vmem S512x1 .f32) (harg8 : arg8.IsWhole) (arg9 : Memref sig .tc .vmem S512x1 .f32) (harg9 : arg9.IsWhole)
    (arg10 : Memref sig .tc .vmem S512x1 .f32) (harg10 : arg10.IsWhole) (arg11 : Memref sig .tc .vmem S512x1 .f32) (harg11 : arg11.IsWhole)
    (hc0 : ¬cond0_0 i) (hc1 : ¬cond0_1 i)
    (x0 : Vec F S512x256 .bf16) (x1 : Vec F S512x256 .bf16) (x2 : Vec F S512x1 .i32) (x3 : Vec F S1x512 .i32) (xs0 xs1 xs2 xs3 : Vec F S512x1 .f32) : Vec F S512x1 .f32 :=
  VS0_2.read (Elt F) (VS0_2.writes (Elt F) VS0_2.junk (kernelRun0_B c i arg2 harg2 arg3 harg3 arg4 harg4 arg5 harg5 arg6 harg6 arg7 harg7 arg8 harg8 arg9 harg9 arg10 harg10 arg11 harg11 hc0 hc1 x0 x1 x2 x3 xs0 xs1 xs2 xs3).2.2.1)

/-- Case B's pieces for scratch 3 (the count of positives) cover it: each is a whole-buffer store. -/
theorem scover0_B_3 (c : Dev nD) (i : grid0.Coords)
    (arg2 : Memref sig .tc .vmem S512x256 .bf16) (harg2 : arg2.IsWhole) (arg3 : Memref sig .tc .vmem S512x256 .bf16) (harg3 : arg3.IsWhole)
    (arg4 : Memref sig .tc .vmem S512x1 .i32) (harg4 : arg4.IsWhole) (arg5 : Memref sig .tc .vmem S1x512 .i32) (harg5 : arg5.IsWhole)
    (arg6 : Memref sig .tc .vmem S512x1 .f32) (harg6 : arg6.IsWhole) (arg7 : Memref sig .tc .vmem S512x1 .f32) (harg7 : arg7.IsWhole)
    (arg8 : Memref sig .tc .vmem S512x1 .f32) (harg8 : arg8.IsWhole) (arg9 : Memref sig .tc .vmem S512x1 .f32) (harg9 : arg9.IsWhole)
    (arg10 : Memref sig .tc .vmem S512x1 .f32) (harg10 : arg10.IsWhole) (arg11 : Memref sig .tc .vmem S512x1 .f32) (harg11 : arg11.IsWhole)
    (hc0 : ¬cond0_0 i) (hc1 : ¬cond0_1 i)
    (x0 : Vec F S512x256 .bf16) (x1 : Vec F S512x256 .bf16) (x2 : Vec F S512x1 .i32) (x3 : Vec F S1x512 .i32) (xs0 xs1 xs2 xs3 : Vec F S512x1 .f32) (y : S512x1.Idx) :
    ∃ pc ∈ (kernelRun0_B c i arg2 harg2 arg3 harg3 arg4 harg4 arg5 harg5 arg6 harg6 arg7 harg7 arg8 harg8 arg9 harg9 arg10 harg10 arg11 harg11 hc0 hc1 x0 x1 x2 x3 xs0 xs1 xs2 xs3).2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 hc0 hc1 x0 x1 x2 x3 xs0 xs1 xs2 xs3).2.2.2.1 S512x1.size (by sl_kernel_rfl) y

/-- What case B leaves in scratch 3: its pieces read back over junk. -/
def sout0_B_3 (c : Dev nD) (i : grid0.Coords)
    (arg2 : Memref sig .tc .vmem S512x256 .bf16) (harg2 : arg2.IsWhole) (arg3 : Memref sig .tc .vmem S512x256 .bf16) (harg3 : arg3.IsWhole)
    (arg4 : Memref sig .tc .vmem S512x1 .i32) (harg4 : arg4.IsWhole) (arg5 : Memref sig .tc .vmem S1x512 .i32) (harg5 : arg5.IsWhole)
    (arg6 : Memref sig .tc .vmem S512x1 .f32) (harg6 : arg6.IsWhole) (arg7 : Memref sig .tc .vmem S512x1 .f32) (harg7 : arg7.IsWhole)
    (arg8 : Memref sig .tc .vmem S512x1 .f32) (harg8 : arg8.IsWhole) (arg9 : Memref sig .tc .vmem S512x1 .f32) (harg9 : arg9.IsWhole)
    (arg10 : Memref sig .tc .vmem S512x1 .f32) (harg10 : arg10.IsWhole) (arg11 : Memref sig .tc .vmem S512x1 .f32) (harg11 : arg11.IsWhole)
    (hc0 : ¬cond0_0 i) (hc1 : ¬cond0_1 i)
    (x0 : Vec F S512x256 .bf16) (x1 : Vec F S512x256 .bf16) (x2 : Vec F S512x1 .i32) (x3 : Vec F S1x512 .i32) (xs0 xs1 xs2 xs3 : Vec F S512x1 .f32) : Vec F S512x1 .f32 :=
  VS0_3.read (Elt F) (VS0_3.writes (Elt F) VS0_3.junk (kernelRun0_B c i arg2 harg2 arg3 harg3 arg4 harg4 arg5 harg5 arg6 harg6 arg7 harg7 arg8 harg8 arg9 harg9 arg10 harg10 arg11 harg11 hc0 hc1 x0 x1 x2 x3 xs0 xs1 xs2 xs3).2.2.2.1)

/-- Case C's pieces for scratch 0 (the running maximum) cover it: each is a whole-buffer store. -/
theorem scover0_C_0 (c : Dev nD) (i : grid0.Coords)
    (arg2 : Memref sig .tc .vmem S512x256 .bf16) (harg2 : arg2.IsWhole) (arg3 : Memref sig .tc .vmem S512x256 .bf16) (harg3 : arg3.IsWhole)
    (arg4 : Memref sig .tc .vmem S512x1 .i32) (harg4 : arg4.IsWhole) (arg5 : Memref sig .tc .vmem S1x512 .i32) (harg5 : arg5.IsWhole)
    (arg6 : Memref sig .tc .vmem S512x1 .f32) (harg6 : arg6.IsWhole) (arg7 : Memref sig .tc .vmem S512x1 .f32) (harg7 : arg7.IsWhole)
    (arg8 : Memref sig .tc .vmem S512x1 .f32) (harg8 : arg8.IsWhole) (arg9 : Memref sig .tc .vmem S512x1 .f32) (harg9 : arg9.IsWhole)
    (arg10 : Memref sig .tc .vmem S512x1 .f32) (harg10 : arg10.IsWhole) (arg11 : Memref sig .tc .vmem S512x1 .f32) (harg11 : arg11.IsWhole)
    (hc0 : ¬cond0_0 i) (hc1 : cond0_1 i)
    (x0 : Vec F S512x256 .bf16) (x1 : Vec F S512x256 .bf16) (x2 : Vec F S512x1 .i32) (x3 : Vec F S1x512 .i32) (xs0 xs1 xs2 xs3 : Vec F S512x1 .f32) (y : S512x1.Idx) :
    ∃ pc ∈ (kernelRun0_C c i arg2 harg2 arg3 harg3 arg4 harg4 arg5 harg5 arg6 harg6 arg7 harg7 arg8 harg8 arg9 harg9 arg10 harg10 arg11 harg11 hc0 hc1 x0 x1 x2 x3 xs0 xs1 xs2 xs3).2.2.1, y ∈ pc.1.set :=
  View.cover_of_tiledL (kernelRun0_C c i arg2 harg2 arg3 harg3 arg4 harg4 arg5 harg5 arg6 harg6 arg7 harg7 arg8 harg8 arg9 harg9 arg10 harg10 arg11 harg11 hc0 hc1 x0 x1 x2 x3 xs0 xs1 xs2 xs3).2.2.1 S512x1.size (by sl_kernel_rfl) y

/-- What case C leaves in scratch 0: its pieces read back over junk. -/
def sout0_C_0 (c : Dev nD) (i : grid0.Coords)
    (arg2 : Memref sig .tc .vmem S512x256 .bf16) (harg2 : arg2.IsWhole) (arg3 : Memref sig .tc .vmem S512x256 .bf16) (harg3 : arg3.IsWhole)
    (arg4 : Memref sig .tc .vmem S512x1 .i32) (harg4 : arg4.IsWhole) (arg5 : Memref sig .tc .vmem S1x512 .i32) (harg5 : arg5.IsWhole)
    (arg6 : Memref sig .tc .vmem S512x1 .f32) (harg6 : arg6.IsWhole) (arg7 : Memref sig .tc .vmem S512x1 .f32) (harg7 : arg7.IsWhole)
    (arg8 : Memref sig .tc .vmem S512x1 .f32) (harg8 : arg8.IsWhole) (arg9 : Memref sig .tc .vmem S512x1 .f32) (harg9 : arg9.IsWhole)
    (arg10 : Memref sig .tc .vmem S512x1 .f32) (harg10 : arg10.IsWhole) (arg11 : Memref sig .tc .vmem S512x1 .f32) (harg11 : arg11.IsWhole)
    (hc0 : ¬cond0_0 i) (hc1 : cond0_1 i)
    (x0 : Vec F S512x256 .bf16) (x1 : Vec F S512x256 .bf16) (x2 : Vec F S512x1 .i32) (x3 : Vec F S1x512 .i32) (xs0 xs1 xs2 xs3 : Vec F S512x1 .f32) : Vec F S512x1 .f32 :=
  VS0_0.read (Elt F) (VS0_0.writes (Elt F) VS0_0.junk (kernelRun0_C c i arg2 harg2 arg3 harg3 arg4 harg4 arg5 harg5 arg6 harg6 arg7 harg7 arg8 harg8 arg9 harg9 arg10 harg10 arg11 harg11 hc0 hc1 x0 x1 x2 x3 xs0 xs1 xs2 xs3).2.2.1)

/-- Case C's pieces for scratch 1 (the running denominator) cover it: each is a whole-buffer store. -/
theorem scover0_C_1 (c : Dev nD) (i : grid0.Coords)
    (arg2 : Memref sig .tc .vmem S512x256 .bf16) (harg2 : arg2.IsWhole) (arg3 : Memref sig .tc .vmem S512x256 .bf16) (harg3 : arg3.IsWhole)
    (arg4 : Memref sig .tc .vmem S512x1 .i32) (harg4 : arg4.IsWhole) (arg5 : Memref sig .tc .vmem S1x512 .i32) (harg5 : arg5.IsWhole)
    (arg6 : Memref sig .tc .vmem S512x1 .f32) (harg6 : arg6.IsWhole) (arg7 : Memref sig .tc .vmem S512x1 .f32) (harg7 : arg7.IsWhole)
    (arg8 : Memref sig .tc .vmem S512x1 .f32) (harg8 : arg8.IsWhole) (arg9 : Memref sig .tc .vmem S512x1 .f32) (harg9 : arg9.IsWhole)
    (arg10 : Memref sig .tc .vmem S512x1 .f32) (harg10 : arg10.IsWhole) (arg11 : Memref sig .tc .vmem S512x1 .f32) (harg11 : arg11.IsWhole)
    (hc0 : ¬cond0_0 i) (hc1 : cond0_1 i)
    (x0 : Vec F S512x256 .bf16) (x1 : Vec F S512x256 .bf16) (x2 : Vec F S512x1 .i32) (x3 : Vec F S1x512 .i32) (xs0 xs1 xs2 xs3 : Vec F S512x1 .f32) (y : S512x1.Idx) :
    ∃ pc ∈ (kernelRun0_C c i arg2 harg2 arg3 harg3 arg4 harg4 arg5 harg5 arg6 harg6 arg7 harg7 arg8 harg8 arg9 harg9 arg10 harg10 arg11 harg11 hc0 hc1 x0 x1 x2 x3 xs0 xs1 xs2 xs3).2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 hc0 hc1 x0 x1 x2 x3 xs0 xs1 xs2 xs3).2.2.2.1 S512x1.size (by sl_kernel_rfl) y

/-- What case C leaves in scratch 1: its pieces read back over junk. -/
def sout0_C_1 (c : Dev nD) (i : grid0.Coords)
    (arg2 : Memref sig .tc .vmem S512x256 .bf16) (harg2 : arg2.IsWhole) (arg3 : Memref sig .tc .vmem S512x256 .bf16) (harg3 : arg3.IsWhole)
    (arg4 : Memref sig .tc .vmem S512x1 .i32) (harg4 : arg4.IsWhole) (arg5 : Memref sig .tc .vmem S1x512 .i32) (harg5 : arg5.IsWhole)
    (arg6 : Memref sig .tc .vmem S512x1 .f32) (harg6 : arg6.IsWhole) (arg7 : Memref sig .tc .vmem S512x1 .f32) (harg7 : arg7.IsWhole)
    (arg8 : Memref sig .tc .vmem S512x1 .f32) (harg8 : arg8.IsWhole) (arg9 : Memref sig .tc .vmem S512x1 .f32) (harg9 : arg9.IsWhole)
    (arg10 : Memref sig .tc .vmem S512x1 .f32) (harg10 : arg10.IsWhole) (arg11 : Memref sig .tc .vmem S512x1 .f32) (harg11 : arg11.IsWhole)
    (hc0 : ¬cond0_0 i) (hc1 : cond0_1 i)
    (x0 : Vec F S512x256 .bf16) (x1 : Vec F S512x256 .bf16) (x2 : Vec F S512x1 .i32) (x3 : Vec F S1x512 .i32) (xs0 xs1 xs2 xs3 : Vec F S512x1 .f32) : Vec F S512x1 .f32 :=
  VS0_1.read (Elt F) (VS0_1.writes (Elt F) VS0_1.junk (kernelRun0_C c i arg2 harg2 arg3 harg3 arg4 harg4 arg5 harg5 arg6 harg6 arg7 harg7 arg8 harg8 arg9 harg9 arg10 harg10 arg11 harg11 hc0 hc1 x0 x1 x2 x3 xs0 xs1 xs2 xs3).2.2.2.1)

/-- Case C's pieces for scratch 2 (the sum of positive similarities) cover it: each is a whole-buffer store. -/
theorem scover0_C_2 (c : Dev nD) (i : grid0.Coords)
    (arg2 : Memref sig .tc .vmem S512x256 .bf16) (harg2 : arg2.IsWhole) (arg3 : Memref sig .tc .vmem S512x256 .bf16) (harg3 : arg3.IsWhole)
    (arg4 : Memref sig .tc .vmem S512x1 .i32) (harg4 : arg4.IsWhole) (arg5 : Memref sig .tc .vmem S1x512 .i32) (harg5 : arg5.IsWhole)
    (arg6 : Memref sig .tc .vmem S512x1 .f32) (harg6 : arg6.IsWhole) (arg7 : Memref sig .tc .vmem S512x1 .f32) (harg7 : arg7.IsWhole)
    (arg8 : Memref sig .tc .vmem S512x1 .f32) (harg8 : arg8.IsWhole) (arg9 : Memref sig .tc .vmem S512x1 .f32) (harg9 : arg9.IsWhole)
    (arg10 : Memref sig .tc .vmem S512x1 .f32) (harg10 : arg10.IsWhole) (arg11 : Memref sig .tc .vmem S512x1 .f32) (harg11 : arg11.IsWhole)
    (hc0 : ¬cond0_0 i) (hc1 : cond0_1 i)
    (x0 : Vec F S512x256 .bf16) (x1 : Vec F S512x256 .bf16) (x2 : Vec F S512x1 .i32) (x3 : Vec F S1x512 .i32) (xs0 xs1 xs2 xs3 : Vec F S512x1 .f32) (y : S512x1.Idx) :
    ∃ pc ∈ (kernelRun0_C c i arg2 harg2 arg3 harg3 arg4 harg4 arg5 harg5 arg6 harg6 arg7 harg7 arg8 harg8 arg9 harg9 arg10 harg10 arg11 harg11 hc0 hc1 x0 x1 x2 x3 xs0 xs1 xs2 xs3).2.2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 hc0 hc1 x0 x1 x2 x3 xs0 xs1 xs2 xs3).2.2.2.2.1 S512x1.size (by sl_kernel_rfl) y

/-- What case C leaves in scratch 2: its pieces read back over junk. -/
def sout0_C_2 (c : Dev nD) (i : grid0.Coords)
    (arg2 : Memref sig .tc .vmem S512x256 .bf16) (harg2 : arg2.IsWhole) (arg3 : Memref sig .tc .vmem S512x256 .bf16) (harg3 : arg3.IsWhole)
    (arg4 : Memref sig .tc .vmem S512x1 .i32) (harg4 : arg4.IsWhole) (arg5 : Memref sig .tc .vmem S1x512 .i32) (harg5 : arg5.IsWhole)
    (arg6 : Memref sig .tc .vmem S512x1 .f32) (harg6 : arg6.IsWhole) (arg7 : Memref sig .tc .vmem S512x1 .f32) (harg7 : arg7.IsWhole)
    (arg8 : Memref sig .tc .vmem S512x1 .f32) (harg8 : arg8.IsWhole) (arg9 : Memref sig .tc .vmem S512x1 .f32) (harg9 : arg9.IsWhole)
    (arg10 : Memref sig .tc .vmem S512x1 .f32) (harg10 : arg10.IsWhole) (arg11 : Memref sig .tc .vmem S512x1 .f32) (harg11 : arg11.IsWhole)
    (hc0 : ¬cond0_0 i) (hc1 : cond0_1 i)
    (x0 : Vec F S512x256 .bf16) (x1 : Vec F S512x256 .bf16) (x2 : Vec F S512x1 .i32) (x3 : Vec F S1x512 .i32) (xs0 xs1 xs2 xs3 : Vec F S512x1 .f32) : Vec F S512x1 .f32 :=
  VS0_2.read (Elt F) (VS0_2.writes (Elt F) VS0_2.junk (kernelRun0_C c i arg2 harg2 arg3 harg3 arg4 harg4 arg5 harg5 arg6 harg6 arg7 harg7 arg8 harg8 arg9 harg9 arg10 harg10 arg11 harg11 hc0 hc1 x0 x1 x2 x3 xs0 xs1 xs2 xs3).2.2.2.2.1)

/-- Case C's pieces for scratch 3 (the count of positives) cover it: each is a whole-buffer store. -/
theorem scover0_C_3 (c : Dev nD) (i : grid0.Coords)
    (arg2 : Memref sig .tc .vmem S512x256 .bf16) (harg2 : arg2.IsWhole) (arg3 : Memref sig .tc .vmem S512x256 .bf16) (harg3 : arg3.IsWhole)
    (arg4 : Memref sig .tc .vmem S512x1 .i32) (harg4 : arg4.IsWhole) (arg5 : Memref sig .tc .vmem S1x512 .i32) (harg5 : arg5.IsWhole)
    (arg6 : Memref sig .tc .vmem S512x1 .f32) (harg6 : arg6.IsWhole) (arg7 : Memref sig .tc .vmem S512x1 .f32) (harg7 : arg7.IsWhole)
    (arg8 : Memref sig .tc .vmem S512x1 .f32) (harg8 : arg8.IsWhole) (arg9 : Memref sig .tc .vmem S512x1 .f32) (harg9 : arg9.IsWhole)
    (arg10 : Memref sig .tc .vmem S512x1 .f32) (harg10 : arg10.IsWhole) (arg11 : Memref sig .tc .vmem S512x1 .f32) (harg11 : arg11.IsWhole)
    (hc0 : ¬cond0_0 i) (hc1 : cond0_1 i)
    (x0 : Vec F S512x256 .bf16) (x1 : Vec F S512x256 .bf16) (x2 : Vec F S512x1 .i32) (x3 : Vec F S1x512 .i32) (xs0 xs1 xs2 xs3 : Vec F S512x1 .f32) (y : S512x1.Idx) :
    ∃ pc ∈ (kernelRun0_C c i arg2 harg2 arg3 harg3 arg4 harg4 arg5 harg5 arg6 harg6 arg7 harg7 arg8 harg8 arg9 harg9 arg10 harg10 arg11 harg11 hc0 hc1 x0 x1 x2 x3 xs0 xs1 xs2 xs3).2.2.2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 hc0 hc1 x0 x1 x2 x3 xs0 xs1 xs2 xs3).2.2.2.2.2.1 S512x1.size (by sl_kernel_rfl) y

/-- What case C leaves in scratch 3: its pieces read back over junk. -/
def sout0_C_3 (c : Dev nD) (i : grid0.Coords)
    (arg2 : Memref sig .tc .vmem S512x256 .bf16) (harg2 : arg2.IsWhole) (arg3 : Memref sig .tc .vmem S512x256 .bf16) (harg3 : arg3.IsWhole)
    (arg4 : Memref sig .tc .vmem S512x1 .i32) (harg4 : arg4.IsWhole) (arg5 : Memref sig .tc .vmem S1x512 .i32) (harg5 : arg5.IsWhole)
    (arg6 : Memref sig .tc .vmem S512x1 .f32) (harg6 : arg6.IsWhole) (arg7 : Memref sig .tc .vmem S512x1 .f32) (harg7 : arg7.IsWhole)
    (arg8 : Memref sig .tc .vmem S512x1 .f32) (harg8 : arg8.IsWhole) (arg9 : Memref sig .tc .vmem S512x1 .f32) (harg9 : arg9.IsWhole)
    (arg10 : Memref sig .tc .vmem S512x1 .f32) (harg10 : arg10.IsWhole) (arg11 : Memref sig .tc .vmem S512x1 .f32) (harg11 : arg11.IsWhole)
    (hc0 : ¬cond0_0 i) (hc1 : cond0_1 i)
    (x0 : Vec F S512x256 .bf16) (x1 : Vec F S512x256 .bf16) (x2 : Vec F S512x1 .i32) (x3 : Vec F S1x512 .i32) (xs0 xs1 xs2 xs3 : Vec F S512x1 .f32) : Vec F S512x1 .f32 :=
  VS0_3.read (Elt F) (VS0_3.writes (Elt F) VS0_3.junk (kernelRun0_C c i arg2 harg2 arg3 harg3 arg4 harg4 arg5 harg5 arg6 harg6 arg7 harg7 arg8 harg8 arg9 harg9 arg10 harg10 arg11 harg11 hc0 hc1 x0 x1 x2 x3 xs0 xs1 xs2 xs3).2.2.2.2.2.1)

/-- Case C's piece for output window 4 covers its block: one whole-block store. -/
theorem cover0_C_4 (c : Dev nD) (i : grid0.Coords)
    (arg2 : Memref sig .tc .vmem S512x256 .bf16) (harg2 : arg2.IsWhole) (arg3 : Memref sig .tc .vmem S512x256 .bf16) (harg3 : arg3.IsWhole)
    (arg4 : Memref sig .tc .vmem S512x1 .i32) (harg4 : arg4.IsWhole) (arg5 : Memref sig .tc .vmem S1x512 .i32) (harg5 : arg5.IsWhole)
    (arg6 : Memref sig .tc .vmem S512x1 .f32) (harg6 : arg6.IsWhole) (arg7 : Memref sig .tc .vmem S512x1 .f32) (harg7 : arg7.IsWhole)
    (arg8 : Memref sig .tc .vmem S512x1 .f32) (harg8 : arg8.IsWhole) (arg9 : Memref sig .tc .vmem S512x1 .f32) (harg9 : arg9.IsWhole)
    (arg10 : Memref sig .tc .vmem S512x1 .f32) (harg10 : arg10.IsWhole) (arg11 : Memref sig .tc .vmem S512x1 .f32) (harg11 : arg11.IsWhole)
    (hc0 : ¬cond0_0 i) (hc1 : cond0_1 i)
    (x0 : Vec F S512x256 .bf16) (x1 : Vec F S512x256 .bf16) (x2 : Vec F S512x1 .i32) (x3 : Vec F S1x512 .i32) (xs0 xs1 xs2 xs3 : Vec F S512x1 .f32) (y : S512x1.Idx) :
    ∃ pc ∈ (kernelRun0_C c i arg2 harg2 arg3 harg3 arg4 harg4 arg5 harg5 arg6 harg6 arg7 harg7 arg8 harg8 arg9 harg9 arg10 harg10 arg11 harg11 hc0 hc1 x0 x1 x2 x3 xs0 xs1 xs2 xs3).1, y ∈ pc.1.set :=
  View.cover_of_tiledL (kernelRun0_C c i arg2 harg2 arg3 harg3 arg4 harg4 arg5 harg5 arg6 harg6 arg7 harg7 arg8 harg8 arg9 harg9 arg10 harg10 arg11 harg11 hc0 hc1 x0 x1 x2 x3 xs0 xs1 xs2 xs3).1 S512x1.size (by sl_kernel_rfl) y

/-- What case C leaves in output window 4's staging buffer: its piece read back over junk. -/
def out0_C_4 (c : Dev nD) (i : grid0.Coords)
    (arg2 : Memref sig .tc .vmem S512x256 .bf16) (harg2 : arg2.IsWhole) (arg3 : Memref sig .tc .vmem S512x256 .bf16) (harg3 : arg3.IsWhole)
    (arg4 : Memref sig .tc .vmem S512x1 .i32) (harg4 : arg4.IsWhole) (arg5 : Memref sig .tc .vmem S1x512 .i32) (harg5 : arg5.IsWhole)
    (arg6 : Memref sig .tc .vmem S512x1 .f32) (harg6 : arg6.IsWhole) (arg7 : Memref sig .tc .vmem S512x1 .f32) (harg7 : arg7.IsWhole)
    (arg8 : Memref sig .tc .vmem S512x1 .f32) (harg8 : arg8.IsWhole) (arg9 : Memref sig .tc .vmem S512x1 .f32) (harg9 : arg9.IsWhole)
    (arg10 : Memref sig .tc .vmem S512x1 .f32) (harg10 : arg10.IsWhole) (arg11 : Memref sig .tc .vmem S512x1 .f32) (harg11 : arg11.IsWhole)
    (hc0 : ¬cond0_0 i) (hc1 : cond0_1 i)
    (x0 : Vec F S512x256 .bf16) (x1 : Vec F S512x256 .bf16) (x2 : Vec F S512x1 .i32) (x3 : Vec F S1x512 .i32) (xs0 xs1 xs2 xs3 : Vec F S512x1 .f32) : Vec F S512x1 .f32 :=
  VO0_4.read (Elt F) (VO0_4.writes (Elt F) VO0_4.junk (kernelRun0_C c i arg2 harg2 arg3 harg3 arg4 harg4 arg5 harg5 arg6 harg6 arg7 harg7 arg8 harg8 arg9 harg9 arg10 harg10 arg11 harg11 hc0 hc1 x0 x1 x2 x3 xs0 xs1 xs2 xs3).1)

/-- Case C's piece for output window 5 covers its block: one whole-block store. -/
theorem cover0_C_5 (c : Dev nD) (i : grid0.Coords)
    (arg2 : Memref sig .tc .vmem S512x256 .bf16) (harg2 : arg2.IsWhole) (arg3 : Memref sig .tc .vmem S512x256 .bf16) (harg3 : arg3.IsWhole)
    (arg4 : Memref sig .tc .vmem S512x1 .i32) (harg4 : arg4.IsWhole) (arg5 : Memref sig .tc .vmem S1x512 .i32) (harg5 : arg5.IsWhole)
    (arg6 : Memref sig .tc .vmem S512x1 .f32) (harg6 : arg6.IsWhole) (arg7 : Memref sig .tc .vmem S512x1 .f32) (harg7 : arg7.IsWhole)
    (arg8 : Memref sig .tc .vmem S512x1 .f32) (harg8 : arg8.IsWhole) (arg9 : Memref sig .tc .vmem S512x1 .f32) (harg9 : arg9.IsWhole)
    (arg10 : Memref sig .tc .vmem S512x1 .f32) (harg10 : arg10.IsWhole) (arg11 : Memref sig .tc .vmem S512x1 .f32) (harg11 : arg11.IsWhole)
    (hc0 : ¬cond0_0 i) (hc1 : cond0_1 i)
    (x0 : Vec F S512x256 .bf16) (x1 : Vec F S512x256 .bf16) (x2 : Vec F S512x1 .i32) (x3 : Vec F S1x512 .i32) (xs0 xs1 xs2 xs3 : Vec F S512x1 .f32) (y : S512x1.Idx) :
    ∃ pc ∈ (kernelRun0_C c i arg2 harg2 arg3 harg3 arg4 harg4 arg5 harg5 arg6 harg6 arg7 harg7 arg8 harg8 arg9 harg9 arg10 harg10 arg11 harg11 hc0 hc1 x0 x1 x2 x3 xs0 xs1 xs2 xs3).2.1, y ∈ pc.1.set :=
  View.cover_of_tiledL (kernelRun0_C c i arg2 harg2 arg3 harg3 arg4 harg4 arg5 harg5 arg6 harg6 arg7 harg7 arg8 harg8 arg9 harg9 arg10 harg10 arg11 harg11 hc0 hc1 x0 x1 x2 x3 xs0 xs1 xs2 xs3).2.1 S512x1.size (by sl_kernel_rfl) y

/-- What case C leaves in output window 5's staging buffer: its piece read back over junk. -/
def out0_C_5 (c : Dev nD) (i : grid0.Coords)
    (arg2 : Memref sig .tc .vmem S512x256 .bf16) (harg2 : arg2.IsWhole) (arg3 : Memref sig .tc .vmem S512x256 .bf16) (harg3 : arg3.IsWhole)
    (arg4 : Memref sig .tc .vmem S512x1 .i32) (harg4 : arg4.IsWhole) (arg5 : Memref sig .tc .vmem S1x512 .i32) (harg5 : arg5.IsWhole)
    (arg6 : Memref sig .tc .vmem S512x1 .f32) (harg6 : arg6.IsWhole) (arg7 : Memref sig .tc .vmem S512x1 .f32) (harg7 : arg7.IsWhole)
    (arg8 : Memref sig .tc .vmem S512x1 .f32) (harg8 : arg8.IsWhole) (arg9 : Memref sig .tc .vmem S512x1 .f32) (harg9 : arg9.IsWhole)
    (arg10 : Memref sig .tc .vmem S512x1 .f32) (harg10 : arg10.IsWhole) (arg11 : Memref sig .tc .vmem S512x1 .f32) (harg11 : arg11.IsWhole)
    (hc0 : ¬cond0_0 i) (hc1 : cond0_1 i)
    (x0 : Vec F S512x256 .bf16) (x1 : Vec F S512x256 .bf16) (x2 : Vec F S512x1 .i32) (x3 : Vec F S1x512 .i32) (xs0 xs1 xs2 xs3 : Vec F S512x1 .f32) : Vec F S512x1 .f32 :=
  VO0_5.read (Elt F) (VO0_5.writes (Elt F) VO0_5.junk (kernelRun0_C c i arg2 harg2 arg3 harg3 arg4 harg4 arg5 harg5 arg6 harg6 arg7 harg7 arg8 harg8 arg9 harg9 arg10 harg10 arg11 harg11 hc0 hc1 x0 x1 x2 x3 xs0 xs1 xs2 xs3).2.1)

/-! ## What the outputs and the scratch hold after each point -/

/-- The two outputs' staging contents and the four scratch contents after the body at one point. -/
structure Outs (F : FTy → Type) [FloatOps F] where
  /-- output window 4 (the per-row loss terms) -/
  o4 : Vec F S512x1 .f32
  /-- output window 5 (the per-row counts of positives) -/
  o5 : Vec F S512x1 .f32
  /-- scratch 0: the running row maximum -/
  s0 : Vec F S512x1 .f32
  /-- scratch 1: the running denominator -/
  s1 : Vec F S512x1 .f32
  /-- scratch 2: the sum of positive similarities -/
  s2 : Vec F S512x1 .f32
  /-- scratch 3: the count of positives -/
  s3 : Vec F S512x1 .f32

/-- Where a case stores nothing into an output window (the window idle and not written back there), a placeholder
    nothing consults: junk read back. -/
def out0_A_4 : Vec F S512x1 .f32 := VO0_4.read (Elt F) VO0_4.junk
def out0_A_5 : Vec F S512x1 .f32 := VO0_5.read (Elt F) VO0_5.junk
def out0_B_4 : Vec F S512x1 .f32 := VO0_4.read (Elt F) VO0_4.junk
def out0_B_5 : Vec F S512x1 .f32 := VO0_5.read (Elt F) VO0_5.junk

/-- After a point of the first case (a row block's first column tile): the scratch at the reset followed by the
    update over the point's blocks; nothing of the point before is read. -/
def outsA (c : Dev nD) (t : Fin cfg0.N) (h0 : t.val % 16 = 0) (h1 : ¬t.val % 16 = 15) : Outs F where
  o4 := out0_A_4
  o5 := out0_A_5
  s0 := sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t)
  s1 := sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t)
  s2 := sout0_A_2 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t)
  s3 := sout0_A_3 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t)

/-- After a point of the middle case: the scratch updated over the point's blocks from what the point before left (`p`). -/
def outsB (c : Dev nD) (t : Fin cfg0.N) (h0 : ¬t.val % 16 = 0) (h1 : ¬t.val % 16 = 15) (p : Outs F) : Outs F where
  o4 := out0_B_4
  o5 := out0_B_5
  s0 := sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) p.s0 p.s1 p.s2 p.s3
  s1 := sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) p.s0 p.s1 p.s2 p.s3
  s2 := sout0_B_2 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) p.s0 p.s1 p.s2 p.s3
  s3 := sout0_B_3 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) p.s0 p.s1 p.s2 p.s3

/-- After a point of the last case (a row block's last column tile): the scratch updated from what the point before
    left (`p`), and the two outputs at what the final block stores, computed from the updated scratch. -/
def outsC (c : Dev nD) (t : Fin cfg0.N) (h0 : ¬t.val % 16 = 0) (h1 : t.val % 16 = 15) (p : Outs F) : Outs F where
  o4 := out0_C_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) p.s0 p.s1 p.s2 p.s3
  o5 := out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) p.s0 p.s1 p.s2 p.s3
  s0 := sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) p.s0 p.s1 p.s2 p.s3
  s1 := sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) p.s0 p.s1 p.s2 p.s3
  s2 := sout0_C_2 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) p.s0 p.s1 p.s2 p.s3
  s3 := sout0_C_3 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) p.s0 p.s1 p.s2 p.s3

/-- THE ACCUMULATION: what the outputs' staging buffers and the four scratch buffers hold after the body at
    position `n`, by recursion on `n`: the case is read off `n % 16` (0: first, 15: last, else middle), run at the
    point's memrefs and input blocks, the scratch it reads before storing at what position `n - 1` left. -/
def outsAt0 (c : Dev nD) : (n : ℕ) → n < cfg0.N → Outs F
  | 0, hn => outsA m c ⟨0, hn⟩ (Nat.zero_mod _) (show ¬(0 % 16 = 15) from by decide)
  | n + 1, hn =>
    if h0 : (n + 1) % 16 = 0 then
      if h1 : (n + 1) % 16 = 15 then False.elim (by omega)
      else outsA m c ⟨n + 1, hn⟩ h0 h1
    else
      if h1 : (n + 1) % 16 = 15 then outsC m c ⟨n + 1, hn⟩ h0 h1 (outsAt0 c n (Nat.lt_of_succ_lt hn))
      else outsB m c ⟨n + 1, hn⟩ h0 h1 (outsAt0 c n (Nat.lt_of_succ_lt hn))

/-- `outsAt0` at a point of the first case. -/
theorem outsAt0_A (c : Dev nD) (t : Fin cfg0.N) (h0 : t.val % 16 = 0) (h1 : ¬t.val % 16 = 15) :
    outsAt0 m c t.val t.isLt = outsA m c t h0 h1 := by
  obtain ⟨n, hn⟩ := t
  cases n with
  | zero => exact rfl
  | succ n => exact (dif_pos h0).trans ((dif_neg h1).trans rfl)

/-- `outsAt0` at a point of the middle case, over what the point before left. -/
theorem outsAt0_B (c : Dev nD) (t : Fin cfg0.N) (h0 : ¬t.val % 16 = 0) (h1 : ¬t.val % 16 = 15) :
    outsAt0 m c t.val t.isLt = outsB m c t h0 h1 (outsAt0 m c (t.val - 1) (Nat.lt_of_le_of_lt (Nat.sub_le _ _) t.isLt)) := by
  obtain ⟨n, hn⟩ := t
  cases n with
  | zero => exact absurd (Nat.zero_mod _) h0
  | succ n => exact (dif_neg h0).trans ((dif_neg h1).trans rfl)

/-- `outsAt0` at a point of the last case, over what the point before left. -/
theorem outsAt0_C (c : Dev nD) (t : Fin cfg0.N) (h0 : ¬t.val % 16 = 0) (h1 : t.val % 16 = 15) :
    outsAt0 m c t.val t.isLt = outsC m c t h0 h1 (outsAt0 m c (t.val - 1) (Nat.lt_of_le_of_lt (Nat.sub_le _ _) t.isLt)) := by
  obtain ⟨n, hn⟩ := t
  cases n with
  | zero => exact absurd (Nat.zero_mod _) h0
  | succ n => exact (dif_neg h0).trans ((dif_pos h1).trans rfl)

/-! ## The invariant -/

/-- The region invariant before position `n`: before the first point the four scratch buffers at anything (the
    scoped rest); afterwards each at what the point before left in it. -/
def PhiS (c : Dev nD) : (n : ℕ) → n ≤ cfg0.N → sProp 𝕄
  | 0, _ => Pipeline.scopedRest spec0 c
  | n + 1, hn => iprop(owns (c : Thread nD τ) scM0_0 fullShare (outsAt0 m c n hn).s0 ∗ owns (c : Thread nD τ) scM0_1 fullShare (outsAt0 m c n hn).s1
      ∗ owns (c : Thread nD τ) scM0_2 fullShare (outsAt0 m c n hn).s2 ∗ owns (c : Thread nD τ) scM0_3 fullShare (outsAt0 m c n hn).s3)

theorem PhiS_zero (c : Dev nD) (n : ℕ) (h : n ≤ cfg0.N) (hz : n = 0) : PhiS m c n h = Pipeline.scopedRest spec0 c := by
  subst hz; rfl

/-- After point `n` (before point `n + 1`): the scratch at that point's contents. -/
theorem PhiS_succ (c : Dev nD) (n : ℕ) (hn : n < cfg0.N) :
    PhiS m c (n + 1) hn = iprop(owns (c : Thread nD τ) scM0_0 fullShare (outsAt0 m c n hn).s0 ∗ owns (c : Thread nD τ) scM0_1 fullShare (outsAt0 m c n hn).s1
      ∗ owns (c : Thread nD τ) scM0_2 fullShare (outsAt0 m c n hn).s2 ∗ owns (c : Thread nD τ) scM0_3 fullShare (outsAt0 m c n hn).s3) := rfl

/-- Before a point that is not the first: the scratch at what the point before left. -/
theorem PhiS_pos (c : Dev nD) (n : ℕ) (h : n ≤ cfg0.N) (hz : n ≠ 0) :
    PhiS m c n h = iprop(owns (c : Thread nD τ) scM0_0 fullShare (outsAt0 m c (n - 1) (by omega)).s0 ∗ owns (c : Thread nD τ) scM0_1 fullShare (outsAt0 m c (n - 1) (by omega)).s1
      ∗ owns (c : Thread nD τ) scM0_2 fullShare (outsAt0 m c (n - 1) (by omega)).s2 ∗ owns (c : Thread nD τ) scM0_3 fullShare (outsAt0 m c (n - 1) (by omega)).s3) := by
  cases n with
  | zero => exact absurd rfl hz
  | succ n => rfl

/-! ## The pipeline's proof data -/

/-- The proof data of the one pipeline on core `c`: the arrays as the region finds them; after the body at point
    `t` each input's buffer at its block and the outputs' at the accumulation's components; the invariant `PhiS`;
    nothing owed; the two windows that read the one bf16 array hold half of it each, the others their arrays whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t.val t.isLt).o4
    | ⟨5, _⟩ => (outsAt0 m c t.val t.isLt).o5
  Φ t := PhiS m c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
  owed _ := 0

/-- The proof data's arrays are the region-entry contents. -/
theorem A_eq (c : Dev nD) (w : Fin cfg0.W) : (dats m 0 c).A w = V m c (Pipeline.arrRef spec0 w) := by
  dsimp only [dats]

/-- The invariant at a point's start, restated at `t.val`. -/
theorem PhiS_castSucc (c : Dev nD) (t : Fin cfg0.N) :
    (dats m 0 c).Φ t.castSucc = PhiS m c t.val (Nat.le_of_lt t.isLt) := by
  dsimp only [dats]; simp only [Fin.coe_castSucc]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt0 m c t.val t.isLt).o4 := by dsimp only [dats]
theorem after0_5 (c : Dev nD) (t : Fin cfg0.N) : (dats m 0 c).after 5 t = (outsAt0 m c t.val t.isLt).o5 := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- A live input window's buffer is left at its block. -/
theorem leaves0_0 (c : Dev nD) (t : Fin cfg0.N) :
    (dats m 0 c).leavesExact 0 t = owns (c : Thread nD τ) (ms0_0 t) fullShare (iblk m c 0 t) := by
  rw [show (dats m 0 c).leavesExact 0 t = owns (c : Thread nD τ) (ms0_0 t) fullShare ((dats m 0 c).after 0 t) from by
    unfold Dat.leavesExact; rw [liveAt0_0 t], after0_0]
theorem leaves0_1 (c : Dev nD) (t : Fin cfg0.N) :
    (dats m 0 c).leavesExact 1 t = owns (c : Thread nD τ) (ms0_1 t) fullShare (iblk m c 1 t) := by
  rw [show (dats m 0 c).leavesExact 1 t = owns (c : Thread nD τ) (ms0_1 t) fullShare ((dats m 0 c).after 1 t) from by
    unfold Dat.leavesExact; rw [liveAt0_1 t], after0_1]
theorem leaves0_2 (c : Dev nD) (t : Fin cfg0.N) :
    (dats m 0 c).leavesExact 2 t = owns (c : Thread nD τ) (ms0_2 t) fullShare (iblk m c 2 t) := by
  rw [show (dats m 0 c).leavesExact 2 t = owns (c : Thread nD τ) (ms0_2 t) fullShare ((dats m 0 c).after 2 t) from by
    unfold Dat.leavesExact; rw [liveAt0_2 t], after0_2]
theorem leaves0_3 (c : Dev nD) (t : Fin cfg0.N) :
    (dats m 0 c).leavesExact 3 t = owns (c : Thread nD τ) (ms0_3 t) fullShare (iblk m c 3 t) := by
  rw [show (dats m 0 c).leavesExact 3 t = owns (c : Thread nD τ) (ms0_3 t) fullShare ((dats m 0 c).after 3 t) from by
    unfold Dat.leavesExact; rw [liveAt0_3 t], after0_3]
/-- An output window at a point of the last case is left at the accumulation's component. -/
theorem leaves0_4_C (c : Dev nD) (t : Fin cfg0.N) (hc0 : ¬cond0_0 (grid0.coords t)) (hc1 : cond0_1 (grid0.coords t)) :
    (dats m 0 c).leavesExact 4 t = owns (c : Thread nD τ) (ms0_4 t) fullShare (outsAt0 m c t.val t.isLt).o4 := by
  rw [show (dats m 0 c).leavesExact 4 t = owns (c : Thread nD τ) (ms0_4 t) fullShare ((dats m 0 c).after 4 t) from by
    unfold Dat.leavesExact; rw [liveAt0_4_C t hc0 hc1], after0_4]
theorem leaves0_5_C (c : Dev nD) (t : Fin cfg0.N) (hc0 : ¬cond0_0 (grid0.coords t)) (hc1 : cond0_1 (grid0.coords t)) :
    (dats m 0 c).leavesExact 5 t = owns (c : Thread nD τ) (ms0_5 t) fullShare (outsAt0 m c t.val t.isLt).o5 := by
  rw [show (dats m 0 c).leavesExact 5 t = owns (c : Thread nD τ) (ms0_5 t) fullShare ((dats m 0 c).after 5 t) from by
    unfold Dat.leavesExact; rw [liveAt0_5_C t hc0 hc1], after0_5]

/-! ## The body obligation -/

/-- What the body is called with at point `t`: the invariant, nothing owed, each window's current buffer at what it
    then holds, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

set_option maxHeartbeats 4800000 in
/-- The body at a point of the first case: the inputs' memrefs hold their blocks; the two outputs are idle and handed
    back as found; the four scratch come in at anything (before the first point) or at what the point before left,
    which the reset overwrites; they go back at this point's contents, their pieces covering them. -/
theorem sound_body_A (c : Dev nD) (t : Fin cfg0.N) (h0 : t.val % 16 = 0) (h1 : ¬t.val % 16 = 15) :
    bodyPre m c t ⊢ wp frame (wpE (defs₀ (F := F)) Variants.none c none) Set.univ (bodyAt0 t) (fun _ => bodyPost m c t) := by
  have hc0 : cond0_0 (grid0.coords t) := (hcond0_0 t).mpr h0
  have hc1 : ¬cond0_1 (grid0.coords t) := fun h => h1 ((hcond0_1 t).mp h)
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ]
  rw [leaves0_0, leaves0_1, leaves0_2, leaves0_3]
  rw [Dat.leavesExact_idle (dats m 0 c) 4 t (idleAt0_4_A t hc0 hc1) (noFlush0_4_A t hc0 hc1)]
  rw [Dat.leavesExact_idle (dats m 0 c) 5 t (idleAt0_5_A t hc0 hc1) (noFlush0_5_A t hc0 hc1)]
  rw [outsAt0_A m c t h0 h1]
  unfold outsA sout0_A_0 sout0_A_1 sout0_A_2 sout0_A_3; (try dsimp only)
  by_cases hz : t.val = 0
  · rw [PhiS_castSucc m c t, PhiS_zero m c _ _ hz, scopedRest0_owns]
    iintro ⟨⟨HS0, HS1, HS2, HS3⟩, Ho, ⟨%d0, H0⟩, ⟨%d1, H1⟩, ⟨%d2, H2⟩, ⟨%d3, H3⟩, ⟨%d4, H4⟩, ⟨%d5, H5⟩⟩
    iapply ((kernelRun0_A c (grid0.coords t) _ _ _ _ _ _ _ _ _ _ _ _ _ _ _ _ _ _ _ _ hc0 hc1 (iblk m c 0 t) (iblk m c 1 t) (iblk m c 2 t) (iblk m c 3 t)).2.2.2.2 _ _ Set.univ _)
    isplitl [H0]; · iexact H0
    isplitl [H1]; · iexact H1
    isplitl [H2]; · iexact H2
    isplitl [H3]; · iexact H3
    isplitl [H4]; · iexact H4
    isplitl [H5]; · iexact H5
    isplitl [HS0]; · iexact HS0
    isplitl [HS1]; · iexact HS1
    isplitl [HS2]; · iexact HS2
    isplitl [HS3]; · iexact HS3
    iintro ⟨H0, H1, H2, H3, H4, H5, ⟨%es0, HS0⟩, ⟨%es1, HS1⟩, ⟨%es2, HS2⟩, ⟨%es3, HS3⟩⟩
    isplitl [HS0 HS1 HS2 HS3]
    · isplitl [HS0]
      · unfold owns; iexists _; isplitr
        swap; · iexact HS0
        ipureintro; exact View.read_writes_of_cover _ _ _ _ _ (scover0_A_0 c _ _ _ _ _ _ _ _ _ _ _ _ _ _ _ _ _ _ _ _ _ _ _ _ _ _ _)
      isplitl [HS1]
      · unfold owns; iexists _; isplitr
        swap; · iexact HS1
        ipureintro; exact View.read_writes_of_cover _ _ _ _ _ (scover0_A_1 c _ _ _ _ _ _ _ _ _ _ _ _ _ _ _ _ _ _ _ _ _ _ _ _ _ _ _)
      isplitl [HS2]
      · unfold owns; iexists _; isplitr
        swap; · iexact HS2
        ipureintro; exact View.read_writes_of_cover _ _ _ _ _ (scover0_A_2 c _ _ _ _ _ _ _ _ _ _ _ _ _ _ _ _ _ _ _ _ _ _ _ _ _ _ _)
      unfold owns; iexists _; isplitr
      swap; · iexact HS3
      ipureintro; exact View.read_writes_of_cover _ _ _ _ _ (scover0_A_3 c _ _ _ _ _ _ _ _ _ _ _ _ _ _ _ _ _ _ _ _ _ _ _ _ _ _ _)
    isplitl [Ho]; · iexact Ho
    isplitl [H0]; · iexact H0
    isplitl [H1]; · iexact H1
    isplitl [H2]; · iexact H2
    isplitl [H3]; · iexact H3
    isplitl [H4]; · iexists _; iexact H4
    iexists _; iexact H5
  · rw [PhiS_castSucc m c t, PhiS_pos m c _ _ hz]
    iintro ⟨⟨HS0, HS1, HS2, HS3⟩, Ho, ⟨%d0, H0⟩, ⟨%d1, H1⟩, ⟨%d2, H2⟩, ⟨%d3, H3⟩, ⟨%d4, H4⟩, ⟨%d5, H5⟩⟩
    iapply ((kernelRun0_A c (grid0.coords t) _ _ _ _ _ _ _ _ _ _ _ _ _ _ _ _ _ _ _ _ hc0 hc1 (iblk m c 0 t) (iblk m c 1 t) (iblk m c 2 t) (iblk m c 3 t)).2.2.2.2 _ _ Set.univ _)
    isplitl [H0]; · iexact H0
    isplitl [H1]; · iexact H1
    isplitl [H2]; · iexact H2
    isplitl [H3]; · iexact H3
    isplitl [H4]; · iexact H4
    isplitl [H5]; · iexact H5
    isplitl [HS0]; · iexists _; iexact HS0
    isplitl [HS1]; · iexists _; iexact HS1
    isplitl [HS2]; · iexists _; iexact HS2
    isplitl [HS3]; · iexists _; iexact HS3
    iintro ⟨H0, H1, H2, H3, H4, H5, ⟨%es0, HS0⟩, ⟨%es1, HS1⟩, ⟨%es2, HS2⟩, ⟨%es3, HS3⟩⟩
    isplitl [HS0 HS1 HS2 HS3]
    · isplitl [HS0]
      · unfold owns; iexists _; isplitr
        swap; · iexact HS0
        ipureintro; exact View.read_writes_of_cover _ _ _ _ _ (scover0_A_0 c _ _ _ _ _ _ _ _ _ _ _ _ _ _ _ _ _ _ _ _ _ _ _ _ _ _ _)
      isplitl [HS1]
      · unfold owns; iexists _; isplitr
        swap; · iexact HS1
        ipureintro; exact View.read_writes_of_cover _ _ _ _ _ (scover0_A_1 c _ _ _ _ _ _ _ _ _ _ _ _ _ _ _ _ _ _ _ _ _ _ _ _ _ _ _)
      isplitl [HS2]
      · unfold owns; iexists _; isplitr
        swap; · iexact HS2
        ipureintro; exact View.read_writes_of_cover _ _ _ _ _ (scover0_A_2 c _ _ _ _ _ _ _ _ _ _ _ _ _ _ _ _ _ _ _ _ _ _ _ _ _ _ _)
      unfold owns; iexists _; isplitr
      swap; · iexact HS3
      ipureintro; exact View.read_writes_of_cover _ _ _ _ _ (scover0_A_3 c _ _ _ _ _ _ _ _ _ _ _ _ _ _ _ _ _ _ _ _ _ _ _ _ _ _ _)
    isplitl [Ho]; · iexact Ho
    isplitl [H0]; · iexact H0
    isplitl [H1]; · iexact H1
    isplitl [H2]; · iexact H2
    isplitl [H3]; · iexact H3
    isplitl [H4]; · iexists _; iexact H4
    iexists _; iexact H5

set_option maxHeartbeats 4800000 in
/-- The body at a point of the middle case: as the first, but the four scratch come in at what the point before left
    and are read before they are stored. -/
theorem sound_body_B (c : Dev nD) (t : Fin cfg0.N) (h0 : ¬t.val % 16 = 0) (h1 : ¬t.val % 16 = 15) :
    bodyPre m c t ⊢ wp frame (wpE (defs₀ (F := F)) Variants.none c none) Set.univ (bodyAt0 t) (fun _ => bodyPost m c t) := by
  have hc0 : ¬cond0_0 (grid0.coords t) := fun h => h0 ((hcond0_0 t).mp h)
  have hc1 : ¬cond0_1 (grid0.coords t) := fun h => h1 ((hcond0_1 t).mp h)
  have hz : t.val ≠ 0 := by omega
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ]
  rw [leaves0_0, leaves0_1, leaves0_2, leaves0_3]
  rw [Dat.leavesExact_idle (dats m 0 c) 4 t (idleAt0_4_B t hc0 hc1) (noFlush0_4_B t hc0 hc1)]
  rw [Dat.leavesExact_idle (dats m 0 c) 5 t (idleAt0_5_B t hc0 hc1) (noFlush0_5_B t hc0 hc1)]
  rw [outsAt0_B m c t h0 h1]
  unfold outsB sout0_B_0 sout0_B_1 sout0_B_2 sout0_B_3; (try dsimp only)
  rw [PhiS_castSucc m c t, PhiS_pos m c _ _ hz]
  iintro ⟨⟨HS0, HS1, HS2, HS3⟩, Ho, ⟨%d0, H0⟩, ⟨%d1, H1⟩, ⟨%d2, H2⟩, ⟨%d3, H3⟩, ⟨%d4, H4⟩, ⟨%d5, H5⟩⟩
  iapply ((kernelRun0_B c (grid0.coords t) _ _ _ _ _ _ _ _ _ _ _ _ _ _ _ _ _ _ _ _ hc0 hc1 (iblk m c 0 t) (iblk m c 1 t) (iblk m c 2 t) (iblk m c 3 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3).2.2.2.2 _ _ Set.univ _)
  isplitl [H0]; · iexact H0
  isplitl [H1]; · iexact H1
  isplitl [H2]; · iexact H2
  isplitl [H3]; · iexact H3
  isplitl [H4]; · iexact H4
  isplitl [H5]; · iexact H5
  isplitl [HS0]; · iexact HS0
  isplitl [HS1]; · iexact HS1
  isplitl [HS2]; · iexact HS2
  isplitl [HS3]; · iexact HS3
  iintro ⟨H0, H1, H2, H3, H4, H5, ⟨%es0, HS0⟩, ⟨%es1, HS1⟩, ⟨%es2, HS2⟩, ⟨%es3, HS3⟩⟩
  isplitl [HS0 HS1 HS2 HS3]
  · isplitl [HS0]
    · unfold owns; iexists _; isplitr
      swap; · iexact HS0
      ipureintro; exact View.read_writes_of_cover _ _ _ _ _ (scover0_B_0 c _ _ _ _ _ _ _ _ _ _ _ _ _ _ _ _ _ _ _ _ _ _ _ _ _ _ _ _ _ _ _)
    isplitl [HS1]
    · unfold owns; iexists _; isplitr
      swap; · iexact HS1
      ipureintro; exact View.read_writes_of_cover _ _ _ _ _ (scover0_B_1 c _ _ _ _ _ _ _ _ _ _ _ _ _ _ _ _ _ _ _ _ _ _ _ _ _ _ _ _ _ _ _)
    isplitl [HS2]
    · unfold owns; iexists _; isplitr
      swap; · iexact HS2
      ipureintro; exact View.read_writes_of_cover _ _ _ _ _ (scover0_B_2 c _ _ _ _ _ _ _ _ _ _ _ _ _ _ _ _ _ _ _ _ _ _ _ _ _ _ _ _ _ _ _)
    unfold owns; iexists _; isplitr
    swap; · iexact HS3
    ipureintro; exact View.read_writes_of_cover _ _ _ _ _ (scover0_B_3 c _ _ _ _ _ _ _ _ _ _ _ _ _ _ _ _ _ _ _ _ _ _ _ _ _ _ _ _ _ _ _)
  isplitl [Ho]; · iexact Ho
  isplitl [H0]; · iexact H0
  isplitl [H1]; · iexact H1
  isplitl [H2]; · iexact H2
  isplitl [H3]; · iexact H3
  isplitl [H4]; · iexists _; iexact H4
  iexists _; iexact H5

set_option maxHeartbeats 4800000 in
/-- The body at a point of the last case: the scratch as in the middle case; the two outputs come in at anything and
    go back at what the final block stored, their pieces covering them. -/
theorem sound_body_C (c : Dev nD) (t : Fin cfg0.N) (h0 : ¬t.val % 16 = 0) (h1 : t.val % 16 = 15) :
    bodyPre m c t ⊢ wp frame (wpE (defs₀ (F := F)) Variants.none c none) Set.univ (bodyAt0 t) (fun _ => bodyPost m c t) := by
  have hc0 : ¬cond0_0 (grid0.coords t) := fun h => h0 ((hcond0_0 t).mp h)
  have hc1 : cond0_1 (grid0.coords t) := (hcond0_1 t).mpr h1
  have hz : t.val ≠ 0 := by omega
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ]
  rw [leaves0_0, leaves0_1, leaves0_2, leaves0_3]
  rw [leaves0_4_C m c t hc0 hc1, leaves0_5_C m c t hc0 hc1]
  rw [outsAt0_C m c t h0 h1]
  unfold outsC out0_C_4 out0_C_5 sout0_C_0 sout0_C_1 sout0_C_2 sout0_C_3; (try dsimp only)
  rw [PhiS_castSucc m c t, PhiS_pos m c _ _ hz]
  iintro ⟨⟨HS0, HS1, HS2, HS3⟩, Ho, ⟨%d0, H0⟩, ⟨%d1, H1⟩, ⟨%d2, H2⟩, ⟨%d3, H3⟩, ⟨%d4, H4⟩, ⟨%d5, H5⟩⟩
  iapply ((kernelRun0_C c (grid0.coords t) _ _ _ _ _ _ _ _ _ _ _ _ _ _ _ _ _ _ _ _ hc0 hc1 (iblk m c 0 t) (iblk m c 1 t) (iblk m c 2 t) (iblk m c 3 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3).2.2.2.2.2.2 Set.univ _)
  isplitl [H0]; · iexact H0
  isplitl [H1]; · iexact H1
  isplitl [H2]; · iexact H2
  isplitl [H3]; · iexact H3
  isplitl [H4]; · iexists _; iexact H4
  isplitl [H5]; · iexists _; iexact H5
  isplitl [HS0]; · iexact HS0
  isplitl [HS1]; · iexact HS1
  isplitl [HS2]; · iexact HS2
  isplitl [HS3]; · iexact HS3
  iintro ⟨H0, H1, H2, H3, ⟨%e4, H4⟩, ⟨%e5, H5⟩, ⟨%es0, HS0⟩, ⟨%es1, HS1⟩, ⟨%es2, HS2⟩, ⟨%es3, HS3⟩⟩
  isplitl [HS0 HS1 HS2 HS3]
  · isplitl [HS0]
    · unfold owns; iexists _; isplitr
      swap; · iexact HS0
      ipureintro; exact View.read_writes_of_cover _ _ _ _ _ (scover0_C_0 c _ _ _ _ _ _ _ _ _ _ _ _ _ _ _ _ _ _ _ _ _ _ _ _ _ _ _ _ _ _ _)
    isplitl [HS1]
    · unfold owns; iexists _; isplitr
      swap; · iexact HS1
      ipureintro; exact View.read_writes_of_cover _ _ _ _ _ (scover0_C_1 c _ _ _ _ _ _ _ _ _ _ _ _ _ _ _ _ _ _ _ _ _ _ _ _ _ _ _ _ _ _ _)
    isplitl [HS2]
    · unfold owns; iexists _; isplitr
      swap; · iexact HS2
      ipureintro; exact View.read_writes_of_cover _ _ _ _ _ (scover0_C_2 c _ _ _ _ _ _ _ _ _ _ _ _ _ _ _ _ _ _ _ _ _ _ _ _ _ _ _ _ _ _ _)
    unfold owns; iexists _; isplitr
    swap; · iexact HS3
    ipureintro; exact View.read_writes_of_cover _ _ _ _ _ (scover0_C_3 c _ _ _ _ _ _ _ _ _ _ _ _ _ _ _ _ _ _ _ _ _ _ _ _ _ _ _ _ _ _ _)
  isplitl [Ho]; · iexact Ho
  isplitl [H0]; · iexact H0
  isplitl [H1]; · iexact H1
  isplitl [H2]; · iexact H2
  isplitl [H3]; · iexact H3
  isplitl [H4]
  · unfold owns; iexists _; isplitr
    swap; · iexact H4
    ipureintro; exact View.read_writes_of_cover _ _ _ _ _ (cover0_C_4 c _ _ _ _ _ _ _ _ _ _ _ _ _ _ _ _ _ _ _ _ _ _ _ _ _ _ _ _ _ _ _)
  unfold owns; iexists _; isplitr
  swap; · iexact H5
  ipureintro; exact View.read_writes_of_cover _ _ _ _ _ (cover0_C_5 c _ _ _ _ _ _ _ _ _ _ _ _ _ _ _ _ _ _ _ _ _ _ _ _ _ _ _ _ _ _ _)

/-- The body at any point: the closed forms of the two conditions say which case the point is in. -/
theorem sound_body (c : Dev nD) (t : Fin cfg0.N) :
    bodyPre m c t ⊢ wp frame (wpE (defs₀ (F := F)) Variants.none c none) Set.univ (bodyAt0 t) (fun _ => bodyPost m c t) := by
  by_cases h0 : t.val % 16 = 0
  · by_cases h1 : t.val % 16 = 15
    · exfalso; omega
    · exact sound_body_A m c t h0 h1
  · by_cases h1 : t.val % 16 = 15
    · exact sound_body_C m c t h0 h1
    · exact sound_body_B m c t h0 h1

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region (the scoped rest) is the invariant before the first point. -/
theorem hin0 (c : Dev nD) : Pipeline.scopedRest spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives the scoped rest back: the scratch's named contents are forgotten. -/
theorem Phi_out (c : Dev nD) (t : Fin (cfg0.N + 1)) (ht : t.val ≠ 0) : (dats m 0 c).Φ t ⊢ Pipeline.scopedRest spec0 c := by
  rw [show (dats m 0 c).Φ t = PhiS m c t.val (Nat.le_of_lt_succ t.isLt) from rfl, PhiS_pos m c _ _ ht, scopedRest0_owns]
  iintro ⟨HS0, HS1, HS2, HS3⟩
  isplitl [HS0]; · iexists _; iexact HS0
  isplitl [HS1]; · iexists _; iexact HS1
  isplitl [HS2]; · iexists _; iexact HS2
  iexists _; iexact HS3

/-- The same after the last point. -/
theorem hout0 (c : Dev nD) : (dats m 0 c).Φ (Fin.last cfg0.N) ⊢ Pipeline.scopedRest spec0 c :=
  Phi_out m c _ (by rw [Fin.val_last]; have : cfg0.N = 256 := N_0; omega)

end Cert.KernelIdeal.Body

end
-- ==== Proof.ILaunch.lean ====
/-
  The run of the idealized kernel's @main as three segments: three host operations (the cast of the embeddings and the two
  reshapes of the labels), the kernel region, five host operations (the two sums over the outputs and their quotient).
  Windows 0 and 1 of the region read ONE array, the cast embeddings: a row block and a column block of the same matrix.
  Each window therefore holds half of that array while the region runs; the halves are split off at the region's entry and
  rejoined at its exit, the array being only read in between. Everything is stated for proof data `dats` of which only
  the entry contents, the shares, that nothing is owed, the body obligation and the two ends of the invariant are assumed.
-/
import proofs.«167906_j2405181686310_1_alg».proof.Proof.Gen.KernelIdeal.Launch
import proofs.«167906_j2405181686310_1_alg».proof.Proof.Gen.KernelIdeal.Points
import proofs.«167906_j2405181686310_1_alg».proof.Proof.IRuns
import Idealize.ShloMosaic.Lib.Pipeline.Regions
import Idealize.ShloMosaic.Lib.Pipeline.Frame

noncomputable section

namespace Cert.KernelIdeal.Launch

open Cert.KernelIdeal Cert.KernelIdeal.Gen Cert.KernelIdeal.Body
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers behind the six windows are five: windows 0 and 1 read one array. -/
theorem arrBufs0_eq (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_v0) ↦{fullShare} W main_v0) ∗ (((c : Thread nD τ).loc main_v1) ↦{fullShare} W main_v1)
          ∗ (((c : Thread nD τ).loc main_v2) ↦{fullShare} W main_v2) ∗ (((c : Thread nD τ).loc main_v3_0) ↦{fullShare} W main_v3_0)
          ∗ (((c : Thread nD τ).loc main_v3_1) ↦{fullShare} W main_v3_1)) := by
  unfold Pipeline.arrBufs
  exact bigSep_eq_bigSepL_of_eq [main_v0, main_v1, main_v2, main_v3_0, main_v3_1] (by decide) (by decide) _

section Data

variable (dats : (p : Fin 1) → (c : Dev nD) → Dat τ (Elt F) Unit ℕ (UR sig nD τ) ℕ cfg0 c)

/-- The pipeline's arrays, window by window: windows 0 and 1 each hold half of `main_v0`, the others their array whole. -/
theorem arrays0_eq (c : Dev nD)
    (hq : ∀ w : Fin 6, (dats 0 c).q w = match w with | ⟨0, _⟩ => fullShare.left | ⟨1, _⟩ => fullShare.right | ⟨2, _⟩ => fullShare | ⟨3, _⟩ => fullShare | ⟨4, _⟩ => fullShare | ⟨5, _⟩ => fullShare)
    (Fw : (w : Fin cfg0.W) → Buf (Elt F) ((cfg0.win w).arr.view.loc (c : Thread nD τ))) :
    ((dats 0 c).arrays Fw : sProp 𝕄)
      = iprop((((c : Thread nD τ).loc main_v0) ↦{fullShare.left} Fw 0) ∗ (((c : Thread nD τ).loc main_v0) ↦{fullShare.right} Fw 1)
          ∗ (((c : Thread nD τ).loc main_v1) ↦{fullShare} Fw 2) ∗ (((c : Thread nD τ).loc main_v2) ↦{fullShare} Fw 3)
          ∗ (((c : Thread nD τ).loc main_v3_0) ↦{fullShare} Fw 4) ∗ (((c : Thread nD τ).loc main_v3_1) ↦{fullShare} Fw 5)) := by
  unfold Dat.arrays
  rw [bigSep_W0]
  have h0 : (dats 0 c).share 0 = fullShare.left := by unfold Dat.share; rw [if_neg (by decide)]; exact hq 0
  have h1 : (dats 0 c).share 1 = fullShare.right := by unfold Dat.share; rw [if_neg (by decide)]; exact hq 1
  have h2 : (dats 0 c).share 2 = fullShare := by unfold Dat.share; rw [if_neg (by decide)]; exact hq 2
  have h3 : (dats 0 c).share 3 = fullShare := by unfold Dat.share; rw [if_neg (by decide)]; exact hq 3
  have h4 : (dats 0 c).share 4 = fullShare := by unfold Dat.share; rw [if_pos (by decide)]
  have h5 : (dats 0 c).share 5 = fullShare := by unfold Dat.share; rw [if_pos (by decide)]
  rw [h0, h1, h2, h3, h4, h5, (arr_whole0 0).set_eq_univ, (arr_whole0 2).set_eq_univ, (arr_whole0 3).set_eq_univ,
    (arr_whole0 4).set_eq_univ, (arr_whole0 5).set_eq_univ]

end Data

section Run

variable (dats : (p : Fin 1) → (c : Dev nD) → Dat τ (Elt F) Unit ℕ (UR sig nD τ) ℕ cfg0 c)

abbrev 𝒱₀ : Variants := Variants.none
abbrev Lset : GSem nD τ sig → Finset Unit := fun _ => ∅
abbrev lv : GSem nD τ sig → Unit → ℕ := fun _ _ => 0
abbrev adm : (p : Fin 1) → (pcfgs (F := F) p).Adm := fun p => (cfgs p).toPCfg_adm

/-- What rides beside the buffers between the segments: the core owes nothing. -/
abbrev R (c : Dev nD) : sProp 𝕄 := iprop(∃ W, owes (c : Thread nD τ) (0 : CellTallies nD τ sig Unit) W)

/-- The three host operations before the region, over the unscoped buffers. -/
def seg0 : Pipeline.HostSeg (Name := ℕ) (U := UR sig nD τ) (pcfgs (F := F)) defs₀ 𝒱₀ Lset lv :=
  Pipeline.HostSeg.ofOps _ _ _ _ _ (Pipeline.ucRefs τ sig) hostOps0 (fun op h => Pipeline.sub_ucRefs op ((List.forall_iff_forall_mem.mp hostOps0_sub) op h))
    (by intro _ h; (repeat (cases h with | head => rfl | tail _ h => ?_)); exact nomatch h) (fun c b => m (c, b)) R

/-- What the unscoped buffers hold when the region is left: the two output arrays at what the write-backs made of them,
    every other buffer as the region found it. -/
def Vx (c : Dev nD) : Valuation τ sig (Elt F) :=
  Function.update (Function.update (V0 m c) (Proc.devRef .tc main_v3_0) ((dats 0 c).arrAt 4 cfg0.N))
    (Proc.devRef .tc main_v3_1) ((dats 0 c).arrAt 5 cfg0.N)

/-- The five host operations after the region. -/
def seg1 : Pipeline.HostSeg (Name := ℕ) (U := UR sig nD τ) (pcfgs (F := F)) defs₀ 𝒱₀ Lset lv :=
  Pipeline.HostSeg.ofOps _ _ _ _ _ (Pipeline.ucRefs τ sig) hostOps1 (fun op h => Pipeline.sub_ucRefs op ((List.forall_iff_forall_mem.mp hostOps1_sub) op h))
    (by intro _ h; (repeat (cases h with | head => rfl | tail _ h => ?_)); exact nomatch h) (Vx m dats) R

variable (hA : ∀ c w, (dats 0 c).A w = V m c (Pipeline.arrRef spec0 w))
  (hq : ∀ c (w : Fin 6), (dats 0 c).q w = match w with | ⟨0, _⟩ => fullShare.left | ⟨1, _⟩ => fullShare.right | ⟨2, _⟩ => fullShare | ⟨3, _⟩ => fullShare | ⟨4, _⟩ => fullShare | ⟨5, _⟩ => fullShare)

include hA hq in
/-- ENTRY: the five buffers behind the windows make the pipeline's arrays at their entry contents, `main_v0` split into the
    two halves windows 0 and 1 hold. -/
theorem entry_arrays (c : Dev nD) :
    (Pipeline.arrBufs (Ix := Unit) (Name := ℕ) (U := UR sig nD τ) (Lvl := ℕ) spec0 c (V m c) : sProp 𝕄) ⊢ (dats 0 c).arrays ((dats 0 c).arrAt · 0) := by
  rw [arrBufs0_eq, arrays0_eq dats c (hq c)]
  have e0 : (dats 0 c).arrAt 0 0 = V m c main_v0 := hA c 0
  have e1 : (dats 0 c).arrAt 1 0 = V m c main_v0 := hA c 1
  have e2 : (dats 0 c).arrAt 2 0 = V m c main_v1 := hA c 2
  have e3 : (dats 0 c).arrAt 3 0 = V m c main_v2 := hA c 3
  have e4 : (dats 0 c).arrAt 4 0 = V m c main_v3_0 := hA c 4
  have e5 : (dats 0 c).arrAt 5 0 = V m c main_v3_1 := hA c 5
  rw [e0, e1, e2, e3, e4, e5]
  iintro ⟨H0, H1, H2, H3, H4⟩
  ihave H0' := (pointsTo_share (PosShare.mem_left_op_right fullShare)).1 $$ H0
  icases H0' with ⟨H0l, H0r⟩
  isplitl [H0l]; · iexact H0l
  isplitl [H0r]; · iexact H0r
  isplitl [H1]; · iexact H1
  isplitl [H2]; · iexact H2
  isplitl [H3]; · iexact H3
  iexact H4

variable (howed : ∀ c t, (dats 0 c).owed t = 0) (hrec : ∀ c t, (dats 0 c).recorded t = Set.univ)
  (hbody : ∀ c, BodyObligation (dats 0 c) (defs₀ (F := F)) Variants.none () Set.univ)
  (hin : ∀ c, (Pipeline.scopedRest (Ix := Unit) (Name := ℕ) (U := UR sig nD τ) (Lvl := ℕ) (Val := Elt F) spec0 c : sProp (MT nD τ sig Unit (Elt F) ℕ (UR sig nD τ) ℕ)) ⊢ (dats 0 c).Φ 0)
  (hout : ∀ c, (dats 0 c).Φ (Fin.last cfg0.N) ⊢ (Pipeline.scopedRest (Ix := Unit) (Name := ℕ) (U := UR sig nD τ) (Lvl := ℕ) (Val := Elt F) spec0 c : sProp (MT nD τ sig Unit (Elt F) ℕ (UR sig nD τ) ℕ)))

/-- A buffer that is neither output array holds at the region's exit what it held at its entry. -/
theorem Vx_of_ne (c : Dev nD) (b : Ref sig .tc) (h4 : b ≠ main_v3_0) (h5 : b ≠ main_v3_1) :
    Vx m dats c (Proc.devRef .tc b) = V m c b := by
  unfold Vx
  rw [Function.update_of_ne (StableHlo.devRef_ne_of_ne h5), Function.update_of_ne (StableHlo.devRef_ne_of_ne h4)]

theorem Vx_out4 (c : Dev nD) : Vx m dats c (Proc.devRef .tc main_v3_0) = (dats 0 c).arrAt 4 cfg0.N := by
  unfold Vx
  rw [Function.update_of_ne (StableHlo.devRef_ne_of_ne (by decide)), Function.update_self]

theorem Vx_out5 (c : Dev nD) : Vx m dats c (Proc.devRef .tc main_v3_1) = (dats 0 c).arrAt 5 cfg0.N := by
  unfold Vx
  rw [Function.update_self]

include hA hq in
/-- EXIT: the pipeline's arrays at their final contents and the bypassing buffers are the unscoped buffers at the exit
    valuation — the two halves of `main_v0`, both still at its entry contents, rejoined. -/
theorem exit_bufs (c : Dev nD) :
    iprop(((dats 0 c).arrays ((dats 0 c).arrAt · cfg0.N) : sProp 𝕄) ∗ Pipeline.unscopedRest (Ix := Unit) (Name := ℕ) (U := UR sig nD τ) (Lvl := ℕ) spec0 c (V m c))
      ⊢ StableHlo.held (c : Thread nD τ) (Pipeline.ucRefs τ sig) (Vx m dats c) := by
  rw [← Pipeline.unscopedBufs_held c (Vx m dats c), Pipeline.unscopedBufs_split₀ cfgs 0 (fun w => by revert w; decide) c,
    arrBufs0_eq, arrays0_eq dats c (hq c), unscopedRest0_eq, unscopedRest0_eq]
  have e0 : (dats 0 c).arrAt 0 cfg0.N = V m c main_v0 := ((dats 0 c).arrAt_in 0 rfl _).trans (hA c 0)
  have e1 : (dats 0 c).arrAt 1 cfg0.N = V m c main_v0 := ((dats 0 c).arrAt_in 1 rfl _).trans (hA c 1)
  have e2 : (dats 0 c).arrAt 2 cfg0.N = V m c main_v1 := ((dats 0 c).arrAt_in 2 rfl _).trans (hA c 2)
  have e3 : (dats 0 c).arrAt 3 cfg0.N = V m c main_v2 := ((dats 0 c).arrAt_in 3 rfl _).trans (hA c 3)
  rw [e0, e1, e2, e3, Vx_out4, Vx_out5,
    Vx_of_ne m dats c main_v0 (by decide) (by decide), Vx_of_ne m dats c main_v1 (by decide) (by decide), Vx_of_ne m dats c main_v2 (by decide) (by decide),
    Vx_of_ne m dats c main_arg0 (by decide) (by decide), Vx_of_ne m dats c main_arg1 (by decide) (by decide), Vx_of_ne m dats c main_cst (by decide) (by decide),
    Vx_of_ne m dats c main_v4 (by decide) (by decide), Vx_of_ne m dats c main_cst_0 (by decide) (by decide), Vx_of_ne m dats c main_v5 (by decide) (by decide),
    Vx_of_ne m dats c main_v6 (by decide) (by decide)]
  iintro ⟨⟨H0l, H0r, H1, H2, H3, H4⟩, HZ⟩
  isplitr [HZ]; swap; · iexact HZ
  isplitl [H0l H0r]
  · iapply (pointsTo_share (PosShare.mem_left_op_right fullShare)).2
    isplitl [H0l] <;> iassumption
  isplitl [H1]; · iexact H1
  isplitl [H2]; · iexact H2
  isplitl [H3]; · iexact H3
  iexact H4

set_option backward.isDefEq.respectTransparency.types false in
/-- THE REGION: its layout (two windows on one array), no semaphore of its own, the body obligation; entered from what the
    first host segment left, left with the unscoped buffers at the exit valuation. -/
def reg0 : Pipeline.RegionSeg (pcfgs (F := F)) adm dats () defs₀ 𝒱₀ Lset lv 0 where
  win := winFacts₀0
  block_pos := block_pos0
  stage_whole := stage_whole0
  K := PEmpty
  osem := fun k => k.elim
  ho := Pipeline.OwnSemFacts.none spec0
  hbody c := (hbody c).loose
  hwaits := Pipeline.hwaits_of_owed_zero _ _ _ _ Lset lv 0 howed
  pre c := iprop(StableHlo.held (c : Thread nD τ) (Pipeline.ucRefs τ sig) (V0 m c) ∗ R c)
  post c := iprop(StableHlo.held (c : Thread nD τ) (Pipeline.ucRefs τ sig) (Vx m dats c) ∗ R c)
  X c := iprop(emp)
  Y c := iprop(emp)
  Z c := Pipeline.unscopedRest (Ix := Unit) (Name := ℕ) (U := UR sig nD τ) (Lvl := ℕ) spec0 c (V m c)
  hentry c := by
    rw [← Pipeline.unscopedBufs_held c (V0 m c), Pipeline.unscopedBufs_split₀ cfgs 0 (fun w => by revert w; decide) c]
    iintro ⟨⟨⟨Ha, Hr⟩, HO⟩, -, -⟩
    ihave Ha' := (entry_arrays m dats hA hq c) $$ Ha
    imodintro
    isplitl [Ha']; · iexact Ha'
    isplitr; · unfold Pipeline.prefHeld; rw [show (Finset.univ : Finset (Fin 0)) = ∅ from rfl, BI.bigSep_empty]; iempintro
    isplitl [HO]
    · unfold Pipeline.Dat.owesAt Pipeline.owesWithin
      rw [howed c 0]
      icases HO with ⟨%W, HO⟩; iexists W; isplitr; · ipureintro; exact fun _ _ => Or.inl (by rw [hrec]; trivial)
      iexact HO
    isplitr; · iempintro
    iexact Hr
  hin c := by
    iintro ⟨-, -, Hr⟩
    iapply (hin c); iexact Hr
  hout c := by
    rw [Pipeline.ownSems0_none]
    iintro H
    ihave Hr := (hout c) $$ H
    isplitr; · iempintro
    isplitr; · iempintro
    iexact Hr
  hexit c := by
    iintro ⟨Ha, HO, -, HZ⟩
    imodintro
    isplitr [HO]
    · iapply (exit_bufs m dats hA hq c)
      isplitl [Ha] <;> iassumption
    · unfold Pipeline.Dat.owesAt Pipeline.owesWithin
      rw [howed c (Fin.last cfg0.N)]
      icases HO with ⟨%W, -, HO⟩; iexists W; iexact HO

/-- @main as its three segments. -/
abbrev segs : List (Pipeline.Seg (pcfgs (F := F)) adm dats () defs₀ 𝒱₀ Lset lv) :=
  [.host (seg0 m), .region (reg0 m dats hA hq howed hrec hbody hin hout), .host (seg1 m dats)]

/-- What the unscoped buffers hold at the end: the five host operations after the region, from the exit valuation. -/
abbrev Wfin (c : Dev nD) : Valuation τ sig (Elt F) := StableHlo.after hostOps1 (Vx m dats c)

include hA hq howed hrec hbody hin hout in
set_option backward.isDefEq.respectTransparency.types false in
/-- THE RUN. At the compiled mesh, from any memory with zero counters: every weakly fair execution of @main terminates,
    nothing faulting, and every unscoped buffer ends at `Wfin`. -/
theorem run_main : θ_run defs (onTc (τ := τ) (main (F := F))) ⟨m, fun _ => 0, ρ⟩
    (fun r => ∀ c : Dev nD, ∀ b ∈ Pipeline.ucRefs τ sig, r.2.mem ((c : Dev nD), b) = Wfin m dats c b) :=
  Pipeline.θ_run_regions_kit (pcfgs (F := F)) adm dats () cellOf_inj emb₁ defs₀ 𝒱₀ Lset lv m ρ main (segs m dats hA hq howed hrec hbody hin hout)
    (fun c Q => by rw [main_segs adm dats () 𝒱₀ Lset lv (seg0 m) (seg1 m dats) (reg0 m dats hA hq howed hrec hbody hin hout) rfl rfl c])
    (by simp only [Pipeline.Seg.pipes_host, Pipeline.Seg.pipes_region, Pipeline.Seg.pipes_nil]; decide) (O₀ := 0) (hL := fun _ _ => rfl) (G := fun _ => iprop(emp))
    (u₀ := initOf (Pipeline.cells (Pipeline.pin (pcfgs (F := F)) adm) cellOf_inj) (Pipeline.launchToks (Pipeline.pin (pcfgs (F := F)) adm) cellOf_inj))
    (hu₀ := by
      iintro Hu; imodintro
      isplitl [Hu]
      · iapply (show (ownU _ : sProp 𝕄) ⊢ BI.own (emb₁ (initOf (Pipeline.cells (Pipeline.pin (pcfgs (F := F)) adm) cellOf_inj) (Pipeline.launchToks (Pipeline.pin (pcfgs (F := F)) adm) cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (fun b => m (c, b)) ∗ R c))
    (Tₙ := fun c => StableHlo.held (c : Thread nD τ) (Pipeline.ucRefs τ sig) (Wfin m dats c))
    (hch := ⟨fun _ => .rfl, fun _ => .rfl, fun _ => .rfl, fun _ => .rfl⟩)
    (hinit := by
      refine Pipeline.initEach Lset lv fun c => ?_
      rw [show unscopedBufs c (fun b => m ((c : Thread nD τ).loc b)) = StableHlo.held (c : Thread nD τ) (Pipeline.ucRefs τ sig) (fun b => m (c, b)) from Pipeline.unscopedBufs_held c (fun b => m (c, b))]
      iintro ⟨⟨Hh, -, HO, -, -, -⟩, -⟩
      imodintro
      isplitl [Hh]; · iexact Hh
      iexists ∅; iexact HO)
    (QY := fun c s => ∀ b ∈ Pipeline.ucRefs τ sig, s.mem ((c : Dev nD), b) = Wfin m dats c b)
    (hfin := fun c s' => by
      unfold StableHlo.held
      iintro ⟨Hh, HSI⟩
      ihave Hr := (pointsTo_read_all (Pipeline.ucRefs τ sig) (fun b => ((c : Dev nD), b)) (Wfin m dats c) s') $$ [Hh HSI]
      · isplitl [Hh] <;> iassumption
      icases Hr with ⟨%h, HSI⟩
      imodintro
      isplitr; · ipureintro; exact h
      iexact HSI)
    (hQ := fun _ h => h)

end Run

end Cert.KernelIdeal.Launch

end
-- ==== Proof.ITail.lean ====
/-
  What @main's buffers hold at the end of the idealized kernel's run: the two arguments are written by no operation, and
  the result is the quotient of the sum of the first output array by the sum of the second.
-/
import proofs.«167906_j2405181686310_1_alg».proof.Proof.ILaunch

noncomputable section

namespace Cert.KernelIdeal.Launch

open Cert.KernelIdeal Cert.KernelIdeal.Gen Cert.KernelIdeal.Body
open Idealize.ShloMosaic Idealize.ShloMosaic.TcCoe
open Idealize.SL Idealize.SL.Sem
open Idealize.ShloMosaic.Pipeline (Dat Cfg Window BodyObligation cellOf)

variable {F : FTy → Type} [FloatOps F]

variable (m : (ℓ : Loc nD τ sig) → Buf (Elt F) ℓ) (ρ : Dev nD → PrngReg)
variable (dats : (p : Fin 1) → (c : Dev nD) → Dat τ (Elt F) Unit ℕ (UR sig nD τ) ℕ cfg0 c)

/-- The operations before the region write only the cast embeddings and the two reshaped label arrays. -/
theorem hostOps0_keeps (b : Ref sig .tc) (hb : b ≠ main_v0 ∧ b ≠ main_v1 ∧ b ≠ main_v2) :
    ∀ op ∈ (hostOps0 (F := F)), Proc.devRef .tc b ∉ op.writes := by
  obtain ⟨h0, h1, h2⟩ := hb
  intro op hop
  simp only [List.mem_cons, List.mem_nil_iff, or_false] at hop
  rcases hop with rfl | rfl | rfl <;>
    simp only [StableHlo.unary_writes, StableHlo.reshape_writes, Finset.mem_singleton] <;>
    exact StableHlo.devRef_ne_of_ne ‹_›

/-- The operations after the region write only the two zeros, the two sums and the quotient. -/
theorem hostOps1_keeps (b : Ref sig .tc) (hb : b ≠ main_cst ∧ b ≠ main_v4 ∧ b ≠ main_cst_0 ∧ b ≠ main_v5 ∧ b ≠ main_v6) :
    ∀ op ∈ (hostOps1 (F := F)), Proc.devRef .tc b ∉ op.writes := by
  obtain ⟨h0, h1, h2, h3, h4⟩ := hb
  intro op hop
  simp only [List.mem_cons, List.mem_nil_iff, or_false] at hop
  rcases hop with rfl | rfl | rfl | rfl | rfl <;>
    simp only [StableHlo.nullary_writes, StableHlo.binary_writes, Finset.mem_singleton] <;>
    exact StableHlo.devRef_ne_of_ne ‹_›

/-- A buffer no operation of @main writes and no window writes back ends as launched. -/
theorem Wfin_kept (c : Dev nD) (b : Ref sig .tc)
    (hb : b ≠ main_v0 ∧ b ≠ main_v1 ∧ b ≠ main_v2 ∧ b ≠ main_v3_0 ∧ b ≠ main_v3_1 ∧ b ≠ main_cst ∧ b ≠ main_v4 ∧ b ≠ main_cst_0 ∧ b ≠ main_v5 ∧ b ≠ main_v6) :
    Wfin m dats c (Proc.devRef .tc b) = m ((c : Thread nD τ).loc b) := by
  obtain ⟨h0, h1, h2, h3, h4, h5, h6, h7, h8, h9⟩ := hb
  exact (StableHlo.after_of_forall_not_mem (b := Proc.devRef .tc b) hostOps1 (Vx m dats c) (hostOps1_keeps b ⟨h5, h6, h7, h8, h9⟩)).trans
    ((Vx_of_ne m dats c b h3 h4).trans
      (StableHlo.after_of_forall_not_mem (b := Proc.devRef .tc b) hostOps0 (fun b => m (c, b)) (hostOps0_keeps b ⟨h0, h1, h2⟩)))

/-- The result: the sum of the first output array over the sum of the second. -/
theorem Wfin_v6 (c : Dev nD) :
    Wfin m dats c (Proc.devRef .tc main_v6)
      = Host.divf (Host.reduceAdd ((dats 0 c).arrAt 4 cfg0.N) (constant (F := F) S_ .f32 0x00000000#32) reducesTo_S8192x1_S_d0_1 h_S_)
          (Host.reduceAdd ((dats 0 c).arrAt 5 cfg0.N) (constant (F := F) S_ .f32 0x00000000#32) reducesTo_S8192x1_S_d0_1 h_S_) := by
  show StableHlo.after hostOps1 (Vx m dats c) (Proc.devRef .tc main_v6) = _
  after_results
  rw [Vx_out4, Vx_out5]

end Cert.KernelIdeal.Launch

end
-- ==== Proof.IRun.lean ====
/-
  The idealized kernel's run with its proof data: the frame (the arguments end unchanged) at any float instance, and the
  run that names the result — the quotient of the sums of the two output arrays as the write-backs left them.
-/
import proofs.«167906_j2405181686310_1_alg».proof.Proof.IFrame
import proofs.«167906_j2405181686310_1_alg».proof.Proof.ITail

noncomputable section

namespace Cert.KernelIdeal.Launch

open Cert.KernelIdeal Cert.KernelIdeal.Gen Cert.KernelIdeal.Body
open Idealize.ShloMosaic Idealize.ShloMosaic.TcCoe
open Idealize.SL Idealize.SL.Sem
open Idealize.ShloMosaic.Pipeline (Dat Cfg Window BodyObligation cellOf)

variable {F : FTy → Type} [FloatOps F]

variable (m : (ℓ : Loc nD τ sig) → Buf (Elt F) ℓ) (ρ : Dev nD → PrngReg)

/-- Every unscoped buffer's final contents, with the body's proof data. -/
theorem run_all : θ_run defs (onTc (τ := τ) (main (F := F))) ⟨m, fun _ => 0, ρ⟩
    (fun r => ∀ c : Dev nD, ∀ b ∈ Pipeline.ucRefs τ sig, r.2.mem ((c : Dev nD), b) = Wfin m (dats m) c b) :=
  run_main m ρ (dats m) (A_eq m) (fun _ _ => rfl) (fun _ _ => rfl) (fun _ _ => rfl) (body_obligation m) (hin0 m) (hout0 m)

theorem mem_ucRefs (b : Ref sig .tc) (h : b.isScoped = false) : Proc.devRef .tc b ∈ Pipeline.ucRefs τ sig := by
  unfold Pipeline.ucRefs StableHlo.tcRefs
  simp only [Finset.mem_filter, Finset.mem_map, Finset.mem_univ, true_and]
  exact ⟨⟨b, rfl⟩, by simp [h]⟩

/-- THE FRAME, at any float instance: @main terminates, nothing faulting, and both arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_ucRefs main_arg0 rfl)).trans (Wfin_kept m (dats m) c main_arg0 (by decide)),
     (h c _ (mem_ucRefs main_arg1 rfl)).trans (Wfin_kept m (dats m) c main_arg1 (by decide))⟩) (run_all m ρ)

/-- THE RUN WITH ITS RESULT NAMED: besides the frame, the result buffer ends at the sum of the first output array over the
    sum of the second. -/
theorem run_value : θ_run defs (onTc (τ := τ) (main (F := F))) ⟨m, fun _ => 0, ρ⟩ (fun r => ∀ c : Dev nD,
      r.2.mem ((c.tc : Thread nD τ).loc main_v6)
          = Host.divf (Host.reduceAdd ((dats m 0 c).arrAt 4 cfg0.N) (constant (F := F) S_ .f32 0x00000000#32) reducesTo_S8192x1_S_d0_1 h_S_)
              (Host.reduceAdd ((dats m 0 c).arrAt 5 cfg0.N) (constant (F := F) S_ .f32 0x00000000#32) reducesTo_S8192x1_S_d0_1 h_S_)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_ucRefs main_v6 rfl)).trans (Wfin_v6 m (dats m) c),
     (h c _ (mem_ucRefs main_arg0 rfl)).trans (Wfin_kept m (dats m) c main_arg0 (by decide)),
     (h c _ (mem_ucRefs main_arg1 rfl)).trans (Wfin_kept m (dats m) c main_arg1 (by decide))⟩) (run_all m ρ)

end Cert.KernelIdeal.Launch

end
-- ==== Proof.IPieces.lean ====
import proofs.«167906_j2405181686310_1_alg».proof.Proof.IFrame
import Idealize.ShloMosaic.Lib.Pipeline.Value

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The zero offsets of a whole-buffer load or store, however spelt. -/
theorem hz : (![0, 0] : Fin 2 → Nat) = fun _ => 0 := funext fun a => by fin_cases a <;> rfl

/-! ## What each case leaves, as terms of the body's arithmetic

Every store of the body is a whole-buffer store and every load a whole-buffer load, so what a buffer ends with is
the payload of its last store, and a load after a store reads that store's payload. With `x0 x1` the two blocks of
the cast embeddings, `x2 x3` the two label blocks and `xs0 … xs3` the old scratch (maximum, denominator, sum of
positive similarities, count of positives): -/

/-- Case B, scratch 0: the new running maximum: the larger of the old one and the row maxima of the similarity tile. -/
theorem piece_B_0 (c : Dev nD) (i : grid0.Coords)
    (arg2 : Memref sig .tc .vmem S512x256 .bf16) (harg2 : arg2.IsWhole) (arg3 : Memref sig .tc .vmem S512x256 .bf16) (harg3 : arg3.IsWhole)
    (arg4 : Memref sig .tc .vmem S512x1 .i32) (harg4 : arg4.IsWhole) (arg5 : Memref sig .tc .vmem S1x512 .i32) (harg5 : arg5.IsWhole)
    (arg6 : Memref sig .tc .vmem S512x1 .f32) (harg6 : arg6.IsWhole) (arg7 : Memref sig .tc .vmem S512x1 .f32) (harg7 : arg7.IsWhole)
    (arg8 : Memref sig .tc .vmem S512x1 .f32) (harg8 : arg8.IsWhole) (arg9 : Memref sig .tc .vmem S512x1 .f32) (harg9 : arg9.IsWhole)
    (arg10 : Memref sig .tc .vmem S512x1 .f32) (harg10 : arg10.IsWhole) (arg11 : Memref sig .tc .vmem S512x1 .f32) (harg11 : arg11.IsWhole)
    (hc0 : ¬cond0_0 i) (hc1 : ¬cond0_1 i)
    (x0 : Vec F S512x256 .bf16) (x1 : Vec F S512x256 .bf16) (x2 : Vec F S512x1 .i32) (x3 : Vec F S1x512 .i32) (xs0 xs1 xs2 xs3 : Vec F S512x1 .f32) :
    sout0_B_0 c i arg2 harg2 arg3 harg3 arg4 harg4 arg5 harg5 arg6 harg6 arg7 harg7 arg8 harg8 arg9 harg9 arg10 harg10 arg11 harg11 hc0 hc1 x0 x1 x2 x3 xs0 xs1 xs2 xs3 = k0_pay2 (k0_pay13 x0 x1 xs0) := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 hc0 hc1 x0 x1 x2 x3 xs0 xs1 xs2 xs3)]
  unfold kernelRun0_B
  dsimp only
  sl_unfold_words
  rw [View.canon_unit_zero hz]
  simp only [View.readAt_eq_ld, harg2.read_unread, harg3.read_unread, harg4.read_unread, harg5.read_unread, harg8.read_unread, harg9.read_unread, harg10.read_unread, harg11.read_unread, View.ld_unit_zero (S := S512x256) hz, View.ld_unit_zero (S := S512x1) hz, View.ld_unit_zero (S := S1x512) hz]

/-- Case B, scratch 1: the new running denominator: the old one rescaled by exp(old max − new max), plus the row sums of the off-diagonal exponentials. -/
theorem piece_B_1 (c : Dev nD) (i : grid0.Coords)
    (arg2 : Memref sig .tc .vmem S512x256 .bf16) (harg2 : arg2.IsWhole) (arg3 : Memref sig .tc .vmem S512x256 .bf16) (harg3 : arg3.IsWhole)
    (arg4 : Memref sig .tc .vmem S512x1 .i32) (harg4 : arg4.IsWhole) (arg5 : Memref sig .tc .vmem S1x512 .i32) (harg5 : arg5.IsWhole)
    (arg6 : Memref sig .tc .vmem S512x1 .f32) (harg6 : arg6.IsWhole) (arg7 : Memref sig .tc .vmem S512x1 .f32) (harg7 : arg7.IsWhole)
    (arg8 : Memref sig .tc .vmem S512x1 .f32) (harg8 : arg8.IsWhole) (arg9 : Memref sig .tc .vmem S512x1 .f32) (harg9 : arg9.IsWhole)
    (arg10 : Memref sig .tc .vmem S512x1 .f32) (harg10 : arg10.IsWhole) (arg11 : Memref sig .tc .vmem S512x1 .f32) (harg11 : arg11.IsWhole)
    (hc0 : ¬cond0_0 i) (hc1 : ¬cond0_1 i)
    (x0 : Vec F S512x256 .bf16) (x1 : Vec F S512x256 .bf16) (x2 : Vec F S512x1 .i32) (x3 : Vec F S1x512 .i32) (xs0 xs1 xs2 xs3 : Vec F S512x1 .f32) :
    sout0_B_1 c i arg2 harg2 arg3 harg3 arg4 harg4 arg5 harg5 arg6 harg6 arg7 harg7 arg8 harg8 arg9 harg9 arg10 harg10 arg11 harg11 hc0 hc1 x0 x1 x2 x3 xs0 xs1 xs2 xs3 = k0_pay1 (k0_pay11 i) (k0_pay14 x0 x1 xs0) (k0_pay15 x0 x1 xs0) k0_pay16 xs1 := by
  unfold sout0_B_1
  rw [View.read_writes_eq_canon _ _ _ (scover0_B_1 c i arg2 harg2 arg3 harg3 arg4 harg4 arg5 harg5 arg6 harg6 arg7 harg7 arg8 harg8 arg9 harg9 arg10 harg10 arg11 harg11 hc0 hc1 x0 x1 x2 x3 xs0 xs1 xs2 xs3)]
  unfold kernelRun0_B
  dsimp only
  sl_unfold_words
  rw [View.canon_unit_zero hz]
  simp only [View.readAt_eq_ld, harg2.read_unread, harg3.read_unread, harg4.read_unread, harg5.read_unread, harg8.read_unread, harg9.read_unread, harg10.read_unread, harg11.read_unread, View.ld_unit_zero (S := S512x256) hz, View.ld_unit_zero (S := S512x1) hz, View.ld_unit_zero (S := S1x512) hz]

/-- Case B, scratch 2: the new sum of positive similarities: the old one plus the row sums of the similarities under the positive mask. -/
theorem piece_B_2 (c : Dev nD) (i : grid0.Coords)
    (arg2 : Memref sig .tc .vmem S512x256 .bf16) (harg2 : arg2.IsWhole) (arg3 : Memref sig .tc .vmem S512x256 .bf16) (harg3 : arg3.IsWhole)
    (arg4 : Memref sig .tc .vmem S512x1 .i32) (harg4 : arg4.IsWhole) (arg5 : Memref sig .tc .vmem S1x512 .i32) (harg5 : arg5.IsWhole)
    (arg6 : Memref sig .tc .vmem S512x1 .f32) (harg6 : arg6.IsWhole) (arg7 : Memref sig .tc .vmem S512x1 .f32) (harg7 : arg7.IsWhole)
    (arg8 : Memref sig .tc .vmem S512x1 .f32) (harg8 : arg8.IsWhole) (arg9 : Memref sig .tc .vmem S512x1 .f32) (harg9 : arg9.IsWhole)
    (arg10 : Memref sig .tc .vmem S512x1 .f32) (harg10 : arg10.IsWhole) (arg11 : Memref sig .tc .vmem S512x1 .f32) (harg11 : arg11.IsWhole)
    (hc0 : ¬cond0_0 i) (hc1 : ¬cond0_1 i)
    (x0 : Vec F S512x256 .bf16) (x1 : Vec F S512x256 .bf16) (x2 : Vec F S512x1 .i32) (x3 : Vec F S1x512 .i32) (xs0 xs1 xs2 xs3 : Vec F S512x1 .f32) :
    sout0_B_2 c i arg2 harg2 arg3 harg3 arg4 harg4 arg5 harg5 arg6 harg6 arg7 harg7 arg8 harg8 arg9 harg9 arg10 harg10 arg11 harg11 hc0 hc1 x0 x1 x2 x3 xs0 xs1 xs2 xs3 = k0_pay3 (k0_pay10 x0 x1) (k0_pay12 i x2 x3) xs2 := by
  unfold sout0_B_2
  rw [View.read_writes_eq_canon _ _ _ (scover0_B_2 c i arg2 harg2 arg3 harg3 arg4 harg4 arg5 harg5 arg6 harg6 arg7 harg7 arg8 harg8 arg9 harg9 arg10 harg10 arg11 harg11 hc0 hc1 x0 x1 x2 x3 xs0 xs1 xs2 xs3)]
  unfold kernelRun0_B
  dsimp only
  sl_unfold_words
  rw [View.canon_unit_zero hz]
  simp only [View.readAt_eq_ld, harg2.read_unread, harg3.read_unread, harg4.read_unread, harg5.read_unread, harg8.read_unread, harg9.read_unread, harg10.read_unread, harg11.read_unread, View.ld_unit_zero (S := S512x256) hz, View.ld_unit_zero (S := S512x1) hz, View.ld_unit_zero (S := S1x512) hz]

/-- Case B, scratch 3: the new count of positives: the old one plus the row sums of the positive mask. -/
theorem piece_B_3 (c : Dev nD) (i : grid0.Coords)
    (arg2 : Memref sig .tc .vmem S512x256 .bf16) (harg2 : arg2.IsWhole) (arg3 : Memref sig .tc .vmem S512x256 .bf16) (harg3 : arg3.IsWhole)
    (arg4 : Memref sig .tc .vmem S512x1 .i32) (harg4 : arg4.IsWhole) (arg5 : Memref sig .tc .vmem S1x512 .i32) (harg5 : arg5.IsWhole)
    (arg6 : Memref sig .tc .vmem S512x1 .f32) (harg6 : arg6.IsWhole) (arg7 : Memref sig .tc .vmem S512x1 .f32) (harg7 : arg7.IsWhole)
    (arg8 : Memref sig .tc .vmem S512x1 .f32) (harg8 : arg8.IsWhole) (arg9 : Memref sig .tc .vmem S512x1 .f32) (harg9 : arg9.IsWhole)
    (arg10 : Memref sig .tc .vmem S512x1 .f32) (harg10 : arg10.IsWhole) (arg11 : Memref sig .tc .vmem S512x1 .f32) (harg11 : arg11.IsWhole)
    (hc0 : ¬cond0_0 i) (hc1 : ¬cond0_1 i)
    (x0 : Vec F S512x256 .bf16) (x1 : Vec F S512x256 .bf16) (x2 : Vec F S512x1 .i32) (x3 : Vec F S1x512 .i32) (xs0 xs1 xs2 xs3 : Vec F S512x1 .f32) :
    sout0_B_3 c i arg2 harg2 arg3 harg3 arg4 harg4 arg5 harg5 arg6 harg6 arg7 harg7 arg8 harg8 arg9 harg9 arg10 harg10 arg11 harg11 hc0 hc1 x0 x1 x2 x3 xs0 xs1 xs2 xs3 = k0_pay4 (k0_pay12 i x2 x3) xs3 := by
  unfold sout0_B_3
  rw [View.read_writes_eq_canon _ _ _ (scover0_B_3 c i arg2 harg2 arg3 harg3 arg4 harg4 arg5 harg5 arg6 harg6 arg7 harg7 arg8 harg8 arg9 harg9 arg10 harg10 arg11 harg11 hc0 hc1 x0 x1 x2 x3 xs0 xs1 xs2 xs3)]
  unfold kernelRun0_B
  dsimp only
  sl_unfold_words
  rw [View.canon_unit_zero hz]
  simp only [View.readAt_eq_ld, harg2.read_unread, harg3.read_unread, harg4.read_unread, harg5.read_unread, harg8.read_unread, harg9.read_unread, harg10.read_unread, harg11.read_unread, View.ld_unit_zero (S := S512x256) hz, View.ld_unit_zero (S := S512x1) hz, View.ld_unit_zero (S := S1x512) hz]

/-- Case C, scratch 0: the new running maximum: the larger of the old one and the row maxima of the similarity tile. -/
theorem piece_C_0 (c : Dev nD) (i : grid0.Coords)
    (arg2 : Memref sig .tc .vmem S512x256 .bf16) (harg2 : arg2.IsWhole) (arg3 : Memref sig .tc .vmem S512x256 .bf16) (harg3 : arg3.IsWhole)
    (arg4 : Memref sig .tc .vmem S512x1 .i32) (harg4 : arg4.IsWhole) (arg5 : Memref sig .tc .vmem S1x512 .i32) (harg5 : arg5.IsWhole)
    (arg6 : Memref sig .tc .vmem S512x1 .f32) (harg6 : arg6.IsWhole) (arg7 : Memref sig .tc .vmem S512x1 .f32) (harg7 : arg7.IsWhole)
    (arg8 : Memref sig .tc .vmem S512x1 .f32) (harg8 : arg8.IsWhole) (arg9 : Memref sig .tc .vmem S512x1 .f32) (harg9 : arg9.IsWhole)
    (arg10 : Memref sig .tc .vmem S512x1 .f32) (harg10 : arg10.IsWhole) (arg11 : Memref sig .tc .vmem S512x1 .f32) (harg11 : arg11.IsWhole)
    (hc0 : ¬cond0_0 i) (hc1 : cond0_1 i)
    (x0 : Vec F S512x256 .bf16) (x1 : Vec F S512x256 .bf16) (x2 : Vec F S512x1 .i32) (x3 : Vec F S1x512 .i32) (xs0 xs1 xs2 xs3 : Vec F S512x1 .f32) :
    sout0_C_0 c i arg2 harg2 arg3 harg3 arg4 harg4 arg5 harg5 arg6 harg6 arg7 harg7 arg8 harg8 arg9 harg9 arg10 harg10 arg11 harg11 hc0 hc1 x0 x1 x2 x3 xs0 xs1 xs2 xs3 = k0_pay2 (k0_pay13 x0 x1 xs0) := by
  unfold sout0_C_0
  rw [View.read_writes_eq_canon _ _ _ (scover0_C_0 c i arg2 harg2 arg3 harg3 arg4 harg4 arg5 harg5 arg6 harg6 arg7 harg7 arg8 harg8 arg9 harg9 arg10 harg10 arg11 harg11 hc0 hc1 x0 x1 x2 x3 xs0 xs1 xs2 xs3)]
  unfold kernelRun0_C
  dsimp only
  sl_unfold_words
  rw [View.canon_unit_zero hz]
  simp only [View.readAt_eq_ld, harg2.read_unread, harg3.read_unread, harg4.read_unread, harg5.read_unread, harg8.read_unread, harg9.read_unread, harg10.read_unread, harg11.read_unread, View.ld_unit_zero (S := S512x256) hz, View.ld_unit_zero (S := S512x1) hz, View.ld_unit_zero (S := S1x512) hz]

/-- Case C, scratch 1: the new running denominator: the old one rescaled by exp(old max − new max), plus the row sums of the off-diagonal exponentials. -/
theorem piece_C_1 (c : Dev nD) (i : grid0.Coords)
    (arg2 : Memref sig .tc .vmem S512x256 .bf16) (harg2 : arg2.IsWhole) (arg3 : Memref sig .tc .vmem S512x256 .bf16) (harg3 : arg3.IsWhole)
    (arg4 : Memref sig .tc .vmem S512x1 .i32) (harg4 : arg4.IsWhole) (arg5 : Memref sig .tc .vmem S1x512 .i32) (harg5 : arg5.IsWhole)
    (arg6 : Memref sig .tc .vmem S512x1 .f32) (harg6 : arg6.IsWhole) (arg7 : Memref sig .tc .vmem S512x1 .f32) (harg7 : arg7.IsWhole)
    (arg8 : Memref sig .tc .vmem S512x1 .f32) (harg8 : arg8.IsWhole) (arg9 : Memref sig .tc .vmem S512x1 .f32) (harg9 : arg9.IsWhole)
    (arg10 : Memref sig .tc .vmem S512x1 .f32) (harg10 : arg10.IsWhole) (arg11 : Memref sig .tc .vmem S512x1 .f32) (harg11 : arg11.IsWhole)
    (hc0 : ¬cond0_0 i) (hc1 : cond0_1 i)
    (x0 : Vec F S512x256 .bf16) (x1 : Vec F S512x256 .bf16) (x2 : Vec F S512x1 .i32) (x3 : Vec F S1x512 .i32) (xs0 xs1 xs2 xs3 : Vec F S512x1 .f32) :
    sout0_C_1 c i arg2 harg2 arg3 harg3 arg4 harg4 arg5 harg5 arg6 harg6 arg7 harg7 arg8 harg8 arg9 harg9 arg10 harg10 arg11 harg11 hc0 hc1 x0 x1 x2 x3 xs0 xs1 xs2 xs3 = k0_pay1 (k0_pay11 i) (k0_pay14 x0 x1 xs0) (k0_pay15 x0 x1 xs0) k0_pay16 xs1 := by
  unfold sout0_C_1
  rw [View.read_writes_eq_canon _ _ _ (scover0_C_1 c i arg2 harg2 arg3 harg3 arg4 harg4 arg5 harg5 arg6 harg6 arg7 harg7 arg8 harg8 arg9 harg9 arg10 harg10 arg11 harg11 hc0 hc1 x0 x1 x2 x3 xs0 xs1 xs2 xs3)]
  unfold kernelRun0_C
  dsimp only
  sl_unfold_words
  rw [View.canon_unit_zero hz]
  simp only [View.readAt_eq_ld, harg2.read_unread, harg3.read_unread, harg4.read_unread, harg5.read_unread, harg8.read_unread, harg9.read_unread, harg10.read_unread, harg11.read_unread, View.ld_unit_zero (S := S512x256) hz, View.ld_unit_zero (S := S512x1) hz, View.ld_unit_zero (S := S1x512) hz]

/-- Case C, scratch 2: the new sum of positive similarities: the old one plus the row sums of the similarities under the positive mask. -/
theorem piece_C_2 (c : Dev nD) (i : grid0.Coords)
    (arg2 : Memref sig .tc .vmem S512x256 .bf16) (harg2 : arg2.IsWhole) (arg3 : Memref sig .tc .vmem S512x256 .bf16) (harg3 : arg3.IsWhole)
    (arg4 : Memref sig .tc .vmem S512x1 .i32) (harg4 : arg4.IsWhole) (arg5 : Memref sig .tc .vmem S1x512 .i32) (harg5 : arg5.IsWhole)
    (arg6 : Memref sig .tc .vmem S512x1 .f32) (harg6 : arg6.IsWhole) (arg7 : Memref sig .tc .vmem S512x1 .f32) (harg7 : arg7.IsWhole)
    (arg8 : Memref sig .tc .vmem S512x1 .f32) (harg8 : arg8.IsWhole) (arg9 : Memref sig .tc .vmem S512x1 .f32) (harg9 : arg9.IsWhole)
    (arg10 : Memref sig .tc .vmem S512x1 .f32) (harg10 : arg10.IsWhole) (arg11 : Memref sig .tc .vmem S512x1 .f32) (harg11 : arg11.IsWhole)
    (hc0 : ¬cond0_0 i) (hc1 : cond0_1 i)
    (x0 : Vec F S512x256 .bf16) (x1 : Vec F S512x256 .bf16) (x2 : Vec F S512x1 .i32) (x3 : Vec F S1x512 .i32) (xs0 xs1 xs2 xs3 : Vec F S512x1 .f32) :
    sout0_C_2 c i arg2 harg2 arg3 harg3 arg4 harg4 arg5 harg5 arg6 harg6 arg7 harg7 arg8 harg8 arg9 harg9 arg10 harg10 arg11 harg11 hc0 hc1 x0 x1 x2 x3 xs0 xs1 xs2 xs3 = k0_pay3 (k0_pay10 x0 x1) (k0_pay12 i x2 x3) xs2 := by
  unfold sout0_C_2
  rw [View.read_writes_eq_canon _ _ _ (scover0_C_2 c i arg2 harg2 arg3 harg3 arg4 harg4 arg5 harg5 arg6 harg6 arg7 harg7 arg8 harg8 arg9 harg9 arg10 harg10 arg11 harg11 hc0 hc1 x0 x1 x2 x3 xs0 xs1 xs2 xs3)]
  unfold kernelRun0_C
  dsimp only
  sl_unfold_words
  rw [View.canon_unit_zero hz]
  simp only [View.readAt_eq_ld, harg2.read_unread, harg3.read_unread, harg4.read_unread, harg5.read_unread, harg8.read_unread, harg9.read_unread, harg10.read_unread, harg11.read_unread, View.ld_unit_zero (S := S512x256) hz, View.ld_unit_zero (S := S512x1) hz, View.ld_unit_zero (S := S1x512) hz]

/-- Case C, scratch 3: the new count of positives: the old one plus the row sums of the positive mask. -/
theorem piece_C_3 (c : Dev nD) (i : grid0.Coords)
    (arg2 : Memref sig .tc .vmem S512x256 .bf16) (harg2 : arg2.IsWhole) (arg3 : Memref sig .tc .vmem S512x256 .bf16) (harg3 : arg3.IsWhole)
    (arg4 : Memref sig .tc .vmem S512x1 .i32) (harg4 : arg4.IsWhole) (arg5 : Memref sig .tc .vmem S1x512 .i32) (harg5 : arg5.IsWhole)
    (arg6 : Memref sig .tc .vmem S512x1 .f32) (harg6 : arg6.IsWhole) (arg7 : Memref sig .tc .vmem S512x1 .f32) (harg7 : arg7.IsWhole)
    (arg8 : Memref sig .tc .vmem S512x1 .f32) (harg8 : arg8.IsWhole) (arg9 : Memref sig .tc .vmem S512x1 .f32) (harg9 : arg9.IsWhole)
    (arg10 : Memref sig .tc .vmem S512x1 .f32) (harg10 : arg10.IsWhole) (arg11 : Memref sig .tc .vmem S512x1 .f32) (harg11 : arg11.IsWhole)
    (hc0 : ¬cond0_0 i) (hc1 : cond0_1 i)
    (x0 : Vec F S512x256 .bf16) (x1 : Vec F S512x256 .bf16) (x2 : Vec F S512x1 .i32) (x3 : Vec F S1x512 .i32) (xs0 xs1 xs2 xs3 : Vec F S512x1 .f32) :
    sout0_C_3 c i arg2 harg2 arg3 harg3 arg4 harg4 arg5 harg5 arg6 harg6 arg7 harg7 arg8 harg8 arg9 harg9 arg10 harg10 arg11 harg11 hc0 hc1 x0 x1 x2 x3 xs0 xs1 xs2 xs3 = k0_pay4 (k0_pay12 i x2 x3) xs3 := by
  unfold sout0_C_3
  rw [View.read_writes_eq_canon _ _ _ (scover0_C_3 c i arg2 harg2 arg3 harg3 arg4 harg4 arg5 harg5 arg6 harg6 arg7 harg7 arg8 harg8 arg9 harg9 arg10 harg10 arg11 harg11 hc0 hc1 x0 x1 x2 x3 xs0 xs1 xs2 xs3)]
  unfold kernelRun0_C
  dsimp only
  sl_unfold_words
  rw [View.canon_unit_zero hz]
  simp only [View.readAt_eq_ld, harg2.read_unread, harg3.read_unread, harg4.read_unread, harg5.read_unread, harg8.read_unread, harg9.read_unread, harg10.read_unread, harg11.read_unread, View.ld_unit_zero (S := S512x256) hz, View.ld_unit_zero (S := S512x1) hz, View.ld_unit_zero (S := S1x512) hz]

/-- Case A, scratch 0: as the other cases with the old scratch at the reset values (−inf, 0, 0, 0), which the
    loads after the reset read back. -/
theorem piece_A_0 (c : Dev nD) (i : grid0.Coords)
    (arg2 : Memref sig .tc .vmem S512x256 .bf16) (harg2 : arg2.IsWhole) (arg3 : Memref sig .tc .vmem S512x256 .bf16) (harg3 : arg3.IsWhole)
    (arg4 : Memref sig .tc .vmem S512x1 .i32) (harg4 : arg4.IsWhole) (arg5 : Memref sig .tc .vmem S1x512 .i32) (harg5 : arg5.IsWhole)
    (arg6 : Memref sig .tc .vmem S512x1 .f32) (harg6 : arg6.IsWhole) (arg7 : Memref sig .tc .vmem S512x1 .f32) (harg7 : arg7.IsWhole)
    (arg8 : Memref sig .tc .vmem S512x1 .f32) (harg8 : arg8.IsWhole) (arg9 : Memref sig .tc .vmem S512x1 .f32) (harg9 : arg9.IsWhole)
    (arg10 : Memref sig .tc .vmem S512x1 .f32) (harg10 : arg10.IsWhole) (arg11 : Memref sig .tc .vmem S512x1 .f32) (harg11 : arg11.IsWhole)
    (hc0 : cond0_0 i) (hc1 : ¬cond0_1 i)
    (x0 : Vec F S512x256 .bf16) (x1 : Vec F S512x256 .bf16) (x2 : Vec F S512x1 .i32) (x3 : Vec F S1x512 .i32) :
    sout0_A_0 c i arg2 harg2 arg3 harg3 arg4 harg4 arg5 harg5 arg6 harg6 arg7 harg7 arg8 harg8 arg9 harg9 arg10 harg10 arg11 harg11 hc0 hc1 x0 x1 x2 x3 = k0_pay2 (k0_pay13 x0 x1 k0_pay6) := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 hc0 hc1 x0 x1 x2 x3)]
  unfold kernelRun0_A
  dsimp only
  sl_unfold_words
  rw [View.canon_cons_unit_zero (S := S512x1) hz]
  simp only [View.readCov_unit_zero (S := S512x1) _ hz]
  simp only [View.readAt_eq_ld, harg2.read_unread, harg3.read_unread, harg4.read_unread, harg5.read_unread, harg8.read_unread, harg9.read_unread, harg10.read_unread, harg11.read_unread, View.ld_unit_zero (S := S512x256) hz, View.ld_unit_zero (S := S512x1) hz, View.ld_unit_zero (S := S1x512) hz]

/-- Case A, scratch 1: as the other cases with the old scratch at the reset values (−inf, 0, 0, 0), which the
    loads after the reset read back. -/
theorem piece_A_1 (c : Dev nD) (i : grid0.Coords)
    (arg2 : Memref sig .tc .vmem S512x256 .bf16) (harg2 : arg2.IsWhole) (arg3 : Memref sig .tc .vmem S512x256 .bf16) (harg3 : arg3.IsWhole)
    (arg4 : Memref sig .tc .vmem S512x1 .i32) (harg4 : arg4.IsWhole) (arg5 : Memref sig .tc .vmem S1x512 .i32) (harg5 : arg5.IsWhole)
    (arg6 : Memref sig .tc .vmem S512x1 .f32) (harg6 : arg6.IsWhole) (arg7 : Memref sig .tc .vmem S512x1 .f32) (harg7 : arg7.IsWhole)
    (arg8 : Memref sig .tc .vmem S512x1 .f32) (harg8 : arg8.IsWhole) (arg9 : Memref sig .tc .vmem S512x1 .f32) (harg9 : arg9.IsWhole)
    (arg10 : Memref sig .tc .vmem S512x1 .f32) (harg10 : arg10.IsWhole) (arg11 : Memref sig .tc .vmem S512x1 .f32) (harg11 : arg11.IsWhole)
    (hc0 : cond0_0 i) (hc1 : ¬cond0_1 i)
    (x0 : Vec F S512x256 .bf16) (x1 : Vec F S512x256 .bf16) (x2 : Vec F S512x1 .i32) (x3 : Vec F S1x512 .i32) :
    sout0_A_1 c i arg2 harg2 arg3 harg3 arg4 harg4 arg5 harg5 arg6 harg6 arg7 harg7 arg8 harg8 arg9 harg9 arg10 harg10 arg11 harg11 hc0 hc1 x0 x1 x2 x3 = k0_pay1 (k0_pay11 i) (k0_pay14 x0 x1 k0_pay6) (k0_pay15 x0 x1 k0_pay6) k0_pay16 k0_pay7 := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 hc0 hc1 x0 x1 x2 x3)]
  unfold kernelRun0_A
  dsimp only
  sl_unfold_words
  rw [View.canon_cons_unit_zero (S := S512x1) hz]
  simp only [View.readCov_unit_zero (S := S512x1) _ hz]
  simp only [View.readAt_eq_ld, harg2.read_unread, harg3.read_unread, harg4.read_unread, harg5.read_unread, harg8.read_unread, harg9.read_unread, harg10.read_unread, harg11.read_unread, View.ld_unit_zero (S := S512x256) hz, View.ld_unit_zero (S := S512x1) hz, View.ld_unit_zero (S := S1x512) hz]

/-- Case A, scratch 2: as the other cases with the old scratch at the reset values (−inf, 0, 0, 0), which the
    loads after the reset read back. -/
theorem piece_A_2 (c : Dev nD) (i : grid0.Coords)
    (arg2 : Memref sig .tc .vmem S512x256 .bf16) (harg2 : arg2.IsWhole) (arg3 : Memref sig .tc .vmem S512x256 .bf16) (harg3 : arg3.IsWhole)
    (arg4 : Memref sig .tc .vmem S512x1 .i32) (harg4 : arg4.IsWhole) (arg5 : Memref sig .tc .vmem S1x512 .i32) (harg5 : arg5.IsWhole)
    (arg6 : Memref sig .tc .vmem S512x1 .f32) (harg6 : arg6.IsWhole) (arg7 : Memref sig .tc .vmem S512x1 .f32) (harg7 : arg7.IsWhole)
    (arg8 : Memref sig .tc .vmem S512x1 .f32) (harg8 : arg8.IsWhole) (arg9 : Memref sig .tc .vmem S512x1 .f32) (harg9 : arg9.IsWhole)
    (arg10 : Memref sig .tc .vmem S512x1 .f32) (harg10 : arg10.IsWhole) (arg11 : Memref sig .tc .vmem S512x1 .f32) (harg11 : arg11.IsWhole)
    (hc0 : cond0_0 i) (hc1 : ¬cond0_1 i)
    (x0 : Vec F S512x256 .bf16) (x1 : Vec F S512x256 .bf16) (x2 : Vec F S512x1 .i32) (x3 : Vec F S1x512 .i32) :
    sout0_A_2 c i arg2 harg2 arg3 harg3 arg4 harg4 arg5 harg5 arg6 harg6 arg7 harg7 arg8 harg8 arg9 harg9 arg10 harg10 arg11 harg11 hc0 hc1 x0 x1 x2 x3 = k0_pay3 (k0_pay10 x0 x1) (k0_pay12 i x2 x3) k0_pay8 := by
  unfold sout0_A_2
  rw [View.read_writes_eq_canon _ _ _ (scover0_A_2 c i arg2 harg2 arg3 harg3 arg4 harg4 arg5 harg5 arg6 harg6 arg7 harg7 arg8 harg8 arg9 harg9 arg10 harg10 arg11 harg11 hc0 hc1 x0 x1 x2 x3)]
  unfold kernelRun0_A
  dsimp only
  sl_unfold_words
  rw [View.canon_cons_unit_zero (S := S512x1) hz]
  simp only [View.readCov_unit_zero (S := S512x1) _ hz]
  simp only [View.readAt_eq_ld, harg2.read_unread, harg3.read_unread, harg4.read_unread, harg5.read_unread, harg8.read_unread, harg9.read_unread, harg10.read_unread, harg11.read_unread, View.ld_unit_zero (S := S512x256) hz, View.ld_unit_zero (S := S512x1) hz, View.ld_unit_zero (S := S1x512) hz]

/-- Case A, scratch 3: as the other cases with the old scratch at the reset values (−inf, 0, 0, 0), which the
    loads after the reset read back. -/
theorem piece_A_3 (c : Dev nD) (i : grid0.Coords)
    (arg2 : Memref sig .tc .vmem S512x256 .bf16) (harg2 : arg2.IsWhole) (arg3 : Memref sig .tc .vmem S512x256 .bf16) (harg3 : arg3.IsWhole)
    (arg4 : Memref sig .tc .vmem S512x1 .i32) (harg4 : arg4.IsWhole) (arg5 : Memref sig .tc .vmem S1x512 .i32) (harg5 : arg5.IsWhole)
    (arg6 : Memref sig .tc .vmem S512x1 .f32) (harg6 : arg6.IsWhole) (arg7 : Memref sig .tc .vmem S512x1 .f32) (harg7 : arg7.IsWhole)
    (arg8 : Memref sig .tc .vmem S512x1 .f32) (harg8 : arg8.IsWhole) (arg9 : Memref sig .tc .vmem S512x1 .f32) (harg9 : arg9.IsWhole)
    (arg10 : Memref sig .tc .vmem S512x1 .f32) (harg10 : arg10.IsWhole) (arg11 : Memref sig .tc .vmem S512x1 .f32) (harg11 : arg11.IsWhole)
    (hc0 : cond0_0 i) (hc1 : ¬cond0_1 i)
    (x0 : Vec F S512x256 .bf16) (x1 : Vec F S512x256 .bf16) (x2 : Vec F S512x1 .i32) (x3 : Vec F S1x512 .i32) :
    sout0_A_3 c i arg2 harg2 arg3 harg3 arg4 harg4 arg5 harg5 arg6 harg6 arg7 harg7 arg8 harg8 arg9 harg9 arg10 harg10 arg11 harg11 hc0 hc1 x0 x1 x2 x3 = k0_pay4 (k0_pay12 i x2 x3) k0_pay9 := by
  unfold sout0_A_3
  rw [View.read_writes_eq_canon _ _ _ (scover0_A_3 c i arg2 harg2 arg3 harg3 arg4 harg4 arg5 harg5 arg6 harg6 arg7 harg7 arg8 harg8 arg9 harg9 arg10 harg10 arg11 harg11 hc0 hc1 x0 x1 x2 x3)]
  unfold kernelRun0_A
  dsimp only
  sl_unfold_words
  rw [View.canon_cons_unit_zero (S := S512x1) hz]
  simp only [View.readCov_unit_zero (S := S512x1) _ hz]
  simp only [View.readAt_eq_ld, harg2.read_unread, harg3.read_unread, harg4.read_unread, harg5.read_unread, harg8.read_unread, harg9.read_unread, harg10.read_unread, harg11.read_unread, View.ld_unit_zero (S := S512x256) hz, View.ld_unit_zero (S := S512x1) hz, View.ld_unit_zero (S := S1x512) hz]

/-- Case C, output window 4: the final block's term of the four NEW scratch values (each loaded back after its store). -/
theorem piece_C_o4 (c : Dev nD) (i : grid0.Coords)
    (arg2 : Memref sig .tc .vmem S512x256 .bf16) (harg2 : arg2.IsWhole) (arg3 : Memref sig .tc .vmem S512x256 .bf16) (harg3 : arg3.IsWhole)
    (arg4 : Memref sig .tc .vmem S512x1 .i32) (harg4 : arg4.IsWhole) (arg5 : Memref sig .tc .vmem S1x512 .i32) (harg5 : arg5.IsWhole)
    (arg6 : Memref sig .tc .vmem S512x1 .f32) (harg6 : arg6.IsWhole) (arg7 : Memref sig .tc .vmem S512x1 .f32) (harg7 : arg7.IsWhole)
    (arg8 : Memref sig .tc .vmem S512x1 .f32) (harg8 : arg8.IsWhole) (arg9 : Memref sig .tc .vmem S512x1 .f32) (harg9 : arg9.IsWhole)
    (arg10 : Memref sig .tc .vmem S512x1 .f32) (harg10 : arg10.IsWhole) (arg11 : Memref sig .tc .vmem S512x1 .f32) (harg11 : arg11.IsWhole)
    (hc0 : ¬cond0_0 i) (hc1 : cond0_1 i)
    (x0 : Vec F S512x256 .bf16) (x1 : Vec F S512x256 .bf16) (x2 : Vec F S512x1 .i32) (x3 : Vec F S1x512 .i32) (xs0 xs1 xs2 xs3 : Vec F S512x1 .f32) :
    out0_C_4 c i arg2 harg2 arg3 harg3 arg4 harg4 arg5 harg5 arg6 harg6 arg7 harg7 arg8 harg8 arg9 harg9 arg10 harg10 arg11 harg11 hc0 hc1 x0 x1 x2 x3 xs0 xs1 xs2 xs3
      = k0_pay5 (k0_pay2 (k0_pay13 x0 x1 xs0)) (k0_pay1 (k0_pay11 i) (k0_pay14 x0 x1 xs0) (k0_pay15 x0 x1 xs0) k0_pay16 xs1)
          (k0_pay3 (k0_pay10 x0 x1) (k0_pay12 i x2 x3) xs2) (k0_pay4 (k0_pay12 i x2 x3) xs3) := by
  unfold out0_C_4
  rw [View.read_writes_eq_canon _ _ _ (cover0_C_4 c i arg2 harg2 arg3 harg3 arg4 harg4 arg5 harg5 arg6 harg6 arg7 harg7 arg8 harg8 arg9 harg9 arg10 harg10 arg11 harg11 hc0 hc1 x0 x1 x2 x3 xs0 xs1 xs2 xs3)]
  unfold kernelRun0_C
  dsimp only
  sl_unfold_words
  rw [View.canon_unit_zero hz]
  simp only [View.readCov_unit_zero (S := S512x1) _ hz]
  simp only [View.readAt_eq_ld, harg2.read_unread, harg3.read_unread, harg4.read_unread, harg5.read_unread, harg8.read_unread, harg9.read_unread, harg10.read_unread, harg11.read_unread, View.ld_unit_zero (S := S512x256) hz, View.ld_unit_zero (S := S512x1) hz, View.ld_unit_zero (S := S1x512) hz]

/-- Case C, output window 5: the new count of positives. -/
theorem piece_C_o5 (c : Dev nD) (i : grid0.Coords)
    (arg2 : Memref sig .tc .vmem S512x256 .bf16) (harg2 : arg2.IsWhole) (arg3 : Memref sig .tc .vmem S512x256 .bf16) (harg3 : arg3.IsWhole)
    (arg4 : Memref sig .tc .vmem S512x1 .i32) (harg4 : arg4.IsWhole) (arg5 : Memref sig .tc .vmem S1x512 .i32) (harg5 : arg5.IsWhole)
    (arg6 : Memref sig .tc .vmem S512x1 .f32) (harg6 : arg6.IsWhole) (arg7 : Memref sig .tc .vmem S512x1 .f32) (harg7 : arg7.IsWhole)
    (arg8 : Memref sig .tc .vmem S512x1 .f32) (harg8 : arg8.IsWhole) (arg9 : Memref sig .tc .vmem S512x1 .f32) (harg9 : arg9.IsWhole)
    (arg10 : Memref sig .tc .vmem S512x1 .f32) (harg10 : arg10.IsWhole) (arg11 : Memref sig .tc .vmem S512x1 .f32) (harg11 : arg11.IsWhole)
    (hc0 : ¬cond0_0 i) (hc1 : cond0_1 i)
    (x0 : Vec F S512x256 .bf16) (x1 : Vec F S512x256 .bf16) (x2 : Vec F S512x1 .i32) (x3 : Vec F S1x512 .i32) (xs0 xs1 xs2 xs3 : Vec F S512x1 .f32) :
    out0_C_5 c i arg2 harg2 arg3 harg3 arg4 harg4 arg5 harg5 arg6 harg6 arg7 harg7 arg8 harg8 arg9 harg9 arg10 harg10 arg11 harg11 hc0 hc1 x0 x1 x2 x3 xs0 xs1 xs2 xs3 = k0_pay4 (k0_pay12 i x2 x3) xs3 := by
  unfold out0_C_5
  rw [View.read_writes_eq_canon _ _ _ (cover0_C_5 c i arg2 harg2 arg3 harg3 arg4 harg4 arg5 harg5 arg6 harg6 arg7 harg7 arg8 harg8 arg9 harg9 arg10 harg10 arg11 harg11 hc0 hc1 x0 x1 x2 x3 xs0 xs1 xs2 xs3)]
  unfold kernelRun0_C
  dsimp only
  sl_unfold_words
  rw [View.canon_unit_zero hz]
  simp only [View.readCov_unit_zero (S := S512x1) _ hz]
  simp only [View.readAt_eq_ld, harg2.read_unread, harg3.read_unread, harg4.read_unread, harg5.read_unread, harg8.read_unread, harg9.read_unread, harg10.read_unread, harg11.read_unread, View.ld_unit_zero (S := S512x256) hz, View.ld_unit_zero (S := S512x1) hz, View.ld_unit_zero (S := S1x512) hz]

/-! ## The same on the accumulation's components -/
theorem outsA_s0 (c : Dev nD) (t : Fin cfg0.N) (h0 : t.val % 16 = 0) (h1 : ¬t.val % 16 = 15) :
    (outsA m c t h0 h1).s0 = k0_pay2 (k0_pay13 (iblk m c 0 t) (iblk m c 1 t) k0_pay6) :=
  piece_A_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t)
theorem outsA_s1 (c : Dev nD) (t : Fin cfg0.N) (h0 : t.val % 16 = 0) (h1 : ¬t.val % 16 = 15) :
    (outsA m c t h0 h1).s1 = k0_pay1 (k0_pay11 (grid0.coords t)) (k0_pay14 (iblk m c 0 t) (iblk m c 1 t) k0_pay6) (k0_pay15 (iblk m c 0 t) (iblk m c 1 t) k0_pay6) k0_pay16 k0_pay7 :=
  piece_A_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t)
theorem outsA_s2 (c : Dev nD) (t : Fin cfg0.N) (h0 : t.val % 16 = 0) (h1 : ¬t.val % 16 = 15) :
    (outsA m c t h0 h1).s2 = k0_pay3 (k0_pay10 (iblk m c 0 t) (iblk m c 1 t)) (k0_pay12 (grid0.coords t) (iblk m c 2 t) (iblk m c 3 t)) k0_pay8 :=
  piece_A_2 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t)
theorem outsA_s3 (c : Dev nD) (t : Fin cfg0.N) (h0 : t.val % 16 = 0) (h1 : ¬t.val % 16 = 15) :
    (outsA m c t h0 h1).s3 = k0_pay4 (k0_pay12 (grid0.coords t) (iblk m c 2 t) (iblk m c 3 t)) k0_pay9 :=
  piece_A_3 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t)
theorem outsB_s0 (c : Dev nD) (t : Fin cfg0.N) (h0 : ¬t.val % 16 = 0) (h1 : ¬t.val % 16 = 15) (p : Outs F) :
    (outsB m c t h0 h1 p).s0 = k0_pay2 (k0_pay13 (iblk m c 0 t) (iblk m c 1 t) p.s0) :=
  piece_B_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) p.s0 p.s1 p.s2 p.s3
theorem outsB_s1 (c : Dev nD) (t : Fin cfg0.N) (h0 : ¬t.val % 16 = 0) (h1 : ¬t.val % 16 = 15) (p : Outs F) :
    (outsB m c t h0 h1 p).s1 = k0_pay1 (k0_pay11 (grid0.coords t)) (k0_pay14 (iblk m c 0 t) (iblk m c 1 t) p.s0) (k0_pay15 (iblk m c 0 t) (iblk m c 1 t) p.s0) k0_pay16 p.s1 :=
  piece_B_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) p.s0 p.s1 p.s2 p.s3
theorem outsB_s2 (c : Dev nD) (t : Fin cfg0.N) (h0 : ¬t.val % 16 = 0) (h1 : ¬t.val % 16 = 15) (p : Outs F) :
    (outsB m c t h0 h1 p).s2 = k0_pay3 (k0_pay10 (iblk m c 0 t) (iblk m c 1 t)) (k0_pay12 (grid0.coords t) (iblk m c 2 t) (iblk m c 3 t)) p.s2 :=
  piece_B_2 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) p.s0 p.s1 p.s2 p.s3
theorem outsB_s3 (c : Dev nD) (t : Fin cfg0.N) (h0 : ¬t.val % 16 = 0) (h1 : ¬t.val % 16 = 15) (p : Outs F) :
    (outsB m c t h0 h1 p).s3 = k0_pay4 (k0_pay12 (grid0.coords t) (iblk m c 2 t) (iblk m c 3 t)) p.s3 :=
  piece_B_3 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) p.s0 p.s1 p.s2 p.s3
theorem outsC_s0 (c : Dev nD) (t : Fin cfg0.N) (h0 : ¬t.val % 16 = 0) (h1 : t.val % 16 = 15) (p : Outs F) :
    (outsC m c t h0 h1 p).s0 = k0_pay2 (k0_pay13 (iblk m c 0 t) (iblk m c 1 t) p.s0) :=
  piece_C_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) p.s0 p.s1 p.s2 p.s3
theorem outsC_s1 (c : Dev nD) (t : Fin cfg0.N) (h0 : ¬t.val % 16 = 0) (h1 : t.val % 16 = 15) (p : Outs F) :
    (outsC m c t h0 h1 p).s1 = k0_pay1 (k0_pay11 (grid0.coords t)) (k0_pay14 (iblk m c 0 t) (iblk m c 1 t) p.s0) (k0_pay15 (iblk m c 0 t) (iblk m c 1 t) p.s0) k0_pay16 p.s1 :=
  piece_C_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) p.s0 p.s1 p.s2 p.s3
theorem outsC_s2 (c : Dev nD) (t : Fin cfg0.N) (h0 : ¬t.val % 16 = 0) (h1 : t.val % 16 = 15) (p : Outs F) :
    (outsC m c t h0 h1 p).s2 = k0_pay3 (k0_pay10 (iblk m c 0 t) (iblk m c 1 t)) (k0_pay12 (grid0.coords t) (iblk m c 2 t) (iblk m c 3 t)) p.s2 :=
  piece_C_2 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) p.s0 p.s1 p.s2 p.s3
theorem outsC_s3 (c : Dev nD) (t : Fin cfg0.N) (h0 : ¬t.val % 16 = 0) (h1 : t.val % 16 = 15) (p : Outs F) :
    (outsC m c t h0 h1 p).s3 = k0_pay4 (k0_pay12 (grid0.coords t) (iblk m c 2 t) (iblk m c 3 t)) p.s3 :=
  piece_C_3 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) p.s0 p.s1 p.s2 p.s3
theorem outsC_o4 (c : Dev nD) (t : Fin cfg0.N) (h0 : ¬t.val % 16 = 0) (h1 : t.val % 16 = 15) (p : Outs F) :
    (outsC m c t h0 h1 p).o4 = k0_pay5 (k0_pay2 (k0_pay13 (iblk m c 0 t) (iblk m c 1 t) p.s0)) (k0_pay1 (k0_pay11 (grid0.coords t)) (k0_pay14 (iblk m c 0 t) (iblk m c 1 t) p.s0) (k0_pay15 (iblk m c 0 t) (iblk m c 1 t) p.s0) k0_pay16 p.s1)
      (k0_pay3 (k0_pay10 (iblk m c 0 t) (iblk m c 1 t)) (k0_pay12 (grid0.coords t) (iblk m c 2 t) (iblk m c 3 t)) p.s2) (k0_pay4 (k0_pay12 (grid0.coords t) (iblk m c 2 t) (iblk m c 3 t)) p.s3) :=
  piece_C_o4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) p.s0 p.s1 p.s2 p.s3
theorem outsC_o5 (c : Dev nD) (t : Fin cfg0.N) (h0 : ¬t.val % 16 = 0) (h1 : t.val % 16 = 15) (p : Outs F) :
    (outsC m c t h0 h1 p).o5 = k0_pay4 (k0_pay12 (grid0.coords t) (iblk m c 2 t) (iblk m c 3 t)) p.s3 :=
  piece_C_o5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) p.s0 p.s1 p.s2 p.s3

end Cert.KernelIdeal.Body

end
-- ==== Proof.LibColumn.lean ====
/-
  Columns and rows of small shapes read at an index.

  A column `[a, 1]` stretched along its unit axis to `[a, b]` reads, at `(p, c)`, its entry `(p, 0)`; a row
  `[1, b]` stretched to `[a, b]` reads its entry `(0, c)`; a vector `[a]` set up as a column `[a, 1]` (by a cast, or by
  a broadcast that names its one axis) or as a row `[1, a]` reads its entry `p`; a scalar stretched to any shape reads
  its one entry.  These are the host's `broadcast_in_dim` and the vector unit's `broadcast` / `shape_cast` in the
  forms a "keep the axis" reduction or a bias produces.
-/
import Idealize.ShloMosaic.Lib.Pipeline.Value
import Idealize.ShloMosaic.Lib.ValueIdx
import Idealize.ShloMosaic.Lib.ValueLayout

namespace Cert.LibColumn

open Idealize.ShloMosaic Idealize.ShloMosaic.ValueIdx

variable {α : Type}

/-- A column `[a, 1]` broadcast (vector unit) to `[a, b]` reads, at `(p, c)`, the column's entry `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A column `[a, 1]` broadcast (host) along axes `[0, 1]` to `[a, b]` reads, at `(p, c)`, the column's entry `p`. -/
theorem bcastInDim_a1_ab_apply {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) := by
  refine broadcastInDim_apply ![0, 1] h v (ix2 p c) (ix2 p (0 : Fin 1)) fun ax => ?_
  match ax with
  | ⟨0, _⟩ =>
    show p.val = if a = 1 then 0 else p.val
    split
    · have := p.isLt; omega
    · rfl
  | ⟨1, _⟩ => rfl

/-- A row `[1, b]` broadcast (host) along axes `[0, 1]` to `[a, b]` reads, at `(p, c)`, the row's entry `c`. -/
theorem bcastInDim_1b_ab_apply {a b : ℕ} (v : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) := by
  refine broadcastInDim_apply ![0, 1] h v (ix2 p c) (ix2 (0 : Fin 1) c) fun ax => ?_
  match ax with
  | ⟨0, _⟩ => rfl
  | ⟨1, _⟩ =>
    show c.val = if b = 1 then 0 else c.val
    split
    · have := c.isLt; omega
    · rfl

/-- A vector `[b]` broadcast (host) along axis `[1]` to a row `[1, b]` reads, at `(u, c)`, the vector's entry `c`. -/
theorem bcastInDim_b_1b_apply {b : ℕ} (v : (⟨1, ![b]⟩ : Shape).Idx → α)
    (h : (⟨1, ![b]⟩ : Shape).BroadcastsInDim ⟨2, ![1, b]⟩ ![1]) (u : Fin 1) (c : Fin b) :
    broadcastInDim ⟨2, ![1, b]⟩ ![1] h v (ix2 u c) = v (ix1 c) := by
  refine broadcastInDim_apply ![1] h v (ix2 u c) (ix1 c) fun ax => ?_
  match ax with
  | ⟨0, _⟩ =>
    show c.val = if b = 1 then 0 else c.val
    split
    · have := c.isLt; omega
    · rfl

/-- A vector `[a]` broadcast (host) along axis `[0]` to a column `[a, 1]` reads, at `(p, u)`, the vector's entry `p`. -/
theorem bcastInDim_a_a1_apply {a : ℕ} (v : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h v (ix2 p u) = v (ix1 p) := by
  refine broadcastInDim_apply ![0] h v (ix2 p u) (ix1 p) fun ax => ?_
  match ax with
  | ⟨0, _⟩ =>
    show p.val = if a = 1 then 0 else p.val
    split
    · have := p.isLt; omega
    · rfl

/-- A vector `[a]` cast to a column `[a, 1]` reads, at `(p, u)`, the vector's entry `p`. -/
theorem shapeCast_a_a1_apply {a : ℕ} (v : (⟨1, ![a]⟩ : Shape).Idx → α)
    (h : (⟨1, ![a]⟩ : Shape).ShapeCasts ⟨2, ![a, 1]⟩) (p : Fin a) (u : Fin 1) :
    shapeCast ⟨2, ![a, 1]⟩ v h (ix2 p u) = v (ix1 p) :=
  shapeCast_apply v h _ _ (by
    have hu : u.val = 0 := by omega
    rw [Shape.rowMajor_val_two, Shape.rowMajor_val_one]
    show p.val = p.val * 1 + u.val
    rw [hu]; omega)

/-- So the cast of a vector to a column and its broadcast to a column are one array. -/
theorem shapeCast_a_a1_eq_bcastInDim {a : ℕ} (v : (⟨1, ![a]⟩ : Shape).Idx → α)
    (h : (⟨1, ![a]⟩ : Shape).ShapeCasts ⟨2, ![a, 1]⟩) (h' : (⟨1, ![a]⟩ : Shape).BroadcastsInDim ⟨2, ![a, 1]⟩ ![0]) :
    shapeCast ⟨2, ![a, 1]⟩ v h = broadcastInDim ⟨2, ![a, 1]⟩ ![0] h' v := by
  funext j
  obtain ⟨p, u, rfl⟩ : ∃ (p : Fin a) (u : Fin 1), j = ix2 p u := ⟨j 0, j 1, eq_ix2 j⟩
  rw [shapeCast_a_a1_apply, bcastInDim_a_a1_apply]

/-- A scalar broadcast (host) to any shape reads its one entry everywhere. -/
theorem bcastInDim_scalar_apply {t : Shape} (v : (⟨0, ![]⟩ : Shape).Idx → α)
    (h : (⟨0, ![]⟩ : Shape).BroadcastsInDim t (![] : Fin 0 → Fin t.rank)) (j : t.Idx) (k : (⟨0, ![]⟩ : Shape).Idx) :
    broadcastInDim t ![] h v j = v k :=
  broadcastInDim_apply ![] h v j k fun ax => ax.elim0

end Cert.LibColumn
-- ==== Proof.IBlocks.lean ====
/-
  The four input blocks of a grid point read at an index. Point t = 16 * ti + tj takes row block ti of the embeddings
  cast to bf16 (window 0), row block tj of the same array (window 1), row block ti of the label column (window 2) and
  column block tj of the label row (window 3): an element at coordinate p of a block sits in the array at block index
  times 512 plus p. The three arrays are what the operations before the region leave: the cast of the embeddings, and
  the label vector laid out as a column and as a row; over the extended reals the cast is the identity.
-/
import proofs.«167906_j2405181686310_1_alg».proof.Proof.IRuns
import proofs.«167906_j2405181686310_1_alg».proof.Proof.LibColumn
import Idealize.ShloMosaic.Lib.Pipeline.Value
import Idealize.ShloMosaic.Lib.ValueIdx
import Idealize.ShloMosaic.Lib.ValueLayout

noncomputable section

namespace Cert.KernelIdeal.Body

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window BodyObligation cellOf)

variable {F : FTy → Type} [FloatOps F]
variable (m : (ℓ : Loc nD τ sig) → Buf (Elt F) ℓ)

/-! ## The grid -/

/-- Point t has coordinates (t / 16, t % 16). -/
theorem coords_val : ∀ t : Fin cfg0.N, (grid0.coords t 0).val = t.val / 16 ∧ (grid0.coords t 1).val = t.val % 16 :=
  (by decide +kernel : ∀ t : Fin grid0.N, (grid0.coords t 0).val = t.val / 16 ∧ (grid0.coords t 1).val = t.val % 16)

/-- The input windows' block indices at point t. -/
theorem idx0 : ∀ t : Fin cfg0.N, win0_0.index t (0 : Fin 2) = t.val / 16 ∧ win0_0.index t (1 : Fin 2) = 0 :=
  (by decide +kernel : ∀ t : Fin grid0.N, win0_0.index t (0 : Fin 2) = t.val / 16 ∧ win0_0.index t (1 : Fin 2) = 0)
theorem idx1 : ∀ t : Fin cfg0.N, win0_1.index t (0 : Fin 2) = t.val % 16 ∧ win0_1.index t (1 : Fin 2) = 0 :=
  (by decide +kernel : ∀ t : Fin grid0.N, win0_1.index t (0 : Fin 2) = t.val % 16 ∧ win0_1.index t (1 : Fin 2) = 0)
theorem idx2 : ∀ t : Fin cfg0.N, win0_2.index t (0 : Fin 2) = t.val / 16 ∧ win0_2.index t (1 : Fin 2) = 0 :=
  (by decide +kernel : ∀ t : Fin grid0.N, win0_2.index t (0 : Fin 2) = t.val / 16 ∧ win0_2.index t (1 : Fin 2) = 0)
theorem idx3 : ∀ t : Fin cfg0.N, win0_3.index t (0 : Fin 2) = 0 ∧ win0_3.index t (1 : Fin 2) = t.val % 16 :=
  (by decide +kernel : ∀ t : Fin grid0.N, win0_3.index t (0 : Fin 2) = 0 ∧ win0_3.index t (1 : Fin 2) = t.val % 16)

theorem row_lt (t : Fin cfg0.N) (p : Fin 512) : 512 * (t.val / 16) + p.val < 8192 := by
  have := t.isLt; have hN : grid0.N = 256 := N_0; have hN' : cfg0.N = 256 := N_0; omega

theorem col_lt (t : Fin cfg0.N) (q : Fin 512) : 512 * (t.val % 16) + q.val < 8192 := by
  have := q.isLt; omega

/-- The global row of coordinate p of point t's row block. -/
abbrev rowOf (t : Fin cfg0.N) (p : Fin 512) : Fin 8192 := ⟨512 * (t.val / 16) + p.val, row_lt t p⟩

/-- The global column of coordinate q of point t's column block. -/
abbrev colOf (t : Fin cfg0.N) (q : Fin 512) : Fin 8192 := ⟨512 * (t.val % 16) + q.val, col_lt t q⟩

/-! ## The blocks -/

/-- Window 0: row block t / 16 of the cast embeddings. -/
theorem iblk0_apply (c : Dev nD) (t : Fin cfg0.N) (p : Fin 512) (k : Fin 256) :
    iblk m c 0 t (ix2 p k) = V m c main_v0 (ix2 (rowOf t p) k) := by
  show V m c main_v0 (((cfg0.win 0).blk t).view.emb (ix2 p k)) = _
  congr 1
  obtain ⟨e0, e1⟩ := idx0 t
  funext a; apply Fin.ext
  match a with
  | ⟨0, _⟩ => show win0_0.index t (0 : Fin 2) * 512 + 1 * p.val = 512 * (t.val / 16) + p.val; rw [e0]; omega
  | ⟨1, _⟩ => show win0_0.index t (1 : Fin 2) * 256 + 1 * k.val = k.val; rw [e1]; omega

/-- Window 1: row block t % 16 of the same array. -/
theorem iblk1_apply (c : Dev nD) (t : Fin cfg0.N) (q : Fin 512) (k : Fin 256) :
    iblk m c 1 t (ix2 q k) = V m c main_v0 (ix2 (colOf t q) k) := by
  show V m c main_v0 (((cfg0.win 1).blk t).view.emb (ix2 q k)) = _
  congr 1
  obtain ⟨e0, e1⟩ := idx1 t
  funext a; apply Fin.ext
  match a with
  | ⟨0, _⟩ => show win0_1.index t (0 : Fin 2) * 512 + 1 * q.val = 512 * (t.val % 16) + q.val; rw [e0]; omega
  | ⟨1, _⟩ => show win0_1.index t (1 : Fin 2) * 256 + 1 * k.val = k.val; rw [e1]; omega

/-- Window 2: row block t / 16 of the label column. -/
theorem iblk2_apply (c : Dev nD) (t : Fin cfg0.N) (p : Fin 512) :
    iblk m c 2 t (ix2 p (0 : Fin 1)) = V m c main_v1 (ix2 (rowOf t p) (0 : Fin 1)) := by
  show V m c main_v1 (((cfg0.win 2).blk t).view.emb (ix2 p (0 : Fin 1))) = _
  congr 1
  obtain ⟨e0, e1⟩ := idx2 t
  funext a; apply Fin.ext
  match a with
  | ⟨0, _⟩ => show win0_2.index t (0 : Fin 2) * 512 + 1 * p.val = 512 * (t.val / 16) + p.val; rw [e0]; omega
  | ⟨1, _⟩ => show win0_2.index t (1 : Fin 2) * 1 + 1 * 0 = 0; rw [e1]

/-- Window 3: column block t % 16 of the label row. -/
theorem iblk3_apply (c : Dev nD) (t : Fin cfg0.N) (q : Fin 512) :
    iblk m c 3 t (ix2 (0 : Fin 1) q) = V m c main_v2 (ix2 (0 : Fin 1) (colOf t q)) := by
  show V m c main_v2 (((cfg0.win 3).blk t).view.emb (ix2 (0 : Fin 1) q)) = _
  congr 1
  obtain ⟨e0, e1⟩ := idx3 t
  funext a; apply Fin.ext
  match a with
  | ⟨0, _⟩ => show win0_3.index t (0 : Fin 2) * 1 + 1 * 0 = 0; rw [e0]
  | ⟨1, _⟩ => show win0_3.index t (1 : Fin 2) * 512 + 1 * q.val = 512 * (t.val % 16) + q.val; rw [e1]; omega

/-! ## The arrays the region finds -/

/-- The cast embeddings. -/
theorem V_main_v0 (c : Dev nD) :
    (V m c main_v0 : S8192x256.Idx → Elt F .bf16)
      = truncf .bf16 (m ((c : Thread nD τ).loc main_arg0) : S8192x256.Idx → Elt F .f32) bitsLt_bf16_f32 := by
  dsimp only [V, V0]
  after_results

/-- The label column. -/
theorem V_main_v1 (c : Dev nD) :
    (V m c main_v1 : S8192x1.Idx → Elt F .i32)
      = shapeCast S8192x1 (m ((c : Thread nD τ).loc main_arg1) : S8192.Idx → Elt F .i32) shapeCasts_S8192_S8192x1 := by
  dsimp only [V, V0]
  after_results
  rfl

/-- The label row. -/
theorem V_main_v2 (c : Dev nD) :
    (V m c main_v2 : S1x8192.Idx → Elt F .i32)
      = shapeCast S1x8192 (m ((c : Thread nD τ).loc main_arg1) : S8192.Idx → Elt F .i32) shapeCasts_S8192_S1x8192 := by
  dsimp only [V, V0]
  after_results
  rfl

/-- The label column at row r is label r. -/
theorem V_main_v1_apply (c : Dev nD) (r : Fin 8192) :
    (V m c main_v1 : S8192x1.Idx → Elt F .i32) (ix2 r (0 : Fin 1))
      = (m ((c : Thread nD τ).loc main_arg1) : S8192.Idx → Elt F .i32) (ix1 r) := by
  rw [V_main_v1]
  exact Cert.LibColumn.shapeCast_a_a1_apply _ shapeCasts_S8192_S8192x1 r 0

/-- The label row at column r is label r. -/
theorem V_main_v2_apply (c : Dev nD) (r : Fin 8192) :
    (V m c main_v2 : S1x8192.Idx → Elt F .i32) (ix2 (0 : Fin 1) r)
      = (m ((c : Thread nD τ).loc main_arg1) : S8192.Idx → Elt F .i32) (ix1 r) := by
  rw [V_main_v2]
  exact shapeCast_a_1a_apply _ shapeCasts_S8192_S1x8192 0 r

end Cert.KernelIdeal.Body

end
-- ==== Proof.LibDotT.lean ====
/- A matrix product against a transposed right operand, [R, K] × [C, K] → [R, C] (both operands contracted along their second
   axis), into a zero accumulator, read at an index over the extended reals: entry (p, q) is the sum over k of
   lhs(p, k) · rhs(q, k). For any dimension record with these lists. Names no program. -/
import Idealize.ShloMosaic.PureOps.Ideal
import Idealize.ShloMosaic.PureOps.Ideal.Laws
import Idealize.ShloMosaic.PureOps.Dims
import Idealize.ShloMosaic.PureOps.Contract
import Idealize.ShloMosaic.Lib.ValueIdx

noncomputable section

namespace Cert.LibDotT

open Idealize.ShloMosaic Idealize.ShloMosaic.ValueIdx

/-- The dimension numbers of a `[R, K] × [C, K] → [R, C]` product: the second axis of each operand is contracted. -/
abbrev dotT (R K C : Nat)
    (wf : DotDims.WF ⟨2, ![R, K]⟩ ⟨2, ![C, K]⟩ ⟨2, ![R, C]⟩ [1] [1] [0] [0] [] []) :
    DotDims ⟨2, ![R, K]⟩ ⟨2, ![C, K]⟩ ⟨2, ![R, C]⟩ where
  lhsContracting := [1]
  rhsContracting := [1]
  lhsNonContracting := [0]
  rhsNonContracting := [0]
  lhsBatch := []
  rhsBatch := []
  wf := wf

section
variable {R K C : Nat} (wf : DotDims.WF ⟨2, ![R, K]⟩ ⟨2, ![C, K]⟩ ⟨2, ![R, C]⟩ [1] [1] [0] [0] [] [])

/-- The left operand's index for output `(p, q)` and contraction coordinate `k` is `(p, k)`. -/
theorem dotT_lhsIdx (p : Fin R) (q : Fin C) (k : Fin K) :
    (dotT R K C wf).lhsIdx (ix2 p q) ((contrEquiv1 (dotT R K C wf) K rfl rfl).symm k) = ix2 p k := by
  have hk := contrEquiv1_symm_val (dotT R K C wf) K rfl rfl k
  funext a
  refine Fin.ext ?_
  match a with
  | ⟨0, _⟩ =>
    show ((dotT R K C wf).lhsIdx (ix2 p q) ((contrEquiv1 (dotT R K C wf) K rfl rfl).symm k) 0).val = p.val
    unfold DotDims.lhsIdx
    rw [dif_neg (show ¬(0 : Fin 2) ∈ (dotT R K C wf).lhsBatch from List.not_mem_nil),
      dif_pos (show (0 : Fin 2) ∈ (dotT R K C wf).lhsNonContracting from List.mem_singleton.mpr rfl)]
    rfl
  | ⟨1, _⟩ =>
    exact ((dotT R K C wf).lhsIdx_val_of_single (cl := (1 : Fin 2)) rfl (ix2 p q) _).trans hk

/-- The right operand's index for output `(p, q)` and contraction coordinate `k` is `(q, k)`. -/
theorem dotT_rhsIdx (p : Fin R) (q : Fin C) (k : Fin K) :
    (dotT R K C wf).rhsIdx (ix2 p q) ((contrEquiv1 (dotT R K C wf) K rfl rfl).symm k) = ix2 q k := by
  have hk := contrEquiv1_symm_val (dotT R K C wf) K rfl rfl k
  funext a
  refine Fin.ext ?_
  match a with
  | ⟨0, _⟩ =>
    show ((dotT R K C wf).rhsIdx (ix2 p q) ((contrEquiv1 (dotT R K C wf) K rfl rfl).symm k) 0).val = q.val
    unfold DotDims.rhsIdx
    rw [dif_neg (show ¬(0 : Fin 2) ∈ (dotT R K C wf).rhsBatch from List.not_mem_nil),
      dif_pos (show (0 : Fin 2) ∈ (dotT R K C wf).rhsNonContracting from List.mem_singleton.mpr rfl)]
    rfl
  | ⟨1, _⟩ =>
    exact ((dotT R K C wf).rhsIdx_val_of_single (cr := (1 : Fin 2)) rfl (ix2 p q) _).trans hk

/-- THE PRODUCT AGAINST THE TRANSPOSE INTO A ZERO ACCUMULATOR AT `(p, q)`: the sum over `k` of `lhs (p, k) * rhs (q, k)`. -/
theorem matmulT_zero_apply {φ₁ φ₂ : FTy} (prec : Option ContractPrecision)
    (lhs : FVec Ideal ⟨2, ![R, K]⟩ φ₁) (rhs : FVec Ideal ⟨2, ![C, K]⟩ φ₂) (p : Fin R) (q : Fin C) :
    FloatOps.matmul (dotT R K C wf) prec lhs rhs (constant ⟨2, ![R, C]⟩ .f32 0x00000000#32) (ix2 p q)
      = ∑ k : Fin K, lhs (ix2 p k) * rhs (ix2 q k) := by
  rw [Ideal.matmul_constant_zero_apply, ← Equiv.sum_comp (contrEquiv1 (dotT R K C wf) K rfl rfl).symm]
  refine Finset.sum_congr rfl fun k _ => ?_
  rw [dotT_lhsIdx wf p q k, dotT_rhsIdx wf p q k]

end

end Cert.LibDotT

end
-- ==== Proof.PaySim.lean ====
/- The similarity tile read at an index over the extended reals: entry (p, q) of the product of the row block against
   the transposed column block is the sum over the 256 features k of x0(p, k) * x1(q, k); the tile is that sum times the
   word of 2.0, which denotes the real number 2. -/
import proofs.«167906_j2405181686310_1_alg».proof.Proof.Gen.KernelIdeal.Skeleton
import proofs.«167906_j2405181686310_1_alg».proof.Proof.LibDotT
import Idealize.ShloMosaic.Lib.ValueIdx
import Idealize.ShloMosaic.Lib.Pipeline.Value
import Idealize.ShloMosaic.PureOps.Ideal.Laws

noncomputable section

namespace Cert.KernelIdeal.Pay

open Cert.KernelIdeal Cert.KernelIdeal.Gen Idealize.ShloMosaic Idealize.ShloMosaic.ValueIdx

/-- Entry (p, q) of the similarity tile: the inner product of row p of the first block with row q of the second, doubled. -/
def simT (x0 x1 : Vec Ideal S512x256 .bf16) (p q : Fin 512) : EReal :=
  (∑ k : Fin 256, x0 (ix2 p k) * x1 (ix2 q k)) * Ideal.ofBits .f32 0x40000000#32

/-- The word 0x40000000 denotes the real number 2. -/
theorem ofBits_two : Ideal.ofBits .f32 0x40000000#32 = ((2 : ℝ) : EReal) := by
  simp [Ideal.ofBits, Ideal.ieee]
  rw [← EReal.coe_mul]
  exact congrArg _ (by norm_num)

/-- The word 0xFF800000 denotes the bottom of the extended reals. -/
theorem ofBits_neg_inf : Ideal.ofBits .f32 0xFF800000#32 = (⊥ : EReal) := by
  simp [Ideal.ofBits, Ideal.ieee]

/-- The printed dimension record is the record of a product against a transposed right operand. -/
theorem dot_eq : dot_S512x256_S512x256_S512x512_1_1_0_0_n_n
    = Cert.LibDotT.dotT 512 256 512 Gen.dot_S512x256_S512x256_S512x512_1_1_0_0_n_n_wf := rfl

/-- The similarity tile at (p, q). -/
theorem pay10_apply (x0 x1 : Vec Ideal S512x256 .bf16) (p q : Fin 512) :
    k0_pay10 (F := Ideal) x0 x1 (ix2 p q) = simT x0 x1 p q := by
  unfold k0_pay10 simT
  rw [shapeCast_self, shapeCast_self, mulf_apply, broadcast_apply, dot_eq]
  exact congrArg (· * _) (Cert.LibDotT.matmulT_zero_apply _ none x0 x1 p q)

end Cert.KernelIdeal.Pay

end
-- ==== Proof.PayMask.lean ====
/- The two masks of a tile read at an index. The diagonal mask compares the global row number, 512 times the row-block
   coordinate plus p, with the global column number, 512 times the column-block coordinate plus q: with coordinates below
   16 and p, q below 512 neither number reaches 2^32, so the 32-bit comparison is the comparison of the naturals. The
   positive mask is the conjunction of label equality, row label p against column label q, with the negated diagonal bit. -/
import proofs.«167906_j2405181686310_1_alg».proof.Proof.Gen.KernelIdeal.Skeleton
import proofs.«167906_j2405181686310_1_alg».proof.Proof.LibColumn
import Idealize.ShloMosaic.Lib.ValueIdx
import Idealize.ShloMosaic.Lib.ValueLayout
import Idealize.ShloMosaic.Lib.Pipeline.Value

noncomputable section

namespace Cert.KernelIdeal.Pay

open Cert.KernelIdeal Cert.KernelIdeal.Gen Idealize.ShloMosaic Idealize.ShloMosaic.ValueIdx

/-- 32-bit words: block coordinate a < 16 and offset p < 512 give the word of a * 512 + p, and two such words are equal
    exactly when the naturals are. -/
theorem eye_word (a b p q : Nat) (ha : a < 16) (hb : b < 16) (hp : p < 512) (hq : q < 512) :
    IntOp.cmpi .eq (IntOp.addi (Scalar.muli (BitVec.ofNat 32 a) 512#32) (BitVec.ofNat 32 p))
      (IntOp.addi (Scalar.muli (BitVec.ofNat 32 b) 512#32) (BitVec.ofNat 32 q))
      = if a * 512 + p = b * 512 + q then 1#1 else 0#1 := by
  have e : ∀ a p : Nat, a < 16 → p < 512 →
      (IntOp.addi (Scalar.muli (BitVec.ofNat 32 a) 512#32) (BitVec.ofNat 32 p)).toNat = a * 512 + p := by
    intro a p ha hp
    show (BitVec.ofNat 32 a * 512#32 + BitVec.ofNat 32 p).toNat = _
    simp only [BitVec.toNat_add, BitVec.toNat_mul, BitVec.toNat_ofNat]
    omega
  show BitVec.ofBool (_ == _) = _
  by_cases h : a * 512 + p = b * 512 + q
  · rw [if_pos h, (BitVec.eq_of_toNat_eq ((e a p ha hp).trans (h.trans (e b q hb hq).symm)))]
    simp
  · rw [if_neg h]
    have hne : IntOp.addi (Scalar.muli (BitVec.ofNat 32 a) 512#32) (BitVec.ofNat 32 p)
        ≠ IntOp.addi (Scalar.muli (BitVec.ofNat 32 b) 512#32) (BitVec.ofNat 32 q) := by
      intro hh
      exact h ((e a p ha hp).symm.trans ((congrArg BitVec.toNat hh).trans (e b q hb hq)))
    rw [beq_eq_false_iff_ne.mpr hne]; rfl

/-- One-bit words: equality of two labels and-ed with the complement of a bit e that decides c is the bit of
    "labels equal and not c". -/
theorem pos_word (x y : BitVec 32) (e : BitVec 1) (c : Prop) [Decidable c] (he : e = if c then 1#1 else 0#1) :
    IntOp.andi (IntOp.cmpi .eq x y) (IntOp.xori e 1#1) = if x = y ∧ ¬c then 1#1 else 0#1 := by
  subst he
  show BitVec.ofBool (x == y) &&& ((if c then 1#1 else 0#1) ^^^ 1#1) = _
  by_cases hxy : x = y
  · subst hxy
    rw [beq_self_eq_true]
    by_cases hc : c
    · rw [if_pos hc, if_neg (fun h : x = x ∧ ¬c => h.2 hc)]; rfl
    · rw [if_neg hc, if_pos (⟨rfl, hc⟩ : x = x ∧ ¬c)]; rfl
  · rw [beq_eq_false_iff_ne.mpr hxy, if_neg (fun h : x = y ∧ ¬c => hxy h.1)]
    by_cases hc : c
    · rw [if_pos hc]; rfl
    · rw [if_neg hc]; rfl

/-- The diagonal mask at (p, q): global row number equals global column number. -/
theorem pay11_apply (i : grid0.Coords) (p q : Fin 512) :
    k0_pay11 i (ix2 p q)
      = if (i 0).val * 512 + p.val = (i 1).val * 512 + q.val then 1#1 else 0#1 := by
  unfold k0_pay11
  show IntOp.cmpi .eq (IntOp.addi (Scalar.muli (BitVec.ofNat 32 (i 0).val) 512#32)
        (iota .tc S512x512 32 [0] iota_S512x512_d0_w32 (ix2 p q)))
      (IntOp.addi (Scalar.muli (BitVec.ofNat 32 (i 1).val) 512#32)
        (iota .tc S512x512 32 [1] iota_S512x512_d1_w32 (ix2 p q))) = _
  rw [iota_single_apply, iota_single_apply]
  exact eye_word (i 0).val (i 1).val p.val q.val (i 0).isLt (i 1).isLt p.isLt q.isLt

/-- The positive mask at (p, q): the row label p equals the column label q, off the diagonal. -/
theorem pay12_apply (i : grid0.Coords) (v19 : Vec Ideal S512x1 .i32) (v21 : Vec Ideal S1x512 .i32) (p q : Fin 512) :
    k0_pay12 (F := Ideal) i v19 v21 (ix2 p q)
      = if v19 (ix2 p (0 : Fin 1)) = v21 (ix2 (0 : Fin 1) q)
            ∧ ¬((i 0).val * 512 + p.val = (i 1).val * 512 + q.val) then 1#1 else 0#1 := by
  unfold k0_pay12
  show IntOp.andi (IntOp.cmpi .eq
        (broadcastTo S512x512 (shapeCast S512x1 v19 shapeCasts_S512x1_S512x1) broadcasts_S512x1_S512x512 (ix2 p q))
        (broadcastTo S512x512 (shapeCast S1x512 v21 shapeCasts_S1x512_S1x512) broadcasts_S1x512_S512x512 (ix2 p q)))
      (IntOp.xori (k0_pay11 i (ix2 p q)) 1#1) = _
  rw [shapeCast_self, shapeCast_self, Cert.LibColumn.broadcastTo_a1_ab_apply, broadcastTo_1b_ab_apply]
  exact pos_word _ _ _ _ (pay11_apply i p q)

end Cert.KernelIdeal.Pay

end
-- ==== Proof.Spec.lean ====
import Idealize.ShloMosaic.PureOps.Ideal
import Idealize.ShloMosaic.Lib.ValueIdx

/-!
  The specification of the masked contrastive loss, over the extended reals.

  For embeddings `E` (8192 rows of 256 entries) and labels `L` (one word per row):
  the similarity of rows `i` and `j` is twice their inner product; row `i`'s maximum
  is the supremum of its similarities; its denominator is the sum, over the columns
  other than `i`, of the exponentials of the similarities shifted by the row maximum;
  a pair `(i, j)` is positive when the labels agree and `i ≠ j`; the loss is the sum
  over the positive pairs of the negated log-probability, divided by their number.
-/

open Idealize.ShloMosaic
open scoped BigOperators

namespace Cert.Spec

/-- Twice the inner product of rows `i` and `j`. -/
noncomputable def sim (E : Fin 8192 → Fin 256 → EReal) (i j : Fin 8192) : EReal :=
  (∑ k : Fin 256, E i k * E j k) * ((2 : ℝ) : EReal)

/-- The supremum of row `i` of the similarities. -/
noncomputable def rowMax (E : Fin 8192 → Fin 256 → EReal) (i : Fin 8192) : EReal :=
  Finset.univ.sup fun j : Fin 8192 => sim E i j

/-- The sum over the off-diagonal columns of the shifted exponentials of row `i`. -/
noncomputable def denom (E : Fin 8192 → Fin 256 → EReal) (i : Fin 8192) : EReal :=
  ∑ j : Fin 8192, if i = j then 0 else Ideal.exp (sim E i j - rowMax E i)

/-- A positive pair: equal labels, distinct rows. -/
def pos (L : Fin 8192 → BitVec 32) (i j : Fin 8192) : Prop := L i = L j ∧ i ≠ j

instance (L : Fin 8192 → BitVec 32) (i j : Fin 8192) : Decidable (pos L i j) := by
  unfold pos; infer_instance

/-- The sum over the positive pairs of the negated log-probabilities. -/
noncomputable def lossNum (E : Fin 8192 → Fin 256 → EReal) (L : Fin 8192 → BitVec 32) : EReal :=
  ∑ i : Fin 8192, ∑ j : Fin 8192,
    if pos L i j then -((sim E i j - rowMax E i) - Ideal.log (denom E i)) else 0

/-- The number of positive pairs. -/
noncomputable def lossCnt (L : Fin 8192 → BitVec 32) : EReal :=
  (((Finset.univ.filter fun ij : Fin 8192 × Fin 8192 => pos L ij.1 ij.2).card : ℝ) : EReal)

/-- The loss: the sum over the positive pairs divided by their number. -/
noncomputable def loss (E : Fin 8192 → Fin 256 → EReal) (L : Fin 8192 → BitVec 32) : EReal :=
  Ideal.div (lossNum E L) (lossCnt L)

end Cert.Spec
-- ==== Proof.RowLaws.lean ====
/- One row of the loss, tile by tile. For a row of real similarities a (column j has a j), the row's own column r and a set
   of positive columns, the quantities over the first n columns are: the supremum m(n) of the similarities; the sum l(n),
   over the columns other than r, of the exponentials of the similarities shifted by m(n); the sum of the positive
   similarities; the number of positive columns. Appending a tile of B columns updates them by the running-maximum rule:
   m(n + B) is the larger of m(n) and the tile's supremum, and l(n) rescaled by exp(m(n) - m(n + B)) plus the tile's shifted
   exponentials is l(n + B), by exp(x - m) * exp(m - m') = exp(x - m') for real m, and by 0 * 0 = 0 when n = 0 and m(0) is
   the bottom element. With at least two columns everything is a real number, and the row's closing expression is the sum
   over the positive columns of the negated log-probabilities. -/
import Idealize.ShloMosaic.PureOps.Ideal

noncomputable section

namespace Cert.RowLaws

open Idealize.ShloMosaic
open scoped BigOperators

/-- The supremum of the first n similarities. -/
def mP (a : ℕ → ℝ) (n : ℕ) : EReal := (Finset.range n).sup fun j => ((a j : ℝ) : EReal)

/-- The sum over the first n columns other than r of the exponentials shifted by the supremum of the first n. -/
def lP (a : ℕ → ℝ) (r n : ℕ) : EReal :=
  ∑ j ∈ Finset.range n, if j = r then 0 else Ideal.exp (((a j : ℝ) : EReal) - mP a n)

/-- The sum of the positive similarities among the first n. -/
def spP (a : ℕ → ℝ) (pos : ℕ → Prop) [DecidablePred pos] (n : ℕ) : EReal :=
  ∑ j ∈ Finset.range n, if pos j then ((a j : ℝ) : EReal) else 0

/-- The number of positive columns among the first n. -/
def cpP (pos : ℕ → Prop) [DecidablePred pos] (n : ℕ) : EReal :=
  ∑ j ∈ Finset.range n, if pos j then (1 : EReal) else 0

/-! ## Sums of reals inside the extended reals; sums and suprema over an initial segment -/

/-- The cast of a finite sum of reals is the sum of the casts. -/
theorem coe_sum {ι : Type} (s : Finset ι) (f : ι → ℝ) :
    ((∑ i ∈ s, f i : ℝ) : EReal) = ∑ i ∈ s, ((f i : ℝ) : EReal) := by
  classical
  induction s using Finset.induction_on with
  | empty => simp
  | insert i s hi ih => rw [Finset.sum_insert hi, Finset.sum_insert hi, EReal.coe_add, ih]

/-- A sum over the N coordinates is the sum over the naturals below N. -/
theorem sum_fin_eq_range (N : ℕ) (f : ℕ → EReal) : ∑ j : Fin N, f j.val = ∑ j ∈ Finset.range N, f j :=
  Fin.sum_univ_eq_sum_range f N

/-- A supremum over the N coordinates is the supremum over the naturals below N. -/
theorem sup_fin_eq_range (N : ℕ) (f : ℕ → EReal) :
    (Finset.univ : Finset (Fin N)).sup (fun j => f j.val) = (Finset.range N).sup f := by
  apply le_antisymm
  · exact Finset.sup_le fun q _ => Finset.le_sup (f := f) (Finset.mem_range.mpr q.isLt)
  · exact Finset.sup_le fun j hj =>
      Finset.le_sup (f := fun q : Fin N => f q.val) (Finset.mem_univ ⟨j, Finset.mem_range.mp hj⟩)

/-! ## Before the first tile -/

theorem mP_zero (a : ℕ → ℝ) : mP a 0 = ⊥ := by simp [mP]

theorem lP_zero (a : ℕ → ℝ) (r : ℕ) : lP a r 0 = 0 := by simp [lP]

theorem spP_zero (a : ℕ → ℝ) (pos : ℕ → Prop) [DecidablePred pos] : spP a pos 0 = 0 := by simp [spP]

theorem cpP_zero (pos : ℕ → Prop) [DecidablePred pos] : cpP pos 0 = 0 := by simp [cpP]

/-! ## The supremum -/

theorem mP_succ (a : ℕ → ℝ) (n : ℕ) : mP a (n + 1) = max (mP a n) ((a n : ℝ) : EReal) := by
  unfold mP
  rw [Finset.range_add_one, Finset.sup_insert]
  exact max_comm _ _

/-- The supremum of a nonempty initial segment of reals is a real. -/
theorem mP_real (a : ℕ → ℝ) {n : ℕ} (hn : 0 < n) : ∃ M : ℝ, mP a n = (M : EReal) := by
  induction n with
  | zero => omega
  | succ k ih =>
    rcases Nat.eq_zero_or_pos k with rfl | hk
    · exact ⟨a 0, by rw [mP_succ, mP_zero]; exact max_eq_right bot_le⟩
    · obtain ⟨M, hM⟩ := ih hk
      exact ⟨max M (a k), by rw [mP_succ, hM]; exact (EReal.coe_strictMono.monotone.map_max).symm⟩

/-- Appending a tile: the new supremum is the larger of the old one and the tile's. -/
theorem step_m (a : ℕ → ℝ) (n B : ℕ) :
    max (mP a n) (Finset.univ.sup fun q : Fin B => ((a (n + q.val) : ℝ) : EReal)) = mP a (n + B) := by
  unfold mP
  apply le_antisymm
  · refine max_le (Finset.sup_mono (Finset.range_mono (Nat.le_add_right n B))) ?_
    exact Finset.sup_le fun q _ =>
      Finset.le_sup (f := fun j => ((a j : ℝ) : EReal)) (Finset.mem_range.mpr (Nat.add_lt_add_left q.isLt n))
  · refine Finset.sup_le fun j hj => ?_
    have hj' := Finset.mem_range.mp hj
    by_cases h : j < n
    · exact le_max_of_le_left (Finset.le_sup (f := fun j => ((a j : ℝ) : EReal)) (Finset.mem_range.mpr h))
    · have hq : j - n < B := by omega
      have e : n + (j - n) = j := by omega
      refine le_max_of_le_right ?_
      have := Finset.le_sup (f := fun q : Fin B => ((a (n + q.val) : ℝ) : EReal)) (Finset.mem_univ ⟨j - n, hq⟩)
      rw [← e]
      exact this

/-! ## The sum of shifted exponentials -/

/-- The real sum, over the columns of s other than r, of the exponentials shifted by a real M. -/
def lR (a : ℕ → ℝ) (r : ℕ) (M : ℝ) (s : Finset ℕ) : ℝ := ∑ j ∈ s, if j = r then 0 else Real.exp (a j - M)

theorem expsum_coe (a : ℕ → ℝ) (r : ℕ) (M : ℝ) (s : Finset ℕ) :
    (∑ j ∈ s, if j = r then (0 : EReal) else Ideal.exp (((a j : ℝ) : EReal) - ((M : ℝ) : EReal)))
      = ((lR a r M s : ℝ) : EReal) := by
  unfold lR
  rw [coe_sum]
  refine Finset.sum_congr rfl fun j _ => ?_
  by_cases h : j = r
  · rw [if_pos h, if_pos h, EReal.coe_zero]
  · rw [if_neg h, if_neg h, ← EReal.coe_sub, Ideal.exp_coe]

/-- Appending a tile: the old sum rescaled, plus the tile's shifted exponentials, is the new sum. -/
theorem step_l (a : ℕ → ℝ) (r n B : ℕ) (hB : 0 < B) :
    lP a r n * Ideal.exp (mP a n - mP a (n + B))
      + ∑ q : Fin B, (if n + q.val = r then 0 else Ideal.exp (((a (n + q.val) : ℝ) : EReal) - mP a (n + B)))
      = lP a r (n + B) := by
  obtain ⟨M', hM'⟩ := mP_real a (n := n + B) (by omega)
  have hR : lP a r (n + B)
      = (∑ j ∈ Finset.range n, if j = r then (0 : EReal) else Ideal.exp (((a j : ℝ) : EReal) - mP a (n + B)))
        + ∑ q : Fin B, (if n + q.val = r then 0 else Ideal.exp (((a (n + q.val) : ℝ) : EReal) - mP a (n + B))) := by
    unfold lP
    rw [Finset.sum_range_add, Fin.sum_univ_eq_sum_range
      (fun x => if n + x = r then (0 : EReal) else Ideal.exp (((a (n + x) : ℝ) : EReal) - mP a (n + B)))]
  rw [hR]
  congr 1
  rcases Nat.eq_zero_or_pos n with rfl | hn
  · simp [lP]
  · obtain ⟨M, hM⟩ := mP_real a hn
    unfold lP
    rw [hM, hM', expsum_coe, expsum_coe, ← EReal.coe_sub, Ideal.exp_coe, ← EReal.coe_mul]
    congr 1
    unfold lR
    rw [Finset.sum_mul]
    refine Finset.sum_congr rfl fun j _ => ?_
    by_cases h : j = r
    · rw [if_pos h, if_pos h, zero_mul]
    · rw [if_neg h, if_neg h, ← Real.exp_add]
      congr 1
      ring

/-! ## The two plain sums -/

theorem step_sp (a : ℕ → ℝ) (pos : ℕ → Prop) [DecidablePred pos] (n B : ℕ) :
    spP a pos n + ∑ q : Fin B, (if pos (n + q.val) then ((a (n + q.val) : ℝ) : EReal) else 0) = spP a pos (n + B) := by
  unfold spP
  rw [Finset.sum_range_add, Fin.sum_univ_eq_sum_range
    (fun x => if pos (n + x) then ((a (n + x) : ℝ) : EReal) else 0)]

theorem step_cp (pos : ℕ → Prop) [DecidablePred pos] (n B : ℕ) :
    cpP pos n + ∑ q : Fin B, (if pos (n + q.val) then (1 : EReal) else 0) = cpP pos (n + B) := by
  unfold cpP
  rw [Finset.sum_range_add, Fin.sum_univ_eq_sum_range (fun x => if pos (n + x) then (1 : EReal) else 0)]

/-! ## Everything is a real number -/

/-- The real sum of the positive similarities. -/
def sR (a : ℕ → ℝ) (pos : ℕ → Prop) [DecidablePred pos] (n : ℕ) : ℝ := ∑ j ∈ Finset.range n, if pos j then a j else 0

/-- The real count of the positive columns. -/
def cR (pos : ℕ → Prop) [DecidablePred pos] (n : ℕ) : ℝ := ∑ j ∈ Finset.range n, if pos j then 1 else 0

theorem spP_coe (a : ℕ → ℝ) (pos : ℕ → Prop) [DecidablePred pos] (n : ℕ) : spP a pos n = ((sR a pos n : ℝ) : EReal) := by
  unfold spP sR
  rw [coe_sum]
  refine Finset.sum_congr rfl fun j _ => ?_
  by_cases h : pos j
  · rw [if_pos h, if_pos h]
  · rw [if_neg h, if_neg h, EReal.coe_zero]

theorem cpP_coe (pos : ℕ → Prop) [DecidablePred pos] (n : ℕ) : cpP pos n = ((cR pos n : ℝ) : EReal) := by
  unfold cpP cR
  rw [coe_sum]
  refine Finset.sum_congr rfl fun j _ => ?_
  by_cases h : pos j
  · rw [if_pos h, if_pos h, EReal.coe_one]
  · rw [if_neg h, if_neg h, EReal.coe_zero]

theorem cR_card (pos : ℕ → Prop) [DecidablePred pos] (n : ℕ) : cR pos n = ((((Finset.range n).filter pos).card : ℕ) : ℝ) := by
  unfold cR
  exact Finset.sum_boole _ _

theorem spP_real (a : ℕ → ℝ) (pos : ℕ → Prop) [DecidablePred pos] (n : ℕ) : ∃ s : ℝ, spP a pos n = (s : EReal) :=
  ⟨_, spP_coe a pos n⟩

theorem cpP_nat (pos : ℕ → Prop) [DecidablePred pos] (n : ℕ) :
    ∃ k : ℕ, cpP pos n = ((k : ℝ) : EReal) ∧ k = ((Finset.range n).filter pos).card :=
  ⟨_, by rw [cpP_coe, cR_card], rfl⟩

/-- With a column other than r among the first n, the sum of shifted exponentials is a positive real. -/
theorem lP_pos (a : ℕ → ℝ) (r : ℕ) {n : ℕ} (h : ∃ j < n, j ≠ r) : ∃ d : ℝ, 0 < d ∧ lP a r n = (d : EReal) := by
  obtain ⟨j, hj, hjr⟩ := h
  obtain ⟨M, hM⟩ := mP_real a (n := n) (by omega)
  refine ⟨lR a r M (Finset.range n), ?_, by unfold lP; rw [hM, expsum_coe]⟩
  unfold lR
  refine Finset.sum_pos' (fun i _ => ?_) ⟨j, Finset.mem_range.mpr hj, ?_⟩
  · by_cases hi : i = r
    · rw [if_pos hi]
    · rw [if_neg hi]; exact (Real.exp_pos _).le
  · rw [if_neg hjr]; exact Real.exp_pos _

/-! ## The row's closing expression -/

/-- Zero minus the positive similarities, plus the count times the supremum, plus the count times the logarithm of the sum of
    shifted exponentials, is the sum over the positive columns of the negated log-probabilities. -/
theorem final (a : ℕ → ℝ) (r : ℕ) (pos : ℕ → Prop) [DecidablePred pos] (N : ℕ) (hN : 2 ≤ N) (hr : r < N)
    (hpos : ∀ j, pos j → j ≠ r) :
    ((0 - spP a pos N) + cpP pos N * mP a N) + cpP pos N * Ideal.log (lP a r N)
      = ∑ j ∈ Finset.range N, if pos j then -((((a j : ℝ) : EReal) - mP a N) - Ideal.log (lP a r N)) else 0 := by
  obtain ⟨M, hM⟩ := mP_real a (n := N) (by omega)
  obtain ⟨d, hd, hl⟩ := lP_pos a r (n := N) (by
    by_cases h0 : r = 0
    · exact ⟨1, by omega, by omega⟩
    · exact ⟨0, by omega, fun h => h0 h.symm⟩)
  have hlog : Ideal.log ((d : ℝ) : EReal) = ((Real.log d : ℝ) : EReal) := by
    rw [Ideal.log_coe, if_neg (not_le.mpr hd)]
  rw [hM, hl, hlog, spP_coe, cpP_coe]
  have hsum : (∑ j ∈ Finset.range N,
        if pos j then -((((a j : ℝ) : EReal) - ((M : ℝ) : EReal)) - ((Real.log d : ℝ) : EReal)) else 0)
      = (((∑ j ∈ Finset.range N, if pos j then -((a j - M) - Real.log d) else 0 : ℝ)) : EReal) := by
    rw [coe_sum]
    refine Finset.sum_congr rfl fun j _ => ?_
    by_cases h : pos j
    · rw [if_pos h, if_pos h, EReal.coe_neg, EReal.coe_sub, EReal.coe_sub]
    · rw [if_neg h, if_neg h, EReal.coe_zero]
  rw [hsum, ← EReal.coe_zero, ← EReal.coe_sub, ← EReal.coe_mul, ← EReal.coe_add, ← EReal.coe_mul, ← EReal.coe_add]
  congr 1
  unfold sR cR
  have hterm : ∀ j, (if pos j then -((a j - M) - Real.log d) else 0 : ℝ)
      = -(if pos j then a j else 0) + (if pos j then 1 else 0) * (M + Real.log d) := by
    intro j
    by_cases h : pos j
    · rw [if_pos h, if_pos h, if_pos h]; ring
    · rw [if_neg h, if_neg h, if_neg h]; ring
  rw [Finset.sum_congr rfl (fun j _ => hterm j), Finset.sum_add_distrib, Finset.sum_neg_distrib, ← Finset.sum_mul]
  ring

end Cert.RowLaws

end
-- ==== Proof.SpecRows.lean ====
/- The specification read row by row. For real embeddings e, row i of the similarities is the sequence of reals a(j), twice
   the inner product of rows i and j; the row's maximum, its denominator, its positive columns are the whole-row quantities of
   that sequence over its 8192 columns with own column i. The loss's numerator is then the sum over the rows of the closing
   expression of each row, and the number of positive pairs the sum over the rows of their numbers of positive columns. -/
import proofs.«167906_j2405181686310_1_alg».proof.Proof.Spec
import proofs.«167906_j2405181686310_1_alg».proof.Proof.RowLaws

noncomputable section

namespace Cert.SpecRows

open Idealize.ShloMosaic Cert.RowLaws
open scoped BigOperators

/-- Row i of the similarities as a sequence of reals: twice the inner product with row j, zero past the last row. -/
def arow (e : Fin 8192 → Fin 256 → ℝ) (i : Fin 8192) : ℕ → ℝ :=
  fun j => if h : j < 8192 then (∑ k : Fin 256, e i k * e ⟨j, h⟩ k) * 2 else 0

/-- The positive columns of row i. -/
def posrow (L : Fin 8192 → BitVec 32) (i : Fin 8192) : ℕ → Prop :=
  fun j => ∃ h : j < 8192, Cert.Spec.pos L i ⟨j, h⟩

instance (L : Fin 8192 → BitVec 32) (i : Fin 8192) : DecidablePred (posrow L i) := fun j =>
  if h : j < 8192 then
    decidable_of_iff (Cert.Spec.pos L i ⟨j, h⟩) ⟨fun hp => ⟨h, hp⟩, fun ⟨_, hp⟩ => hp⟩
  else isFalse fun ⟨h', _⟩ => h h'

theorem posrow_val (L : Fin 8192 → BitVec 32) (i j : Fin 8192) : posrow L i j.val ↔ Cert.Spec.pos L i j :=
  ⟨fun ⟨_, hp⟩ => hp, fun hp => ⟨j.isLt, hp⟩⟩

theorem posrow_ne (L : Fin 8192 → BitVec 32) (i : Fin 8192) (j : ℕ) (h : posrow L i j) : j ≠ i.val := by
  obtain ⟨hj, hp⟩ := h
  intro hji
  exact hp.2 (Fin.ext hji.symm)

section
variable (E : Fin 8192 → Fin 256 → EReal) (e : Fin 8192 → Fin 256 → ℝ)
  (hE : ∀ i k, E i k = ((e i k : ℝ) : EReal))
include hE

/-- A similarity of real embeddings is the real of the row's sequence. -/
theorem sim_coe (i j : Fin 8192) : Cert.Spec.sim E i j = ((arow e i j.val : ℝ) : EReal) := by
  unfold Cert.Spec.sim arow
  rw [dif_pos j.isLt, EReal.coe_mul, coe_sum]
  refine congrArg (· * ((2 : ℝ) : EReal)) (Finset.sum_congr rfl fun k _ => ?_)
  rw [hE, hE, EReal.coe_mul]

/-- The row maximum is the supremum of the row's sequence over its 8192 columns. -/
theorem rowMax_eq (i : Fin 8192) : Cert.Spec.rowMax E i = mP (arow e i) 8192 := by
  unfold Cert.Spec.rowMax mP
  rw [← sup_fin_eq_range 8192 (fun j => ((arow e i j : ℝ) : EReal))]
  exact Finset.sup_congr rfl fun j _ => sim_coe E e hE i j

/-- The denominator is the row's sum of shifted exponentials over its 8192 columns, own column i. -/
theorem denom_eq (i : Fin 8192) : Cert.Spec.denom E i = lP (arow e i) i.val 8192 := by
  unfold Cert.Spec.denom lP
  rw [← sum_fin_eq_range 8192
    (fun j => if j = i.val then (0 : EReal) else Ideal.exp (((arow e i j : ℝ) : EReal) - mP (arow e i) 8192))]
  refine Finset.sum_congr rfl fun j _ => ?_
  by_cases h : i = j
  · rw [if_pos h, if_pos (congrArg Fin.val h.symm)]
  · rw [if_neg h, if_neg (fun hv => h (Fin.ext hv.symm)), sim_coe E e hE, rowMax_eq E e hE]

/-- The numerator of the loss, row by row. -/
theorem lossNum_rows (L : Fin 8192 → BitVec 32) :
    Cert.Spec.lossNum E L
      = ∑ i : Fin 8192, (((0 - spP (arow e i) (posrow L i) 8192) + cpP (posrow L i) 8192 * mP (arow e i) 8192)
          + cpP (posrow L i) 8192 * Ideal.log (lP (arow e i) i.val 8192)) := by
  unfold Cert.Spec.lossNum
  refine Finset.sum_congr rfl fun i _ => ?_
  rw [RowLaws.final (arow e i) i.val (posrow L i) 8192 (by norm_num) i.isLt (posrow_ne L i),
    ← sum_fin_eq_range 8192 (fun j => if posrow L i j
      then -((((arow e i j : ℝ) : EReal) - mP (arow e i) 8192) - Ideal.log (lP (arow e i) i.val 8192)) else 0)]
  refine Finset.sum_congr rfl fun j _ => ?_
  by_cases h : Cert.Spec.pos L i j
  · rw [if_pos h, if_pos ((posrow_val L i j).mpr h), sim_coe E e hE, rowMax_eq E e hE, denom_eq E e hE]
  · rw [if_neg h, if_neg (fun hp => h ((posrow_val L i j).mp hp))]

end

/-- The number of positive pairs, row by row. -/
theorem lossCnt_rows (L : Fin 8192 → BitVec 32) :
    Cert.Spec.lossCnt L = ∑ i : Fin 8192, cpP (posrow L i) 8192 := by
  unfold Cert.Spec.lossCnt
  have hrow : ∀ i : Fin 8192, cpP (posrow L i) 8192
      = (((∑ j : Fin 8192, if Cert.Spec.pos L i j then (1 : ℝ) else 0 : ℝ)) : EReal) := by
    intro i
    unfold cpP
    rw [← sum_fin_eq_range 8192 (fun j => if posrow L i j then (1 : EReal) else 0), coe_sum]
    refine Finset.sum_congr rfl fun j _ => ?_
    by_cases h : Cert.Spec.pos L i j
    · rw [if_pos h, if_pos ((posrow_val L i j).mpr h), EReal.coe_one]
    · rw [if_neg h, if_neg (fun hp => h ((posrow_val L i j).mp hp)), EReal.coe_zero]
  rw [Finset.sum_congr rfl (fun i _ => hrow i), ← coe_sum]
  congr 1
  rw [← Finset.sum_boole, Fintype.sum_prod_type]

end Cert.SpecRows

end
-- ==== Proof.IBridge.lean ====
/-
  A tile of the kernel against a row of the specification, over the extended reals with real embeddings e and labels Lab.
  At point t = 16 * ti + tj, entry (p, q) of the similarity tile is the real a(j) of row i = 512 * ti + p of the
  specification at column j = 512 * tj + q; the diagonal bit is set exactly when j = i; the positive bit exactly when
  column j is a positive column of row i (equal labels, j ≠ i).
-/
import proofs.«167906_j2405181686310_1_alg».proof.Proof.IBlocks
import proofs.«167906_j2405181686310_1_alg».proof.Proof.PaySim
import proofs.«167906_j2405181686310_1_alg».proof.Proof.PayMask
import proofs.«167906_j2405181686310_1_alg».proof.Proof.SpecRows

noncomputable section

namespace Cert.KernelIdeal.Bridge

open Cert.KernelIdeal Cert.KernelIdeal.Gen Cert.KernelIdeal.Body Cert.KernelIdeal.Pay
open Idealize.ShloMosaic Idealize.ShloMosaic.TcCoe Idealize.ShloMosaic.ValueIdx
open Idealize.SL Idealize.SL.Sem

variable (m : (ℓ : Loc nD τ sig) → Buf (Elt Ideal) ℓ) (c : Dev nD)

/-- The labels as launched. -/
def Lab : Fin 8192 → BitVec 32 :=
  fun i => (m ((c : Thread nD τ).loc main_arg1) : S8192.Idx → Elt Ideal .i32) (ix1 i)

/-- Over the extended reals the cast embeddings are the embeddings. -/
theorem V_main_v0_ideal (x : S8192x256.Idx) :
    (V m c main_v0 : S8192x256.Idx → Elt Ideal .bf16) x
      = (m ((c : Thread nD τ).loc main_arg0) : S8192x256.Idx → Elt Ideal .f32) x := by
  rw [V_main_v0]
  rfl

/-- A bit chosen by a condition is set exactly when the condition holds. -/
theorem ite_bit_eq_one (c : Prop) [Decidable c] : (if c then 1#1 else 0#1 : BitVec 1) = 1#1 ↔ c := by
  by_cases h : c
  · rw [if_pos h]; exact ⟨fun _ => h, fun _ => rfl⟩
  · rw [if_neg h]; exact ⟨fun h' => absurd h' (by decide), fun h' => absurd h' h⟩

/-- The similarity tile of point t at (p, q) is the row's real at the global column. -/
theorem simT_eq (e : Fin 8192 → Fin 256 → ℝ)
    (he : ∀ i k, (m ((c : Thread nD τ).loc main_arg0) : S8192x256.Idx → Elt Ideal .f32) (ix2 i k) = ((e i k : ℝ) : EReal))
    (t : Fin cfg0.N) (p q : Fin 512) :
    simT (iblk m c 0 t) (iblk m c 1 t) p q
      = ((Cert.SpecRows.arow e (rowOf t p) (512 * (t.val % 16) + q.val) : ℝ) : EReal) := by
  unfold simT Cert.SpecRows.arow
  rw [dif_pos (col_lt t q), ofBits_two, EReal.coe_mul, Cert.RowLaws.coe_sum]
  refine congrArg (· * ((2 : ℝ) : EReal)) (Finset.sum_congr rfl fun k _ => ?_)
  rw [iblk0_apply, iblk1_apply, V_main_v0_ideal, V_main_v0_ideal, he, he, EReal.coe_mul]

/-- The diagonal bit of point t at (p, q): the global column is the global row. -/
theorem eye_eq (t : Fin cfg0.N) (p q : Fin 512) :
    k0_pay11 (grid0.coords t) (ix2 p q) = 1#1 ↔ 512 * (t.val % 16) + q.val = (rowOf t p).val := by
  obtain ⟨c0, c1⟩ := coords_val t
  rw [pay11_apply, ite_bit_eq_one, c0, c1]
  show t.val / 16 * 512 + p.val = t.val % 16 * 512 + q.val ↔ 512 * (t.val % 16) + q.val = 512 * (t.val / 16) + p.val
  constructor <;> intro h <;> omega

/-- The positive bit of point t at (p, q): the global column is a positive column of the global row. -/
theorem pos_eq (t : Fin cfg0.N) (p q : Fin 512) :
    k0_pay12 (F := Ideal) (grid0.coords t) (iblk m c 2 t) (iblk m c 3 t) (ix2 p q) = 1#1
      ↔ Cert.SpecRows.posrow (Lab m c) (rowOf t p) (512 * (t.val % 16) + q.val) := by
  obtain ⟨c0, c1⟩ := coords_val t
  rw [pay12_apply, ite_bit_eq_one, iblk2_apply, iblk3_apply, V_main_v1_apply, V_main_v2_apply, c0, c1]
  constructor
  · rintro ⟨hl, hne⟩
    refine ⟨col_lt t q, ?_⟩
    unfold Cert.Spec.pos
    refine ⟨hl, fun h => hne ?_⟩
    have hv : 512 * (t.val / 16) + p.val = 512 * (t.val % 16) + q.val := congrArg Fin.val h
    omega
  · rintro ⟨h, hp⟩
    unfold Cert.Spec.pos at hp
    refine ⟨hp.1, fun h' => hp.2 (Fin.ext ?_)⟩
    show 512 * (t.val / 16) + p.val = 512 * (t.val % 16) + q.val
    omega

end Cert.KernelIdeal.Bridge

end
-- ==== Proof.LibRowReduce.lean ====
/- Row reductions of a two-axis array kept as a column and repeated along the rows, read at an index over the extended reals:
   the lane sum of row p is the plain sum over the row, the lane maximum the fold of max over the row from the initial word; a
   length-a vector cast to an a × 1 column and broadcast to a × b reads, at (p, q), the vector's entry p; a 1 × 1 array broadcast
   to a × b reads its one entry everywhere. Names no program. -/
import proofs.«167906_j2405181686310_1_alg».proof.Proof.LibColumn
import Idealize.ShloMosaic.PureOps.Ideal
import Idealize.ShloMosaic.PureOps.Ideal.Laws
import Idealize.ShloMosaic.Lib.Pipeline.Value
import Idealize.ShloMosaic.Lib.ValueIdx
import Idealize.ShloMosaic.Lib.ValueLayout

noncomputable section

namespace Cert.LibRowReduce

open Idealize.ShloMosaic Idealize.ShloMosaic.ValueIdx

variable {a b : ℕ}

/-- Result index p of a reduction along the second axis, with the dropped coordinate k put back, is (p, k). -/
theorem lift_row (h : (⟨2, ![a, b]⟩ : Shape).Reduces [(1 : Fin 2)] ⟨1, ![a]⟩) (p : Fin a) (k : Fin b) :
    h.lift (ix1 p) k = ix2 p k := by
  funext c
  apply Fin.ext
  match c with
  | ⟨0, _⟩ => rfl
  | ⟨1, _⟩ => rfl

/-- The lane sum of row p. -/
theorem rowSum_apply {φ : FTy} (src : FVec Ideal ⟨2, ![a, b]⟩ φ) (acc : BitVec φ.bits)
    (h : (⟨2, ![a, b]⟩ : Shape).Reduces [(1 : Fin 2)] ⟨1, ![a]⟩) (hφ : FKind.Formats φ) (hacc : acc = FKind.add.neutral φ hφ) (p : Fin a) :
    multiReduction .add [(1 : Fin 2)] ⟨1, ![a]⟩ src acc h hφ hacc (ix1 p) = ∑ k : Fin b, src (ix2 p k) :=
  (Ideal.multiReduction_add_single src acc h hφ hacc (ix1 p)).trans
    (Finset.sum_congr rfl fun k _ => congrArg src (lift_row h p k))

/-- The lane maximum of row p: max folded over the row from the initial word. -/
theorem rowMax_apply {φ : FTy} (src : FVec Ideal ⟨2, ![a, b]⟩ φ) (acc : BitVec φ.bits)
    (h : (⟨2, ![a, b]⟩ : Shape).Reduces [(1 : Fin 2)] ⟨1, ![a]⟩) (hφ : FKind.Formats φ) (hacc : acc = FKind.maximumf.neutral φ hφ) (p : Fin a) :
    multiReduction .maximumf [(1 : Fin 2)] ⟨1, ![a]⟩ src acc h hφ hacc (ix1 p)
      = (Finset.univ : Finset (Fin b)).fold max (FloatOps.ofBits (F := Ideal) φ acc) (fun k => src (ix2 p k)) :=
  (Ideal.multiReduction_maximumf_single src acc h hφ hacc (ix1 p)).trans
    (congrArg (fun f => (Finset.univ : Finset (Fin b)).fold max (FloatOps.ofBits (F := Ideal) φ acc) f)
      (funext fun k => congrArg src (lift_row h p k)))

variable {α : Type}

/-- A vector kept as a column and repeated along the rows reads, at (p, q), its entry p. -/
theorem column_repeat_apply {b' : ℕ} (v : (⟨1, ![a]⟩ : Shape).Idx → α)
    (hc : (⟨1, ![a]⟩ : Shape).ShapeCasts ⟨2, ![a, 1]⟩) (hb : (⟨2, ![a, 1]⟩ : Shape).Broadcasts ⟨2, ![a, b']⟩) (p : Fin a) (q : Fin b') :
    broadcastTo ⟨2, ![a, b']⟩ (shapeCast ⟨2, ![a, 1]⟩ v hc) hb (ix2 p q) = v (ix1 p) :=
  (Cert.LibColumn.broadcastTo_a1_ab_apply _ hb p q).trans (Cert.LibColumn.shapeCast_a_a1_apply v hc p 0)

/-- A 1 × 1 array repeated over a × b reads its one entry everywhere. -/
theorem broadcastTo_11_ab_apply (v : (⟨2, ![1, 1]⟩ : Shape).Idx → α)
    (h : (⟨2, ![1, 1]⟩ : Shape).Broadcasts ⟨2, ![a, b]⟩) (p : Fin a) (q : Fin b) :
    broadcastTo ⟨2, ![a, b]⟩ v h (ix2 p q) = v (ix2 (0 : Fin 1) (0 : Fin 1)) := by
  refine broadcastTo_apply v h (ix2 p q) (ix2 (0 : Fin 1) (0 : Fin 1)) fun ax => ?_
  match ax with
  | ⟨0, _⟩ => rfl
  | ⟨1, _⟩ => rfl

end Cert.LibRowReduce

end
-- ==== Proof.PayMax.lean ====
/- The running maximum and the two exponentials of a tile read at an index. The lane maximum of row p of the similarity
   tile, folded from the word of minus infinity (the bottom of the extended reals), is the supremum of the row; the new
   maximum of row p is the larger of the carried one and that supremum. The rescaling factor is the exponential of the
   carried maximum minus the new one, the exponential block that of the entry minus the new maximum of its row. The reset
   columns are the bottom element and zero. -/
import proofs.«167906_j2405181686310_1_alg».proof.Proof.Gen.KernelIdeal.Skeleton
import proofs.«167906_j2405181686310_1_alg».proof.Proof.PaySim
import proofs.«167906_j2405181686310_1_alg».proof.Proof.LibRowReduce

noncomputable section

namespace Cert.KernelIdeal.Pay

open Cert.KernelIdeal Cert.KernelIdeal.Gen Idealize.ShloMosaic Idealize.ShloMosaic.ValueIdx

/-- A fold of max from the bottom element over a finite set is the supremum over it. -/
theorem foldMax_eq_sup {ι : Type} (s : Finset ι) (f : ι → EReal) : s.fold max ⊥ f = s.sup f := rfl

/-- The new maximum of row p: the carried maximum against the supremum of the row of the similarity tile. -/
theorem pay13_apply (x0 x1 : Vec Ideal S512x256 .bf16) (s : Vec Ideal S512x1 .f32) (p : Fin 512) :
    k0_pay13 (F := Ideal) x0 x1 s (ix2 p (0 : Fin 1))
      = max (s (ix2 p (0 : Fin 1))) (Finset.univ.sup fun q : Fin 512 => simT x0 x1 p q) := by
  unfold k0_pay13
  refine (maximumf_apply _ _ _).trans (congrArg (max (s (ix2 p (0 : Fin 1)))) ?_)
  refine (Cert.LibColumn.shapeCast_a_a1_apply _ shapeCasts_S512_S512x1 p 0).trans ?_
  refine (Cert.LibRowReduce.rowMax_apply (k0_pay10 (F := Ideal) x0 x1) 0xFF800000#32 reduces_S512x512_S512
    (.inl rfl) rfl p).trans ?_
  rw [Ideal.ofBits_def, ofBits_neg_inf, foldMax_eq_sup]
  exact Finset.sup_congr rfl fun q _ => pay10_apply x0 x1 p q

/-- The rescaling factor of row p. -/
theorem pay14_apply (x0 x1 : Vec Ideal S512x256 .bf16) (s : Vec Ideal S512x1 .f32) (p : Fin 512) :
    k0_pay14 (F := Ideal) x0 x1 s (ix2 p (0 : Fin 1))
      = Ideal.exp (s (ix2 p (0 : Fin 1)) - k0_pay13 (F := Ideal) x0 x1 s (ix2 p (0 : Fin 1))) := rfl

/-- The exponential block at (p, q). -/
theorem pay15_apply (x0 x1 : Vec Ideal S512x256 .bf16) (s : Vec Ideal S512x1 .f32) (p q : Fin 512) :
    k0_pay15 (F := Ideal) x0 x1 s (ix2 p q)
      = Ideal.exp (simT x0 x1 p q - k0_pay13 (F := Ideal) x0 x1 s (ix2 p (0 : Fin 1))) := by
  unfold k0_pay15
  show Ideal.exp (k0_pay10 (F := Ideal) x0 x1 (ix2 p q)
      - broadcastTo S512x512 (k0_pay13 (F := Ideal) x0 x1 s) broadcasts_S512x1_S512x512 (ix2 p q)) = _
  rw [Cert.LibColumn.broadcastTo_a1_ab_apply, pay10_apply]

/-- The zero tile. -/
theorem pay16_apply (j : S512x512.Idx) : k0_pay16 (F := Ideal) j = 0 := Ideal.ofBits_zero_f32

/-- The stored maximum is the value handed in. -/
theorem pay2_eq {F : FTy → Type} [FloatOps F] (v : FVec F S512x1 .f32) : k0_pay2 v = v :=
  shapeCast_self v shapeCasts_S512x1_S512x1

/-- The reset maximum is the bottom element. -/
theorem pay6_apply (j : S512x1.Idx) : k0_pay6 (F := Ideal) j = ⊥ := by
  unfold k0_pay6
  rw [shapeCast_self]
  exact ofBits_neg_inf

/-- The reset denominator is zero. -/
theorem pay7_apply (j : S512x1.Idx) : k0_pay7 (F := Ideal) j = 0 := by
  unfold k0_pay7
  rw [shapeCast_self]
  exact Ideal.ofBits_zero_f32

/-- The reset sum of positive similarities is zero. -/
theorem pay8_apply (j : S512x1.Idx) : k0_pay8 (F := Ideal) j = 0 := by
  unfold k0_pay8
  rw [shapeCast_self]
  exact Ideal.ofBits_zero_f32

/-- The reset count of positives is zero. -/
theorem pay9_apply (j : S512x1.Idx) : k0_pay9 (F := Ideal) j = 0 := by
  unfold k0_pay9
  rw [shapeCast_self]
  exact Ideal.ofBits_zero_f32

end Cert.KernelIdeal.Pay

end
-- ==== Proof.PaySums.lean ====
/- The three running sums of a row block read at an index. Each adds to the carried column entry p a lane sum over the
   512 columns of the tile: for the denominator the carried entry is first rescaled and the summand is the exponential
   block with the diagonal replaced by the zero tile; for the sum of positive similarities the summand is the similarity
   where the positive bit is set and zero elsewhere; for the count it is the positive bit read as a real number, 1 or 0.
   A lane sum from the zero word is the plain sum of the row. -/
import proofs.«167906_j2405181686310_1_alg».proof.Proof.Gen.KernelIdeal.Skeleton
import proofs.«167906_j2405181686310_1_alg».proof.Proof.LibRowReduce

noncomputable section

namespace Cert.KernelIdeal.Pay

open Cert.KernelIdeal Cert.KernelIdeal.Gen Idealize.ShloMosaic Idealize.ShloMosaic.ValueIdx

/-- A one-bit word widened to 32 bits and read as a signed integer is the real number 1 or 0. -/
theorem bit_to_real (b : BitVec 1) :
    FloatOps.sitofp (F := Ideal) .f32 (b.setWidth 32) = if b = 1#1 then (1 : EReal) else 0 := by
  rcases BitVec.eq_zero_or_eq_one b with h | h <;> subst h
  · show ((((0#1 : BitVec 1).setWidth 32).toInt : ℝ) : EReal) = _
    rw [show ((0#1 : BitVec 1).setWidth 32).toInt = 0 from by decide, if_neg (by decide)]
    simp
  · show ((((1#1 : BitVec 1).setWidth 32).toInt : ℝ) : EReal) = _
    rw [show ((1#1 : BitVec 1).setWidth 32).toInt = 1 from by decide, if_pos rfl]
    simp

/-- The new denominator of row p: the carried one rescaled, plus the off-diagonal exponentials of the row. -/
theorem pay1_apply (eye : IVec S512x512 1) (alpha : FVec Ideal S512x1 .f32) (expb zeros : FVec Ideal S512x512 .f32)
    (l : Vec Ideal S512x1 .f32) (p : Fin 512) :
    k0_pay1 (F := Ideal) eye alpha expb zeros l (ix2 p (0 : Fin 1))
      = l (ix2 p (0 : Fin 1)) * alpha (ix2 p (0 : Fin 1))
        + ∑ q : Fin 512, (if eye (ix2 p q) = 1#1 then zeros (ix2 p q) else expb (ix2 p q)) := by
  unfold k0_pay1
  refine (congrFun (shapeCast_self _ _) _).trans ?_
  refine (addf_apply _ _ _).trans (congrArg (l (ix2 p (0 : Fin 1)) * alpha (ix2 p (0 : Fin 1)) + ·) ?_)
  refine (Cert.LibColumn.shapeCast_a_a1_apply _ shapeCasts_S512_S512x1 p 0).trans ?_
  exact Cert.LibRowReduce.rowSum_apply (select eye zeros expb) 0x00000000#32 reduces_S512x512_S512 (.inl rfl) rfl p

/-- The new sum of positive similarities of row p. -/
theorem pay3_apply (sim : FVec Ideal S512x512 .f32) (pos : IVec S512x512 1) (sp : Vec Ideal S512x1 .f32) (p : Fin 512) :
    k0_pay3 (F := Ideal) sim pos sp (ix2 p (0 : Fin 1))
      = sp (ix2 p (0 : Fin 1)) + ∑ q : Fin 512, (if pos (ix2 p q) = 1#1 then sim (ix2 p q) else 0) := by
  unfold k0_pay3
  refine (congrFun (shapeCast_self _ _) _).trans ?_
  refine (addf_apply _ _ _).trans (congrArg (sp (ix2 p (0 : Fin 1)) + ·) ?_)
  refine (Cert.LibColumn.shapeCast_a_a1_apply _ shapeCasts_S512_S512x1 p 0).trans ?_
  refine (Cert.LibRowReduce.rowSum_apply _ 0x00000000#32 reduces_S512x512_S512 (.inl rfl) rfl p).trans ?_
  refine Finset.sum_congr rfl fun q _ => ?_
  show (if pos (ix2 p q) = 1#1 then sim (ix2 p q) else Ideal.ofBits .f32 0x00000000#32) = _
  rw [Ideal.ofBits_zero_f32]

/-- The new count of positives of row p. -/
theorem pay4_apply (pos : IVec S512x512 1) (cp : Vec Ideal S512x1 .f32) (p : Fin 512) :
    k0_pay4 (F := Ideal) pos cp (ix2 p (0 : Fin 1))
      = cp (ix2 p (0 : Fin 1)) + ∑ q : Fin 512, (if pos (ix2 p q) = 1#1 then (1 : EReal) else 0) := by
  unfold k0_pay4
  refine (congrFun (shapeCast_self _ _) _).trans ?_
  refine (addf_apply _ _ _).trans (congrArg (cp (ix2 p (0 : Fin 1)) + ·) ?_)
  refine (Cert.LibColumn.shapeCast_a_a1_apply _ shapeCasts_S512_S512x1 p 0).trans ?_
  refine (Cert.LibRowReduce.rowSum_apply _ 0x00000000#32 reduces_S512x512_S512 (.inl rfl) rfl p).trans ?_
  exact Finset.sum_congr rfl fun q _ => bit_to_real (pos (ix2 p q))

end Cert.KernelIdeal.Pay

end
-- ==== Proof.PayFinal.lean ====
/- The row of the first output read at an index: zero minus the sum of positive similarities, plus the count times the
   maximum, plus the count times the logarithm of the denominator; every operation acts entry by entry. -/
import proofs.«167906_j2405181686310_1_alg».proof.Proof.Gen.KernelIdeal.Skeleton
import Idealize.ShloMosaic.Lib.ValueIdx
import Idealize.ShloMosaic.PureOps.Ideal.Laws

noncomputable section

namespace Cert.KernelIdeal.Pay

open Cert.KernelIdeal Cert.KernelIdeal.Gen Idealize.ShloMosaic Idealize.ShloMosaic.ValueIdx

/-- The final row at any index of the column. -/
theorem pay5_apply (m l sp cp : Vec Ideal S512x1 .f32) (j : S512x1.Idx) :
    k0_pay5 (F := Ideal) m l sp cp j = ((0 - sp j) + cp j * m j) + cp j * Ideal.log (l j) := by
  unfold k0_pay5
  show ((Ideal.ofBits .f32 0x00000000#32 - sp j) + cp j * m j) + cp j * Ideal.log (l j) = _
  rw [Ideal.ofBits_zero_f32]

end Cert.KernelIdeal.Pay

end
-- ==== Proof.IStep.lean ====
/-
  One column tile of one row, at the extended reals. Row `p` of the block has similarities `a (n + q)` against the tile's 512
  columns, its own column is `r`, and `pos` marks its positive columns. If the four carried columns hold, at row `p`, the
  running maximum, denominator, positive sum and positive count of the first `n` columns, then what the body stores holds
  those of the first `n + 512` columns; and the final row value is the closed form over all columns.
-/
import proofs.«167906_j2405181686310_1_alg».proof.Proof.PayMask
import proofs.«167906_j2405181686310_1_alg».proof.Proof.PayMax
import proofs.«167906_j2405181686310_1_alg».proof.Proof.PaySums
import proofs.«167906_j2405181686310_1_alg».proof.Proof.PayFinal
import proofs.«167906_j2405181686310_1_alg».proof.Proof.RowLaws

noncomputable section

namespace Cert.KernelIdeal.Step

open Cert.KernelIdeal Cert.KernelIdeal.Gen Cert.KernelIdeal.Pay Cert.RowLaws
open Idealize.ShloMosaic Idealize.ShloMosaic.ValueIdx

variable (a : ℕ → ℝ) (r n : ℕ) (pos : ℕ → Prop) [DecidablePred pos]
variable (i : grid0.Coords) (x0 x1 : Vec Ideal S512x256 .bf16) (x2 : Vec Ideal S512x1 .i32) (x3 : Vec Ideal S1x512 .i32)
variable (s0 s1 s2 s3 : Vec Ideal S512x1 .f32) (p : Fin 512)

/-- The new running maximum at row `p`. -/
theorem new_max (hsim : ∀ q : Fin 512, simT x0 x1 p q = ((a (n + q.val) : ℝ) : EReal)) (hs0 : s0 (ix2 p (0 : Fin 1)) = mP a n) :
    k0_pay13 (F := Ideal) x0 x1 s0 (ix2 p (0 : Fin 1)) = mP a (n + 512) := by
  rw [pay13_apply, hs0]
  simp only [hsim]
  exact step_m a n 512

theorem step_s0 (hsim : ∀ q : Fin 512, simT x0 x1 p q = ((a (n + q.val) : ℝ) : EReal)) (hs0 : s0 (ix2 p (0 : Fin 1)) = mP a n) :
    k0_pay2 (k0_pay13 (F := Ideal) x0 x1 s0) (ix2 p (0 : Fin 1)) = mP a (n + 512) := by
  rw [pay2_eq]; exact new_max a n x0 x1 s0 p hsim hs0

/-- The new denominator at row `p`: the old one rescaled to the new maximum, plus the tile's terms off the diagonal. -/
theorem step_s1 (hsim : ∀ q : Fin 512, simT x0 x1 p q = ((a (n + q.val) : ℝ) : EReal)) (hs0 : s0 (ix2 p (0 : Fin 1)) = mP a n)
    (hs1 : s1 (ix2 p (0 : Fin 1)) = lP a r n) (heye : ∀ q : Fin 512, k0_pay11 i (ix2 p q) = 1#1 ↔ n + q.val = r) :
    k0_pay1 (F := Ideal) (k0_pay11 i) (k0_pay14 (F := Ideal) x0 x1 s0) (k0_pay15 (F := Ideal) x0 x1 s0) (k0_pay16 (F := Ideal)) s1 (ix2 p (0 : Fin 1))
      = lP a r (n + 512) := by
  have hm := new_max a n x0 x1 s0 p hsim hs0
  rw [pay1_apply, pay14_apply, hs1, hs0, hm]
  have hterm : ∀ q : Fin 512, (if k0_pay11 i (ix2 p q) = 1#1 then k0_pay16 (F := Ideal) (ix2 p q) else k0_pay15 (F := Ideal) x0 x1 s0 (ix2 p q))
      = (if n + q.val = r then 0 else Ideal.exp (((a (n + q.val) : ℝ) : EReal) - mP a (n + 512))) := by
    intro q
    rw [pay16_apply, pay15_apply, hm, hsim]
    exact if_congr (heye q) rfl rfl
  rw [Finset.sum_congr rfl fun q _ => hterm q]
  exact step_l a r n 512 (by norm_num)

/-- The new sum of positive similarities at row `p`. -/
theorem step_s2 (hsim : ∀ q : Fin 512, simT x0 x1 p q = ((a (n + q.val) : ℝ) : EReal)) (hs2 : s2 (ix2 p (0 : Fin 1)) = spP a pos n)
    (hpos : ∀ q : Fin 512, k0_pay12 (F := Ideal) i x2 x3 (ix2 p q) = 1#1 ↔ pos (n + q.val)) :
    k0_pay3 (F := Ideal) (k0_pay10 (F := Ideal) x0 x1) (k0_pay12 (F := Ideal) i x2 x3) s2 (ix2 p (0 : Fin 1)) = spP a pos (n + 512) := by
  rw [pay3_apply, hs2]
  have hterm : ∀ q : Fin 512, (if k0_pay12 (F := Ideal) i x2 x3 (ix2 p q) = 1#1 then k0_pay10 (F := Ideal) x0 x1 (ix2 p q) else 0)
      = (if pos (n + q.val) then ((a (n + q.val) : ℝ) : EReal) else 0) := by
    intro q
    rw [pay10_apply, hsim]
    exact if_congr (hpos q) rfl rfl
  rw [Finset.sum_congr rfl fun q _ => hterm q]
  exact step_sp a pos n 512

/-- The new count of positives at row `p`. -/
theorem step_s3 (hs3 : s3 (ix2 p (0 : Fin 1)) = cpP pos n)
    (hpos : ∀ q : Fin 512, k0_pay12 (F := Ideal) i x2 x3 (ix2 p q) = 1#1 ↔ pos (n + q.val)) :
    k0_pay4 (F := Ideal) (k0_pay12 (F := Ideal) i x2 x3) s3 (ix2 p (0 : Fin 1)) = cpP pos (n + 512) := by
  rw [pay4_apply, hs3]
  have hterm : ∀ q : Fin 512, (if k0_pay12 (F := Ideal) i x2 x3 (ix2 p q) = 1#1 then (1 : EReal) else 0)
      = (if pos (n + q.val) then (1 : EReal) else 0) := fun q => if_congr (hpos q) rfl rfl
  rw [Finset.sum_congr rfl fun q _ => hterm q]
  exact step_cp pos n 512

end Cert.KernelIdeal.Step

end
-- ==== Proof.IHostSum.lean ====
/-
  The host's sum over both axes of an [8192, 1] column, at the extended reals: zero plus the plain sum of its 8192 entries.
-/
import proofs.«167906_j2405181686310_1_alg».proof.KernelIdeal
import Idealize.ShloMosaic.PureOps.Ideal
import Idealize.ShloMosaic.PureOps.Ideal.Laws
import Idealize.ShloMosaic.Lib.ValueIdx

noncomputable section

namespace Cert.KernelIdeal.HostSum

open Cert.KernelIdeal
open Idealize.ShloMosaic Idealize.ShloMosaic.ValueIdx

variable [Facts]
open Facts₀ Facts

theorem hostSum_col (G : FVec Ideal S8192x1 .f32) (i : S_.Idx) :
    Host.reduceAdd (F := Ideal) G (constant (F := Ideal) S_ .f32 0x00000000#32) reducesTo_S8192x1_S_d0_1 h_S_ i
      = 0 + ∑ r : Fin 8192, G (ix2 r (0 : Fin 1)) := by
  simp only [Host.reduceAdd, Ideal.hostReduceAdd_def]
  rw [Ideal.hostReduceAdd_total reducesTo_S8192x1_S_d0_1 (fun b => b.elim0) G _ i, sum_idx2]
  congr 1
  · simp [constant, Ideal.ofBits_def]
  · exact Finset.sum_congr rfl fun r _ => Fin.sum_univ_one _ |>.trans rfl

end Cert.KernelIdeal.HostSum

end
-- ==== Proof.IQuot.lean ====
/-
  The closing step. If the first output column holds, at row `i`, the row's closed form  (0 − sp) + cp·m + cp·log l  over all
  8192 columns, and the second the row's count of positives, then the quotient of the two column sums is the loss of the
  specification: the rows' closed forms add up to its numerator and the counts to its denominator.
-/
import proofs.«167906_j2405181686310_1_alg».proof.Proof.IHostSum
import proofs.«167906_j2405181686310_1_alg».proof.Proof.SpecRows

noncomputable section

namespace Cert.KernelIdeal.Quot

open Cert.KernelIdeal Cert.KernelIdeal.HostSum Cert.RowLaws Cert.SpecRows
open Idealize.ShloMosaic Idealize.ShloMosaic.ValueIdx

variable [Facts]
open Facts₀ Facts

/-- One row's contribution to the numerator, in the form the kernel's last column tile leaves it. -/
def rowOut (e : Fin 8192 → Fin 256 → ℝ) (L : Fin 8192 → BitVec 32) (i : Fin 8192) : EReal :=
  ((0 - spP (arow e i) (posrow L i) 8192) + cpP (posrow L i) 8192 * mP (arow e i) 8192)
    + cpP (posrow L i) 8192 * Ideal.log (lP (arow e i) i.val 8192)

/-- The row a column index names. -/
def row0 (idx : S8192x1.Idx) : Fin 8192 := idx 0

theorem row0_ix2 (r : Fin 8192) (u : Fin 1) : row0 (ix2 r u) = r := rfl

/-- The two output columns as whole arrays. -/
def G4 (e : Fin 8192 → Fin 256 → ℝ) (L : Fin 8192 → BitVec 32) : FVec Ideal S8192x1 .f32 := fun idx => rowOut e L (row0 idx)
def G5 (L : Fin 8192 → BitVec 32) : FVec Ideal S8192x1 .f32 := fun idx => cpP (posrow L (row0 idx)) 8192

theorem G4_apply (e : Fin 8192 → Fin 256 → ℝ) (L : Fin 8192 → BitVec 32) (r : Fin 8192) : G4 e L (ix2 r (0 : Fin 1)) = rowOut e L r := rfl
theorem G5_apply (L : Fin 8192 → BitVec 32) (r : Fin 8192) : G5 L (ix2 r (0 : Fin 1)) = cpP (posrow L r) 8192 := rfl

theorem quotient_eq (E : Fin 8192 → Fin 256 → EReal) (e : Fin 8192 → Fin 256 → ℝ) (hE : ∀ i k, E i k = ((e i k : ℝ) : EReal))
    (L : Fin 8192 → BitVec 32) :
    Host.divf (Host.reduceAdd (F := Ideal) (G4 e L) (constant (F := Ideal) S_ .f32 0x00000000#32) reducesTo_S8192x1_S_d0_1 h_S_)
        (Host.reduceAdd (F := Ideal) (G5 L) (constant (F := Ideal) S_ .f32 0x00000000#32) reducesTo_S8192x1_S_d0_1 h_S_)
      = fun _ => Cert.Spec.loss E L := by
  funext j
  show FloatOps.hostDivf (Host.reduceAdd (F := Ideal) (G4 e L) _ reducesTo_S8192x1_S_d0_1 h_S_ j) (Host.reduceAdd (F := Ideal) (G5 L) _ reducesTo_S8192x1_S_d0_1 h_S_ j) = _
  rw [hostSum_col, hostSum_col, Ideal.hostDivf_def, zero_add, zero_add]
  unfold Cert.Spec.loss
  rw [lossNum_rows E e hE L, lossCnt_rows L]
  simp only [G4_apply, G5_apply, rowOut]

end Cert.KernelIdeal.Quot

end
-- ==== Proof.IArrays.lean ====
/-
  From blocks to arrays, for the two outputs. Both output arrays are [8192, 1] columns written back in sixteen row blocks of
  512, block `ti` at the last column tile of row block `ti` (point 16·ti + 15). So if, at every such point, row `p` of what
  the body left in the output's buffer is `G` at the global row 512·ti + p, the array ends holding `G`.
-/
import proofs.«167906_j2405181686310_1_alg».proof.Proof.IFrame
import Idealize.ShloMosaic.Lib.Pipeline.Value
import Idealize.ShloMosaic.Lib.ValueIdx

noncomputable section

namespace Cert.KernelIdeal.Arrays

open Cert.KernelIdeal Cert.KernelIdeal.Gen Cert.KernelIdeal.Body
open Idealize.ShloMosaic Idealize.ShloMosaic.TcCoe Idealize.ShloMosaic.ValueIdx
open Idealize.SL Idealize.SL.Sem
open Idealize.ShloMosaic.Pipeline (Dat Cfg Window BodyObligation cellOf)

variable {F : FTy → Type} [FloatOps F]
variable (m : (ℓ : Loc nD τ sig) → Buf (Elt F) ℓ)

/-- The output windows' block index at point `t`: row block `t / 16`, the one column block. -/
theorem idx4 : ∀ t : Fin cfg0.N, win0_4.index t (0 : Fin 2) = t.val / 16 ∧ win0_4.index t (1 : Fin 2) = 0 :=
  (by decide +kernel : ∀ t : Fin grid0.N, win0_4.index t (0 : Fin 2) = t.val / 16 ∧ win0_4.index t (1 : Fin 2) = 0)
theorem idx5 : ∀ t : Fin cfg0.N, win0_5.index t (0 : Fin 2) = t.val / 16 ∧ win0_5.index t (1 : Fin 2) = 0 :=
  (by decide +kernel : ∀ t : Fin grid0.N, win0_5.index t (0 : Fin 2) = t.val / 16 ∧ win0_5.index t (1 : Fin 2) = 0)

theorem mem_blk4 (t : Fin cfg0.N) (i : S8192x1.Idx) :
    i ∈ ((cfg0.win 4).blk t).view.set ↔ ∀ a : Fin 2, win0_4.index t a * S512x1.size a ≤ (i a).val ∧ (i a).val < win0_4.index t a * S512x1.size a + S512x1.size a := by
  show i ∈ ((View.whole main_v3_0).slice (win0_4.rect t)).set ↔ _
  rw [View.set_slice_whole, Rect.mem_set_unit]
  exact Iff.rfl

theorem mem_blk5 (t : Fin cfg0.N) (i : S8192x1.Idx) :
    i ∈ ((cfg0.win 5).blk t).view.set ↔ ∀ a : Fin 2, win0_5.index t a * S512x1.size a ≤ (i a).val ∧ (i a).val < win0_5.index t a * S512x1.size a + S512x1.size a := by
  show i ∈ ((View.whole main_v3_1).slice (win0_5.rect t)).set ↔ _
  rw [View.set_slice_whole, Rect.mem_set_unit]
  exact Iff.rfl

/-- Every row lies in the block written back at the last column tile of its row block. -/
theorem cover4 (i : S8192x1.Idx) : ∃ t : Fin cfg0.N, (cfg0.win 4).flush t = true ∧ i ∈ ((cfg0.win 4).blk t).view.set := by
  have hi0 : (i 0).val < 8192 := (i 0).isLt
  have hi1 : (i 1).val < 1 := (i 1).isLt
  have hN : grid0.N = 256 := N_0; have hN' : cfg0.N = 256 := N_0
  refine ⟨⟨16 * ((i 0).val / 512) + 15, by omega⟩, (flush0_4 _).mpr (by show (16 * ((i 0).val / 512) + 15) % 16 = 15; omega), ?_⟩
  rw [mem_blk4]
  obtain ⟨e0, e1⟩ := idx4 ⟨16 * ((i 0).val / 512) + 15, by omega⟩
  have e0' : win0_4.index ⟨16 * ((i 0).val / 512) + 15, by omega⟩ (0 : Fin 2) = (i 0).val / 512 := by rw [e0]; show (16 * ((i 0).val / 512) + 15) / 16 = _; omega
  intro a
  match a with
  | ⟨0, _⟩ => show win0_4.index _ (0 : Fin 2) * 512 ≤ (i 0).val ∧ (i 0).val < win0_4.index _ (0 : Fin 2) * 512 + 512; rw [e0']; omega
  | ⟨1, _⟩ => show win0_4.index _ (1 : Fin 2) * 1 ≤ (i 1).val ∧ (i 1).val < win0_4.index _ (1 : Fin 2) * 1 + 1; rw [e1]; omega

theorem cover5 (i : S8192x1.Idx) : ∃ t : Fin cfg0.N, (cfg0.win 5).flush t = true ∧ i ∈ ((cfg0.win 5).blk t).view.set := by
  have hi0 : (i 0).val < 8192 := (i 0).isLt
  have hi1 : (i 1).val < 1 := (i 1).isLt
  have hN : grid0.N = 256 := N_0; have hN' : cfg0.N = 256 := N_0
  refine ⟨⟨16 * ((i 0).val / 512) + 15, by omega⟩, (flush0_5 _).mpr (by show (16 * ((i 0).val / 512) + 15) % 16 = 15; omega), ?_⟩
  rw [mem_blk5]
  obtain ⟨e0, e1⟩ := idx5 ⟨16 * ((i 0).val / 512) + 15, by omega⟩
  have e0' : win0_5.index ⟨16 * ((i 0).val / 512) + 15, by omega⟩ (0 : Fin 2) = (i 0).val / 512 := by rw [e0]; show (16 * ((i 0).val / 512) + 15) / 16 = _; omega
  intro a
  match a with
  | ⟨0, _⟩ => show win0_5.index _ (0 : Fin 2) * 512 ≤ (i 0).val ∧ (i 0).val < win0_5.index _ (0 : Fin 2) * 512 + 512; rw [e0']; omega
  | ⟨1, _⟩ => show win0_5.index _ (1 : Fin 2) * 1 ≤ (i 1).val ∧ (i 1).val < win0_5.index _ (1 : Fin 2) * 1 + 1; rw [e1]; omega

/-- THE FIRST OUTPUT ARRAY: it ends holding `G` when every write-back point leaves `G`'s rows of its block. -/
theorem final4 (c : Dev nD) (G : S8192x1.Idx → Elt F .f32)
    (h : ∀ (t : Fin cfg0.N) (ht : t.val % 16 = 15) (p : Fin 512),
      (outsAt0 m c t.val t.isLt).o4 (ix2 p (0 : Fin 1)) = G (ix2 (⟨512 * (t.val / 16) + p.val, by have := t.isLt; have hN : grid0.N = 256 := N_0; have hN' : cfg0.N = 256 := N_0; omega⟩ : Fin 8192) (0 : Fin 1))) :
    (dats m 0 c).arrAt 4 cfg0.N = G := by
  refine (dats m 0 c).arrAt_eq_of_cover 4 G (fun t hf => ?_) cover4
  have ht : t.val % 16 = 15 := (flush0_4 t).mp hf
  show (cfg0.win 4).cut (grid0.coords t) ((dats m 0 c).after 4 t) = _
  rw [after0_4]
  funext j
  obtain ⟨p, u, rfl⟩ : ∃ (p : Fin 512) (u : Fin 1), j = ix2 p u := ⟨j 0, j 1, eq_ix2 j⟩
  obtain rfl : u = 0 := Subsingleton.elim _ _
  show (outsAt0 m c t.val t.isLt).o4 (ix2 p 0) = G (((cfg0.win 4).blk t).view.emb (ix2 p 0))
  rw [h t ht p]
  congr 1
  obtain ⟨e0, e1⟩ := idx4 t
  funext a; apply Fin.ext
  match a with
  | ⟨0, _⟩ => show 512 * (t.val / 16) + p.val = win0_4.index t (0 : Fin 2) * 512 + 1 * p.val; rw [e0]; omega
  | ⟨1, _⟩ => show 0 = win0_4.index t (1 : Fin 2) * 1 + 1 * 0; rw [e1]

/-- THE SECOND OUTPUT ARRAY, likewise. -/
theorem final5 (c : Dev nD) (G : S8192x1.Idx → Elt F .f32)
    (h : ∀ (t : Fin cfg0.N) (ht : t.val % 16 = 15) (p : Fin 512),
      (outsAt0 m c t.val t.isLt).o5 (ix2 p (0 : Fin 1)) = G (ix2 (⟨512 * (t.val / 16) + p.val, by have := t.isLt; have hN : grid0.N = 256 := N_0; have hN' : cfg0.N = 256 := N_0; omega⟩ : Fin 8192) (0 : Fin 1))) :
    (dats m 0 c).arrAt 5 cfg0.N = G := by
  refine (dats m 0 c).arrAt_eq_of_cover 5 G (fun t hf => ?_) cover5
  have ht : t.val % 16 = 15 := (flush0_5 t).mp hf
  show (cfg0.win 5).cut (grid0.coords t) ((dats m 0 c).after 5 t) = _
  rw [after0_5]
  funext j
  obtain ⟨p, u, rfl⟩ : ∃ (p : Fin 512) (u : Fin 1), j = ix2 p u := ⟨j 0, j 1, eq_ix2 j⟩
  obtain rfl : u = 0 := Subsingleton.elim _ _
  show (outsAt0 m c t.val t.isLt).o5 (ix2 p 0) = G (((cfg0.win 5).blk t).view.emb (ix2 p 0))
  rw [h t ht p]
  congr 1
  obtain ⟨e0, e1⟩ := idx5 t
  funext a; apply Fin.ext
  match a with
  | ⟨0, _⟩ => show 512 * (t.val / 16) + p.val = win0_5.index t (0 : Fin 2) * 512 + 1 * p.val; rw [e0]; omega
  | ⟨1, _⟩ => show 0 = win0_5.index t (1 : Fin 2) * 1 + 1 * 0; rw [e1]

end Cert.KernelIdeal.Arrays

end
-- ==== Proof.IState.lean ====
/-
  The kernel's value. Row block `ti` is visited at the sixteen points 16·ti, …, 16·ti + 15, one column tile each. After the
  point of column tile `tj` the four carried columns hold, at row `p`, the running maximum, the denominator relative to it,
  the sum of positive similarities and the count of positives of row 512·ti + p over its first 512·(tj + 1) columns: the
  first tile starts from the reset values, which are those quantities over no column, and every tile advances them by its
  512 columns. After the last tile they are the whole row's, the two outputs are the row's closed form and its count, and
  the quotient of the two column sums is the loss of the specification.
-/
import proofs.«167906_j2405181686310_1_alg».proof.Proof.IPieces
import proofs.«167906_j2405181686310_1_alg».proof.Proof.IBridge
import proofs.«167906_j2405181686310_1_alg».proof.Proof.IStep
import proofs.«167906_j2405181686310_1_alg».proof.Proof.IQuot
import proofs.«167906_j2405181686310_1_alg».proof.Proof.IArrays

noncomputable section

namespace Cert.KernelIdeal.State

open Cert.KernelIdeal Cert.KernelIdeal.Gen Cert.KernelIdeal.Body Cert.KernelIdeal.Pay Cert.KernelIdeal.Bridge Cert.KernelIdeal.Step
open Cert.KernelIdeal.Quot Cert.KernelIdeal.Arrays Cert.RowLaws Cert.SpecRows
open Idealize.ShloMosaic Idealize.ShloMosaic.TcCoe Idealize.ShloMosaic.ValueIdx
open Idealize.SL Idealize.SL.Sem

variable (m : (ℓ : Loc nD τ sig) → Buf (Elt Ideal) ℓ) (c : Dev nD) (e : Fin 8192 → Fin 256 → ℝ)

/-- The four carried columns hold row `p`'s quantities over the first `n` columns. -/
def Holds (t : Fin cfg0.N) (n : ℕ) (s0 s1 s2 s3 : Vec Ideal S512x1 .f32) : Prop :=
  ∀ p : Fin 512,
    s0 (ix2 p (0 : Fin 1)) = mP (arow e (rowOf t p)) n
    ∧ s1 (ix2 p (0 : Fin 1)) = lP (arow e (rowOf t p)) (rowOf t p).val n
    ∧ s2 (ix2 p (0 : Fin 1)) = spP (arow e (rowOf t p)) (posrow (Lab m c) (rowOf t p)) n
    ∧ s3 (ix2 p (0 : Fin 1)) = cpP (posrow (Lab m c) (rowOf t p)) n

variable (he : ∀ i k, (m ((c : Thread nD τ).loc main_arg0) : S8192x256.Idx → Elt Ideal .f32) (ix2 i k) = ((e i k : ℝ) : EReal))

include he in
/-- ONE TILE: from the quantities over the columns before tile `t % 16` to those over the columns through it. -/
theorem tile (t : Fin cfg0.N) (s0 s1 s2 s3 : Vec Ideal S512x1 .f32) (h : Holds m c e t (512 * (t.val % 16)) s0 s1 s2 s3) :
    Holds m c e t (512 * (t.val % 16) + 512)
      (k0_pay2 (k0_pay13 (F := Ideal) (iblk m c 0 t) (iblk m c 1 t) s0))
      (k0_pay1 (F := Ideal) (k0_pay11 (grid0.coords t)) (k0_pay14 (F := Ideal) (iblk m c 0 t) (iblk m c 1 t) s0) (k0_pay15 (F := Ideal) (iblk m c 0 t) (iblk m c 1 t) s0) (k0_pay16 (F := Ideal)) s1)
      (k0_pay3 (F := Ideal) (k0_pay10 (F := Ideal) (iblk m c 0 t) (iblk m c 1 t)) (k0_pay12 (F := Ideal) (grid0.coords t) (iblk m c 2 t) (iblk m c 3 t)) s2)
      (k0_pay4 (F := Ideal) (k0_pay12 (F := Ideal) (grid0.coords t) (iblk m c 2 t) (iblk m c 3 t)) s3) := by
  intro p
  obtain ⟨h0, h1, h2, h3⟩ := h p
  have hsim : ∀ q : Fin 512, simT (iblk m c 0 t) (iblk m c 1 t) p q = ((arow e (rowOf t p) (512 * (t.val % 16) + q.val) : ℝ) : EReal) :=
    fun q => simT_eq m c e he t p q
  exact ⟨step_s0 _ _ _ _ _ p hsim h0,
    step_s1 _ (rowOf t p).val _ (grid0.coords t) _ _ _ _ p hsim h0 h1 (fun q => eye_eq t p q),
    step_s2 _ _ (posrow (Lab m c) (rowOf t p)) (grid0.coords t) _ _ _ _ _ p hsim h2 (fun q => pos_eq m c t p q),
    step_s3 _ (posrow (Lab m c) (rowOf t p)) (grid0.coords t) _ _ _ p h3 (fun q => pos_eq m c t p q)⟩

/-- The reset values are the quantities over no column. -/
theorem reset_holds (t : Fin cfg0.N) (h0 : t.val % 16 = 0) :
    Holds m c e t (512 * (t.val % 16)) (k0_pay6 (F := Ideal)) (k0_pay7 (F := Ideal)) (k0_pay8 (F := Ideal)) (k0_pay9 (F := Ideal)) := by
  intro p
  rw [h0, pay6_apply, pay7_apply, pay8_apply, pay9_apply, mP_zero, lP_zero, spP_zero, cpP_zero]
  exact ⟨rfl, rfl, rfl, rfl⟩

/-- What a point left is what the next point of the same row block starts from. -/
theorem holds_next (t t' : Fin cfg0.N) (ht : t'.val + 1 = t.val) (h0 : ¬t.val % 16 = 0) (s0 s1 s2 s3 : Vec Ideal S512x1 .f32)
    (h : Holds m c e t' (512 * (t'.val % 16) + 512) s0 s1 s2 s3) : Holds m c e t (512 * (t.val % 16)) s0 s1 s2 s3 := by
  intro p
  have hr : rowOf t' p = rowOf t p := Fin.ext (by show 512 * (t'.val / 16) + p.val = 512 * (t.val / 16) + p.val; omega)
  have hn : 512 * (t'.val % 16) + 512 = 512 * (t.val % 16) := by omega
  have hp := h p
  rw [hr, hn] at hp
  exact hp

include he in
/-- THE INVARIANT, at every point. -/
theorem good (t : Fin cfg0.N) :
    Holds m c e t (512 * (t.val % 16) + 512) (outsAt0 m c t.val t.isLt).s0 (outsAt0 m c t.val t.isLt).s1 (outsAt0 m c t.val t.isLt).s2 (outsAt0 m c t.val t.isLt).s3 := by
  obtain ⟨n, hn⟩ := t
  induction n using Nat.strong_induction_on with
  | _ n ih =>
    by_cases h0 : n % 16 = 0
    · have h1 : ¬n % 16 = 15 := by omega
      rw [outsAt0_A m c ⟨n, hn⟩ h0 h1, outsA_s0, outsA_s1, outsA_s2, outsA_s3]
      exact tile m c e he ⟨n, hn⟩ _ _ _ _ (reset_holds m c e ⟨n, hn⟩ h0)
    · have hk : n - 1 < cfg0.N := by omega
      have ihp := holds_next m c e ⟨n, hn⟩ ⟨n - 1, hk⟩ (by show n - 1 + 1 = n; omega) h0 _ _ _ _ (ih (n - 1) (by omega) hk)
      by_cases h1 : n % 16 = 15
      · rw [outsAt0_C m c ⟨n, hn⟩ h0 h1, outsC_s0, outsC_s1, outsC_s2, outsC_s3]
        exact tile m c e he ⟨n, hn⟩ _ _ _ _ ihp
      · rw [outsAt0_B m c ⟨n, hn⟩ h0 h1, outsB_s0, outsB_s1, outsB_s2, outsB_s3]
        exact tile m c e he ⟨n, hn⟩ _ _ _ _ ihp

include he in
/-- After the last column tile the first output holds the row's closed form. -/
theorem o4_row (t : Fin cfg0.N) (ht : t.val % 16 = 15) (p : Fin 512) :
    (outsAt0 m c t.val t.isLt).o4 (ix2 p (0 : Fin 1)) = G4 e (Lab m c) (ix2 (rowOf t p) (0 : Fin 1)) := by
  have h0 : ¬t.val % 16 = 0 := by omega
  have hN : cfg0.N = 256 := N_0
  have hk : t.val - 1 < cfg0.N := by have := t.isLt; omega
  have ihp := holds_next m c e t ⟨t.val - 1, hk⟩ (by show t.val - 1 + 1 = t.val; omega) h0 _ _ _ _ (good m c e he ⟨t.val - 1, hk⟩)
  obtain ⟨g0, g1, g2, g3⟩ := tile m c e he t _ _ _ _ ihp p
  have h8 : 512 * (t.val % 16) + 512 = 8192 := by omega
  rw [h8] at g0 g1 g2 g3
  rw [outsAt0_C m c t h0 ht, outsC_o4, pay5_apply, g0, g1, g2, g3, G4_apply]
  rfl

include he in
/-- … and the second the row's count of positives. -/
theorem o5_row (t : Fin cfg0.N) (ht : t.val % 16 = 15) (p : Fin 512) :
    (outsAt0 m c t.val t.isLt).o5 (ix2 p (0 : Fin 1)) = G5 (Lab m c) (ix2 (rowOf t p) (0 : Fin 1)) := by
  have h0 : ¬t.val % 16 = 0 := by omega
  have hN : cfg0.N = 256 := N_0
  have hk : t.val - 1 < cfg0.N := by have := t.isLt; omega
  have ihp := holds_next m c e t ⟨t.val - 1, hk⟩ (by show t.val - 1 + 1 = t.val; omega) h0 _ _ _ _ (good m c e he ⟨t.val - 1, hk⟩)
  obtain ⟨g0, g1, g2, g3⟩ := tile m c e he t _ _ _ _ ihp p
  have h8 : 512 * (t.val % 16) + 512 = 8192 := by omega
  rw [h8] at g3
  rw [outsAt0_C m c t h0 ht, outsC_o5, g3, G5_apply]

/-- THE KERNEL'S VALUE: with real embeddings, the quotient of the sums of the two output arrays is the loss of the
    specification at the launched embeddings and labels. -/
theorem kernel_loss (hfin : ∀ x, ∃ r : ℝ, (m ((c : Thread nD τ).loc main_arg0) : S8192x256.Idx → Elt Ideal .f32) x = (r : EReal)) :
    Host.divf (Host.reduceAdd (F := Ideal) ((dats m 0 c).arrAt 4 cfg0.N) (constant (F := Ideal) S_ .f32 0x00000000#32) reducesTo_S8192x1_S_d0_1 h_S_)
        (Host.reduceAdd (F := Ideal) ((dats m 0 c).arrAt 5 cfg0.N) (constant (F := Ideal) S_ .f32 0x00000000#32) reducesTo_S8192x1_S_d0_1 h_S_)
      = fun _ => Cert.Spec.loss (fun i k => (m ((c : Thread nD τ).loc main_arg0) : S8192x256.Idx → Elt Ideal .f32) (ix2 i k)) (Lab m c) := by
  choose r hr using hfin
  have he : ∀ i k, (m ((c : Thread nD τ).loc main_arg0) : S8192x256.Idx → Elt Ideal .f32) (ix2 i k) = (((fun i k => r (ix2 i k)) i k : ℝ) : EReal) :=
    fun i k => hr _
  rw [final4 m c (G4 (fun i k => r (ix2 i k)) (Lab m c)) (fun t ht p => o4_row m c _ he t ht p),
    final5 m c (G5 (Lab m c)) (fun t ht p => o5_row m c _ he t ht p)]
  exact quotient_eq _ _ he (Lab m c)

end Cert.KernelIdeal.State

end
-- ==== Proof.RefFrame.lean ====
import proofs.«167906_j2405181686310_1_alg».proof.Defs
import proofs.«167906_j2405181686310_1_alg».proof.Proof.Gen.Pre_finite_inputs
import proofs.«167906_j2405181686310_1_alg».proof.Proof.Gen.ReferenceIdeal.Run

/-!
  The reference program runs to completion and leaves its two argument arrays as it found them:
  its generated run already states each result at the composed term of the arguments together
  with the unchanged arguments, and dropping the result's conjunct leaves the frame.
-/

noncomputable section

open Idealize.ShloMosaic Idealize.ShloMosaic.TcCoe Idealize.SL.Sem

namespace Cert.ReferenceIdeal.RefFrame

theorem frame_ri : Cert.frame_ReferenceIdeal := fun m ρ _ =>
  (θ_run Cert.ReferenceIdeal.defs _ _).mono (fun _ h c => (h c).2) (Cert.ReferenceIdeal.Value.run (F := Ideal) m ρ)

end Cert.ReferenceIdeal.RefFrame

end
-- ==== Proof.RefConsts.lean ====
import Idealize.ShloMosaic.PureOps.Ideal
import Idealize.ShloMosaic.PureOps.Ideal.Laws

/-!
  The float words the reference spells, as the extended reals they denote: one half (the
  temperature the similarities are divided by), minus infinity (the value a row maximum starts
  from) and plus infinity (the bound of the finiteness test). Dividing by one half is doubling,
  on every extended real.
-/

noncomputable section

namespace Cert.RefConsts

open Idealize.ShloMosaic

/-- The word of `0.5` denotes the real one half. -/
theorem ofBits_half : Ideal.ofBits .f32 0x3F000000#32 = ((0.5 : ℝ) : EReal) := by
  simp [Ideal.ofBits, Ideal.ieee, -EReal.coe_mul]; norm_num

/-- The word of `-inf` denotes the bottom element. -/
theorem ofBits_neg_inf : Ideal.ofBits .f32 0xFF800000#32 = ⊥ := by
  simp [Ideal.ofBits, Ideal.ieee]

/-- The word of `+inf` denotes the top element. -/
theorem ofBits_pos_inf : Ideal.ofBits .f32 0x7F800000#32 = ⊤ := by
  simp [Ideal.ofBits, Ideal.ieee]

/-- The quotient by one half is the product with two, at infinities too. -/
theorem div_half (x : EReal) : Ideal.div x ((0.5 : ℝ) : EReal) = x * ((2 : ℝ) : EReal) := by
  rw [Ideal.div_coe (by norm_num : (0.5 : ℝ) ≠ 0)]; norm_num

end Cert.RefConsts

end
-- ==== Proof.RefMasks.lean ====
import proofs.«167906_j2405181686310_1_alg».proof.Proof.Gen.ReferenceIdeal.Read
import proofs.«167906_j2405181686310_1_alg».proof.Proof.Spec

/-!
  The two masks of the reference, read at a pair of rows (i, j).

  The diagonal mask compares the row number (plus a zero word) with the column number, both as
  32-bit words; the numbers are below 8192, so the words agree exactly when the numbers do.
  The positive mask compares the label of column j (the labels laid along a row) with the label
  of row i (the labels laid down a column) and removes the diagonal.
-/

noncomputable section

open Idealize.ShloMosaic Idealize.ShloMosaic.ValueIdx
open scoped BigOperators

namespace Cert.ReferenceIdeal.RefValue

open Cert.ReferenceIdeal Cert.ReferenceIdeal.Gen Cert.ReferenceIdeal.Read

/-- Two numbers below 8192 are equal as 32-bit words exactly when they are equal. -/
theorem ofNat32_inj (a b : Fin 8192) : BitVec.ofNat 32 a.val = BitVec.ofNat 32 b.val ↔ a = b := by
  constructor
  · intro h
    have h' := congrArg BitVec.toNat h
    simp only [BitVec.toNat_ofNat] at h'
    have ha := a.isLt
    have hb := b.isLt
    exact Fin.ext (by omega)
  · rintro rfl; rfl

/-- The diagonal mask at (i, j) is set exactly when i = j. -/
theorem eye_iff (i j : Fin 8192) : val_main_v8 (F := Ideal) (ix2 i j) = 1#1 ↔ i = j := by
  rw [val_main_v8_apply, val_main_v7_apply, val_main_v4_apply, val_main_v5_apply, val_main_v6_apply,
    val_main_c_apply, IntOp.cmpi_eq]
  show BitVec.ofNat 32 i.val + 0#32 = BitVec.ofNat 32 j.val ↔ _
  rw [BitVec.add_zero]
  exact ofNat32_inj i j

/-- The positive mask at (i, j) is set exactly when the labels of rows i and j agree and i ≠ j. -/
theorem pos_iff (l : (⟨S8192, .i32⟩ : BufTy).Contents (Elt Ideal)) (i j : Fin 8192) :
    val_main_v15 (F := Ideal) l (ix2 i j) = 1#1 ↔ Cert.Spec.pos (fun a => l (ix1 a)) i j := by
  have e1 : idx_main_v9 (idx_main_v11 (ix2 i j)) = ix1 j := funext fun a => by
    match a with | ⟨0, _⟩ => rfl
  have e2 : idx_main_v10 (idx_main_v12 (ix2 i j)) = ix1 i := funext fun a => by
    match a with | ⟨0, _⟩ => rfl
  rw [val_main_v15_apply, val_main_v13_apply, val_main_v14_apply, val_main_v11_apply, val_main_v9_apply,
    val_main_v12_apply, val_main_v10_apply, e1, e2, IntOp.andi_eq_one, IntOp.cmpi_eq, IntOp.not_eq_one, eye_iff]
  exact ⟨fun h => ⟨h.1.symm, h.2⟩, fun h => ⟨h.1.symm, h.2⟩⟩

end Cert.ReferenceIdeal.RefValue

end
-- ==== Proof.RefSim.lean ====
import proofs.«167906_j2405181686310_1_alg».proof.Proof.Gen.ReferenceIdeal.Read
import proofs.«167906_j2405181686310_1_alg».proof.Proof.Spec
import proofs.«167906_j2405181686310_1_alg».proof.Proof.RefConsts

/-!
  The similarities and the row maxima of the reference, read at rows.

  Entry (i, j) of the product of the embeddings with their transpose is the sum over k of
  E i k * E j k; dividing by one half doubles it. The maximum of row i, folded from minus
  infinity over the columns, is the supremum of the row.
-/

noncomputable section

open Idealize.ShloMosaic Idealize.ShloMosaic.ValueIdx
open scoped BigOperators

namespace Cert.ReferenceIdeal.RefValue

open Cert.ReferenceIdeal Cert.ReferenceIdeal.Gen Cert.ReferenceIdeal.Read

/-- The one-axis reduction fact behind the row reductions. -/
theorem reduces_rows : S8192x8192.Reduces [1] S8192 := by decide

/-- Inserting column k into the row index i gives the pair (i, k). -/
theorem lift_row (i k : Fin 8192) : reduces_rows.lift (ix1 i) k = ix2 i k :=
  funext fun a => Fin.ext (by match a with | ⟨0, _⟩ => rfl | ⟨1, _⟩ => rfl)

/-- The similarity stage at (i, j) is twice the inner product of rows i and j. -/
theorem sim_stage (e : (⟨S8192x256, .f32⟩ : BufTy).Contents (Elt Ideal)) (i j : Fin 8192) :
    val_main_v3 (F := Ideal) e (ix2 i j) = Cert.Spec.sim (fun a k => e (ix2 a k)) i j := by
  have el : ∀ k : Fin 256, lidx_main_v1 (ix2 i j) k = ix2 i k := fun k => funext fun a => by
    match a with | ⟨0, _⟩ => rfl | ⟨1, _⟩ => rfl
  have er : ∀ k : Fin 256, idx_main_v0 (ridx_main_v1 (ix2 i j) k) = ix2 j k := fun k => funext fun a => by
    match a with | ⟨0, _⟩ => rfl | ⟨1, _⟩ => rfl
  rw [val_main_v3_apply, val_main_v1_apply, val_main_v2_apply, val_main_cst_apply]
  simp only [val_main_v0_apply, el, er, Ideal.hostDivf_def, Ideal.ofBits_def, Cert.RefConsts.ofBits_half,
    Cert.RefConsts.div_half]
  rfl

/-- The row-maximum stage at row i is the supremum of the similarities of row i. -/
theorem rowMax_stage (e : (⟨S8192x256, .f32⟩ : BufTy).Contents (Elt Ideal)) (i : Fin 8192) :
    val_main_v16 (F := Ideal) e (ix1 i) = Cert.Spec.rowMax (fun a k => e (ix2 a k)) i := by
  unfold val_main_v16
  refine (Host.reduce_eq_fold_single (s := S8192x8192) (t := S8192) (α := EReal)
    (FloatOps.maximumf (F := Ideal) (φ := .f32)) (val_main_v3 (F := Ideal) e) (val_main_cst_0 (F := Ideal))
    reducesTo_S8192x8192_S8192_d1 reduces_rows h_S_ (ix1 i)).trans ?_
  refine (Finset.fold_congr (g := fun k : Fin 8192 => Cert.Spec.sim (fun a k => e (ix2 a k)) i k) fun k _ => ?_).trans ?_
  · show val_main_v3 (F := Ideal) e (reduces_rows.lift (ix1 i) k) = _
    rw [lift_row, sim_stage]
  · rw [val_main_cst_0_apply, Ideal.ofBits_def, Cert.RefConsts.ofBits_neg_inf]
    rfl

end Cert.ReferenceIdeal.RefValue

end
-- ==== Proof.RefDenom.lean ====
import proofs.«167906_j2405181686310_1_alg».proof.Proof.Gen.ReferenceIdeal.Read
import proofs.«167906_j2405181686310_1_alg».proof.Proof.Spec
import proofs.«167906_j2405181686310_1_alg».proof.Proof.RefConsts
import proofs.«167906_j2405181686310_1_alg».proof.Proof.RefMasks
import proofs.«167906_j2405181686310_1_alg».proof.Proof.RefSim

/-!
  The shifted similarities, the denominators and the per-pair terms of the reference.

  Entry (i, j) of the shifted array is the similarity less the maximum of row i. The
  denominator of row i adds, from zero, the exponentials of the shifted row with the diagonal
  entry replaced by zero. The per-pair term is the negated difference of the shifted entry and
  the logarithm of the row's denominator, kept at the positive pairs and zero elsewhere, and
  the numerator of the loss is the sum of these over all pairs, from zero.
-/

noncomputable section

open Idealize.ShloMosaic Idealize.ShloMosaic.ValueIdx
open scoped BigOperators

namespace Cert.ReferenceIdeal.RefValue

open Cert.ReferenceIdeal Cert.ReferenceIdeal.Gen Cert.ReferenceIdeal.Read

/-- A select on a bit that is set exactly when `p` holds is the `if` on `p`. -/
theorem select_if {α : Type} (c : BitVec 1) (p : Prop) [Decidable p] (hc : c = 1#1 ↔ p) (a b : α) :
    Scalar.select c a b = if p then a else b := by
  unfold Scalar.select
  exact if_congr hc rfl rfl

/-- The shifted stage at (i, j): the similarity less the row maximum. -/
theorem shifted_stage (e : (⟨S8192x256, .f32⟩ : BufTy).Contents (Elt Ideal)) (i j : Fin 8192) :
    val_main_v19 (F := Ideal) e (ix2 i j)
      = Cert.Spec.sim (fun a k => e (ix2 a k)) i j - Cert.Spec.rowMax (fun a k => e (ix2 a k)) i := by
  have e1 : idx_main_v17 (idx_main_v18 (ix2 i j)) = ix1 i := funext fun a => by
    match a with | ⟨0, _⟩ => rfl
  rw [val_main_v19_apply, val_main_v18_apply, val_main_v17_apply, e1, sim_stage, rowMax_stage, Ideal.subf_def]

/-- The zero word the reference spells is the extended real zero. -/
theorem zero_word : FloatOps.ofBits (F := Ideal) .f32 0x00000000#32 = (0 : EReal) := by
  rw [Ideal.ofBits_def, Ideal.ofBits_zero_f32]

/-- The denominator stage at row i. -/
theorem denom_stage (e : (⟨S8192x256, .f32⟩ : BufTy).Contents (Elt Ideal)) (i : Fin 8192) :
    val_main_v22 (F := Ideal) e (ix1 i) = Cert.Spec.denom (fun a k => e (ix2 a k)) i := by
  have e1 : ∀ k : Fin 8192, idx_main_v22 (ix1 i) k = ix2 i k := fun k => funext fun a => by
    match a with | ⟨0, _⟩ => rfl | ⟨1, _⟩ => rfl
  rw [val_main_v22_apply, val_main_cst_2_apply, zero_word, zero_add]
  unfold Cert.Spec.denom
  refine Finset.sum_congr rfl fun k _ => ?_
  rw [e1, val_main_v21_apply, val_main_call0_v1_apply, val_main_call0_v0_apply, val_main_cst_1_apply, zero_word,
    val_main_v20_apply, shifted_stage, Ideal.hostUnary_exp_def]
  exact select_if _ _ (eye_iff i k) _ _

/-- The per-pair stage at (i, j). -/
theorem per_stage (e : (⟨S8192x256, .f32⟩ : BufTy).Contents (Elt Ideal)) (i j : Fin 8192) :
    val_main_v27 (F := Ideal) e (ix2 i j)
      = -((Cert.Spec.sim (fun a k => e (ix2 a k)) i j - Cert.Spec.rowMax (fun a k => e (ix2 a k)) i)
          - Ideal.log (Cert.Spec.denom (fun a k => e (ix2 a k)) i)) := by
  have e1 : idx_main_v24 (idx_main_v25 (ix2 i j)) = ix1 i := funext fun a => by
    match a with | ⟨0, _⟩ => rfl
  rw [val_main_v27_apply, val_main_v26_apply, val_main_v25_apply, val_main_v24_apply, e1, val_main_v23_apply,
    denom_stage, shifted_stage, Ideal.hostUnary_log_def, Ideal.hostNegf_def, Ideal.negf_def, Ideal.subf_def]

/-- The masked per-pair stage at (i, j). -/
theorem masked_stage (e : (⟨S8192x256, .f32⟩ : BufTy).Contents (Elt Ideal))
    (l : (⟨S8192, .i32⟩ : BufTy).Contents (Elt Ideal)) (i j : Fin 8192) :
    val_main_v30 (F := Ideal) e l (ix2 i j)
      = if Cert.Spec.pos (fun a => l (ix1 a)) i j then
          -((Cert.Spec.sim (fun a k => e (ix2 a k)) i j - Cert.Spec.rowMax (fun a k => e (ix2 a k)) i)
            - Ideal.log (Cert.Spec.denom (fun a k => e (ix2 a k)) i))
        else 0 := by
  rw [val_main_v30_apply, val_main_call1_v1_apply, val_main_call1_v0_apply, val_main_cst_4_apply, zero_word, per_stage]
  exact select_if _ _ (pos_iff l i j) _ _

/-- The numerator stage: the sum over all pairs of the masked per-pair terms. -/
theorem lossNum_stage (e : (⟨S8192x256, .f32⟩ : BufTy).Contents (Elt Ideal))
    (l : (⟨S8192, .i32⟩ : BufTy).Contents (Elt Ideal)) (i : S_.Idx) :
    val_main_v31 (F := Ideal) e l i = Cert.Spec.lossNum (fun a k => e (ix2 a k)) (fun a => l (ix1 a)) := by
  rw [val_main_v31_apply, val_main_cst_5_apply, zero_word, zero_add, sum_idx2]
  unfold Cert.Spec.lossNum
  exact Finset.sum_congr rfl fun a _ => Finset.sum_congr rfl fun b _ => masked_stage e l a b

end Cert.ReferenceIdeal.RefValue

end
-- ==== Proof.RefCount.lean ====
import proofs.«167906_j2405181686310_1_alg».proof.Proof.Gen.ReferenceIdeal.Read
import proofs.«167906_j2405181686310_1_alg».proof.Proof.Spec
import proofs.«167906_j2405181686310_1_alg».proof.Proof.RefMasks
import Idealize.ShloMosaic.Lib.IndicatorCount

/-!
  The count of the positive pairs in the reference.

  The positive mask, widened to 32-bit words, is added up over all pairs from the zero word: a
  sum of 0/1 words is the word of the number of ones. The pairs number 8192 * 8192, which is
  below 2^31, so the word read as a signed integer is that number, and its conversion to a
  float is the number as a real. The ones are counted over pairs of row numbers through the
  bijection between a rank-2 index and its two coordinates.
-/

noncomputable section

open Idealize.ShloMosaic Idealize.ShloMosaic.ValueIdx
open scoped BigOperators

namespace Cert.ReferenceIdeal.RefValue

open Cert.ReferenceIdeal Cert.ReferenceIdeal.Gen Cert.ReferenceIdeal.Read

/-- The scalar shape has one index. -/
instance : Subsingleton S_.Idx := ⟨fun a b => funext fun d => d.elim0⟩

/-- A number below 2^31, as a 32-bit word read signed, is itself. -/
theorem toInt_ofNat32 (n : ℕ) (h : n < 2 ^ 31) : (BitVec.ofNat 32 n).toInt = (n : ℤ) := by
  have hn : (BitVec.ofNat 32 n).toNat = n := by
    rw [BitVec.toNat_ofNat]; exact Nat.mod_eq_of_lt (by omega)
  rw [BitVec.toInt_eq_toNat_of_lt (by rw [hn]; omega), hn]

/-- The ones of the positive mask are as many as the positive pairs of row numbers. -/
theorem card_pos (l : (⟨S8192, .i32⟩ : BufTy).Contents (Elt Ideal)) :
    (Finset.univ.filter fun k : S8192x8192.Idx => val_main_v15 (F := Ideal) l k = 1#1).card
      = (Finset.univ.filter fun ij : Fin 8192 × Fin 8192 => Cert.Spec.pos (fun a => l (ix1 a)) ij.1 ij.2).card := by
  refine Finset.card_equiv (idxEquiv2 (n0 := 8192) (n1 := 8192)) fun k => ?_
  simp only [Finset.mem_filter, Finset.mem_univ, true_and]
  rw [eq_ix2 k]
  exact pos_iff l _ _

/-- The positive pairs are fewer than 2^31. -/
theorem card_pos_lt (L : Fin 8192 → BitVec 32) :
    (Finset.univ.filter fun ij : Fin 8192 × Fin 8192 => Cert.Spec.pos L ij.1 ij.2).card < 2 ^ 31 := by
  refine lt_of_le_of_lt (Finset.card_filter_le _ _) ?_
  rw [Finset.card_univ, Fintype.card_prod, Fintype.card_fin]
  norm_num

/-- The integer count stage: the word of the number of positive pairs. -/
theorem count_word (l : (⟨S8192, .i32⟩ : BufTy).Contents (Elt Ideal)) (i : S_.Idx) :
    val_main_v29 (F := Ideal) l i
      = BitVec.ofNat 32 (Finset.univ.filter fun ij : Fin 8192 × Fin 8192 => Cert.Spec.pos (fun a => l (ix1 a)) ij.1 ij.2).card := by
  unfold val_main_v29
  rw [Host.reduce_eq_fold IntOp.addi (val_main_v28 (F := Ideal) l) (val_main_c_3 (F := Ideal)) reducesTo_S8192x8192_S_d0_1 h_S_ i,
    Finset.filter_true_of_mem (fun k _ => Subsingleton.elim _ _), val_main_c_3_apply, ← card_pos]
  exact IndicatorCount.fold_addi_setWidth_eq_card (val_main_v15 (F := Ideal) l) Finset.univ

/-- The count stage as a float: the number of positive pairs. -/
theorem lossCnt_stage (l : (⟨S8192, .i32⟩ : BufTy).Contents (Elt Ideal)) (i : S_.Idx) :
    val_main_v32 (F := Ideal) l i = Cert.Spec.lossCnt (fun a => l (ix1 a)) := by
  rw [val_main_v32_apply, count_word]
  show (((BitVec.ofNat 32 _).toInt : ℝ) : EReal) = _
  rw [toInt_ofNat32 _ (card_pos_lt _), Int.cast_natCast]
  rfl

end Cert.ReferenceIdeal.RefValue

end
-- ==== Proof.RefValue.lean ====
import proofs.«167906_j2405181686310_1_alg».proof.Proof.Gen.ReferenceIdeal.Read
import proofs.«167906_j2405181686310_1_alg».proof.Proof.Spec
import proofs.«167906_j2405181686310_1_alg».proof.Proof.RefDenom
import proofs.«167906_j2405181686310_1_alg».proof.Proof.RefCount

/-!
  The reference computes the specification.

  Its last stage divides the numerator stage (the sum over the positive pairs of the negated
  log-probabilities) by the count stage (the number of positive pairs as a float): with the
  rows and labels read off the argument arrays by coordinates this is the loss of the
  specification, on every extended real; no finiteness of the entries is used.
-/

noncomputable section

open Idealize.ShloMosaic Idealize.ShloMosaic.ValueIdx
open scoped BigOperators

namespace Cert.ReferenceIdeal.RefValue

open Cert.ReferenceIdeal Cert.ReferenceIdeal.Gen Cert.ReferenceIdeal.Read

/-- The reference's result, at the one index of the scalar shape, is the loss of the specification. -/
theorem ref_eq_spec (e : (⟨S8192x256, .f32⟩ : BufTy).Contents (Elt Ideal))
    (l : (⟨S8192, .i32⟩ : BufTy).Contents (Elt Ideal)) (i : S_.Idx) :
    val_main_v33 (F := Ideal) e l i = Cert.Spec.loss (fun a k => e (ix2 a k)) (fun a => l (ix1 a)) := by
  rw [val_main_v33_apply, lossNum_stage, lossCnt_stage, Ideal.hostDivf_def]
  rfl

/-- The same as an equation of whole result arrays. -/
theorem ref_eq_spec_fun (e : (⟨S8192x256, .f32⟩ : BufTy).Contents (Elt Ideal))
    (l : (⟨S8192, .i32⟩ : BufTy).Contents (Elt Ideal)) :
    val_main_v33 (F := Ideal) e l = fun _ => Cert.Spec.loss (fun a k => e (ix2 a k)) (fun a => l (ix1 a)) :=
  funext (ref_eq_spec e l)

/-- The same over the plain vector types of the argument arrays, at the scalar index. -/
theorem ref_eq_spec_vec (e : FVec Ideal S8192x256 .f32) (l : IVec S8192 32) :
    val_main_v33 (F := Ideal) e l ix0 = Cert.Spec.loss (fun a k => e (ix2 a k)) (fun a => l (ix1 a)) :=
  ref_eq_spec e l ix0

end Cert.ReferenceIdeal.RefValue

end
-- ==== Proof.Finite.lean ====
import proofs.«167906_j2405181686310_1_alg».proof.Pre_finite_inputs
import proofs.«167906_j2405181686310_1_alg».proof.Proof.RefConsts
import Idealize.ShloMosaic.Lib.ReduceAll
import Idealize.ShloMosaic.Lib.ValueIdx

/-!
  From the finiteness test to real entries.

  The test takes the absolute value of every entry of the embeddings, compares it with plus
  infinity and reduces the comparisons by conjunction. When the result is one, every comparison
  is one, so the larger of an entry and its negation lies below plus infinity; that rules out
  both infinities, and what is left of an extended real is a real number.
-/

noncomputable section

open Idealize.ShloMosaic

namespace Cert.Finite

open Cert.Pre_finite_inputs

/-- The scalar shape has one index. -/
instance : Subsingleton S_.Idx := ⟨fun a b => funext fun d => d.elim0⟩

/-- An extended real whose absolute value is below plus infinity is a real number. -/
theorem real_of_abs_lt_top (y : EReal) (h : max y (-y) < ⊤) : ∃ r : ℝ, y = (r : EReal) := by
  induction y using EReal.rec with
  | bot => simp at h
  | coe r => exact ⟨r, rfl⟩
  | top => simp at h

/-- When the finiteness test holds of the arrays, every entry of the embeddings is a real number. -/
theorem real_of_pre (e : FVec Ideal S8192x256 .f32) (l : IVec S8192 32) [Facts]
    (h : fn (F := Ideal) e l = fun _ => 1#1) : ∀ x, ∃ r : ℝ, e x = (r : EReal) := by
  intro x
  have h0 := congrFun h ValueIdx.ix0
  dsimp only [fn] at h0
  have hx := Host.reduce_andi_all _ _ Facts.reducesTo_S8192x256_S_d0_1 Facts.h_S_ ValueIdx.ix0 h0 x
  have hx' : Ideal.cmp .olt (max (e x) (-(e x))) (Ideal.ofBits .f32 0x7F800000#32) = 1#1 := hx
  rw [Cert.RefConsts.ofBits_pos_inf] at hx'
  refine real_of_abs_lt_top (e x) ?_
  by_contra hn
  have h1 : Ideal.cmp .olt (max (e x) (-(e x))) ⊤ = 0#1 := by
    show BitVec.ofBool (decide (_ < _)) = 0#1
    rw [decide_eq_false hn]; rfl
  rw [h1] at hx'
  exact absurd hx' (by decide)

end Cert.Finite

end
-- ==== Proof.lean ====
/-
  A masked contrastive loss over 8192 embeddings of dimension 256 with integer labels: for row i, with similarities
  s(i,j) = 2·⟨E_i, E_j⟩ and row maximum M_i, the loss is the sum over the positive pairs (equal labels, j ≠ i) of
  −((s(i,j) − M_i) − log Σ_{j≠i} exp(s(i,j) − M_i)), divided by the number of positive pairs.

  The reference computes it from the whole 8192 × 8192 similarity matrix. The kernel never forms that matrix: it visits it in
  512 × 512 tiles, sixteen per row block, and carries per row a running maximum, a denominator relative to it (rescaled by
  exp(old maximum − new maximum) whenever the maximum grows), the sum of the positive similarities and their count; at a row
  block's last tile it writes the row values (0 − sp) + cp·M + cp·log l and cp, and the host divides the two column sums.
  Over the extended reals with real embeddings the two agree: exp(x − M')·exp(M' − M) = exp(x − M) makes the carried
  denominator the whole row's, sums over tiles are sums over the row, and the row values add up to the numerator because
  every quantity involved is a real number (the denominator is a positive real: each row has another column). The kernel's
  cast of the embeddings to a narrower float format is the identity there, its product by 2 is the reference's quotient by
  one half, and its count of positives as a sum of float ones is the reference's integer count, which stays below 2³¹.

  The three frames: the reference's is its run read back; the kernel's, at both instances, is the run of @main as three
  segments around the kernel region, whose two windows on the one array of cast embeddings each hold half of it.
-/
import proofs.«167906_j2405181686310_1_alg».proof.Defs
import proofs.«167906_j2405181686310_1_alg».proof.Proof.Gen.Kernel
import proofs.«167906_j2405181686310_1_alg».proof.Proof.Gen.KernelIdeal
import proofs.«167906_j2405181686310_1_alg».proof.Proof.Gen.ReferenceIdeal
import proofs.«167906_j2405181686310_1_alg».proof.Proof.Gen.Pre_finite_inputs
import proofs.«167906_j2405181686310_1_alg».proof.Proof.Gen.ReferenceIdeal.Run
import proofs.«167906_j2405181686310_1_alg».proof.Proof.Gen.ReferenceIdeal.Read
import proofs.«167906_j2405181686310_1_alg».proof.Proof.KRun
import proofs.«167906_j2405181686310_1_alg».proof.Proof.IRun
import proofs.«167906_j2405181686310_1_alg».proof.Proof.IState
import proofs.«167906_j2405181686310_1_alg».proof.Proof.RefFrame
import proofs.«167906_j2405181686310_1_alg».proof.Proof.RefValue
import proofs.«167906_j2405181686310_1_alg».proof.Proof.Finite

noncomputable section

namespace Cert.Proof

open Idealize.ShloMosaic Idealize.ShloMosaic.TcCoe Idealize.ShloMosaic.ValueIdx Idealize.SL.Sem

/-- The kernel as printed runs to the end with its arguments unchanged. -/
theorem frame_k : Cert.frame_Kernel := fun m ρ _ => Cert.Kernel.Launch.frame m ρ

/-- So does its idealization. -/
theorem frame_ki : Cert.frame_KernelIdeal := fun m ρ _ => Cert.KernelIdeal.Launch.frame m ρ

/-- Both idealized programs end at the loss of the specification at the launched embeddings and labels. -/
theorem algebraic : Cert.algebraic_KernelIdeal_ReferenceIdeal := by
  intro m ρ m' ρ' hpre hagree
  refine ⟨fun c => fun _ => Cert.Spec.loss
      (fun i k => (m ((c.tc : Thread Cert.KernelIdeal.nD Cert.KernelIdeal.τ).loc Cert.KernelIdeal.main_arg0) : Cert.KernelIdeal.S8192x256.Idx → Elt Ideal .f32) (ix2 i k))
      (Cert.KernelIdeal.Bridge.Lab m c), ?_, ?_⟩
  · exact (θ_run Cert.KernelIdeal.defs _ _).mono
      (fun r h c => ⟨(h c).1.trans (Cert.KernelIdeal.State.kernel_loss m c (Cert.Finite.real_of_pre _ _ (hpre c))), (h c).2.1, (h c).2.2⟩)
      (Cert.KernelIdeal.Launch.run_value m ρ)
  · refine (θ_run Cert.ReferenceIdeal.defs _ _).mono (fun r h c => ⟨?_, (h c).2⟩) (Cert.ReferenceIdeal.Value.run (F := Ideal) m' ρ')
    rw [(h c).1, Cert.ReferenceIdeal.Read.val_main_v33_eq, Cert.ReferenceIdeal.RefValue.ref_eq_spec_fun, (hagree c).1, (hagree c).2]
    rfl

theorem claim : Cert.Claim :=
  ⟨Cert.Kernel.Gen.facts, Cert.KernelIdeal.Gen.facts, Cert.ReferenceIdeal.Gen.facts, Cert.Pre_finite_inputs.Gen.facts,
    frame_k, frame_ki, Cert.ReferenceIdeal.RefFrame.frame_ri, trivial, algebraic⟩

end Cert.Proof

end
